-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S4096x512 : Shape := ⟨2, ![4096, 512]⟩
abbrev S4096 : Shape := ⟨1, ![4096]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S_ : Shape := ⟨0, ![]⟩

abbrev nBuf : Space → Nat
  | .hbm => 111
  | .vmem => 40
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096, .i1⟩
  | .hbm, ⟨11, _⟩ => ⟨S_, .f32⟩
  | .hbm, ⟨12, _⟩ => ⟨S4096, .f32⟩
  | .hbm, ⟨13, _⟩ => ⟨S4096, .i1⟩
  | .hbm, ⟨14, _⟩ => ⟨S4096, .i32⟩
  | .hbm, ⟨15, _⟩ => ⟨S_, .i32⟩
  | .hbm, ⟨16, _⟩ => ⟨S_, .i32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S4096, .i1⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .i1⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .i1⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S4096, .i32⟩
  | .hbm, ⟨63, _⟩ => ⟨S_, .i32⟩
  | .hbm, ⟨64, _⟩ => ⟨S_, .i32⟩
  | .hbm, ⟨65, _⟩ => ⟨S_, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S4096, .f32⟩
  | .hbm, ⟨70, _⟩ => ⟨S4096, .f32⟩
  | .hbm, ⟨71, _⟩ => ⟨S4096, .i1⟩
  | .hbm, ⟨72, _⟩ => ⟨S4096, .f32⟩
  | .hbm, ⟨73, _⟩ => ⟨S4096, .f32⟩
  | .hbm, ⟨74, _⟩ => ⟨S4096, .f32⟩
  | .hbm, ⟨75, _⟩ => ⟨S4096, .f32⟩
  | .hbm, ⟨76, _⟩ => ⟨S4096, .f32⟩
  | .hbm, ⟨77, _⟩ => ⟨S4096, .f32⟩
  | .hbm, ⟨78, _⟩ => ⟨S4096, .f32⟩
  | .hbm, ⟨79, _⟩ => ⟨S4096, .f32⟩
  | .hbm, ⟨80, _⟩ => ⟨S_, .f32⟩
  | .hbm, ⟨81, _⟩ => ⟨S4096, .f32⟩
  | .hbm, ⟨82, _⟩ => ⟨S4096, .f32⟩
  | .hbm, ⟨83, _⟩ => ⟨S_, .f32⟩
  | .hbm, ⟨84, _⟩ => ⟨S_, .f32⟩
  | .hbm, ⟨85, _⟩ => ⟨S4096, .f32⟩
  | .hbm, ⟨86, _⟩ => ⟨S4096, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .i1⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .i1⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512, .i32⟩
  | .local _ .vmem, ⟨5, _⟩ => ⟨S512, .i32⟩
  | .local _ .vmem, ⟨6, _⟩ => ⟨S512, .i32⟩
  | .local _ .vmem, ⟨7, _⟩ => ⟨S512, .i32⟩
  | .local _ .vmem, ⟨8, _⟩ => ⟨S512, .f32⟩
  | .local _ .vmem, ⟨9, _⟩ => ⟨S512, .f32⟩
  | .local _ .vmem, ⟨10, _⟩ => ⟨S512, .f32⟩
  | .local _ .vmem, ⟨11, _⟩ => ⟨S512, .f32⟩
  | .local _ .vmem, ⟨12, _⟩ => ⟨S512, .f32⟩
  | .local _ .vmem, ⟨13, _⟩ => ⟨S512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512, .i32⟩
  | .local _ .vmem, ⟨19, _⟩ => ⟨S512, .i32⟩
  | .local _ .vmem, ⟨20, _⟩ => ⟨S512, .i32⟩
  | .local _ .vmem, ⟨21, _⟩ => ⟨S512, .i32⟩
  | .local _ .vmem, ⟨22, _⟩ => ⟨S512, .f32⟩
  | .local _ .vmem, ⟨23, _⟩ => ⟨S512, .f32⟩
  | .local _ .vmem, ⟨24, _⟩ => ⟨S512, .f32⟩
  | .local _ .vmem, ⟨25, _⟩ => ⟨S512, .f32⟩
  | .local _ .vmem, ⟨26, _⟩ => ⟨S512, .f32⟩
  | .local _ .vmem, ⟨27, _⟩ => ⟨S512, .f32⟩
  | .local _ .vmem, ⟨28, _⟩ => ⟨S512, .f32⟩
  | .local _ .vmem, ⟨29, _⟩ => ⟨S512, .f32⟩
  | .local _ .vmem, ⟨30, _⟩ => ⟨S512, .f32⟩
  | .local _ .vmem, ⟨31, _⟩ => ⟨S512, .f32⟩
  | .local _ .vmem, ⟨32, _⟩ => ⟨S512, .f32⟩
  | .local _ .vmem, ⟨33, _⟩ => ⟨S512, .f32⟩
  | .local _ .vmem, ⟨34, _⟩ => ⟨S512, .f32⟩
  | .local _ .vmem, ⟨35, _⟩ => ⟨S512, .f32⟩
  | .local _ .vmem, ⟨36, _⟩ => ⟨S512, .f32⟩
  | .local _ .vmem, ⟨37, _⟩ => ⟨S512, .f32⟩
  | .local _ .vmem, ⟨38, _⟩ => ⟨S512, .f32⟩
  | .local _ .vmem, ⟨39, _⟩ => ⟨S512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v9 : Ref sig .tc := ⟨.hbm, 31, rfl⟩
abbrev main_cst_1 : Ref sig .tc := ⟨.hbm, 32, rfl⟩
abbrev main_v10 : Ref sig .tc := ⟨.hbm, 33, rfl⟩
abbrev main_v11 : Ref sig .tc := ⟨.hbm, 34, rfl⟩
abbrev main_cst_2 : Ref sig .tc := ⟨.hbm, 35, rfl⟩
abbrev main_call1_v0 : Ref sig .tc := ⟨.hbm, 36, rfl⟩
abbrev main_call1_v1 : Ref sig .tc := ⟨.hbm, 37, rfl⟩
abbrev main_v12 : Ref sig .tc := ⟨.hbm, 38, rfl⟩
abbrev main_cst_3 : Ref sig .tc := ⟨.hbm, 39, rfl⟩
abbrev main_v13 : Ref sig .tc := ⟨.hbm, 40, rfl⟩
abbrev main_cst_4 : Ref sig .tc := ⟨.hbm, 41, rfl⟩
abbrev main_v14 : Ref sig .tc := ⟨.hbm, 42, rfl⟩
abbrev main_v15 : Ref sig .tc := ⟨.hbm, 43, rfl⟩
abbrev main_cst_5 : Ref sig .tc := ⟨.hbm, 44, rfl⟩
abbrev main_v16 : Ref sig .tc := ⟨.hbm, 45, rfl⟩
abbrev main_cst_6 : Ref sig .tc := ⟨.hbm, 46, rfl⟩
abbrev main_call2_cst : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_v17 : Ref sig .tc := ⟨.hbm, 57, rfl⟩
abbrev main_cst_7 : Ref sig .tc := ⟨.hbm, 58, rfl⟩
abbrev main_v18 : Ref sig .tc := ⟨.hbm, 59, rfl⟩
abbrev main_call3_v0 : Ref sig .tc := ⟨.hbm, 60, rfl⟩
abbrev main_v19 : Ref sig .tc := ⟨.hbm, 61, rfl⟩
abbrev main_v20 : Ref sig .tc := ⟨.hbm, 62, rfl⟩
abbrev main_c_8 : Ref sig .tc := ⟨.hbm, 63, rfl⟩
abbrev main_v21 : Ref sig .tc := ⟨.hbm, 64, rfl⟩
abbrev main_v22 : Ref sig .tc := ⟨.hbm, 65, rfl⟩
abbrev main_call4_cst : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_call4_v3 : Ref sig .tc := ⟨.hbm, 70, rfl⟩
abbrev main_call4_v4 : Ref sig .tc := ⟨.hbm, 71, rfl⟩
abbrev main_call4_v5 : Ref sig .tc := ⟨.hbm, 72, rfl⟩
abbrev main_call4_v6 : Ref sig .tc := ⟨.hbm, 73, rfl⟩
abbrev main_call4_v7 : Ref sig .tc := ⟨.hbm, 74, rfl⟩
abbrev main_call4_v8 : Ref sig .tc := ⟨.hbm, 75, rfl⟩
abbrev main_call4_v9 : Ref sig .tc := ⟨.hbm, 76, rfl⟩
abbrev main_call4_v10 : Ref sig .tc := ⟨.hbm, 77, rfl⟩
abbrev main_call4_v11 : Ref sig .tc := ⟨.hbm, 78, rfl⟩
abbrev main_v23 : Ref sig .tc := ⟨.hbm, 79, rfl⟩
abbrev main_cst_9 : Ref sig .tc := ⟨.hbm, 80, rfl⟩
abbrev main_v24 : Ref sig .tc := ⟨.hbm, 81, rfl⟩
abbrev main_v25 : Ref sig .tc := ⟨.hbm, 82, rfl⟩
abbrev main_cst_10 : Ref sig .tc := ⟨.hbm, 83, rfl⟩
abbrev main_call5_v0 : Ref sig .tc := ⟨.hbm, 84, rfl⟩
abbrev main_call5_v1 : Ref sig .tc := ⟨.hbm, 85, rfl⟩
abbrev main_v26 : Ref sig .tc := ⟨.hbm, 86, rfl⟩
abbrev main_cst_11 : Ref sig .tc := ⟨.hbm, 87, rfl⟩
abbrev main_v27 : Ref sig .tc := ⟨.hbm, 88, rfl⟩
abbrev main_cst_12 : Ref sig .tc := ⟨.hbm, 89, rfl⟩
abbrev main_v28 : Ref sig .tc := ⟨.hbm, 90, rfl⟩
abbrev main_v29 : Ref sig .tc := ⟨.hbm, 91, rfl⟩
abbrev main_cst_13 : Ref sig .tc := ⟨.hbm, 92, rfl⟩
abbrev main_v30 : Ref sig .tc := ⟨.hbm, 93, rfl⟩
abbrev main_cst_14 : Ref sig .tc := ⟨.hbm, 94, rfl⟩
abbrev main_call6_cst : Ref sig .tc := ⟨.hbm, 95, rfl⟩
abbrev main_call6_v0 : Ref sig .tc := ⟨.hbm, 96, rfl⟩
abbrev main_call6_v1 : Ref sig .tc := ⟨.hbm, 97, rfl⟩
abbrev main_call6_v2 : Ref sig .tc := ⟨.hbm, 98, rfl⟩
abbrev main_call6_v3 : Ref sig .tc := ⟨.hbm, 99, rfl⟩
abbrev main_call6_v4 : Ref sig .tc := ⟨.hbm, 100, rfl⟩
abbrev main_call6_v5 : Ref sig .tc := ⟨.hbm, 101, rfl⟩
abbrev main_call6_v6 : Ref sig .tc := ⟨.hbm, 102, rfl⟩
abbrev main_call6_v7 : Ref sig .tc := ⟨.hbm, 103, rfl⟩
abbrev main_call6_v8 : Ref sig .tc := ⟨.hbm, 104, rfl⟩
abbrev main_v31 : Ref sig .tc := ⟨.hbm, 105, rfl⟩
abbrev main_cst_15 : Ref sig .tc := ⟨.hbm, 106, rfl⟩
abbrev main_v32 : Ref sig .tc := ⟨.hbm, 107, rfl⟩
abbrev main_call7_v0 : Ref sig .tc := ⟨.hbm, 108, rfl⟩
abbrev main_v33 : Ref sig .tc := ⟨.hbm, 109, rfl⟩
abbrev main_v34 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_scratch0 : Ref sig .tc := ⟨.vmem, 34, rfl⟩
abbrev cc1_scratch1 : Ref sig .tc := ⟨.vmem, 35, rfl⟩
abbrev cc1_scratch2 : Ref sig .tc := ⟨.vmem, 36, rfl⟩
abbrev cc1_scratch3 : Ref sig .tc := ⟨.vmem, 37, rfl⟩
abbrev cc1_scratch4 : Ref sig .tc := ⟨.vmem, 38, rfl⟩
abbrev cc1_scratch5 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v42 : BitVec 1 := Scalar.cmpi .eq arg1 c7_i32
  let v43 : BitVec 32 := Scalar.extui v42
  let c0_i32_17 : BitVec 32 := 0#32
  let v44 : BitVec 1 := Scalar.cmpi .ne v43 c0_i32_17
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 8], ![false, false]⟩

def k1_cond3 (i : grid1.Coords) : BitVec 1 :=
  let arg1 : BitVec 32 := BitVec.ofNat 32 (i 1).val
  let c7_i32 : BitVec 32 := 7#32
  let v50 : BitVec 1 := Scalar.cmpi .eq arg1 c7_i32
  let v51 : BitVec 32 := Scalar.extui v50
  let c0_i32_23 : BitVec 32 := 0#32
  let v52 : BitVec 1 := Scalar.cmpi .ne v51 c0_i32_23
  v52

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_7 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_8 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_9 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

class Facts₀ : Prop where
  inb_S512_S512_0 : ∀ a, (![0] : Fin 1 → Nat) a + S512.size a ≤ S512.size a
  h_S512 : 0 < S512.numel
  shapeCasts_S512_S512 : S512.ShapeCasts S512
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  iota_S512x512_d1_w32 : S512x512.Iotas .tc 32 [1]
  iota_S512x512_d0_w32 : S512x512.Iotas .tc 32 [0]
  reduces_S512x512_S512 : S512x512.Reduces [0] S512
  natLt_1_32 : 1 < 32
  bcast_S_S4096 : S_.BroadcastsInDim S4096 (![] : Fin 0 → Fin S4096.rank)
  reducesTo_S4096_S_d0 : S4096.ReducesTo [0] S_
  h_S_ : 0 < S_.numel
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S4096.size a
  hwx0_2 : ∀ i : grid0.Coords, EltTy.bits .i32 = 32 ∨ (Rect.block (s := S4096) S512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S4096.size a
  hwx0_3 : ∀ i : grid0.Coords, EltTy.bits .i32 = 32 ∨ (Rect.block (s := S4096) S512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S4096.size a
  hwx0_4 : ∀ i : grid0.Coords, EltTy.bits .f32 = 32 ∨ (Rect.block (s := S4096) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S4096.size a
  hwx0_5 : ∀ i : grid0.Coords, EltTy.bits .f32 = 32 ∨ (Rect.block (s := S4096) S512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x512.size a
  hwx1_0 : ∀ i : grid1.Coords, EltTy.bits .f32 = 32 ∨ (Rect.block (s := S4096x512) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S4096x512.size a
  hwx1_1 : ∀ i : grid1.Coords, EltTy.bits .f32 = 32 ∨ (Rect.block (s := S4096x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S4096.size a
  hwx1_2 : ∀ i : grid1.Coords, EltTy.bits .i32 = 32 ∨ (Rect.block (s := S4096) S512.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S4096.size a
  hwx1_3 : ∀ i : grid1.Coords, EltTy.bits .i32 = 32 ∨ (Rect.block (s := S4096) S512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S4096.size a
  hwx1_4 : ∀ i : grid1.Coords, EltTy.bits .f32 = 32 ∨ (Rect.block (s := S4096) S512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512.size a ≤ S4096.size a
  hwx1_5 : ∀ i : grid1.Coords, EltTy.bits .f32 = 32 ∨ (Rect.block (s := S4096) S512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512.size a ≤ S4096.size a
  hwx1_6 : ∀ i : grid1.Coords, EltTy.bits .f32 = 32 ∨ (Rect.block (s := S4096) S512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512.size a ≤ S4096.size a
  hwx1_7 : ∀ i : grid1.Coords, EltTy.bits .f32 = 32 ∨ (Rect.block (s := S4096) S512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512.size a ≤ S4096.size a
  hwx1_8 : ∀ i : grid1.Coords, EltTy.bits .f32 = 32 ∨ (Rect.block (s := S4096) S512.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S512.size a ≤ S4096.size a
  hwx1_9 : ∀ i : grid1.Coords, EltTy.bits .f32 = 32 ∨ (Rect.block (s := S4096) S512.size (cc1_transform_9 i) (hinb1_9 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_0) S512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v0_1) S512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1_0) S512.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v1_1) S512.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v1_2) S512.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v1_3) S512.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun i => !(k1_cond3 i == 1#1) | 7 => fun i => !(k1_cond3 i == 1#1) | 8 => fun i => !(k1_cond3 i == 1#1) | 9 => fun i => !(k1_cond3 i == 1#1) | ⟨_ + 10, h⟩ => absurd h (Nat.not_lt.2 (Nat.le_add_left _ _))

class Facts : Prop extends Facts₀ where

variable [Facts]
-- ==== ReferenceIdeal.lean ====
abbrev S4096x512 : Shape := ⟨2, ![4096, 512]⟩
abbrev S4096 : Shape := ⟨1, ![4096]⟩
abbrev S512x4096 : Shape := ⟨2, ![512, 4096]⟩
abbrev S4096x4096 : Shape := ⟨2, ![4096, 4096]⟩
abbrev S4096x1 : Shape := ⟨2, ![4096, 1]⟩
abbrev S1x4096 : Shape := ⟨2, ![1, 4096]⟩
abbrev S_ : Shape := ⟨0, ![]⟩

abbrev nBuf : Space → Nat
  | .hbm => 205
  | .vmem => 0
  | .smem => 0
  | _ => 0

abbrev hbmTy0_0 (i : Nat) : BufTy := match i % 128 with
  | 0 => ⟨S4096x512, .f32⟩
  | 1 => ⟨S4096, .i32⟩
  | 2 => ⟨S512x4096, .f32⟩
  | 3 => ⟨S4096x4096, .f32⟩
  | 4 => ⟨S4096x1, .i32⟩
  | 5 => ⟨S1x4096, .i32⟩
  | 6 => ⟨S4096x4096, .i32⟩
  | 7 => ⟨S4096x4096, .i32⟩
  | 8 => ⟨S4096x4096, .i1⟩
  | 9 => ⟨S4096x4096, .i1⟩
  | 10 => ⟨S4096x4096, .i32⟩
  | 11 => ⟨S4096x4096, .i32⟩
  | 12 => ⟨S_, .i32⟩
  | 13 => ⟨S4096x4096, .i32⟩
  | 14 => ⟨S4096x4096, .i32⟩
  | 15 => ⟨S4096x4096, .i1⟩
  | 16 => ⟨S4096x4096, .i1⟩
  | 17 => ⟨S4096x4096, .i1⟩
  | 18 => ⟨S_, .f32⟩
  | 19 => ⟨S_, .f32⟩
  | 20 => ⟨S4096x4096, .f32⟩
  | 21 => ⟨S4096x4096, .f32⟩
  | 22 => ⟨S_, .f32⟩
  | 23 => ⟨S4096, .f32⟩
  | 24 => ⟨S_, .f32⟩
  | 25 => ⟨S_, .f32⟩
  | 26 => ⟨S4096x4096, .f32⟩
  | 27 => ⟨S4096x4096, .f32⟩
  | 28 => ⟨S_, .f32⟩
  | 29 => ⟨S4096, .f32⟩
  | 30 => ⟨S_, .f32⟩
  | 31 => ⟨S4096x4096, .f32⟩
  | 32 => ⟨S4096x4096, .f32⟩
  | 33 => ⟨S1x4096, .f32⟩
  | 34 => ⟨S4096x4096, .f32⟩
  | 35 => ⟨S4096x4096, .i1⟩
  | 36 => ⟨S4096x4096, .i1⟩
  | 37 => ⟨S_, .f32⟩
  | 38 => ⟨S4096x4096, .f32⟩
  | 39 => ⟨S4096x4096, .f32⟩
  | 40 => ⟨S1x4096, .f32⟩
  | 41 => ⟨S4096x4096, .f32⟩
  | 42 => ⟨S4096x4096, .i1⟩
  | 43 => ⟨S4096x4096, .i1⟩
  | 44 => ⟨S_, .f32⟩
  | 45 => ⟨S4096x4096, .f32⟩
  | 46 => ⟨S4096x4096, .f32⟩
  | 47 => ⟨S_, .f32⟩
  | 48 => ⟨S4096x4096, .f32⟩
  | 49 => ⟨S4096x4096, .f32⟩
  | 50 => ⟨S_, .f32⟩
  | 51 => ⟨S4096x4096, .f32⟩
  | 52 => ⟨S4096x4096, .f32⟩
  | 53 => ⟨S_, .f32⟩
  | 54 => ⟨S4096x4096, .f32⟩
  | 55 => ⟨S4096x4096, .f32⟩
  | 56 => ⟨S4096x4096, .f32⟩
  | 57 => ⟨S4096x4096, .f32⟩
  | 58 => ⟨S_, .f32⟩
  | 59 => ⟨S4096, .f32⟩
  | 60 => ⟨S_, .f32⟩
  | 61 => ⟨S4096, .f32⟩
  | 62 => ⟨S_, .f32⟩
  | 63 => ⟨S4096, .f32⟩
  | 64 => ⟨S4096, .f32⟩
  | 65 => ⟨S_, .f32⟩
  | 66 => ⟨S4096, .f32⟩
  | 67 => ⟨S4096, .i1⟩
  | 68 => ⟨S1x4096, .f32⟩
  | 69 => ⟨S4096x4096, .f32⟩
  | 70 => ⟨S4096x4096, .f32⟩
  | 71 => ⟨S4096x4096, .f32⟩
  | 72 => ⟨S4096x4096, .f32⟩
  | 73 => ⟨S4096x4096, .f32⟩
  | 74 => ⟨S_, .f32⟩
  | 75 => ⟨S4096, .f32⟩
  | 76 => ⟨S_, .f32⟩
  | 77 => ⟨S_, .f32⟩
  | 78 => ⟨S4096, .f32⟩
  | 79 => ⟨S4096, .f32⟩
  | 80 => ⟨S4096, .f32⟩
  | 81 => ⟨S4096, .f32⟩
  | 82 => ⟨S4096x4096, .f32⟩
  | 83 => ⟨S4096x4096, .f32⟩
  | 84 => ⟨S_, .f32⟩
  | 85 => ⟨S4096, .f32⟩
  | 86 => ⟨S_, .f32⟩
  | 87 => ⟨S4096, .f32⟩
  | 88 => ⟨S_, .f32⟩
  | 89 => ⟨S4096, .f32⟩
  | 90 => ⟨S4096, .f32⟩
  | 91 => ⟨S_, .f32⟩
  | 92 => ⟨S4096, .f32⟩
  | 93 => ⟨S4096, .i1⟩
  | 94 => ⟨S1x4096, .f32⟩
  | 95 => ⟨S4096x4096, .f32⟩
  | 96 => ⟨S4096x4096, .f32⟩
  | 97 => ⟨S4096x4096, .f32⟩
  | 98 => ⟨S4096x4096, .f32⟩
  | 99 => ⟨S4096x4096, .f32⟩
  | 100 => ⟨S_, .f32⟩
  | 101 => ⟨S4096, .f32⟩
  | 102 => ⟨S_, .f32⟩
  | 103 => ⟨S_, .f32⟩
  | 104 => ⟨S4096, .f32⟩
  | 105 => ⟨S4096, .f32⟩
  | 106 => ⟨S4096, .f32⟩
  | 107 => ⟨S4096, .f32⟩
  | 108 => ⟨S4096, .i32⟩
  | 109 => ⟨S_, .i32⟩
  | 110 => ⟨S_, .i32⟩
  | 111 => ⟨S_, .f32⟩
  | 112 => ⟨S_, .f32⟩
  | 113 => ⟨S4096, .f32⟩
  | 114 => ⟨S4096, .f32⟩
  | 115 => ⟨S4096, .f32⟩
  | 116 => ⟨S4096, .f32⟩
  | 117 => ⟨S4096, .i1⟩
  | 118 => ⟨S4096, .f32⟩
  | 119 => ⟨S4096, .f32⟩
  | 120 => ⟨S4096, .f32⟩
  | 121 => ⟨S4096, .f32⟩
  | 122 => ⟨S4096, .f32⟩
  | 123 => ⟨S4096, .f32⟩
  | 124 => ⟨S4096, .f32⟩
  | 125 => ⟨S4096, .f32⟩
  | 126 => ⟨S_, .f32⟩
  | 127 => ⟨S4096, .f32⟩
  | _ => ⟨S4096x512, .f32⟩

abbrev hbmTy0_1 (i : Nat) : BufTy := match i % 128 with
  | 0 => ⟨S4096, .f32⟩
  | 1 => ⟨S_, .f32⟩
  | 2 => ⟨S_, .f32⟩
  | 3 => ⟨S4096, .f32⟩
  | 4 => ⟨S4096, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .i1⟩
  | 12 => ⟨S_, .f32⟩
  | 13 => ⟨S_, .f32⟩
  | 14 => ⟨S_, .f32⟩
  | 15 => ⟨S_, .f32⟩
  | 16 => ⟨S_, .i1⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S4096, .i32⟩
  | 29 => ⟨S_, .i32⟩
  | 30 => ⟨S_, .i32⟩
  | 31 => ⟨S_, .f32⟩
  | 32 => ⟨S_, .f32⟩
  | 33 => ⟨S4096, .f32⟩
  | 34 => ⟨S4096, .f32⟩
  | 35 => ⟨S4096, .f32⟩
  | 36 => ⟨S4096, .f32⟩
  | 37 => ⟨S4096, .i1⟩
  | 38 => ⟨S4096, .f32⟩
  | 39 => ⟨S4096, .f32⟩
  | 40 => ⟨S4096, .f32⟩
  | 41 => ⟨S4096, .f32⟩
  | 42 => ⟨S4096, .f32⟩
  | 43 => ⟨S4096, .f32⟩
  | 44 => ⟨S4096, .f32⟩
  | 45 => ⟨S4096, .f32⟩
  | 46 => ⟨S_, .f32⟩
  | 47 => ⟨S4096, .f32⟩
  | 48 => ⟨S4096, .f32⟩
  | 49 => ⟨S_, .f32⟩
  | 50 => ⟨S_, .f32⟩
  | 51 => ⟨S4096, .f32⟩
  | 52 => ⟨S4096, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .i1⟩
  | 60 => ⟨S_, .f32⟩
  | 61 => ⟨S_, .f32⟩
  | 62 => ⟨S_, .f32⟩
  | 63 => ⟨S_, .f32⟩
  | 64 => ⟨S_, .i1⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_cst_11 : Ref sig .tc := ⟨.hbm, 62, rfl⟩
abbrev main_v43 : Ref sig .tc := ⟨.hbm, 63, rfl⟩
abbrev main_v44 : Ref sig .tc := ⟨.hbm, 64, rfl⟩
abbrev main_cst_12 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_13 : Ref sig .tc := ⟨.hbm, 74, rfl⟩
abbrev main_v53 : Ref sig .tc := ⟨.hbm, 75, rfl⟩
abbrev main_cst_14 : Ref sig .tc := ⟨.hbm, 76, rfl⟩
abbrev main_call2_v0 : Ref sig .tc := ⟨.hbm, 77, rfl⟩
abbrev main_call2_v1 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_15 : Ref sig .tc := ⟨.hbm, 84, rfl⟩
abbrev main_v59 : Ref sig .tc := ⟨.hbm, 85, rfl⟩
abbrev main_cst_16 : Ref sig .tc := ⟨.hbm, 86, rfl⟩
abbrev main_v60 : Ref sig .tc := ⟨.hbm, 87, rfl⟩
abbrev main_cst_17 : Ref sig .tc := ⟨.hbm, 88, rfl⟩
abbrev main_v61 : Ref sig .tc := ⟨.hbm, 89, rfl⟩
abbrev main_v62 : Ref sig .tc := ⟨.hbm, 90, rfl⟩
abbrev main_cst_18 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_19 : Ref sig .tc := ⟨.hbm, 100, rfl⟩
abbrev main_v71 : Ref sig .tc := ⟨.hbm, 101, rfl⟩
abbrev main_cst_20 : Ref sig .tc := ⟨.hbm, 102, rfl⟩
abbrev main_call3_v0 : Ref sig .tc := ⟨.hbm, 103, rfl⟩
abbrev main_call3_v1 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_21 : Ref sig .tc := ⟨.hbm, 109, rfl⟩
abbrev main_v76 : Ref sig .tc := ⟨.hbm, 110, rfl⟩
abbrev main_v77 : Ref sig .tc := ⟨.hbm, 111, rfl⟩
abbrev main_call4_cst : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_call4_v5 : Ref sig .tc := ⟨.hbm, 118, rfl⟩
abbrev main_call4_v6 : Ref sig .tc := ⟨.hbm, 119, rfl⟩
abbrev main_call4_v7 : Ref sig .tc := ⟨.hbm, 120, rfl⟩
abbrev main_call4_v8 : Ref sig .tc := ⟨.hbm, 121, rfl⟩
abbrev main_call4_v9 : Ref sig .tc := ⟨.hbm, 122, rfl⟩
abbrev main_call4_v10 : Ref sig .tc := ⟨.hbm, 123, rfl⟩
abbrev main_call4_v11 : Ref sig .tc := ⟨.hbm, 124, rfl⟩
abbrev main_v78 : Ref sig .tc := ⟨.hbm, 125, rfl⟩
abbrev main_cst_22 : Ref sig .tc := ⟨.hbm, 126, rfl⟩
abbrev main_v79 : Ref sig .tc := ⟨.hbm, 127, rfl⟩
abbrev main_v80 : Ref sig .tc := ⟨.hbm, 128, rfl⟩
abbrev main_cst_23 : Ref sig .tc := ⟨.hbm, 129, rfl⟩
abbrev main_call5_v0 : Ref sig .tc := ⟨.hbm, 130, rfl⟩
abbrev main_call5_v1 : Ref sig .tc := ⟨.hbm, 131, rfl⟩
abbrev main_v81 : Ref sig .tc := ⟨.hbm, 132, rfl⟩
abbrev main_cst_24 : Ref sig .tc := ⟨.hbm, 133, rfl⟩
abbrev main_v82 : Ref sig .tc := ⟨.hbm, 134, rfl⟩
abbrev main_cst_25 : Ref sig .tc := ⟨.hbm, 135, rfl⟩
abbrev main_v83 : Ref sig .tc := ⟨.hbm, 136, rfl⟩
abbrev main_v84 : Ref sig .tc := ⟨.hbm, 137, rfl⟩
abbrev main_cst_26 : Ref sig .tc := ⟨.hbm, 138, rfl⟩
abbrev main_v85 : Ref sig .tc := ⟨.hbm, 139, rfl⟩
abbrev main_cst_27 : Ref sig .tc := ⟨.hbm, 140, rfl⟩
abbrev main_call6_cst : Ref sig .tc := ⟨.hbm, 141, rfl⟩
abbrev main_call6_v0 : Ref sig .tc := ⟨.hbm, 142, rfl⟩
abbrev main_call6_v1 : Ref sig .tc := ⟨.hbm, 143, rfl⟩
abbrev main_call6_v2 : Ref sig .tc := ⟨.hbm, 144, rfl⟩
abbrev main_call6_v3 : Ref sig .tc := ⟨.hbm, 145, rfl⟩
abbrev main_call6_v4 : Ref sig .tc := ⟨.hbm, 146, rfl⟩
abbrev main_call6_v5 : Ref sig .tc := ⟨.hbm, 147, rfl⟩
abbrev main_call6_v6 : Ref sig .tc := ⟨.hbm, 148, rfl⟩
abbrev main_call6_v7 : Ref sig .tc := ⟨.hbm, 149, rfl⟩
abbrev main_call6_v8 : Ref sig .tc := ⟨.hbm, 150, rfl⟩
abbrev main_v86 : Ref sig .tc := ⟨.hbm, 151, rfl⟩
abbrev main_cst_28 : Ref sig .tc := ⟨.hbm, 152, rfl⟩
abbrev main_v87 : Ref sig .tc := ⟨.hbm, 153, rfl⟩
abbrev main_call7_v0 : Ref sig .tc := ⟨.hbm, 154, rfl⟩
abbrev main_v88 : Ref sig .tc := ⟨.hbm, 155, rfl⟩
abbrev main_v89 : Ref sig .tc := ⟨.hbm, 156, rfl⟩
abbrev main_c_29 : Ref sig .tc := ⟨.hbm, 157, rfl⟩
abbrev main_v90 : Ref sig .tc := ⟨.hbm, 158, rfl⟩
abbrev main_v91 : Ref sig .tc := ⟨.hbm, 159, rfl⟩
abbrev main_call8_cst : Ref sig .tc := ⟨.hbm, 160, rfl⟩
abbrev main_call8_v0 : Ref sig .tc := ⟨.hbm, 161, rfl⟩
abbrev main_call8_v1 : Ref sig .tc := ⟨.hbm, 162, rfl⟩
abbrev main_call8_v2 : Ref sig .tc := ⟨.hbm, 163, rfl⟩
abbrev main_call8_v3 : Ref sig .tc := ⟨.hbm, 164, rfl⟩
abbrev main_call8_v4 : Ref sig .tc := ⟨.hbm, 165, rfl⟩
abbrev main_call8_v5 : Ref sig .tc := ⟨.hbm, 166, rfl⟩
abbrev main_call8_v6 : Ref sig .tc := ⟨.hbm, 167, rfl⟩
abbrev main_call8_v7 : Ref sig .tc := ⟨.hbm, 168, rfl⟩
abbrev main_call8_v8 : Ref sig .tc := ⟨.hbm, 169, rfl⟩
abbrev main_call8_v9 : Ref sig .tc := ⟨.hbm, 170, rfl⟩
abbrev main_call8_v10 : Ref sig .tc := ⟨.hbm, 171, rfl⟩
abbrev main_call8_v11 : Ref sig .tc := ⟨.hbm, 172, rfl⟩
abbrev main_v92 : Ref sig .tc := ⟨.hbm, 173, rfl⟩
abbrev main_cst_30 : Ref sig .tc := ⟨.hbm, 174, rfl⟩
abbrev main_v93 : Ref sig .tc := ⟨.hbm, 175, rfl⟩
abbrev main_v94 : Ref sig .tc := ⟨.hbm, 176, rfl⟩
abbrev main_cst_31 : Ref sig .tc := ⟨.hbm, 177, rfl⟩
abbrev main_call9_v0 : Ref sig .tc := ⟨.hbm, 178, rfl⟩
abbrev main_call9_v1 : Ref sig .tc := ⟨.hbm, 179, rfl⟩
abbrev main_v95 : Ref sig .tc := ⟨.hbm, 180, rfl⟩
abbrev main_cst_32 : Ref sig .tc := ⟨.hbm, 181, rfl⟩
abbrev main_v96 : Ref sig .tc := ⟨.hbm, 182, rfl⟩
abbrev main_cst_33 : Ref sig .tc := ⟨.hbm, 183, rfl⟩
abbrev main_v97 : Ref sig .tc := ⟨.hbm, 184, rfl⟩
abbrev main_v98 : Ref sig .tc := ⟨.hbm, 185, rfl⟩
abbrev main_cst_34 : Ref sig .tc := ⟨.hbm, 186, rfl⟩
abbrev main_v99 : Ref sig .tc := ⟨.hbm, 187, rfl⟩
abbrev main_cst_35 : Ref sig .tc := ⟨.hbm, 188, rfl⟩
abbrev main_call10_cst : Ref sig .tc := ⟨.hbm, 189, rfl⟩
abbrev main_call10_v0 : Ref sig .tc := ⟨.hbm, 190, rfl⟩
abbrev main_call10_v1 : Ref sig .tc := ⟨.hbm, 191, rfl⟩
abbrev main_call10_v2 : Ref sig .tc := ⟨.hbm, 192, rfl⟩
abbrev main_call10_v3 : Ref sig .tc := ⟨.hbm, 193, rfl⟩
abbrev main_call10_v4 : Ref sig .tc := ⟨.hbm, 194, rfl⟩
abbrev main_call10_v5 : Ref sig .tc := ⟨.hbm, 195, rfl⟩
abbrev main_call10_v6 : Ref sig .tc := ⟨.hbm, 196, rfl⟩
abbrev main_call10_v7 : Ref sig .tc := ⟨.hbm, 197, rfl⟩
abbrev main_call10_v8 : Ref sig .tc := ⟨.hbm, 198, rfl⟩
abbrev main_v100 : Ref sig .tc := ⟨.hbm, 199, rfl⟩
abbrev main_cst_36 : Ref sig .tc := ⟨.hbm, 200, rfl⟩
abbrev main_v101 : Ref sig .tc := ⟨.hbm, 201, rfl⟩
abbrev main_call11_v0 : Ref sig .tc := ⟨.hbm, 202, rfl⟩
abbrev main_v102 : Ref sig .tc := ⟨.hbm, 203, rfl⟩
abbrev main_v103 : Ref sig .tc := ⟨.hbm, 204, rfl⟩

abbrev nD : Nat := 1
abbrev τ : Topo := Topo.v7x

variable {F : FTy → Type} [FloatOps F]

class Facts₀ : Prop where
  transposes_S4096x512_S512x4096_1_0 : S4096x512.Transposes [1, 0] S512x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  reducesTo_S4096x4096_S4096_d0 : S4096x4096.ReducesTo [0] S4096
  bcast_S_S4096 : S_.BroadcastsInDim S4096 (![] : Fin 0 → Fin S4096.rank)
  natLt_1_32 : 1 < 32
  reducesTo_S4096_S_d0 : S4096.ReducesTo [0] S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.Shares.lean ====
/- How the arrays the two kernels read are shared among their windows.

   Both kernels are handed the embeddings through two windows (a block of rows for the tile's first axis and a
   block of rows for its second) and the labels through two windows likewise. One buffer lies behind each pair,
   so the pair reads it at the two halves of the full share; every other window has its array to itself. -/
import proofs.«123878_j24489903522258_2_alg».proof.Proof.Gen.KernelIdeal.Launch

namespace Cert.KernelIdeal.Hand

open Idealize.ShloMosaic Idealize.SL.RA

/-- The bounds kernel: windows 0, 1 read the embeddings, 2, 3 the labels; 4, 5 are the two bounds it writes. -/
def q0 : Fin 6 → PosShare TreeShare
  | ⟨0, _⟩ => fullShare.left
  | ⟨1, _⟩ => fullShare.right
  | ⟨2, _⟩ => fullShare.left
  | ⟨3, _⟩ => fullShare.right
  | _ => fullShare

/-- The log-sum-exp kernel: windows 0, 1 read the embeddings, 2, 3 the labels, 4, 5 the two bounds; 6 to 9 are
    the four vectors it writes. -/
def q1 : Fin 10 → PosShare TreeShare
  | ⟨0, _⟩ => fullShare.left
  | ⟨1, _⟩ => fullShare.right
  | ⟨2, _⟩ => fullShare.left
  | ⟨3, _⟩ => fullShare.right
  | _ => fullShare

end Cert.KernelIdeal.Hand
-- ==== Proof.Bounds.Setup.lean ====
import proofs.«123878_j24489903522258_2_alg».proof.Proof.Gen.KernelIdeal.Launch
import proofs.«123878_j24489903522258_2_alg».proof.Proof.Gen.KernelIdeal.Skeleton
import proofs.«123878_j24489903522258_2_alg».proof.Proof.Gen.KernelIdeal.Points
import proofs.«123878_j24489903522258_2_alg».proof.Proof.Shares
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Bounds

open Cert.KernelIdeal Cert.KernelIdeal.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The bounds kernel: what its proofs share

The grid is 8 × 8; point `t` has coordinates `(i, j) = (t / 8, t % 8)`. Along a row of the grid (fixed `i`, `j` from 0 to 7)
the kernel keeps a running column minimum and a running column maximum in two scratch vectors: they are reset when `j = 0`,
folded with the tile's column minimum / maximum at every point, and copied to the two output blocks when `j = 7`. -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The two conditions on the grid point -/

/-- `j = 0`: the point opens a row of the grid (the kernel's first conditional, as its scalar chain computes it). -/
abbrev rowStart (i : grid0.Coords) : Prop :=
  (Scalar.cmpi .ne (Scalar.extui (Scalar.cmpi .eq (BitVec.ofNat 32 (i 1).val) 0#32)) 0#32) = 1#1

/-- `j = 7`: the point closes a row of the grid (the kernel's second conditional). -/
abbrev rowEnd (i : grid0.Coords) : Prop := k0_cond2 i = 1#1

theorem rowStart_iff : ∀ t : Fin cfg0.N, rowStart (grid0.coords t) ↔ t.val % 8 = 0 :=
  (by decide +kernel : ∀ t : Fin grid0.N, rowStart (grid0.coords t) ↔ t.val % 8 = 0)

theorem rowEnd_iff : ∀ t : Fin cfg0.N, rowEnd (grid0.coords t) ↔ t.val % 8 = 7 :=
  (by decide +kernel : ∀ t : Fin grid0.N, rowEnd (grid0.coords t) ↔ t.val % 8 = 7)

/-! ## Where the output windows are idle -/

theorem idle4_of_not_rowEnd : ∀ t : Fin cfg0.N, ¬rowEnd (grid0.coords t) → cfg0.idle 4 (grid0.coords t) = true := by decide +kernel
theorem idle5_of_not_rowEnd : ∀ t : Fin cfg0.N, ¬rowEnd (grid0.coords t) → cfg0.idle 5 (grid0.coords t) = true := by decide +kernel
theorem noFlush4_of_not_rowEnd : ∀ t : Fin cfg0.N, ¬rowEnd (grid0.coords t) → (cfg0.win 4).flush t = false := by decide +kernel
theorem noFlush5_of_not_rowEnd : ∀ t : Fin cfg0.N, ¬rowEnd (grid0.coords t) → (cfg0.win 5).flush t = false := by decide +kernel
theorem live4_of_rowEnd : ∀ t : Fin cfg0.N, rowEnd (grid0.coords t) → cfg0.idle 4 (grid0.coords t) = false := by decide +kernel
theorem live5_of_rowEnd : ∀ t : Fin cfg0.N, rowEnd (grid0.coords t) → cfg0.idle 5 (grid0.coords t) = false := by decide +kernel

/-! ## The memrefs the body is called with -/

abbrev ms0 (t : Fin cfg0.N) : Memref sig .tc .vmem S512x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512 .f32 := win0_5.stage (cfg0.slots t 5)
abbrev hs5 (t : Fin cfg0.N) : (ms5 t).IsWhole := hstage0_5 ((cfg0.slots t 5).cast nbuf0_5)

/-- The running-minimum scratch vector and the running-maximum one: whole buffers of the kernel's own. -/
abbrev scMin : Memref sig .tc .vmem S512 .f32 := Memref.whole cc0_scratch0
abbrev scMax : Memref sig .tc .vmem S512 .f32 := Memref.whole cc0_scratch1

/-- What the region's invariant holds beside the windows, with the two scratch vectors named: each at some contents,
    the other scoped buffers unopened, the generator register at some state. -/
theorem PhiA_eq (c : Dev nD) :
    (Pipeline.ΦA spec0 c : sProp 𝕄)
      = iprop(iprop(iprop((∃ d, owns (c : Thread nD τ) scMin fullShare d) ∗ (∃ d, owns (c : Thread nD τ) scMax fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scMin, scMax, owns_whole]; try rfl

/-! ## Each input window holds its block at every point -/

section Before
variable {c : Dev nD} (dat : Dat τ (Elt F) Unit ℕ (UR sig nD τ) ℕ cfg0 c)

/-! An input window of a body that only reads it holds its block at every point, whether the pipeline fetched it there or
    not: unfetched, the block index has not moved, so the previous point's block is this point's. -/

theorem before_in0 (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2 (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3 (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Before

end Cert.KernelIdeal.Bounds

end
-- ==== Proof.Bounds.Data.lean ====
import proofs.«123878_j24489903522258_2_alg».proof.Proof.Bounds.Setup

set_option maxRecDepth 16384

noncomputable section

namespace Cert.KernelIdeal.Bounds

open Cert.KernelIdeal Cert.KernelIdeal.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The bounds kernel: the running bounds point by point, and the pipeline's proof data -/

variable (V : (c : Dev nD) → (b : Ref sig .tc) → Buf (Elt F) ((c : Thread nD τ).loc b))

/-! ## The running minimum and maximum after each point -/

/-- THE ACCUMULATION. What the two scratch vectors hold after the body at position `n`: the running column minimum (first
    component) and the running column maximum (second component) of the current row of the grid. At a point that opens a
    row (`n % 8 = 0`) the tile's column bounds are folded into `+∞` / `-∞`; at any other point into what the point before
    left. At a point that closes a row (`n % 8 = 7`) the two components are also what the two output blocks receive. -/
def acc (c : Dev nD) : (n : ℕ) → n < cfg0.N → Vec F S512 .f32 × Vec F S512 .f32
  | 0, hn => (k0_pay7 (grid0.coords ⟨0, hn⟩) (iblk V c 0 ⟨0, hn⟩) (iblk V c 1 ⟨0, hn⟩) (iblk V c 2 ⟨0, hn⟩) (iblk V c 3 ⟨0, hn⟩) k0_pay2, k0_pay1 (k0_pay6 (iblk V c 0 ⟨0, hn⟩) (iblk V c 1 ⟨0, hn⟩) (iblk V c 2 ⟨0, hn⟩) (iblk V c 3 ⟨0, hn⟩)) k0_pay3)
  | n + 1, hn =>
    if (n + 1) % 8 = 0 then
      (k0_pay7 (grid0.coords ⟨n + 1, hn⟩) (iblk V c 0 ⟨n + 1, hn⟩) (iblk V c 1 ⟨n + 1, hn⟩) (iblk V c 2 ⟨n + 1, hn⟩) (iblk V c 3 ⟨n + 1, hn⟩) k0_pay2, k0_pay1 (k0_pay6 (iblk V c 0 ⟨n + 1, hn⟩) (iblk V c 1 ⟨n + 1, hn⟩) (iblk V c 2 ⟨n + 1, hn⟩) (iblk V c 3 ⟨n + 1, hn⟩)) k0_pay3)
    else
      (k0_pay7 (grid0.coords ⟨n + 1, hn⟩) (iblk V c 0 ⟨n + 1, hn⟩) (iblk V c 1 ⟨n + 1, hn⟩) (iblk V c 2 ⟨n + 1, hn⟩) (iblk V c 3 ⟨n + 1, hn⟩) (acc c n (Nat.lt_of_succ_lt hn)).1, k0_pay1 (k0_pay6 (iblk V c 0 ⟨n + 1, hn⟩) (iblk V c 1 ⟨n + 1, hn⟩) (iblk V c 2 ⟨n + 1, hn⟩) (iblk V c 3 ⟨n + 1, hn⟩)) (acc c n (Nat.lt_of_succ_lt hn)).2)

/-- At a point that opens a row of the grid the running bounds start afresh from `+∞` / `-∞`. -/
theorem acc_rowStart (c : Dev nD) (t : Fin cfg0.N) (h : t.val % 8 = 0) :
    acc V c t.val t.isLt = (k0_pay7 (grid0.coords t) (iblk V c 0 t) (iblk V c 1 t) (iblk V c 2 t) (iblk V c 3 t) k0_pay2, k0_pay1 (k0_pay6 (iblk V c 0 t) (iblk V c 1 t) (iblk V c 2 t) (iblk V c 3 t)) k0_pay3) := by
  obtain ⟨n, hn⟩ := t
  cases n with
  | zero => rfl
  | succ n => exact (if_pos h).trans rfl

/-- At any other point they fold the tile's column bounds into what the point before left. -/
theorem acc_inRow (c : Dev nD) (t : Fin cfg0.N) (h : ¬t.val % 8 = 0) :
    acc V c t.val t.isLt
      = (k0_pay7 (grid0.coords t) (iblk V c 0 t) (iblk V c 1 t) (iblk V c 2 t) (iblk V c 3 t) (acc V c (t.val - 1) (Nat.lt_of_le_of_lt (Nat.sub_le _ _) t.isLt)).1,
         k0_pay1 (k0_pay6 (iblk V c 0 t) (iblk V c 1 t) (iblk V c 2 t) (iblk V c 3 t)) (acc V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The invariant -/

/-- The region's invariant before position `n`: before the first point every scoped buffer that is no staging buffer at
    anything (and the generator register at some state); afterwards the same with the two scratch vectors at the running
    bounds the point before left. -/
def Phi (c : Dev nD) : (n : ℕ) → n ≤ cfg0.N → sProp 𝕄
  | 0, _ => Pipeline.ΦA spec0 c
  | n + 1, hn => iprop(iprop(iprop(owns (c : Thread nD τ) scMin fullShare (acc V c n hn).1 ∗ owns (c : Thread nD τ) scMax fullShare (acc V c n hn).2)
          ∗ Pipeline.scopedRestBut (Ix := Unit) (Name := ℕ) (U := UR sig nD τ) (Lvl := ℕ) (Val := Elt F) spec0 c [cc0_scratch0, cc0_scratch1])
          ∗ (∃ r, prngReg c r))

theorem Phi_zero (c : Dev nD) (n : ℕ) (h : n ≤ cfg0.N) (hz : n = 0) : Phi V c n h = Pipeline.ΦA spec0 c := by
  subst hz; rfl

theorem Phi_succ (c : Dev nD) (n : ℕ) (hn : n < cfg0.N) :
    Phi V c (n + 1) hn = iprop(iprop(iprop(owns (c : Thread nD τ) scMin fullShare (acc V c n hn).1 ∗ owns (c : Thread nD τ) scMax fullShare (acc V c n hn).2)
          ∗ Pipeline.scopedRestBut (Ix := Unit) (Name := ℕ) (U := UR sig nD τ) (Lvl := ℕ) (Val := Elt F) spec0 c [cc0_scratch0, cc0_scratch1])
          ∗ (∃ r, prngReg c r)) := rfl

theorem Phi_pos (c : Dev nD) (n : ℕ) (h : n ≤ cfg0.N) (hz : n ≠ 0) :
    Phi V c n h = iprop(iprop(iprop(owns (c : Thread nD τ) scMin fullShare (acc V c (n - 1) (by omega)).1 ∗ owns (c : Thread nD τ) scMax fullShare (acc V c (n - 1) (by omega)).2)
          ∗ Pipeline.scopedRestBut (Ix := Unit) (Name := ℕ) (U := UR sig nD τ) (Lvl := ℕ) (Val := Elt F) spec0 c [cc0_scratch0, cc0_scratch1])
          ∗ (∃ r, prngReg c r)) := by
  cases n with
  | zero => exact absurd rfl hz
  | succ n => rfl

/-! ## The proof data -/

/-- The proof data of the bounds kernel's pipeline on core `c`: the arrays as the region finds them; after the body at
    point `t` each input's buffer at its block, the two outputs' at the running bounds; the invariant `Phi`; the embeddings
    and the labels each read through two windows at the two halves of the full share; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (acc V c t.val t.isLt).1
    | ⟨5, _⟩ => (acc V c t.val t.isLt).2
  Φ t := Phi V c t.val (Nat.le_of_lt_succ t.isLt)
  q w := Hand.q0 w
  owed _ := 0

theorem A_eq (c : Dev nD) (w : Fin cfg0.W) : (dat V c).A w = V c (Pipeline.arrRef spec0 w) := by
  dsimp only [dat]

theorem q_eq (c : Dev nD) (w : Fin cfg0.W) : (dat V c).q w = Hand.q0 w := by
  dsimp only [dat]

theorem owed_eq (c : Dev nD) (t : Fin (cfg0.N + 1)) : (dat V c).owed t = 0 := by
  dsimp only [dat]

/-- The invariant at a point's start, restated at `t.val`. -/
theorem Phi_castSucc (c : Dev nD) (t : Fin cfg0.N) :
    (dat V c).Φ t.castSucc = Phi V c t.val (Nat.le_of_lt t.isLt) := by
  dsimp only [dat]; simp only [Fin.coe_castSucc]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = (acc V c t.val t.isLt).1 := by dsimp only [dat]
theorem after_5 (c : Dev nD) (t : Fin cfg0.N) : (dat V c).after 5 t = (acc V c t.val t.isLt).2 := by dsimp only [dat]

/-- Each input's current staging buffer holds its block at every point. -/
theorem before_0 (c : Dev nD) (t : Fin cfg0.N) (d) : (dat V c).before 0 t d = iblk V c 0 t :=
  before_in0 V (dat V c) (A_eq V c 0) (after_0 V c) t d
theorem before_1 (c : Dev nD) (t : Fin cfg0.N) (d) : (dat V c).before 1 t d = iblk V c 1 t :=
  before_in1 V (dat V c) (A_eq V c 1) (after_1 V c) t d
theorem before_2 (c : Dev nD) (t : Fin cfg0.N) (d) : (dat V c).before 2 t d = iblk V c 2 t :=
  before_in2 V (dat V c) (A_eq V c 2) (after_2 V c) t d
theorem before_3 (c : Dev nD) (t : Fin cfg0.N) (d) : (dat V c).before 3 t d = iblk V c 3 t :=
  before_in3 V (dat V c) (A_eq V c 3) (after_3 V c) t d

/-- What the launch hands the region is the invariant before the first point. -/
theorem hin (c : Dev nD) : (Pipeline.ΦA spec0 c : sProp 𝕄) ⊢ (dat V c).Φ 0 := by
  rw [show (dat V c).Φ 0 = Phi V c 0 (Nat.zero_le _) from rfl, Phi_zero V c 0 _ rfl]
  try exact Idealize.SL.BI.Entails.refl _

/-- After any point but the first the invariant gives the launch's back: the scratch vectors' named contents are forgotten. -/
theorem Phi_out (c : Dev nD) (t : Fin (cfg0.N + 1)) (ht : t.val ≠ 0) : (dat V c).Φ t ⊢ (Pipeline.ΦA spec0 c : sProp 𝕄) := by
  rw [show (dat V c).Φ t = Phi V c t.val (Nat.le_of_lt_succ t.isLt) from rfl, Phi_pos V c _ _ ht, PhiA_eq]
  iintro ⟨⟨⟨Hmin, Hmax⟩, Hrest⟩, Hg⟩
  isplitr [Hg]
  · isplitr [Hrest]
    · isplitl [Hmin]
      · iexists _; iexact Hmin
      · iexists _; iexact Hmax
    · iexact Hrest
  · iexact Hg

theorem hout (c : Dev nD) : (dat V c).Φ (Fin.last cfg0.N) ⊢ (Pipeline.ΦA spec0 c : sProp 𝕄) :=
  Phi_out V c _ (by rw [Fin.val_last]; have : cfg0.N = 64 := N_0; omega)

end Cert.KernelIdeal.Bounds

end
-- ==== Proof.Bounds.Whole.lean ====
import Idealize.ShloMosaic.Lib.Pipeline.Value
import Idealize.ShloMosaic.Lib.WholeRead

/-! # Whole-block loads and stores

The bounds kernel moves every one of its buffers as ONE block: each load and each store goes through the rectangle that
starts at offset zero and has the buffer's own extents. Through that rectangle a load reads the contents as they are,
and a store leaves exactly its payload, whatever the buffer held and whatever was stored before. -/

namespace Cert.KernelIdeal.Bounds

open Idealize.ShloMosaic

variable {sig : RefSig} {Val : EltTy → Type} {κ : Kind} {sp : Space} {S : Shape} {e : EltTy}

theorem zeros1 : (![0] : Fin 1 → ℕ) = fun _ => 0 := by funext a; fin_cases a; rfl
theorem zeros2 : (![0, 0] : Fin 2 → ℕ) = fun _ => 0 := by funext a; fin_cases a <;> rfl

/-- A load of the whole block through a whole memref held at the contents that read `X` reads `X`. -/
theorem readAt_whole {m : Memref sig κ sp S e} (h : m.IsWhole) (X : S.Idx → Val e) {off : Fin S.rank → ℕ}
    (ho : off = fun _ => 0) (inb : ∀ a, off a + S.size a ≤ S.size a) :
    View.readAt Val m.view (Rect.unit off S.size inb).toLoadRect (h.unread X) = X := by
  show View.ld (m.view.read Val (h.unread X)) (Rect.unit off S.size inb) = X
  rw [h.read_unread, View.ld_unit_zero ho]

/-- What a store of the whole block leaves, read back: its payload, whatever was stored before it. -/
theorem read_writes_whole (v : View sig κ sp S e) (f : v.ty.Contents Val) {off : Fin S.rank → ℕ} (ho : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst ho; funext y
  have e := View.read_writes_cons_emb v f (Rect.whole S) w L y
  rw [Rect.emb_whole_apply] at e
  exact e

end Cert.KernelIdeal.Bounds
-- ==== Proof.Bounds.RunStart.lean ====
import proofs.«123878_j24489903522258_2_alg».proof.Proof.Bounds.Setup
import proofs.«123878_j24489903522258_2_alg».proof.Proof.Bounds.Whole

set_option maxRecDepth 16384

noncomputable section

namespace Cert.KernelIdeal.Bounds

open Cert.KernelIdeal Cert.KernelIdeal.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The bounds kernel's body at a point that opens a row of the grid (`j = 0`)

The two scratch vectors are reset to `+∞` / `-∞` and the tile's column minimum / maximum folded in; the output blocks are
not touched. On whole memrefs — the four inputs at their contents, the two outputs at contents handed back untouched, the
scratch vectors at anything — the body runs to the continuation with the running minimum and maximum in the scratch
vectors, stated through the kernel's payload functions. -/
set_option maxHeartbeats 1000000 in
theorem run_rowStart (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S512 .f32) (harg9 : arg9.IsWhole)
    (hc0 : rowStart i) (hc1 : ¬rowEnd i)
    (x0 x1 : Vec F S512x512 .f32) (x2 x3 : Vec F S512 .i32) (y4 y5 : Vec F S512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare y4 ∗ owns (c : Thread nD τ) arg7 fullShare y5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare y4 ∗ owns (c : Thread nD τ) arg7 fullShare y5
            ∗ owns (c : Thread nD τ) arg8 fullShare (k0_pay7 i x0 x1 x2 x3 k0_pay2) ∗ owns (c : Thread nD τ) arg9 fullShare (k0_pay1 (k0_pay6 x0 x1 x2 x3) k0_pay3)) -∗ K ⟨⟩))
      ⊢ wp frame (wpE (defs₀ (F := F)) Variants.none c none) E (cc0__bounds_kernel i arg2 harg2 arg3 harg3 arg4 harg4 arg5 harg5 arg6 harg6 arg7 harg7 arg8 harg8 arg9 harg9) K := by
  simp only [cc0__bounds_kernel_eq_skeleton]; unfold cc0__bounds_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr
    swap; · iexact H8
    ipureintro
    rw [read_writes_whole _ _ zeros1]
    sl_unfold_run_names
    rw [readAt_whole harg2 x0 zeros2, readAt_whole harg3 x1 zeros2, readAt_whole harg4 x2 zeros1, readAt_whole harg5 x3 zeros1, View.readCov_unit_zero _ zeros1]
  iexists _; isplitr
  swap; · iexact H9
  ipureintro
  rw [read_writes_whole _ _ zeros1]
  sl_unfold_run_names
  rw [readAt_whole harg2 x0 zeros2, readAt_whole harg3 x1 zeros2, readAt_whole harg4 x2 zeros1, readAt_whole harg5 x3 zeros1, View.readCov_unit_zero _ zeros1]

end Cert.KernelIdeal.Bounds

end
-- ==== Proof.Bounds.RunMid.lean ====
import proofs.«123878_j24489903522258_2_alg».proof.Proof.Bounds.RunStart

set_option maxRecDepth 16384

noncomputable section

namespace Cert.KernelIdeal.Bounds

open Cert.KernelIdeal Cert.KernelIdeal.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The bounds kernel's body at a point inside a row of the grid (`0 < j < 7`)

The tile's column minimum / maximum are folded into what the scratch vectors hold (`s8`, `s9`: what the point before left);
the output blocks are not touched. -/
set_option maxHeartbeats 1000000 in
theorem run_inRow (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S512 .f32) (harg9 : arg9.IsWhole)
    (hc0 : ¬rowStart i) (hc1 : ¬rowEnd i)
    (x0 x1 : Vec F S512x512 .f32) (x2 x3 : Vec F S512 .i32) (y4 y5 : Vec F S512 .f32) (s8 s9 : Vec F S512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare y4 ∗ owns (c : Thread nD τ) arg7 fullShare y5 ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare y4 ∗ owns (c : Thread nD τ) arg7 fullShare y5
            ∗ owns (c : Thread nD τ) arg8 fullShare (k0_pay7 i x0 x1 x2 x3 s8) ∗ owns (c : Thread nD τ) arg9 fullShare (k0_pay1 (k0_pay6 x0 x1 x2 x3) s9)) -∗ K ⟨⟩))
      ⊢ wp frame (wpE (defs₀ (F := F)) Variants.none c none) E (cc0__bounds_kernel i arg2 harg2 arg3 harg3 arg4 harg4 arg5 harg5 arg6 harg6 arg7 harg7 arg8 harg8 arg9 harg9) K := by
  simp only [cc0__bounds_kernel_eq_skeleton]; unfold cc0__bounds_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5
  obtain rfl := harg8.eq_unread hf8; obtain rfl := harg9.eq_unread hf9
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr
    swap; · iexact H8
    ipureintro
    rw [read_writes_whole _ _ zeros1]
    sl_unfold_run_names
    simp only [readAt_whole harg2 x0 zeros2, readAt_whole harg3 x1 zeros2, readAt_whole harg4 x2 zeros1, readAt_whole harg5 x3 zeros1, readAt_whole harg8 s8 zeros1, readAt_whole harg9 s9 zeros1]
  iexists _; isplitr
  swap; · iexact H9
  ipureintro
  rw [read_writes_whole _ _ zeros1]
  sl_unfold_run_names
  simp only [readAt_whole harg2 x0 zeros2, readAt_whole harg3 x1 zeros2, readAt_whole harg4 x2 zeros1, readAt_whole harg5 x3 zeros1, readAt_whole harg8 s8 zeros1, readAt_whole harg9 s9 zeros1]

end Cert.KernelIdeal.Bounds

end
-- ==== Proof.Bounds.RunEnd.lean ====
import proofs.«123878_j24489903522258_2_alg».proof.Proof.Bounds.RunMid

set_option maxRecDepth 16384

noncomputable section

namespace Cert.KernelIdeal.Bounds

open Cert.KernelIdeal Cert.KernelIdeal.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The bounds kernel's body at a point that closes a row of the grid (`j = 7`)

The tile's column minimum / maximum are folded into what the scratch vectors hold (`s8`, `s9`), and the two running bounds
are then copied to the two output blocks, whatever those held. -/
set_option maxHeartbeats 1000000 in
theorem run_rowEnd (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S512 .f32) (harg9 : arg9.IsWhole)
    (hc0 : ¬rowStart i) (hc1 : rowEnd i)
    (x0 x1 : Vec F S512x512 .f32) (x2 x3 : Vec F S512 .i32) (s8 s9 : Vec F S512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay7 i x0 x1 x2 x3 s8) ∗ owns (c : Thread nD τ) arg7 fullShare (k0_pay1 (k0_pay6 x0 x1 x2 x3) s9)
            ∗ owns (c : Thread nD τ) arg8 fullShare (k0_pay7 i x0 x1 x2 x3 s8) ∗ owns (c : Thread nD τ) arg9 fullShare (k0_pay1 (k0_pay6 x0 x1 x2 x3) s9)) -∗ K ⟨⟩))
      ⊢ wp frame (wpE (defs₀ (F := F)) Variants.none c none) E (cc0__bounds_kernel i arg2 harg2 arg3 harg3 arg4 harg4 arg5 harg5 arg6 harg6 arg7 harg7 arg8 harg8 arg9 harg9) K := by
  simp only [cc0__bounds_kernel_eq_skeleton]; unfold cc0__bounds_kernel_skel
  unfold owns
  iintro ⟨⟨%f0, %hf0, H0⟩, ⟨%f1, %hf1, H1⟩, ⟨%f2, %hf2, H2⟩, ⟨%f3, %hf3, H3⟩, ⟨%d6, %f4, -, H4⟩, ⟨%d7, %f5, -, H5⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg8.eq_unread hf8; obtain rfl := harg9.eq_unread hf9
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    rw [read_writes_whole (S := S512) _ _ zeros1]
    simp only [readAt_whole harg2 x0 zeros2, readAt_whole harg3 x1 zeros2, readAt_whole harg4 x2 zeros1, readAt_whole harg5 x3 zeros1, readAt_whole harg8 s8 zeros1, readAt_whole harg9 s9 zeros1]
    exact View.readCov_unit_zero (S := S512) _ zeros1 _ _
  isplitl [H5]
  · iexists _; isplitr
    swap; · iexact H5
    ipureintro
    sl_unfold_run_names
    rw [read_writes_whole (S := S512) _ _ zeros1]
    simp only [readAt_whole harg2 x0 zeros2, readAt_whole harg3 x1 zeros2, readAt_whole harg4 x2 zeros1, readAt_whole harg5 x3 zeros1, readAt_whole harg8 s8 zeros1, readAt_whole harg9 s9 zeros1]
    exact View.readCov_unit_zero (S := S512) _ zeros1 _ _
  isplitl [H8]
  · iexists _; isplitr
    swap; · iexact H8
    ipureintro
    sl_unfold_run_names
    rw [read_writes_whole (S := S512) _ _ zeros1]
    simp only [readAt_whole harg2 x0 zeros2, readAt_whole harg3 x1 zeros2, readAt_whole harg4 x2 zeros1, readAt_whole harg5 x3 zeros1, readAt_whole harg8 s8 zeros1, readAt_whole harg9 s9 zeros1]
  iexists _; isplitr
  swap; · iexact H9
  ipureintro
  sl_unfold_run_names
  rw [read_writes_whole (S := S512) _ _ zeros1]
  simp only [readAt_whole harg2 x0 zeros2, readAt_whole harg3 x1 zeros2, readAt_whole harg4 x2 zeros1, readAt_whole harg5 x3 zeros1, readAt_whole harg8 s8 zeros1, readAt_whole harg9 s9 zeros1]

end Cert.KernelIdeal.Bounds

end
-- ==== Proof.Bounds.Obligation.lean ====
import proofs.«123878_j24489903522258_2_alg».proof.Proof.Bounds.Data
import proofs.«123878_j24489903522258_2_alg».proof.Proof.Bounds.RunEnd

set_option maxRecDepth 16384

noncomputable section

namespace Cert.KernelIdeal.Bounds

open Cert.KernelIdeal Cert.KernelIdeal.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The bounds kernel: the body obligation

At every point the pipeline calls the body with the invariant, what the core owes (nothing) and every window's current
staging buffer. Which of the body's three runs applies is decided by `t % 8`: `0` opens a row of the grid (the scratch
vectors are reset, so what they held does not matter — at the very first point they hold anything), `7` closes it (the
running bounds go to the two output blocks, which the pipeline then writes back), anything between only folds the tile's
column bounds in. The invariant hands the body the two scratch vectors at what the point before left and takes them back
at this point's running bounds. -/

variable (V : (c : Dev nD) → (b : Ref sig .tc) → Buf (Elt F) ((c : Thread nD τ).loc b))

/-- The input windows are never idle. -/
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms0 t) fullShare ((dat V c).after 0 t) from by
    unfold Dat.leavesExact; rw [live0 t], after_0]
  rw [show (dat V c).leavesExact 1 t = owns (c : Thread nD τ) (ms1 t) fullShare ((dat V c).after 1 t) from by
    unfold Dat.leavesExact; rw [live1 t], after_1]
  rw [show (dat V c).leavesExact 2 t = owns (c : Thread nD τ) (ms2 t) fullShare ((dat V c).after 2 t) from by
    unfold Dat.leavesExact; rw [live2 t], after_2]
  rw [show (dat V c).leavesExact 3 t = owns (c : Thread nD τ) (ms3 t) fullShare ((dat V c).after 3 t) from by
    unfold Dat.leavesExact; rw [live3 t], after_3]
  have hN : t.val < 64 := lt_of_lt_of_eq t.isLt (show cfg0.N = 64 from N_0)
  by_cases h0 : t.val % 8 = 0
  · have hs : rowStart (grid0.coords t) := (rowStart_iff t).mpr h0
    have he : ¬rowEnd (grid0.coords t) := fun h => by have := (rowEnd_iff t).mp h; omega
    rw [Dat.leavesExact_idle (dat V c) 4 t (idle4_of_not_rowEnd t he) (noFlush4_of_not_rowEnd t he),
      Dat.leavesExact_idle (dat V c) 5 t (idle5_of_not_rowEnd t he) (noFlush5_of_not_rowEnd t he)]
    rw [acc_rowStart V c t h0]; dsimp only
    by_cases hz : t.val = 0
    · rw [Phi_castSucc V c t, Phi_zero V c _ _ hz, PhiA_eq]
      iintro ⟨⟨⟨⟨Hmin, Hmax⟩, Hrest⟩, Hg⟩, Ho, ⟨%d0, H0⟩, ⟨%d1, H1⟩, ⟨%d2, H2⟩, ⟨%d3, H3⟩, ⟨%d4, H4⟩, ⟨%d5, H5⟩⟩
      iapply (run_rowStart c (grid0.coords t) (ms0 t) (hs0 t) (ms1 t) (hs1 t) (ms2 t) (hs2 t) (ms3 t) (hs3 t) (ms4 t) (hs4 t) (ms5 t) (hs5 t) scMin (Memref.isWhole_whole _) scMax (Memref.isWhole_whole _) hs he (iblk V c 0 t) (iblk V c 1 t) (iblk V c 2 t) (iblk V c 3 t) _ _ Set.univ _)
      isplitl [H0]; · iexact H0
      isplitl [H1]; · iexact H1
      isplitl [H2]; · iexact H2
      isplitl [H3]; · iexact H3
      isplitl [H4]; · iexact H4
      isplitl [H5]; · iexact H5
      isplitl [Hmin]; · iexact Hmin
      isplitl [Hmax]; · iexact Hmax
      iintro ⟨H0, H1, H2, H3, H4, H5, Hmin, Hmax⟩
      isplitl [Hmin Hmax Hrest Hg]
      · isplitr [Hg]
        · isplitr [Hrest]
          · isplitl [Hmin]
            · iexact Hmin
            · iexact Hmax
          · iexact Hrest
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [Phi_castSucc V c t, Phi_pos V c _ _ hz]
      iintro ⟨⟨⟨⟨Hmin, Hmax⟩, Hrest⟩, Hg⟩, Ho, ⟨%d0, H0⟩, ⟨%d1, H1⟩, ⟨%d2, H2⟩, ⟨%d3, H3⟩, ⟨%d4, H4⟩, ⟨%d5, H5⟩⟩
      iapply (run_rowStart c (grid0.coords t) (ms0 t) (hs0 t) (ms1 t) (hs1 t) (ms2 t) (hs2 t) (ms3 t) (hs3 t) (ms4 t) (hs4 t) (ms5 t) (hs5 t) scMin (Memref.isWhole_whole _) scMax (Memref.isWhole_whole _) hs he (iblk V c 0 t) (iblk V c 1 t) (iblk V c 2 t) (iblk V c 3 t) _ _ Set.univ _)
      isplitl [H0]; · iexact H0
      isplitl [H1]; · iexact H1
      isplitl [H2]; · iexact H2
      isplitl [H3]; · iexact H3
      isplitl [H4]; · iexact H4
      isplitl [H5]; · iexact H5
      isplitl [Hmin]; · iexists _; iexact Hmin
      isplitl [Hmax]; · iexists _; iexact Hmax
      iintro ⟨H0, H1, H2, H3, H4, H5, Hmin, Hmax⟩
      isplitl [Hmin Hmax Hrest Hg]
      · isplitr [Hg]
        · isplitr [Hrest]
          · isplitl [Hmin]
            · iexact Hmin
            · iexact Hmax
          · iexact Hrest
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hs : ¬rowStart (grid0.coords t) := fun h => h0 ((rowStart_iff t).mp h)
    have hz : t.val ≠ 0 := fun h => h0 (by rw [h])
    rw [Phi_castSucc V c t, Phi_pos V c _ _ hz]
    by_cases h1 : t.val % 8 = 7
    · have he : rowEnd (grid0.coords t) := (rowEnd_iff t).mpr h1
      rw [show (dat V c).leavesExact 4 t = owns (c : Thread nD τ) (ms4 t) fullShare ((dat V c).after 4 t) from by
        unfold Dat.leavesExact; rw [live4_of_rowEnd t he], after_4]
      rw [show (dat V c).leavesExact 5 t = owns (c : Thread nD τ) (ms5 t) fullShare ((dat V c).after 5 t) from by
        unfold Dat.leavesExact; rw [live5_of_rowEnd t he], after_5]
      rw [acc_inRow V c t h0]; dsimp only
      iintro ⟨⟨⟨⟨Hmin, Hmax⟩, Hrest⟩, Hg⟩, Ho, ⟨%d0, H0⟩, ⟨%d1, H1⟩, ⟨%d2, H2⟩, ⟨%d3, H3⟩, ⟨%d4, H4⟩, ⟨%d5, H5⟩⟩
      iapply (run_rowEnd c (grid0.coords t) (ms0 t) (hs0 t) (ms1 t) (hs1 t) (ms2 t) (hs2 t) (ms3 t) (hs3 t) (ms4 t) (hs4 t) (ms5 t) (hs5 t) scMin (Memref.isWhole_whole _) scMax (Memref.isWhole_whole _) hs he (iblk V c 0 t) (iblk V c 1 t) (iblk V c 2 t) (iblk V c 3 t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [Hmin]; · iexact Hmin
      isplitl [Hmax]; · iexact Hmax
      iintro ⟨H0, H1, H2, H3, H4, H5, Hmin, Hmax⟩
      isplitl [Hmin Hmax Hrest Hg]
      · isplitr [Hg]
        · isplitr [Hrest]
          · isplitl [Hmin]
            · iexact Hmin
            · iexact Hmax
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      iexact H5
    · have he : ¬rowEnd (grid0.coords t) := fun h => h1 ((rowEnd_iff t).mp h)
      rw [Dat.leavesExact_idle (dat V c) 4 t (idle4_of_not_rowEnd t he) (noFlush4_of_not_rowEnd t he),
        Dat.leavesExact_idle (dat V c) 5 t (idle5_of_not_rowEnd t he) (noFlush5_of_not_rowEnd t he)]
      rw [acc_inRow V c t h0]; dsimp only
      iintro ⟨⟨⟨⟨Hmin, Hmax⟩, Hrest⟩, Hg⟩, Ho, ⟨%d0, H0⟩, ⟨%d1, H1⟩, ⟨%d2, H2⟩, ⟨%d3, H3⟩, ⟨%d4, H4⟩, ⟨%d5, H5⟩⟩
      iapply (run_inRow c (grid0.coords t) (ms0 t) (hs0 t) (ms1 t) (hs1 t) (ms2 t) (hs2 t) (ms3 t) (hs3 t) (ms4 t) (hs4 t) (ms5 t) (hs5 t) scMin (Memref.isWhole_whole _) scMax (Memref.isWhole_whole _) hs he (iblk V c 0 t) (iblk V c 1 t) (iblk V c 2 t) (iblk V c 3 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [Hmin]; · iexact Hmin
      isplitl [Hmax]; · iexact Hmax
      iintro ⟨H0, H1, H2, H3, H4, H5, Hmin, Hmax⟩
      isplitl [Hmin Hmax Hrest Hg]
      · isplitr [Hg]
        · isplitr [Hrest]
          · isplitl [Hmin]
            · iexact Hmin
            · iexact Hmax
          · iexact Hrest
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Bounds

end
-- ==== Proof.Lse.Carry.lean ====
/- The log-sum-exp kernel, point by point: what its six carried vectors and its four result vectors hold.

   The grid is 8 × 8; point t has block row j = t / 8 of the output and block row i = t % 8 of the sweep.
   At each point the kernel forms, from the two 512-row blocks of the embeddings, the two label blocks and the two
   bound blocks, one 512 × 512 tile: the two masks, the two weight matrices and the two masked weight matrices.
   For each of the two masked sums it carries, per column, a running reference (the least, resp. greatest, masked
   weight so far), the running sum of exponentials taken relative to that reference, and a running check extremum.
   At i = 0 the carried vectors are set from the tile; at i > 0 the sum is rescaled to the new reference and the
   tile's part added; at i = 7 the four results are read off the carried vectors. -/
import proofs.«123878_j24489903522258_2_alg».proof.Proof.Shares
import proofs.«123878_j24489903522258_2_alg».proof.Proof.Gen.KernelIdeal.Launch
import proofs.«123878_j24489903522258_2_alg».proof.Proof.Gen.KernelIdeal.Skeleton
import proofs.«123878_j24489903522258_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point reads -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## One tile -/

/-- What the kernel forms from the blocks of one point: the mask of same-label pairs under the negative bound and
    the mask of different-label pairs over the positive bound, the two weight matrices, and the weight matrices
    with the unmasked entries set to zero. -/
structure Tile (F : FTy → Type) where
  posMask : IVec S512x512 1
  negMask : IVec S512x512 1
  posW : FVec F S512x512 .f32
  negW : FVec F S512x512 .f32
  posM : FVec F S512x512 .f32
  negM : FVec F S512x512 .f32

/-- The tile of embeddings blocks `ej`, `ei`, label blocks `lj`, `li` and bound blocks `pb`, `nb`. -/
def tile (ej ei : Vec F S512x512 .f32) (lj li : Vec F S512 .i32) (pb nb : Vec F S512 .f32) : Tile F where
  posMask := k1_pay27 ej ei li lj nb
  negMask := k1_pay28 ej ei li lj pb
  posW := k1_pay29 ej ei
  negW := k1_pay30 ej ei
  posM := k1_pay31 ej ei li lj nb
  negM := k1_pay32 ej ei li lj pb

/-! ## The carried vectors -/

/-- The six vectors carried along a row of the grid: for each masked sum its running reference, its running sum of
    exponentials relative to the reference, and its running check extremum. -/
structure Carry (F : FTy → Type) where
  posRef : Vec F S512 .f32
  posSum : Vec F S512 .f32
  posChk : Vec F S512 .f32
  negRef : Vec F S512 .f32
  negSum : Vec F S512 .f32
  negChk : Vec F S512 .f32

/-- At the first point of a row the carried vectors are set from the tile alone. -/
def Carry.first (T : Tile F) : Carry F where
  posRef := k1_pay5 T.posM
  posSum := k1_pay7 T.posMask T.posW T.posM
  posChk := k1_pay6 T.posM
  negRef := k1_pay8 T.negM
  negSum := k1_pay10 T.negMask T.negW T.negM
  negChk := k1_pay9 T.negM

/-- At a later point the reference moves to the extremum of the old one and the tile's, the sum is rescaled to the
    new reference and the tile's exponentials added, and the check extremum is updated. -/
def Carry.next (T : Tile F) (s : Carry F) : Carry F where
  posRef := k1_pay21 (k1_pay1 T.posM) s.posRef
  posSum := k1_pay20 T.posMask T.posW (k1_pay1 T.posM) s.posRef s.posSum
  posChk := k1_pay22 (k1_pay2 T.posM) s.posChk
  negRef := k1_pay11 (k1_pay23 (k1_pay3 T.negM) s.negRef)
  negSum := k1_pay24 T.negMask T.negW (k1_pay3 T.negM) s.negRef s.negSum
  negChk := k1_pay12 T.negM s.negChk

/-- The four result vectors: for each masked sum the logarithm of the sum (of one where the column is empty) plus
    the reference, and the indicator that the column is not empty. -/
structure Results (F : FTy → Type) where
  posVals : Vec F S512 .f32
  posNz : Vec F S512 .f32
  negVals : Vec F S512 .f32
  negNz : Vec F S512 .f32

/-- The results read off the carried vectors. -/
def Carry.results (s : Carry F) : Results F where
  posVals := k1_pay14 s.posRef s.posChk s.posSum s.posRef
  posNz := k1_pay15 s.posRef s.posChk
  negVals := k1_pay17 s.negRef s.negChk s.negSum s.negRef
  negNz := k1_pay18 s.negRef s.negChk

/-! ## Point by point -/

/-- The tile of point `t`. -/
def tileAt (c : Dev nD) (t : Fin cfg1.N) : Tile F :=
  tile (iblk V c 0 t) (iblk V c 1 t) (iblk V c 2 t) (iblk V c 3 t) (iblk V c 4 t) (iblk V c 5 t)

/-- The carried vectors after the body at position `n`: set from the tile where a row begins (`n` a multiple of 8),
    else updated from what position `n - 1` left. -/
def carryAt (c : Dev nD) : (n : ℕ) → n < cfg1.N → Carry F
  | 0, hn => Carry.first (tileAt V c ⟨0, hn⟩)
  | n + 1, hn =>
    if (n + 1) % 8 = 0 then Carry.first (tileAt V c ⟨n + 1, hn⟩)
    else Carry.next (tileAt V c ⟨n + 1, hn⟩) (carryAt c n (Nat.lt_of_succ_lt hn))

/-- The result vectors as the carried vectors after point `t` give them; the kernel stores them at the last
    point of a row only. -/
def resultsAt (c : Dev nD) (t : Fin cfg1.N) : Results F := (carryAt V c t.val t.isLt).results

/-- Where a row begins the carried vectors are the tile's. -/
theorem carryAt_first (c : Dev nD) (t : Fin cfg1.N) (h : t.val % 8 = 0) :
    carryAt V c t.val t.isLt = Carry.first (tileAt V c t) := by
  obtain ⟨n, hn⟩ := t
  cases n with
  | zero => rfl
  | succ n => exact if_pos h

/-- Elsewhere they are the update of what the point before left. -/
theorem carryAt_next (c : Dev nD) (t : Fin cfg1.N) (h : ¬t.val % 8 = 0) :
    carryAt V c t.val t.isLt
      = Carry.next (tileAt V c t) (carryAt V c (t.val - 1) (Nat.lt_of_le_of_lt (Nat.sub_le _ _) t.isLt)) := by
  obtain ⟨n, hn⟩ := t
  cases n with
  | zero => exact absurd (Nat.zero_mod _) h
  | succ n => exact if_neg h

/-- At the last point of a row (both the update and the read-off happen there) the results are read off the update
    of what the point before left. -/
theorem resultsAt_last (c : Dev nD) (t : Fin cfg1.N) (h : t.val % 8 = 7) :
    resultsAt V c t
      = (Carry.next (tileAt V c t) (carryAt V c (t.val - 1) (Nat.lt_of_le_of_lt (Nat.sub_le _ _) t.isLt))).results := by
  unfold resultsAt; rw [carryAt_next V c t (by omega)]

/-! ## The carried vectors in memory -/

/-- The six scratch vectors, whole buffers of the kernel's own. -/
abbrev scM0 : Memref sig .tc .vmem S512 .f32 := Memref.whole cc1_scratch0
abbrev scM1 : Memref sig .tc .vmem S512 .f32 := Memref.whole cc1_scratch1
abbrev scM2 : Memref sig .tc .vmem S512 .f32 := Memref.whole cc1_scratch2
abbrev scM3 : Memref sig .tc .vmem S512 .f32 := Memref.whole cc1_scratch3
abbrev scM4 : Memref sig .tc .vmem S512 .f32 := Memref.whole cc1_scratch4
abbrev scM5 : Memref sig .tc .vmem S512 .f32 := Memref.whole cc1_scratch5

/-- The scratch vectors holding the carried vectors `s`. -/
def held (c : Dev nD) (s : Carry F) : sProp 𝕄 :=
  iprop(owns (c : Thread nD τ) scM0 fullShare s.posRef ∗ owns (c : Thread nD τ) scM1 fullShare s.posSum
    ∗ owns (c : Thread nD τ) scM2 fullShare s.posChk ∗ owns (c : Thread nD τ) scM3 fullShare s.negRef
    ∗ owns (c : Thread nD τ) scM4 fullShare s.negSum ∗ owns (c : Thread nD τ) scM5 fullShare s.negChk)

/-- The scratch vectors holding anything. -/
def heldAny (c : Dev nD) : sProp 𝕄 :=
  iprop((∃ d, owns (c : Thread nD τ) scM0 fullShare d) ∗ (∃ d, owns (c : Thread nD τ) scM1 fullShare d)
    ∗ (∃ d, owns (c : Thread nD τ) scM2 fullShare d) ∗ (∃ d, owns (c : Thread nD τ) scM3 fullShare d)
    ∗ (∃ d, owns (c : Thread nD τ) scM4 fullShare d) ∗ (∃ d, owns (c : Thread nD τ) scM5 fullShare d))

/-- The core's other scoped buffers that are no staging buffer of this call (the bounds kernel's staging buffers
    and scratch), each at some contents, beside `S`. -/
def withRest (c : Dev nD) (S : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ S)

/-- The class invariant, with the six scratch vectors as memrefs owned at some contents. -/
theorem PhiA_eq (c : Dev nD) :
    (Pipeline.ΦA spec1 c : sProp 𝕄) = iprop(withRest c (heldAny c) ∗ (∃ r, prngReg c r)) := by
  unfold Pipeline.ΦA withRest heldAny; rw [scopedRest1_eq]; simp only [scM0, scM1, scM2, scM3, scM4, scM5, owns_whole]; try rfl

/-- The region invariant before position `n`: before the first point the class's (every scratch vector at
    anything); afterwards the six scratch vectors hold what the point before left. -/
def PhiS (c : Dev nD) : (n : ℕ) → n ≤ cfg1.N → sProp 𝕄
  | 0, _ => Pipeline.ΦA spec1 c
  | n + 1, hn => iprop(withRest c (held c (carryAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(withRest c (held c (carryAt V c n hn)) ∗ (∃ r, prngReg c r)) := rfl

theorem PhiS_pos (c : Dev nD) (n : ℕ) (h : n ≤ cfg1.N) (hz : n ≠ 0) :
    PhiS V c n h = iprop(withRest c (held c (carryAt V c (n - 1) (by omega))) ∗ (∃ r, prngReg c r)) := by
  cases n with
  | zero => exact absurd rfl hz
  | succ n => rfl

/-! ## The proof data -/

/-- The proof data of the pipeline on core `c`: the arrays as the region finds them; after the body at point `t`
    each input's buffer at its block and the four outputs' at the results of the carried vectors; the invariant
    `PhiS`; the shares of the share table; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (resultsAt V c t).posVals
    | ⟨7, _⟩ => (resultsAt V c t).posNz
    | ⟨8, _⟩ => (resultsAt V c t).negVals
    | ⟨9, _⟩ => (resultsAt V c t).negNz
  Φ t := PhiS V c t.val (Nat.le_of_lt_succ t.isLt)
  q w := Hand.q1 w
  owed _ := 0

theorem A_eq (c : Dev nD) (w : Fin cfg1.W) : (dat V c).A w = V c (Pipeline.arrRef spec1 w) := by
  dsimp only [dat]

theorem q_eq (c : Dev nD) (w : Fin cfg1.W) : (dat V c).q w = Hand.q1 w := by
  dsimp only [dat]

theorem owed_eq (c : Dev nD) (t : Fin (cfg1.N + 1)) : (dat V c).owed t = 0 := by
  dsimp only [dat]

theorem after_0 (c : Dev nD) (t : Fin cfg1.N) : (dat V c).after ⟨0, by decide⟩ t = iblk V c 0 t := by dsimp only [dat]
theorem after_1 (c : Dev nD) (t : Fin cfg1.N) : (dat V c).after ⟨1, by decide⟩ t = iblk V c 1 t := by dsimp only [dat]
theorem after_2 (c : Dev nD) (t : Fin cfg1.N) : (dat V c).after ⟨2, by decide⟩ t = iblk V c 2 t := by dsimp only [dat]
theorem after_3 (c : Dev nD) (t : Fin cfg1.N) : (dat V c).after ⟨3, by decide⟩ t = iblk V c 3 t := by dsimp only [dat]
theorem after_4 (c : Dev nD) (t : Fin cfg1.N) : (dat V c).after ⟨4, by decide⟩ t = iblk V c 4 t := by dsimp only [dat]
theorem after_5 (c : Dev nD) (t : Fin cfg1.N) : (dat V c).after ⟨5, by decide⟩ t = iblk V c 5 t := by dsimp only [dat]
theorem after_6 (c : Dev nD) (t : Fin cfg1.N) : (dat V c).after ⟨6, by decide⟩ t = (resultsAt V c t).posVals := by dsimp only [dat]
theorem after_7 (c : Dev nD) (t : Fin cfg1.N) : (dat V c).after ⟨7, by decide⟩ t = (resultsAt V c t).posNz := by dsimp only [dat]
theorem after_8 (c : Dev nD) (t : Fin cfg1.N) : (dat V c).after ⟨8, by decide⟩ t = (resultsAt V c t).negVals := by dsimp only [dat]
theorem after_9 (c : Dev nD) (t : Fin cfg1.N) : (dat V c).after ⟨9, by decide⟩ t = (resultsAt V c t).negNz := by dsimp only [dat]

/-- The invariant at a point's start, restated at `t.val`. -/
theorem PhiS_castSucc (c : Dev nD) (t : Fin cfg1.N) :
    (dat V c).Φ t.castSucc = PhiS V c t.val (Nat.le_of_lt t.isLt) := by
  dsimp only [dat]; simp only [Fin.coe_castSucc]

/-- What the launch hands the region is the invariant before the first point. -/
theorem hin (c : Dev nD) : (Pipeline.ΦA spec1 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives the class invariant back: what the scratch vectors hold is forgotten. -/
theorem Phi_out (c : Dev nD) (t : Fin (cfg1.N + 1)) (ht : t.val ≠ 0) : (dat V c).Φ t ⊢ (Pipeline.ΦA spec1 c : sProp 𝕄) := by
  rw [show (dat V c).Φ t = PhiS V c t.val (Nat.le_of_lt_succ t.isLt) from rfl, PhiS_pos V c _ _ ht, PhiA_eq]
  unfold withRest held heldAny
  iintro ⟨⟨R0, R1, R2, R3, R4, R5, R6, R7, R8, R9, R10, R11, R12, R13, S0, S1, S2, S3, S4, S5⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [S0]; · iexists _; iexact S0
    isplitl [S1]; · iexists _; iexact S1
    isplitl [S2]; · iexists _; iexact S2
    isplitl [S3]; · iexists _; iexact S3
    isplitl [S4]; · iexists _; iexact S4
    iexists _; iexact S5
  iexact Hg

/-- The same after the last point. -/
theorem hout (c : Dev nD) : (dat V c).Φ (Fin.last cfg1.N) ⊢ (Pipeline.ΦA spec1 c : sProp 𝕄) :=
  Phi_out V c _ (by rw [Fin.val_last]; have : cfg1.N = 64 := N_1; omega)

end Cert.KernelIdeal.Lse

end
-- ==== Proof.Lse.Sched.lean ====
/- The schedule of the log-sum-exp kernel's body: which of its three conditional regions a point takes, where its
   output windows are idle, the memrefs the pipeline hands it, and what its input windows hold. -/
import proofs.«123878_j24489903522258_2_alg».proof.Proof.Lse.Carry

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three conditions -/

/-- The body sets the carried vectors from the tile: sweep coordinate `i = 0`. -/
abbrev condFirst (i : grid1.Coords) : Prop :=
  (Scalar.cmpi .ne (Scalar.extui (Scalar.cmpi .eq (BitVec.ofNat 32 (i 1).val) 0#32)) 0#32) = 1#1
theorem hcondFirst : ∀ t : Fin cfg1.N, condFirst (grid1.coords t) ↔ t.val % 8 = 0 :=
  (by decide +kernel : ∀ t : Fin grid1.N, condFirst (grid1.coords t) ↔ t.val % 8 = 0)

/-- The body updates the carried vectors: `i > 0`. -/
abbrev condNext (i : grid1.Coords) : Prop :=
  (Scalar.cmpi .ne (Scalar.extui (Scalar.cmpi .sgt (BitVec.ofNat 32 (i 1).val) 0#32)) 0#32) = 1#1
theorem hcondNext : ∀ t : Fin cfg1.N, condNext (grid1.coords t) ↔ ¬t.val % 8 = 0 :=
  (by decide +kernel : ∀ t : Fin grid1.N, condNext (grid1.coords t) ↔ ¬t.val % 8 = 0)

/-- The body reads the results off the carried vectors: `i = 7`. -/
abbrev condLast (i : grid1.Coords) : Prop := k1_cond3 i = 1#1
theorem hcondLast : ∀ t : Fin cfg1.N, condLast (grid1.coords t) ↔ t.val % 8 = 7 :=
  (by decide +kernel : ∀ t : Fin grid1.N, condLast (grid1.coords t) ↔ t.val % 8 = 7)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, cfg1.idle 3 (grid1.coords t) = false := by decide +kernel
theorem live_4 : ∀ t : Fin cfg1.N, cfg1.idle 4 (grid1.coords t) = false := by decide +kernel
theorem live_5 : ∀ t : Fin cfg1.N, cfg1.idle 5 (grid1.coords t) = false := by decide +kernel
/-- Off the last point of a row the four outputs are idle and not written back. -/
theorem idle_6 : ∀ t : Fin cfg1.N, ¬condLast (grid1.coords t) → cfg1.idle 6 (grid1.coords t) = true := by decide +kernel
theorem idle_7 : ∀ t : Fin cfg1.N, ¬condLast (grid1.coords t) → cfg1.idle 7 (grid1.coords t) = true := by decide +kernel
theorem idle_8 : ∀ t : Fin cfg1.N, ¬condLast (grid1.coords t) → cfg1.idle 8 (grid1.coords t) = true := by decide +kernel
theorem idle_9 : ∀ t : Fin cfg1.N, ¬condLast (grid1.coords t) → cfg1.idle 9 (grid1.coords t) = true := by decide +kernel
theorem noFlush_6 : ∀ t : Fin cfg1.N, ¬condLast (grid1.coords t) → (cfg1.win 6).flush t = false := by decide +kernel
theorem noFlush_7 : ∀ t : Fin cfg1.N, ¬condLast (grid1.coords t) → (cfg1.win 7).flush t = false := by decide +kernel
theorem noFlush_8 : ∀ t : Fin cfg1.N, ¬condLast (grid1.coords t) → (cfg1.win 8).flush t = false := by decide +kernel
theorem noFlush_9 : ∀ t : Fin cfg1.N, ¬condLast (grid1.coords t) → (cfg1.win 9).flush t = false := by decide +kernel
/-- At the last point of a row they are live. -/
theorem live_6 : ∀ t : Fin cfg1.N, condLast (grid1.coords t) → cfg1.idle 6 (grid1.coords t) = false := by decide +kernel
theorem live_7 : ∀ t : Fin cfg1.N, condLast (grid1.coords t) → cfg1.idle 7 (grid1.coords t) = false := by decide +kernel
theorem live_8 : ∀ t : Fin cfg1.N, condLast (grid1.coords t) → cfg1.idle 8 (grid1.coords t) = false := by decide +kernel
theorem live_9 : ∀ t : Fin cfg1.N, condLast (grid1.coords t) → cfg1.idle 9 (grid1.coords t) = false := by decide +kernel

/-! ## The staging memrefs at a point -/

abbrev ms0 (t : Fin cfg1.N) : Memref sig .tc .vmem S512x512 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x512 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S512 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S512 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S512 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S512 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S512 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S512 .f32 := win1_8.stage (cfg1.slots t 8)
abbrev hs8 (t : Fin cfg1.N) : (ms8 t).IsWhole := hstage1_8 ((cfg1.slots t 8).cast nbuf1_8)
abbrev ms9 (t : Fin cfg1.N) : Memref sig .tc .vmem S512 .f32 := win1_9.stage (cfg1.slots t 9)
abbrev hs9 (t : Fin cfg1.N) : (ms9 t).IsWhole := hstage1_9 ((cfg1.slots t 9).cast nbuf1_9)

/-! ## What the inputs' staging buffers hold -/

/-- What the body leaves in each input's buffer, the window written as a numeral. -/
theorem afterLit_0 (c : Dev nD) (t : Fin cfg1.N) : (dat V c).after 0 t = iblk V c 0 t := by dsimp only [dat]
theorem afterLit_1 (c : Dev nD) (t : Fin cfg1.N) : (dat V c).after 1 t = iblk V c 1 t := by dsimp only [dat]
theorem afterLit_2 (c : Dev nD) (t : Fin cfg1.N) : (dat V c).after 2 t = iblk V c 2 t := by dsimp only [dat]
theorem afterLit_3 (c : Dev nD) (t : Fin cfg1.N) : (dat V c).after 3 t = iblk V c 3 t := by dsimp only [dat]
theorem afterLit_4 (c : Dev nD) (t : Fin cfg1.N) : (dat V c).after 4 t = iblk V c 4 t := by dsimp only [dat]
theorem afterLit_5 (c : Dev nD) (t : Fin cfg1.N) : (dat V c).after 5 t = iblk V c 5 t := by dsimp only [dat]

/-- Each input's current staging buffer holds its block at every point, fetched there or not: unfetched, the
    block index has not moved since the point that fetched it. -/
theorem before_0 (c : Dev nD) (t : Fin cfg1.N) (d) : (dat V c).before 0 t d = iblk V c 0 t :=
  ((dat V c).before_in_eq_fetched 0 rfl (fun _ => rfl) (fun _ _ _ => rfl) (fun t => by rw [afterLit_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [afterLit_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [afterLit_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl) (fun t => by rw [afterLit_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl) (fun t => by rw [afterLit_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl) (fun t => by rw [afterLit_5]; unfold Dat.blockOf iblk; rw [A_eq]; try rfl) t d).trans
    (by unfold Dat.fetched Dat.blockOf iblk; rw [A_eq]; try rfl)

end Cert.KernelIdeal.Lse

end
-- ==== Proof.Lse.Whole.lean ====
/- Loads and stores through a whole buffer: a load of the whole buffer reads its contents, a store of the whole
   buffer leaves the stored vector whatever was there, and a load after such a store reads the stored vector. -/
import proofs.«123878_j24489903522258_2_alg».proof.Proof.Shares
import Idealize.ShloMosaic.Lib.Pipeline.Value
import Idealize.ShloMosaic.Lib.WholeRead

namespace Cert.KernelIdeal.Lse

open Cert.KernelIdeal
open Idealize.ShloMosaic

/-- The offsets of a whole-vector access are zero. -/
theorem zeros_S512 : (![0] : Fin S512.rank → ℕ) = fun _ => 0 := by
  funext a; exact Fin.cases rfl (fun j => j.elim0) a

/-- The offsets of a whole-matrix access are zero. -/
theorem zeros_S512x512 : (![0, 0] : Fin S512x512.rank → ℕ) = fun _ => 0 := by
  funext a; exact Fin.cases rfl (fun j => Fin.cases rfl (fun k => k.elim0) j) a

variable {sig : RefSig} {κ : Kind} {sp : Space} {S : Shape} {e : EltTy} {Val : EltTy → Type}

/-- A load of a whole buffer held at the contents that read `X` reads `X`. -/
theorem load_whole {m : Memref sig κ sp S e} (h : m.IsWhole) (X : S.Idx → Val e) {off : Fin S.rank → ℕ}
    (ho : off = fun _ => 0) (inb : ∀ a, off a + S.size a ≤ S.size a) :
    m.view.readAt Val (Rect.unit off S.size inb).toLoadRect (h.unread X) = X := by
  show View.ld (m.view.read Val (h.unread X)) (Rect.unit off S.size inb) = X
  rw [h.read_unread]; exact View.ld_unit_zero ho inb X

/-- After a store of the whole buffer, the buffer reads the stored vector. -/
theorem store_whole [∀ e, Nonempty (Val e)] (v : View sig κ sp S e) (f : v.ty.Contents Val) {off : Fin S.rank → ℕ}
    (ho : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero ho inb y⟩),
    View.canon_cons_unit_zero ho]

/-- A load of the whole buffer after a store of the whole buffer reads the stored vector. -/
theorem reload_whole [∀ e, Nonempty (Val e)] (v : View sig κ sp S e) {off : Fin S.rank → ℕ}
    (ho : off = fun _ => 0) (inb : ∀ a, off a + S.size a ≤ S.size a) (w : S.Idx → Val e) (L : List (View.Piece Val S e))
    {off' : Fin S.rank → ℕ} (ho' : off' = fun _ => 0) (inb' : ∀ a, off' a + S.size a ≤ S.size a) :
    v.readCov ((⟨Rect.unit off S.size inb, w⟩ : View.Piece Val S e) :: L) (Rect.unit off' S.size inb').toLoadRect = w := by
  rw [View.readCov_eq_canon', View.canon_cons_unit_zero ho]; exact View.ld_unit_zero ho' inb' w

end Cert.KernelIdeal.Lse
-- ==== Proof.Lse.RunFirst.lean ====
/- The body of the log-sum-exp kernel at the first point of a row: the six carried vectors are set from the tile. -/
import proofs.«123878_j24489903522258_2_alg».proof.Proof.Lse.Sched
import proofs.«123878_j24489903522258_2_alg».proof.Proof.Lse.Whole

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option pp.maxSteps 20000
set_option pp.deepTerms false

set_option maxHeartbeats 2000000 in
/-- At a point with sweep coordinate 0, on whole staging memrefs holding the six input blocks, the body leaves the
    inputs and the four output buffers as they were and the six scratch vectors at the tile's first carry,
    whatever they held. -/
theorem run_first (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S512 .f32) (harg11 : arg11.IsWhole) (arg12 : Memref sig .tc .vmem S512 .f32) (harg12 : arg12.IsWhole) (arg13 : Memref sig .tc .vmem S512 .f32) (harg13 : arg13.IsWhole) (arg14 : Memref sig .tc .vmem S512 .f32) (harg14 : arg14.IsWhole) (arg15 : Memref sig .tc .vmem S512 .f32) (harg15 : arg15.IsWhole) (arg16 : Memref sig .tc .vmem S512 .f32) (harg16 : arg16.IsWhole) (arg17 : Memref sig .tc .vmem S512 .f32) (harg17 : arg17.IsWhole)
    (hc1 : condFirst i) (hc2 : ¬condNext i) (hc3 : ¬condLast i)
    (ej ei : Vec F S512x512 .f32) (lj li : Vec F S512 .i32) (pb nb : Vec F S512 .f32)
    (o6 o7 o8 o9 : Vec F S512 .f32) (E : Set ℕ) (K : PUnit → sProp 𝕄) :
    iprop(owns (c : Thread nD τ) arg2 fullShare ej ∗ owns (c : Thread nD τ) arg3 fullShare ei
        ∗ owns (c : Thread nD τ) arg4 fullShare lj ∗ owns (c : Thread nD τ) arg5 fullShare li
        ∗ owns (c : Thread nD τ) arg6 fullShare pb ∗ owns (c : Thread nD τ) arg7 fullShare nb
        ∗ owns (c : Thread nD τ) arg8 fullShare o6 ∗ owns (c : Thread nD τ) arg9 fullShare o7
        ∗ owns (c : Thread nD τ) arg10 fullShare o8 ∗ owns (c : Thread nD τ) arg11 fullShare o9
        ∗ (∃ d, owns (c : Thread nD τ) arg12 fullShare d) ∗ (∃ d, owns (c : Thread nD τ) arg13 fullShare d)
        ∗ (∃ d, owns (c : Thread nD τ) arg14 fullShare d) ∗ (∃ d, owns (c : Thread nD τ) arg15 fullShare d)
        ∗ (∃ d, owns (c : Thread nD τ) arg16 fullShare d) ∗ (∃ d, owns (c : Thread nD τ) arg17 fullShare d)
        ∗ (iprop(owns (c : Thread nD τ) arg2 fullShare ej ∗ owns (c : Thread nD τ) arg3 fullShare ei
        ∗ owns (c : Thread nD τ) arg4 fullShare lj ∗ owns (c : Thread nD τ) arg5 fullShare li
        ∗ owns (c : Thread nD τ) arg6 fullShare pb ∗ owns (c : Thread nD τ) arg7 fullShare nb
        ∗ owns (c : Thread nD τ) arg8 fullShare o6 ∗ owns (c : Thread nD τ) arg9 fullShare o7
        ∗ owns (c : Thread nD τ) arg10 fullShare o8 ∗ owns (c : Thread nD τ) arg11 fullShare o9
        ∗ owns (c : Thread nD τ) arg12 fullShare (Carry.first (tile ej ei lj li pb nb)).posRef ∗ owns (c : Thread nD τ) arg13 fullShare (Carry.first (tile ej ei lj li pb nb)).posSum
        ∗ owns (c : Thread nD τ) arg14 fullShare (Carry.first (tile ej ei lj li pb nb)).posChk ∗ owns (c : Thread nD τ) arg15 fullShare (Carry.first (tile ej ei lj li pb nb)).negRef
        ∗ owns (c : Thread nD τ) arg16 fullShare (Carry.first (tile ej ei lj li pb nb)).negSum ∗ owns (c : Thread nD τ) arg17 fullShare (Carry.first (tile ej ei lj li pb nb)).negChk) -∗ K ⟨⟩))
      ⊢ wp frame (wpE (defs₀ (F := F)) Variants.none c none) E (cc1__logsumexp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__logsumexp_kernel_eq_skeleton]; unfold cc1__logsumexp_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  obtain rfl := harg8.eq_unread hf8; obtain rfl := harg9.eq_unread hf9; obtain rfl := harg10.eq_unread hf10; obtain rfl := harg11.eq_unread hf11
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr
    swap; · iexact H12
    ipureintro; refine (store_whole arg12.view _ zeros_S512 _ _ _).trans ?_
    sl_unfold_run_names
    simp only [Carry.first, tile, load_whole harg2 ej zeros_S512x512, load_whole harg3 ei zeros_S512x512, load_whole harg4 lj zeros_S512, load_whole harg5 li zeros_S512, load_whole harg6 pb zeros_S512, load_whole harg7 nb zeros_S512]
  isplitl [H13]
  · iexists _; isplitr
    swap; · iexact H13
    ipureintro; refine (store_whole arg13.view _ zeros_S512 _ _ _).trans ?_
    sl_unfold_run_names
    simp only [Carry.first, tile, load_whole harg2 ej zeros_S512x512, load_whole harg3 ei zeros_S512x512, load_whole harg4 lj zeros_S512, load_whole harg5 li zeros_S512, load_whole harg6 pb zeros_S512, load_whole harg7 nb zeros_S512]
  isplitl [H14]
  · iexists _; isplitr
    swap; · iexact H14
    ipureintro; refine (store_whole arg14.view _ zeros_S512 _ _ _).trans ?_
    sl_unfold_run_names
    simp only [Carry.first, tile, load_whole harg2 ej zeros_S512x512, load_whole harg3 ei zeros_S512x512, load_whole harg4 lj zeros_S512, load_whole harg5 li zeros_S512, load_whole harg6 pb zeros_S512, load_whole harg7 nb zeros_S512]
  isplitl [H15]
  · iexists _; isplitr
    swap; · iexact H15
    ipureintro; refine (store_whole arg15.view _ zeros_S512 _ _ _).trans ?_
    sl_unfold_run_names
    simp only [Carry.first, tile, load_whole harg2 ej zeros_S512x512, load_whole harg3 ei zeros_S512x512, load_whole harg4 lj zeros_S512, load_whole harg5 li zeros_S512, load_whole harg6 pb zeros_S512, load_whole harg7 nb zeros_S512]
  isplitl [H16]
  · iexists _; isplitr
    swap; · iexact H16
    ipureintro; refine (store_whole arg16.view _ zeros_S512 _ _ _).trans ?_
    sl_unfold_run_names
    simp only [Carry.first, tile, load_whole harg2 ej zeros_S512x512, load_whole harg3 ei zeros_S512x512, load_whole harg4 lj zeros_S512, load_whole harg5 li zeros_S512, load_whole harg6 pb zeros_S512, load_whole harg7 nb zeros_S512]
  iexists _; isplitr
  swap; · iexact H17
  ipureintro; refine (store_whole arg17.view _ zeros_S512 _ _ _).trans ?_
  sl_unfold_run_names
  simp only [Carry.first, tile, load_whole harg2 ej zeros_S512x512, load_whole harg3 ei zeros_S512x512, load_whole harg4 lj zeros_S512, load_whole harg5 li zeros_S512, load_whole harg6 pb zeros_S512, load_whole harg7 nb zeros_S512]

end Cert.KernelIdeal.Lse

end
-- ==== Proof.Lse.RunNext.lean ====
/- The body of the log-sum-exp kernel at an inner point of a row: the six carried vectors are updated from the tile. -/
import proofs.«123878_j24489903522258_2_alg».proof.Proof.Lse.Sched
import proofs.«123878_j24489903522258_2_alg».proof.Proof.Lse.Whole

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option pp.maxSteps 20000
set_option pp.deepTerms false

set_option maxHeartbeats 2000000 in
/-- At a point with sweep coordinate strictly between 0 and 7, on whole staging memrefs holding the six input blocks
    and scratch vectors holding the carry `s`, the body leaves the inputs and the four output buffers as they were
    and the scratch vectors at the update of `s` by the tile. -/
theorem run_next (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S512 .f32) (harg11 : arg11.IsWhole) (arg12 : Memref sig .tc .vmem S512 .f32) (harg12 : arg12.IsWhole) (arg13 : Memref sig .tc .vmem S512 .f32) (harg13 : arg13.IsWhole) (arg14 : Memref sig .tc .vmem S512 .f32) (harg14 : arg14.IsWhole) (arg15 : Memref sig .tc .vmem S512 .f32) (harg15 : arg15.IsWhole) (arg16 : Memref sig .tc .vmem S512 .f32) (harg16 : arg16.IsWhole) (arg17 : Memref sig .tc .vmem S512 .f32) (harg17 : arg17.IsWhole)
    (hc1 : ¬condFirst i) (hc2 : condNext i) (hc3 : ¬condLast i)
    (ej ei : Vec F S512x512 .f32) (lj li : Vec F S512 .i32) (pb nb : Vec F S512 .f32)
    (o6 o7 o8 o9 : Vec F S512 .f32) (s : Carry F) (E : Set ℕ) (K : PUnit → sProp 𝕄) :
    iprop(owns (c : Thread nD τ) arg2 fullShare ej ∗ owns (c : Thread nD τ) arg3 fullShare ei
        ∗ owns (c : Thread nD τ) arg4 fullShare lj ∗ owns (c : Thread nD τ) arg5 fullShare li
        ∗ owns (c : Thread nD τ) arg6 fullShare pb ∗ owns (c : Thread nD τ) arg7 fullShare nb
        ∗ owns (c : Thread nD τ) arg8 fullShare o6 ∗ owns (c : Thread nD τ) arg9 fullShare o7
        ∗ owns (c : Thread nD τ) arg10 fullShare o8 ∗ owns (c : Thread nD τ) arg11 fullShare o9
        ∗ owns (c : Thread nD τ) arg12 fullShare (s).posRef ∗ owns (c : Thread nD τ) arg13 fullShare (s).posSum
        ∗ owns (c : Thread nD τ) arg14 fullShare (s).posChk ∗ owns (c : Thread nD τ) arg15 fullShare (s).negRef
        ∗ owns (c : Thread nD τ) arg16 fullShare (s).negSum ∗ owns (c : Thread nD τ) arg17 fullShare (s).negChk
        ∗ (iprop(owns (c : Thread nD τ) arg2 fullShare ej ∗ owns (c : Thread nD τ) arg3 fullShare ei
        ∗ owns (c : Thread nD τ) arg4 fullShare lj ∗ owns (c : Thread nD τ) arg5 fullShare li
        ∗ owns (c : Thread nD τ) arg6 fullShare pb ∗ owns (c : Thread nD τ) arg7 fullShare nb
        ∗ owns (c : Thread nD τ) arg8 fullShare o6 ∗ owns (c : Thread nD τ) arg9 fullShare o7
        ∗ owns (c : Thread nD τ) arg10 fullShare o8 ∗ owns (c : Thread nD τ) arg11 fullShare o9
        ∗ owns (c : Thread nD τ) arg12 fullShare (Carry.next (tile ej ei lj li pb nb) s).posRef ∗ owns (c : Thread nD τ) arg13 fullShare (Carry.next (tile ej ei lj li pb nb) s).posSum
        ∗ owns (c : Thread nD τ) arg14 fullShare (Carry.next (tile ej ei lj li pb nb) s).posChk ∗ owns (c : Thread nD τ) arg15 fullShare (Carry.next (tile ej ei lj li pb nb) s).negRef
        ∗ owns (c : Thread nD τ) arg16 fullShare (Carry.next (tile ej ei lj li pb nb) s).negSum ∗ owns (c : Thread nD τ) arg17 fullShare (Carry.next (tile ej ei lj li pb nb) s).negChk) -∗ K ⟨⟩))
      ⊢ wp frame (wpE (defs₀ (F := F)) Variants.none c none) E (cc1__logsumexp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__logsumexp_kernel_eq_skeleton]; unfold cc1__logsumexp_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  obtain rfl := harg8.eq_unread hf8; obtain rfl := harg9.eq_unread hf9; obtain rfl := harg10.eq_unread hf10; obtain rfl := harg11.eq_unread hf11
  obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr
    swap; · iexact H12
    ipureintro; refine (store_whole arg12.view _ zeros_S512 _ _ _).trans ?_
    sl_unfold_run_names
    simp only [Carry.next, tile, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  isplitl [H13]
  · iexists _; isplitr
    swap; · iexact H13
    ipureintro; refine (store_whole arg13.view _ zeros_S512 _ _ _).trans ?_
    sl_unfold_run_names
    simp only [Carry.next, tile, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  isplitl [H14]
  · iexists _; isplitr
    swap; · iexact H14
    ipureintro; refine (store_whole arg14.view _ zeros_S512 _ _ _).trans ?_
    sl_unfold_run_names
    simp only [Carry.next, tile, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  isplitl [H15]
  · iexists _; isplitr
    swap; · iexact H15
    ipureintro; refine (store_whole arg15.view _ zeros_S512 _ _ _).trans ?_
    sl_unfold_run_names
    simp only [Carry.next, tile, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  isplitl [H16]
  · iexists _; isplitr
    swap; · iexact H16
    ipureintro; refine (store_whole arg16.view _ zeros_S512 _ _ _).trans ?_
    sl_unfold_run_names
    simp only [Carry.next, tile, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  iexists _; isplitr
  swap; · iexact H17
  ipureintro; refine (store_whole arg17.view _ zeros_S512 _ _ _).trans ?_
  sl_unfold_run_names
  simp only [Carry.next, tile, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]

end Cert.KernelIdeal.Lse

end
-- ==== Proof.Lse.RunLast.lean ====
/- The body of the log-sum-exp kernel at the last point of a row: the six carried vectors are updated from the tile
   and the four results are read off them. -/
import proofs.«123878_j24489903522258_2_alg».proof.Proof.Lse.Sched
import proofs.«123878_j24489903522258_2_alg».proof.Proof.Lse.Whole

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option pp.maxSteps 20000
set_option pp.deepTerms false

set_option maxHeartbeats 2000000 in
/-- At a point with sweep coordinate 7, on whole staging memrefs holding the six input blocks and scratch vectors
    holding the carry `s`, the body leaves the inputs as they were, the scratch vectors at the update of `s` by the
    tile, and the four output buffers at the results of that update, whatever they held. -/
theorem run_last (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S512 .f32) (harg11 : arg11.IsWhole) (arg12 : Memref sig .tc .vmem S512 .f32) (harg12 : arg12.IsWhole) (arg13 : Memref sig .tc .vmem S512 .f32) (harg13 : arg13.IsWhole) (arg14 : Memref sig .tc .vmem S512 .f32) (harg14 : arg14.IsWhole) (arg15 : Memref sig .tc .vmem S512 .f32) (harg15 : arg15.IsWhole) (arg16 : Memref sig .tc .vmem S512 .f32) (harg16 : arg16.IsWhole) (arg17 : Memref sig .tc .vmem S512 .f32) (harg17 : arg17.IsWhole)
    (hc1 : ¬condFirst i) (hc2 : condNext i) (hc3 : condLast i)
    (ej ei : Vec F S512x512 .f32) (lj li : Vec F S512 .i32) (pb nb : Vec F S512 .f32)
    (s : Carry F) (E : Set ℕ) (K : PUnit → sProp 𝕄) :
    iprop(owns (c : Thread nD τ) arg2 fullShare ej ∗ owns (c : Thread nD τ) arg3 fullShare ei
        ∗ owns (c : Thread nD τ) arg4 fullShare lj ∗ owns (c : Thread nD τ) arg5 fullShare li
        ∗ owns (c : Thread nD τ) arg6 fullShare pb ∗ owns (c : Thread nD τ) arg7 fullShare nb
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ owns (c : Thread nD τ) arg12 fullShare (s).posRef ∗ owns (c : Thread nD τ) arg13 fullShare (s).posSum
        ∗ owns (c : Thread nD τ) arg14 fullShare (s).posChk ∗ owns (c : Thread nD τ) arg15 fullShare (s).negRef
        ∗ owns (c : Thread nD τ) arg16 fullShare (s).negSum ∗ owns (c : Thread nD τ) arg17 fullShare (s).negChk
        ∗ (iprop(owns (c : Thread nD τ) arg2 fullShare ej ∗ owns (c : Thread nD τ) arg3 fullShare ei
        ∗ owns (c : Thread nD τ) arg4 fullShare lj ∗ owns (c : Thread nD τ) arg5 fullShare li
        ∗ owns (c : Thread nD τ) arg6 fullShare pb ∗ owns (c : Thread nD τ) arg7 fullShare nb
        ∗ owns (c : Thread nD τ) arg8 fullShare (Carry.next (tile ej ei lj li pb nb) s).results.posVals ∗ owns (c : Thread nD τ) arg9 fullShare (Carry.next (tile ej ei lj li pb nb) s).results.posNz
        ∗ owns (c : Thread nD τ) arg10 fullShare (Carry.next (tile ej ei lj li pb nb) s).results.negVals ∗ owns (c : Thread nD τ) arg11 fullShare (Carry.next (tile ej ei lj li pb nb) s).results.negNz
        ∗ owns (c : Thread nD τ) arg12 fullShare (Carry.next (tile ej ei lj li pb nb) s).posRef ∗ owns (c : Thread nD τ) arg13 fullShare (Carry.next (tile ej ei lj li pb nb) s).posSum
        ∗ owns (c : Thread nD τ) arg14 fullShare (Carry.next (tile ej ei lj li pb nb) s).posChk ∗ owns (c : Thread nD τ) arg15 fullShare (Carry.next (tile ej ei lj li pb nb) s).negRef
        ∗ owns (c : Thread nD τ) arg16 fullShare (Carry.next (tile ej ei lj li pb nb) s).negSum ∗ owns (c : Thread nD τ) arg17 fullShare (Carry.next (tile ej ei lj li pb nb) s).negChk) -∗ K ⟨⟩))
      ⊢ wp frame (wpE (defs₀ (F := F)) Variants.none c none) E (cc1__logsumexp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__logsumexp_kernel_eq_skeleton]; unfold cc1__logsumexp_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro; refine (store_whole arg8.view _ zeros_S512 _ _ _).trans ?_
    sl_unfold_run_names
    simp only [Carry.results, Carry.next, tile, reload_whole arg12.view zeros_S512 _ _ _ zeros_S512, reload_whole arg13.view zeros_S512 _ _ _ zeros_S512, reload_whole arg14.view zeros_S512 _ _ _ zeros_S512, reload_whole arg15.view zeros_S512 _ _ _ zeros_S512, reload_whole arg16.view zeros_S512 _ _ _ zeros_S512, reload_whole arg17.view zeros_S512 _ _ _ zeros_S512, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  isplitl [H9]
  · iexists _; isplitr
    swap; · iexact H9
    ipureintro; refine (store_whole arg9.view _ zeros_S512 _ _ _).trans ?_
    sl_unfold_run_names
    simp only [Carry.results, Carry.next, tile, reload_whole arg12.view zeros_S512 _ _ _ zeros_S512, reload_whole arg13.view zeros_S512 _ _ _ zeros_S512, reload_whole arg14.view zeros_S512 _ _ _ zeros_S512, reload_whole arg15.view zeros_S512 _ _ _ zeros_S512, reload_whole arg16.view zeros_S512 _ _ _ zeros_S512, reload_whole arg17.view zeros_S512 _ _ _ zeros_S512, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  isplitl [H10]
  · iexists _; isplitr
    swap; · iexact H10
    ipureintro; refine (store_whole arg10.view _ zeros_S512 _ _ _).trans ?_
    sl_unfold_run_names
    simp only [Carry.results, Carry.next, tile, reload_whole arg12.view zeros_S512 _ _ _ zeros_S512, reload_whole arg13.view zeros_S512 _ _ _ zeros_S512, reload_whole arg14.view zeros_S512 _ _ _ zeros_S512, reload_whole arg15.view zeros_S512 _ _ _ zeros_S512, reload_whole arg16.view zeros_S512 _ _ _ zeros_S512, reload_whole arg17.view zeros_S512 _ _ _ zeros_S512, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  isplitl [H11]
  · iexists _; isplitr
    swap; · iexact H11
    ipureintro; refine (store_whole arg11.view _ zeros_S512 _ _ _).trans ?_
    sl_unfold_run_names
    simp only [Carry.results, Carry.next, tile, reload_whole arg12.view zeros_S512 _ _ _ zeros_S512, reload_whole arg13.view zeros_S512 _ _ _ zeros_S512, reload_whole arg14.view zeros_S512 _ _ _ zeros_S512, reload_whole arg15.view zeros_S512 _ _ _ zeros_S512, reload_whole arg16.view zeros_S512 _ _ _ zeros_S512, reload_whole arg17.view zeros_S512 _ _ _ zeros_S512, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  isplitl [H12]
  · iexists _; isplitr
    swap; · iexact H12
    ipureintro; refine (store_whole arg12.view _ zeros_S512 _ _ _).trans ?_
    sl_unfold_run_names
    simp only [Carry.results, Carry.next, tile, reload_whole arg12.view zeros_S512 _ _ _ zeros_S512, reload_whole arg13.view zeros_S512 _ _ _ zeros_S512, reload_whole arg14.view zeros_S512 _ _ _ zeros_S512, reload_whole arg15.view zeros_S512 _ _ _ zeros_S512, reload_whole arg16.view zeros_S512 _ _ _ zeros_S512, reload_whole arg17.view zeros_S512 _ _ _ zeros_S512, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  isplitl [H13]
  · iexists _; isplitr
    swap; · iexact H13
    ipureintro; refine (store_whole arg13.view _ zeros_S512 _ _ _).trans ?_
    sl_unfold_run_names
    simp only [Carry.results, Carry.next, tile, reload_whole arg12.view zeros_S512 _ _ _ zeros_S512, reload_whole arg13.view zeros_S512 _ _ _ zeros_S512, reload_whole arg14.view zeros_S512 _ _ _ zeros_S512, reload_whole arg15.view zeros_S512 _ _ _ zeros_S512, reload_whole arg16.view zeros_S512 _ _ _ zeros_S512, reload_whole arg17.view zeros_S512 _ _ _ zeros_S512, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  isplitl [H14]
  · iexists _; isplitr
    swap; · iexact H14
    ipureintro; refine (store_whole arg14.view _ zeros_S512 _ _ _).trans ?_
    sl_unfold_run_names
    simp only [Carry.results, Carry.next, tile, reload_whole arg12.view zeros_S512 _ _ _ zeros_S512, reload_whole arg13.view zeros_S512 _ _ _ zeros_S512, reload_whole arg14.view zeros_S512 _ _ _ zeros_S512, reload_whole arg15.view zeros_S512 _ _ _ zeros_S512, reload_whole arg16.view zeros_S512 _ _ _ zeros_S512, reload_whole arg17.view zeros_S512 _ _ _ zeros_S512, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  isplitl [H15]
  · iexists _; isplitr
    swap; · iexact H15
    ipureintro; refine (store_whole arg15.view _ zeros_S512 _ _ _).trans ?_
    sl_unfold_run_names
    simp only [Carry.results, Carry.next, tile, reload_whole arg12.view zeros_S512 _ _ _ zeros_S512, reload_whole arg13.view zeros_S512 _ _ _ zeros_S512, reload_whole arg14.view zeros_S512 _ _ _ zeros_S512, reload_whole arg15.view zeros_S512 _ _ _ zeros_S512, reload_whole arg16.view zeros_S512 _ _ _ zeros_S512, reload_whole arg17.view zeros_S512 _ _ _ zeros_S512, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  isplitl [H16]
  · iexists _; isplitr
    swap; · iexact H16
    ipureintro; refine (store_whole arg16.view _ zeros_S512 _ _ _).trans ?_
    sl_unfold_run_names
    simp only [Carry.results, Carry.next, tile, reload_whole arg12.view zeros_S512 _ _ _ zeros_S512, reload_whole arg13.view zeros_S512 _ _ _ zeros_S512, reload_whole arg14.view zeros_S512 _ _ _ zeros_S512, reload_whole arg15.view zeros_S512 _ _ _ zeros_S512, reload_whole arg16.view zeros_S512 _ _ _ zeros_S512, reload_whole arg17.view zeros_S512 _ _ _ zeros_S512, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  iexists _; isplitr
  swap; · iexact H17
  ipureintro; refine (store_whole arg17.view _ zeros_S512 _ _ _).trans ?_
  sl_unfold_run_names
  simp only [Carry.results, Carry.next, tile, reload_whole arg12.view zeros_S512 _ _ _ zeros_S512, reload_whole arg13.view zeros_S512 _ _ _ zeros_S512, reload_whole arg14.view zeros_S512 _ _ _ zeros_S512, reload_whole arg15.view zeros_S512 _ _ _ zeros_S512, reload_whole arg16.view zeros_S512 _ _ _ zeros_S512, reload_whole arg17.view zeros_S512 _ _ _ zeros_S512, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]

end Cert.KernelIdeal.Lse

end
-- ==== Proof.Lse.Obligation.lean ====
/- The body obligation of the log-sum-exp kernel's pipeline: at every point the body, called on the current staging
   buffers, takes the invariant before the point to the invariant after it and leaves every window's buffer at what
   the proof data say. Three cases by the sweep coordinate: first point of a row, inner point, last point. -/
import proofs.«123878_j24489903522258_2_alg».proof.Proof.Lse.RunFirst
import proofs.«123878_j24489903522258_2_alg».proof.Proof.Lse.RunNext
import proofs.«123878_j24489903522258_2_alg».proof.Proof.Lse.RunLast

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option pp.maxSteps 20000
set_option pp.deepTerms false

variable (V : (c : Dev nD) → (b : Ref sig .tc) → Buf (Elt F) ((c : Thread nD τ).loc b))

/-- What the body leaves in each output's buffer, the window written as a numeral. -/
theorem outLit_6 (c : Dev nD) (t : Fin cfg1.N) : (dat V c).after 6 t = (resultsAt V c t).posVals := by dsimp only [dat]
theorem outLit_7 (c : Dev nD) (t : Fin cfg1.N) : (dat V c).after 7 t = (resultsAt V c t).posNz := by dsimp only [dat]
theorem outLit_8 (c : Dev nD) (t : Fin cfg1.N) : (dat V c).after 8 t = (resultsAt V c t).negVals := by dsimp only [dat]
theorem outLit_9 (c : Dev nD) (t : Fin cfg1.N) : (dat V c).after 9 t = (resultsAt V c t).negNz := by dsimp only [dat]

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

set_option maxHeartbeats 4800000 in
/-- The body at any point. The inputs' buffers hold their blocks; the sweep coordinate says which case the point
    is in; the invariant hands the body the scratch vectors at what the point before left (at anything before the
    first point) and takes them back at this point's carry; off the last point of a row the outputs' buffers are
    handed back untouched, at it they hold the results. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  rw [show (dat V c).leavesExact 0 t = owns (c : Thread nD τ) (ms0 t) fullShare ((dat V c).after 0 t) from by
    unfold Dat.leavesExact; rw [live_0 t], afterLit_0]
  rw [show (dat V c).leavesExact 1 t = owns (c : Thread nD τ) (ms1 t) fullShare ((dat V c).after 1 t) from by
    unfold Dat.leavesExact; rw [live_1 t], afterLit_1]
  rw [show (dat V c).leavesExact 2 t = owns (c : Thread nD τ) (ms2 t) fullShare ((dat V c).after 2 t) from by
    unfold Dat.leavesExact; rw [live_2 t], afterLit_2]
  rw [show (dat V c).leavesExact 3 t = owns (c : Thread nD τ) (ms3 t) fullShare ((dat V c).after 3 t) from by
    unfold Dat.leavesExact; rw [live_3 t], afterLit_3]
  rw [show (dat V c).leavesExact 4 t = owns (c : Thread nD τ) (ms4 t) fullShare ((dat V c).after 4 t) from by
    unfold Dat.leavesExact; rw [live_4 t], afterLit_4]
  rw [show (dat V c).leavesExact 5 t = owns (c : Thread nD τ) (ms5 t) fullShare ((dat V c).after 5 t) from by
    unfold Dat.leavesExact; rw [live_5 t], afterLit_5]
  by_cases h0 : t.val % 8 = 0
  · have hc1 : condFirst (grid1.coords t) := (hcondFirst t).mpr h0
    have hc2 : ¬condNext (grid1.coords t) := fun h => (hcondNext t).mp h h0
    have hc3 : ¬condLast (grid1.coords t) := fun h => by have := (hcondLast t).mp h; omega
    rw [Dat.leavesExact_idle (dat V c) 6 t (idle_6 t hc3) (noFlush_6 t hc3)]
    rw [Dat.leavesExact_idle (dat V c) 7 t (idle_7 t hc3) (noFlush_7 t hc3)]
    rw [Dat.leavesExact_idle (dat V c) 8 t (idle_8 t hc3) (noFlush_8 t hc3)]
    rw [Dat.leavesExact_idle (dat V c) 9 t (idle_9 t hc3) (noFlush_9 t hc3)]
    rw [carryAt_first V c t h0]; unfold tileAt
    by_cases hz : t.val = 0
    · rw [PhiS_castSucc V c t, PhiS_zero V c _ _ hz, PhiA_eq]; unfold withRest heldAny held
      iintro ⟨⟨⟨R0, R1, R2, R3, R4, R5, R6, R7, R8, R9, R10, R11, R12, R13, S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_first c (grid1.coords t) _ _ _ _ _ _ _ _ _ _ _ _ _ _ _ _ _ _ _ _ _ _ _ _ _ _ _ _ _ _ _ _ hc1 hc2 hc3 (iblk V c 0 t) (iblk V c 1 t) (iblk V c 2 t) (iblk V c 3 t) (iblk V c 4 t) (iblk V c 5 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, H7, H8, H9, S0, S1, S2, S3, S4, S5⟩
      isplitl [R0 R1 R2 R3 R4 R5 R6 R7 R8 R9 R10 R11 R12 R13 S0 S1 S2 S3 S4 S5 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [S0]; · iexact S0
          isplitl [S1]; · iexact S1
          isplitl [S2]; · iexact S2
          isplitl [S3]; · iexact S3
          isplitl [S4]; · iexact S4
          iexact S5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      iexists _; iexact H9
    · rw [PhiS_castSucc V c t, PhiS_pos V c _ _ hz]; unfold withRest held
      iintro ⟨⟨⟨R0, R1, R2, R3, R4, R5, R6, R7, R8, R9, R10, R11, R12, R13, S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_first c (grid1.coords t) _ _ _ _ _ _ _ _ _ _ _ _ _ _ _ _ _ _ _ _ _ _ _ _ _ _ _ _ _ _ _ _ hc1 hc2 hc3 (iblk V c 0 t) (iblk V c 1 t) (iblk V c 2 t) (iblk V c 3 t) (iblk V c 4 t) (iblk V c 5 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      iintro ⟨H0, H1, H2, H3, H4, H5, H6, H7, H8, H9, S0, S1, S2, S3, S4, S5⟩
      isplitl [R0 R1 R2 R3 R4 R5 R6 R7 R8 R9 R10 R11 R12 R13 S0 S1 S2 S3 S4 S5 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [S0]; · iexact S0
          isplitl [S1]; · iexact S1
          isplitl [S2]; · iexact S2
          isplitl [S3]; · iexact S3
          isplitl [S4]; · iexact S4
          iexact S5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      iexists _; iexact H9
  · have hc1 : ¬condFirst (grid1.coords t) := fun h => h0 ((hcondFirst t).mp h)
    have hc2 : condNext (grid1.coords t) := (hcondNext t).mpr h0
    have hz : t.val ≠ 0 := fun h => h0 (by rw [h])
    by_cases h7 : t.val % 8 = 7
    · have hc3 : condLast (grid1.coords t) := (hcondLast t).mpr h7
      rw [show (dat V c).leavesExact 6 t = owns (c : Thread nD τ) (ms6 t) fullShare ((dat V c).after 6 t) from by
        unfold Dat.leavesExact; rw [live_6 t hc3], outLit_6]
      rw [show (dat V c).leavesExact 7 t = owns (c : Thread nD τ) (ms7 t) fullShare ((dat V c).after 7 t) from by
        unfold Dat.leavesExact; rw [live_7 t hc3], outLit_7]
      rw [show (dat V c).leavesExact 8 t = owns (c : Thread nD τ) (ms8 t) fullShare ((dat V c).after 8 t) from by
        unfold Dat.leavesExact; rw [live_8 t hc3], outLit_8]
      rw [show (dat V c).leavesExact 9 t = owns (c : Thread nD τ) (ms9 t) fullShare ((dat V c).after 9 t) from by
        unfold Dat.leavesExact; rw [live_9 t hc3], outLit_9]
      unfold resultsAt; rw [carryAt_next V c t h0]; unfold tileAt
      rw [PhiS_castSucc V c t, PhiS_pos V c _ _ hz]; unfold withRest held
      iintro ⟨⟨⟨R0, R1, R2, R3, R4, R5, R6, R7, R8, R9, R10, R11, R12, R13, S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_last c (grid1.coords t) _ _ _ _ _ _ _ _ _ _ _ _ _ _ _ _ _ _ _ _ _ _ _ _ _ _ _ _ _ _ _ _ hc1 hc2 hc3 (iblk V c 0 t) (iblk V c 1 t) (iblk V c 2 t) (iblk V c 3 t) (iblk V c 4 t) (iblk V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, H7, H8, H9, S0, S1, S2, S3, S4, S5⟩
      isplitl [R0 R1 R2 R3 R4 R5 R6 R7 R8 R9 R10 R11 R12 R13 S0 S1 S2 S3 S4 S5 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [S0]; · iexact S0
          isplitl [S1]; · iexact S1
          isplitl [S2]; · iexact S2
          isplitl [S3]; · iexact S3
          isplitl [S4]; · iexact S4
          iexact S5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · have hc3 : ¬condLast (grid1.coords t) := fun h => h7 ((hcondLast t).mp h)
      rw [Dat.leavesExact_idle (dat V c) 6 t (idle_6 t hc3) (noFlush_6 t hc3)]
      rw [Dat.leavesExact_idle (dat V c) 7 t (idle_7 t hc3) (noFlush_7 t hc3)]
      rw [Dat.leavesExact_idle (dat V c) 8 t (idle_8 t hc3) (noFlush_8 t hc3)]
      rw [Dat.leavesExact_idle (dat V c) 9 t (idle_9 t hc3) (noFlush_9 t hc3)]
      rw [carryAt_next V c t h0]; unfold tileAt
      rw [PhiS_castSucc V c t, PhiS_pos V c _ _ hz]; unfold withRest held
      iintro ⟨⟨⟨R0, R1, R2, R3, R4, R5, R6, R7, R8, R9, R10, R11, R12, R13, S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_next c (grid1.coords t) _ _ _ _ _ _ _ _ _ _ _ _ _ _ _ _ _ _ _ _ _ _ _ _ _ _ _ _ _ _ _ _ hc1 hc2 hc3 (iblk V c 0 t) (iblk V c 1 t) (iblk V c 2 t) (iblk V c 3 t) (iblk V c 4 t) (iblk V c 5 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, H7, H8, H9, S0, S1, S2, S3, S4, S5⟩
      isplitl [R0 R1 R2 R3 R4 R5 R6 R7 R8 R9 R10 R11 R12 R13 S0 S1 S2 S3 S4 S5 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [S0]; · iexact S0
          isplitl [S1]; · iexact S1
          isplitl [S2]; · iexact S2
          isplitl [S3]; · iexact S3
          isplitl [S4]; · iexact S4
          iexact S5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      iexists _; iexact H9

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Lse

end
-- ==== Proof.Frame.Deal1.lean ====
/- Dealing the arrays of the log-sum-exp kernel among its windows.

   The kernel reads each of the program's two arguments through two windows, so one buffer lies behind two of the
   pipeline's arrays. When the region is entered the core holds that buffer whole; the pipeline takes it as its two
   half shares, one per window, at the same contents. When the region is left the two halves, still at the contents
   they were taken at (an input's array is never written), make the buffer whole again. Every other window's array is
   a buffer of its own and passes whole in both directions. -/
import proofs.«123878_j24489903522258_2_alg».proof.Proof.Shares
import Idealize.ShloMosaic.Lib.Pipeline.Frame
import Idealize.ShloMosaic.Lib.Pipeline.Regions

set_option maxRecDepth 4096

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ (UR sig nD τ) ℕ

/-- The distinct buffers behind the log-sum-exp kernel's ten windows: the two arguments, the two bound vectors it
    reads and the four vectors it writes. -/
theorem image1 : (Finset.univ.image (Pipeline.arrRef spec1) : Finset (Ref sig .tc)) = {main_arg0, main_arg1, main_v0_0, main_v0_1, main_v1_0, main_v1_1, main_v1_2, main_v1_3} := by decide

/-- Those eight buffers, each whole at the full share. -/
theorem arrBufs1_eq (c : Dev nD) (V : (b : Ref sig .tc) → Buf (Elt F) ((c.tc : Thread nD τ).loc b)) :
    (Pipeline.arrBufs spec1 c V : sProp 𝕄) =
      iprop((((c.tc : Thread nD τ).loc main_arg0) ↦{fullShare} V main_arg0)
        ∗ (((c.tc : Thread nD τ).loc main_arg1) ↦{fullShare} V main_arg1)
        ∗ (((c.tc : Thread nD τ).loc main_v0_0) ↦{fullShare} V main_v0_0)
        ∗ (((c.tc : Thread nD τ).loc main_v0_1) ↦{fullShare} V main_v0_1)
        ∗ (((c.tc : Thread nD τ).loc main_v1_0) ↦{fullShare} V main_v1_0)
        ∗ (((c.tc : Thread nD τ).loc main_v1_1) ↦{fullShare} V main_v1_1)
        ∗ (((c.tc : Thread nD τ).loc main_v1_2) ↦{fullShare} V main_v1_2)
        ∗ (((c.tc : Thread nD τ).loc main_v1_3) ↦{fullShare} V main_v1_3)) := by
  unfold Pipeline.arrBufs
  rw [image1, bigSep_insert (by decide), bigSep_insert (by decide), bigSep_insert (by decide), bigSep_insert (by decide), bigSep_insert (by decide), bigSep_insert (by decide), bigSep_insert (by decide), bigSep_singleton]
  rfl

/-- The ten windows' arrays as the pipeline holds them: each argument at the two halves of the full share, one
    half per window that reads it, and every other array whole. -/
theorem arrays1_eq (c : Dev nD) (dat : Dat τ (Elt F) Unit ℕ (UR sig nD τ) ℕ cfg1 c) (hq : ∀ w, dat.q w = q1 w)
    (V : (b : Ref sig .tc) → Buf (Elt F) ((c.tc : Thread nD τ).loc b))
    (Fw : (w : Fin cfg1.W) → Buf (Elt F) ((cfg1.win w).arr.view.loc (c.tc : Thread nD τ)))
    (hF : ∀ w, Fw w = V (Pipeline.arrRef spec1 w)) :
    (dat.arrays Fw : sProp 𝕄) =
      iprop((((c.tc : Thread nD τ).loc main_arg0) ↦{fullShare.left} V main_arg0)
        ∗ (((c.tc : Thread nD τ).loc main_arg0) ↦{fullShare.right} V main_arg0)
        ∗ (((c.tc : Thread nD τ).loc main_arg1) ↦{fullShare.left} V main_arg1)
        ∗ (((c.tc : Thread nD τ).loc main_arg1) ↦{fullShare.right} V main_arg1)
        ∗ (((c.tc : Thread nD τ).loc main_v0_0) ↦{fullShare} V main_v0_0)
        ∗ (((c.tc : Thread nD τ).loc main_v0_1) ↦{fullShare} V main_v0_1)
        ∗ (((c.tc : Thread nD τ).loc main_v1_0) ↦{fullShare} V main_v1_0)
        ∗ (((c.tc : Thread nD τ).loc main_v1_1) ↦{fullShare} V main_v1_1)
        ∗ (((c.tc : Thread nD τ).loc main_v1_2) ↦{fullShare} V main_v1_2)
        ∗ (((c.tc : Thread nD τ).loc main_v1_3) ↦{fullShare} V main_v1_3)) := by
  have s0 : dat.share 0 = fullShare.left := by unfold Dat.share; rw [hq 0]; rfl
  have s1 : dat.share 1 = fullShare.right := by unfold Dat.share; rw [hq 1]; rfl
  have s2 : dat.share 2 = fullShare.left := by unfold Dat.share; rw [hq 2]; rfl
  have s3 : dat.share 3 = fullShare.right := by unfold Dat.share; rw [hq 3]; rfl
  have s4 : dat.share 4 = fullShare := by unfold Dat.share; rw [hq 4]; rfl
  have s5 : dat.share 5 = fullShare := by unfold Dat.share; rw [hq 5]; rfl
  have s6 : dat.share 6 = fullShare := rfl
  have s7 : dat.share 7 = fullShare := rfl
  have s8 : dat.share 8 = fullShare := rfl
  have s9 : dat.share 9 = fullShare := rfl
  unfold Dat.arrays
  rw [bigSep_W1]
  simp only [(arr_whole1 0).set_eq_univ, (arr_whole1 1).set_eq_univ, (arr_whole1 2).set_eq_univ, (arr_whole1 3).set_eq_univ, (arr_whole1 4).set_eq_univ, (arr_whole1 5).set_eq_univ, (arr_whole1 6).set_eq_univ, (arr_whole1 7).set_eq_univ, (arr_whole1 8).set_eq_univ, (arr_whole1 9).set_eq_univ,
    s0, s1, s2, s3, s4, s5, s6, s7, s8, s9, hF 0, hF 1, hF 2, hF 3, hF 4, hF 5, hF 6, hF 7, hF 8, hF 9]

/-- Entering the region: the eight whole buffers give the ten windows' arrays, each argument's full share dealt in
    halves to the two windows that read it. -/
theorem arrays_of_arrBufs1 (c : Dev nD) (dat : Dat τ (Elt F) Unit ℕ (UR sig nD τ) ℕ cfg1 c) (hq : ∀ w, dat.q w = q1 w)
    (V : (b : Ref sig .tc) → Buf (Elt F) ((c.tc : Thread nD τ).loc b))
    (Fw : (w : Fin cfg1.W) → Buf (Elt F) ((cfg1.win w).arr.view.loc (c.tc : Thread nD τ)))
    (hF : ∀ w, Fw w = V (Pipeline.arrRef spec1 w)) :
    (Pipeline.arrBufs spec1 c V : sProp 𝕄) ⊢ dat.arrays Fw := by
  rw [arrBufs1_eq, arrays1_eq c dat hq V Fw hF]
  iintro ⟨H0, H1, H2, H3, H4, H5, H6, H7⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitl [H0l]; · iexact H0l
  isplitl [H0r]; · iexact H0r
  isplitl [H1l]; · iexact H1l
  isplitl [H1r]; · iexact H1r
  isplitl [H2]; · iexact H2
  isplitl [H3]; · iexact H3
  isplitl [H4]; · iexact H4
  isplitl [H5]; · iexact H5
  isplitl [H6]; · iexact H6
  iexact H7

/-- Leaving the region: the two halves of each argument, at the same contents, make its buffer whole again. -/
theorem arrBufs_of_arrays1 (c : Dev nD) (dat : Dat τ (Elt F) Unit ℕ (UR sig nD τ) ℕ cfg1 c) (hq : ∀ w, dat.q w = q1 w)
    (V : (b : Ref sig .tc) → Buf (Elt F) ((c.tc : Thread nD τ).loc b))
    (Fw : (w : Fin cfg1.W) → Buf (Elt F) ((cfg1.win w).arr.view.loc (c.tc : Thread nD τ)))
    (hF : ∀ w, Fw w = V (Pipeline.arrRef spec1 w)) :
    (dat.arrays Fw : sProp 𝕄) ⊢ Pipeline.arrBufs spec1 c V := by
  rw [arrBufs1_eq, arrays1_eq c dat hq V Fw hF]
  iintro ⟨H0l, H0r, H1l, H1r, H2, H3, H4, H5, H6, H7⟩
  isplitl [H0l H0r]
  · iapply (pointsTo_share (PosShare.mem_left_op_right fullShare)).2
    isplitl [H0l]; · iexact H0l
    iexact H0r
  isplitl [H1l H1r]
  · iapply (pointsTo_share (PosShare.mem_left_op_right fullShare)).2
    isplitl [H1l]; · iexact H1l
    iexact H1r
  isplitl [H2]; · iexact H2
  isplitl [H3]; · iexact H3
  isplitl [H4]; · iexact H4
  isplitl [H5]; · iexact H5
  isplitl [H6]; · iexact H6
  iexact H7

end Cert.KernelIdeal.Hand
end
-- ==== Proof.Frame.Deal0.lean ====
/- Dealing the arrays of the bounds kernel among its windows.

   The kernel reads each of the program's two arguments through two windows, so one buffer lies behind two of the
   pipeline's arrays. When the region is entered the core holds that buffer whole; the pipeline takes it as its two
   half shares, one per window, at the same contents. When the region is left the two halves, still at the contents
   they were taken at (an input's array is never written), make the buffer whole again. Every other window's array is
   a buffer of its own and passes whole in both directions. -/
import proofs.«123878_j24489903522258_2_alg».proof.Proof.Shares
import Idealize.ShloMosaic.Lib.Pipeline.Frame
import Idealize.ShloMosaic.Lib.Pipeline.Regions

set_option maxRecDepth 4096

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ (UR sig nD τ) ℕ

/-- The distinct buffers behind the bounds kernel's six windows: the two arguments and the two bound vectors. -/
theorem image0 : (Finset.univ.image (Pipeline.arrRef spec0) : Finset (Ref sig .tc)) = {main_arg0, main_arg1, main_v0_0, main_v0_1} := by decide

/-- Those four buffers, each whole at the full share. -/
theorem arrBufs0_eq (c : Dev nD) (V : (b : Ref sig .tc) → Buf (Elt F) ((c.tc : Thread nD τ).loc b)) :
    (Pipeline.arrBufs spec0 c V : sProp 𝕄) =
      iprop((((c.tc : Thread nD τ).loc main_arg0) ↦{fullShare} V main_arg0) ∗ (((c.tc : Thread nD τ).loc main_arg1) ↦{fullShare} V main_arg1)
        ∗ (((c.tc : Thread nD τ).loc main_v0_0) ↦{fullShare} V main_v0_0) ∗ (((c.tc : Thread nD τ).loc main_v0_1) ↦{fullShare} V main_v0_1)) := by
  unfold Pipeline.arrBufs
  rw [image0, bigSep_insert (by decide), bigSep_insert (by decide), bigSep_insert (by decide), bigSep_singleton]
  rfl

/-- The six windows' arrays as the pipeline holds them: each argument at the two halves of the full share, one
    half per window that reads it, and each bound vector whole. -/
theorem arrays0_eq (c : Dev nD) (dat : Dat τ (Elt F) Unit ℕ (UR sig nD τ) ℕ cfg0 c) (hq : ∀ w, dat.q w = q0 w)
    (V : (b : Ref sig .tc) → Buf (Elt F) ((c.tc : Thread nD τ).loc b))
    (Fw : (w : Fin cfg0.W) → Buf (Elt F) ((cfg0.win w).arr.view.loc (c.tc : Thread nD τ)))
    (hF : ∀ w, Fw w = V (Pipeline.arrRef spec0 w)) :
    (dat.arrays Fw : sProp 𝕄) =
      iprop((((c.tc : Thread nD τ).loc main_arg0) ↦{fullShare.left} V main_arg0) ∗ (((c.tc : Thread nD τ).loc main_arg0) ↦{fullShare.right} V main_arg0)
        ∗ (((c.tc : Thread nD τ).loc main_arg1) ↦{fullShare.left} V main_arg1) ∗ (((c.tc : Thread nD τ).loc main_arg1) ↦{fullShare.right} V main_arg1)
        ∗ (((c.tc : Thread nD τ).loc main_v0_0) ↦{fullShare} V main_v0_0) ∗ (((c.tc : Thread nD τ).loc main_v0_1) ↦{fullShare} V main_v0_1)) := by
  have s0 : dat.share 0 = fullShare.left := by unfold Dat.share; rw [hq 0]; rfl
  have s1 : dat.share 1 = fullShare.right := by unfold Dat.share; rw [hq 1]; rfl
  have s2 : dat.share 2 = fullShare.left := by unfold Dat.share; rw [hq 2]; rfl
  have s3 : dat.share 3 = fullShare.right := by unfold Dat.share; rw [hq 3]; rfl
  have s4 : dat.share 4 = fullShare := rfl
  have s5 : dat.share 5 = fullShare := rfl
  unfold Dat.arrays
  rw [bigSep_W0]
  simp only [(arr_whole0 0).set_eq_univ, (arr_whole0 1).set_eq_univ, (arr_whole0 2).set_eq_univ, (arr_whole0 3).set_eq_univ,
    (arr_whole0 4).set_eq_univ, (arr_whole0 5).set_eq_univ, s0, s1, s2, s3, s4, s5, hF 0, hF 1, hF 2, hF 3, hF 4, hF 5]

/-- Entering the region: the four whole buffers give the six windows' arrays, each argument's full share dealt
    in halves to the two windows that read it. -/
theorem arrays_of_arrBufs0 (c : Dev nD) (dat : Dat τ (Elt F) Unit ℕ (UR sig nD τ) ℕ cfg0 c) (hq : ∀ w, dat.q w = q0 w)
    (V : (b : Ref sig .tc) → Buf (Elt F) ((c.tc : Thread nD τ).loc b))
    (Fw : (w : Fin cfg0.W) → Buf (Elt F) ((cfg0.win w).arr.view.loc (c.tc : Thread nD τ)))
    (hF : ∀ w, Fw w = V (Pipeline.arrRef spec0 w)) :
    (Pipeline.arrBufs spec0 c V : sProp 𝕄) ⊢ dat.arrays Fw := by
  rw [arrBufs0_eq, arrays0_eq c dat hq V Fw hF]
  iintro ⟨H0, H1, H2, H3⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitl [H0l]; · iexact H0l
  isplitl [H0r]; · iexact H0r
  isplitl [H1l]; · iexact H1l
  isplitl [H1r]; · iexact H1r
  isplitl [H2]; · iexact H2
  iexact H3

/-- Leaving the region: the two halves of each argument, at the same contents, make its buffer whole again. -/
theorem arrBufs_of_arrays0 (c : Dev nD) (dat : Dat τ (Elt F) Unit ℕ (UR sig nD τ) ℕ cfg0 c) (hq : ∀ w, dat.q w = q0 w)
    (V : (b : Ref sig .tc) → Buf (Elt F) ((c.tc : Thread nD τ).loc b))
    (Fw : (w : Fin cfg0.W) → Buf (Elt F) ((cfg0.win w).arr.view.loc (c.tc : Thread nD τ)))
    (hF : ∀ w, Fw w = V (Pipeline.arrRef spec0 w)) :
    (dat.arrays Fw : sProp 𝕄) ⊢ Pipeline.arrBufs spec0 c V := by
  rw [arrBufs0_eq, arrays0_eq c dat hq V Fw hF]
  iintro ⟨H0l, H0r, H1l, H1r, H2, H3⟩
  isplitl [H0l H0r]
  · iapply (pointsTo_share (PosShare.mem_left_op_right fullShare)).2
    isplitl [H0l]; · iexact H0l
    iexact H0r
  isplitl [H1l H1r]
  · iapply (pointsTo_share (PosShare.mem_left_op_right fullShare)).2
    isplitl [H1l]; · iexact H1l
    iexact H1r
  isplitl [H2]; · iexact H2
  iexact H3

end Cert.KernelIdeal.Hand
end
-- ==== Proof.Frame.Region0.lean ====
/- The first kernel region as a segment of @main.

   Between two items of @main a core holds every unscoped buffer whole, beside its generator register and its debts
   (none). Entering the region, the buffers that lie behind the kernel's windows are dealt to the pipeline (an argument
   read through two windows as its two half shares) and every other unscoped buffer bypasses the region; the generator
   register and the scoped buffers that are no staging buffer go into the pipeline's invariant. Leaving it, the
   windows' arrays come back at what the write-backs left — an input's as it was, an output's at the folded blocks —
   the halves are joined, and with the buffers that bypassed the region they are again every unscoped buffer whole,
   now at the contents after the region. -/
import proofs.«123878_j24489903522258_2_alg».proof.Proof.Frame.Deal0
import proofs.«123878_j24489903522258_2_alg».proof.Proof.Gen.KernelIdeal.Regions
import Idealize.ShloMosaic.Lib.Pipeline.Frame
import Idealize.ShloMosaic.Lib.Pipeline.Regions

set_option maxRecDepth 4096

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (outs : Outs (F := F))

/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)

/-- The unscoped buffers' contents at launch, before the second region and after it, read at the TensorCore's references. -/
abbrev Vr0 : (c : Dev nD) → (b : Ref sig .tc) → Buf (Elt F) ((c : Thread nD τ).loc b) := fun c b => V0 m c b
abbrev Vr1 : (c : Dev nD) → (b : Ref sig .tc) → Buf (Elt F) ((c : Thread nD τ).loc b) := fun c b => V1 m outs c b
abbrev Vr2 : (c : Dev nD) → (b : Ref sig .tc) → Buf (Elt F) ((c : Thread nD τ).loc b) := fun c b => V2 m outs c b

theorem unscoped0 : ∀ w, (Pipeline.arrRef spec0 w).isScoped = false := by decide

/-- A buffer that is none of the bounds kernel's arrays holds after the region what it held before. -/
theorem rest0_eq (c : Dev nD) :
    (Pipeline.unscopedRest (Ix := Unit) (Name := ℕ) (U := UR sig nD τ) (Lvl := ℕ) spec0 c (Vr1 m outs c) : sProp 𝕄)
      = Pipeline.unscopedRest spec0 c (Vr0 m c) := by
  unfold Pipeline.unscopedRest
  refine bigSep_congr fun b hb => ?_
  have hb' : b ∉ Finset.univ.image (Pipeline.arrRef spec0) := (Finset.mem_sdiff.mp hb).2
  rw [image0] at hb'
  have : b ∉ ([main_v0_0, main_v0_1] : List (Ref sig .tc)) := by
    intro h; apply hb'; simp only [List.mem_cons, List.mem_nil_iff, or_false] at h
    rcases h with rfl | rfl <;> decide
  rw [show Vr1 m outs c b = Vr0 m c b from V1_of m outs c b this]

set_option backward.isDefEq.respectTransparency.types false in
/-- The first region as a segment of @main, from the facts of its proof data. -/
def reg0 (pdats : (p : Fin 2) → (c : Dev nD) → Dat τ (Elt F) Unit ℕ (UR sig nD τ) ℕ (cfgs p) c)
    (hq : ∀ c w, (pdats 0 c).q w = q0 w)
    (hA : ∀ c w, (pdats 0 c).A w = Vr0 m c (Pipeline.arrRef spec0 w))
    (hN : ∀ c w, (pdats 0 c).arrAt w cfg0.N = Vr1 m outs c (Pipeline.arrRef spec0 w))
    (howed : ∀ c t, (pdats 0 c).owed t = 0)
    (hrec : ∀ c t, (pdats 0 c).recorded t = Set.univ)
    (hbody : ∀ c, Pipeline.BodyObligation (pdats 0 c) (defs₀ (F := F)) Variants.none () Set.univ)
    (hin : ∀ c, (Pipeline.ΦA spec0 c : sProp 𝕄) ⊢ (pdats 0 c).Φ 0)
    (hout : ∀ c, (pdats 0 c).Φ (Fin.last cfg0.N) ⊢ (Pipeline.ΦA spec0 c : sProp 𝕄)) :
    Pipeline.RegionSeg (pcfgs (F := F)) adm pdats () defs₀ Variants.none L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 howed
  pre c := iprop(StableHlo.held (c : Thread nD τ) (Pipeline.ucRefs τ sig) (V0 m c) ∗ R c)
  post c := iprop(StableHlo.held (c : Thread nD τ) (Pipeline.ucRefs τ sig) (V1 m outs c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit : (StableHlo.held (c : Thread nD τ) (Pipeline.ucRefs τ sig) (V0 m c) : sProp 𝕄)
        ⊢ iprop((pdats 0 c).arrays ((pdats 0 c).arrAt · 0) ∗ Pipeline.unscopedRest spec0 c (Vr0 m c)) := by
      rw [← Pipeline.unscopedBufs_held (Ix := Unit) (Name := ℕ) (U := UR sig nD τ) (Lvl := ℕ) c (V0 m c),
        Pipeline.unscopedBufs_split₀ cfgs 0 unscoped0 c (Vr0 m c)]
      exact sep_mono (arrays_of_arrBufs0 c (pdats 0 c) (hq c) (Vr0 m c) _ (fun w => hA c w)) .rfl
    have hO : (iprop(∃ W, owes (c : Thread nD τ) (0 : CellTallies nD τ sig Unit) W) : sProp 𝕄) ⊢ (pdats 0 c).owesAt () 0 := by
      unfold Pipeline.Dat.owesAt Pipeline.owesWithin
      rw [howed c 0]
      iintro ⟨%W, HO⟩; iexists W; isplitr; · ipureintro; exact fun _ _ => Or.inl ((hrec c 0).symm ▸ Set.mem_univ _)
      iexact HO
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hO; iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin : iprop((pdats 0 c).arrays ((pdats 0 c).arrAt · cfg0.N) ∗ Pipeline.unscopedRest spec0 c (Vr0 m c))
        ⊢ (StableHlo.held (c : Thread nD τ) (Pipeline.ucRefs τ sig) (V1 m outs c) : sProp 𝕄) := by
      rw [← Pipeline.unscopedBufs_held (Ix := Unit) (Name := ℕ) (U := UR sig nD τ) (Lvl := ℕ) c (V1 m outs c),
        Pipeline.unscopedBufs_split₀ cfgs 0 unscoped0 c (Vr1 m outs c),
        show (Pipeline.unscopedRest (cfgs 0).spec c (Vr1 m outs c) : sProp 𝕄) = Pipeline.unscopedRest spec0 c (Vr0 m c) from rest0_eq m outs c]
      exact sep_mono (arrBufs_of_arrays0 c (pdats 0 c) (hq c) (Vr1 m outs c) _ (fun w => hN c w)) .rfl
    have hO : (pdats 0 c).owesAt () (Fin.last cfg0.N) ⊢ (iprop(∃ W, owes (c : Thread nD τ) (0 : CellTallies nD τ sig Unit) W) : sProp 𝕄) := by
      unfold Pipeline.Dat.owesAt Pipeline.owesWithin
      rw [howed c (Fin.last cfg0.N)]
      iintro ⟨%W, -, HO⟩; iexists W; iexact HO
    iintro ⟨Ha, HO, HY, Hrest⟩
    imodintro
    isplitl [Ha Hrest]
    · iapply hjoin; isplitl [Ha] <;> iassumption
    isplitl [HY]; · iexact HY
    iapply hO; iexact HO

end Cert.KernelIdeal.Hand
end
-- ==== Proof.Frame.Region1.lean ====
/- The second kernel region as a segment of @main.

   Between two items of @main a core holds every unscoped buffer whole, beside its generator register and its debts
   (none). Entering the region, the buffers that lie behind the kernel's windows are dealt to the pipeline (an argument
   read through two windows as its two half shares) and every other unscoped buffer bypasses the region; the generator
   register and the scoped buffers that are no staging buffer go into the pipeline's invariant. Leaving it, the
   windows' arrays come back at what the write-backs left — an input's as it was, an output's at the folded blocks —
   the halves are joined, and with the buffers that bypassed the region they are again every unscoped buffer whole,
   now at the contents after the region. -/
import proofs.«123878_j24489903522258_2_alg».proof.Proof.Frame.Deal1
import proofs.«123878_j24489903522258_2_alg».proof.Proof.Frame.Region0
import Idealize.ShloMosaic.Lib.Pipeline.Frame
import Idealize.ShloMosaic.Lib.Pipeline.Regions

set_option maxRecDepth 4096

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (outs : Outs (F := F))

theorem unscoped1 : ∀ w, (Pipeline.arrRef spec1 w).isScoped = false := by decide

/-- A buffer that is none of the log-sum-exp kernel's arrays holds after the region what it held before. -/
theorem rest1_eq (c : Dev nD) :
    (Pipeline.unscopedRest (Ix := Unit) (Name := ℕ) (U := UR sig nD τ) (Lvl := ℕ) spec1 c (Vr2 m outs c) : sProp 𝕄)
      = Pipeline.unscopedRest spec1 c (Vr1 m outs c) := by
  unfold Pipeline.unscopedRest
  refine bigSep_congr fun b hb => ?_
  have hb' : b ∉ Finset.univ.image (Pipeline.arrRef spec1) := (Finset.mem_sdiff.mp hb).2
  rw [image1] at hb'
  have : b ∉ ([main_v1_0, main_v1_1, main_v1_2, main_v1_3] : List (Ref sig .tc)) := by
    intro h; apply hb'; simp only [List.mem_cons, List.mem_nil_iff, or_false] at h
    rcases h with rfl | rfl | rfl | rfl <;> decide
  rw [show Vr2 m outs c b = Vr1 m outs c b from V2_of m outs c b this]

set_option backward.isDefEq.respectTransparency.types false in
/-- The second region as a segment of @main, from the facts of its proof data. -/
def reg1 (pdats : (p : Fin 2) → (c : Dev nD) → Dat τ (Elt F) Unit ℕ (UR sig nD τ) ℕ (cfgs p) c)
    (hq : ∀ c w, (pdats 1 c).q w = q1 w)
    (hA : ∀ c w, (pdats 1 c).A w = Vr1 m outs c (Pipeline.arrRef spec1 w))
    (hN : ∀ c w, (pdats 1 c).arrAt w cfg1.N = Vr2 m outs c (Pipeline.arrRef spec1 w))
    (howed : ∀ c t, (pdats 1 c).owed t = 0)
    (hrec : ∀ c t, (pdats 1 c).recorded t = Set.univ)
    (hbody : ∀ c, Pipeline.BodyObligation (pdats 1 c) (defs₀ (F := F)) Variants.none () Set.univ)
    (hin : ∀ c, (Pipeline.ΦA spec1 c : sProp 𝕄) ⊢ (pdats 1 c).Φ 0)
    (hout : ∀ c, (pdats 1 c).Φ (Fin.last cfg1.N) ⊢ (Pipeline.ΦA spec1 c : sProp 𝕄)) :
    Pipeline.RegionSeg (pcfgs (F := F)) adm pdats () defs₀ Variants.none L lv 1 where
  win := winFacts₀1
  block_pos := block_pos1
  stage_whole := stage_whole1
  K := PEmpty
  osem k := k.elim
  ho := Pipeline.OwnSemFacts.none _
  hbody c := (hbody c).loose
  hwaits := Pipeline.hwaits_of_owed_zero _ _ _ _ L lv 1 howed
  pre c := iprop(StableHlo.held (c : Thread nD τ) (Pipeline.ucRefs τ sig) (V1 m outs c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec1 c (Vr1 m outs c)
  hentry c := by
    rw [Pipeline.ownSems0_none]
    have hsplit : (StableHlo.held (c : Thread nD τ) (Pipeline.ucRefs τ sig) (V1 m outs c) : sProp 𝕄)
        ⊢ iprop((pdats 1 c).arrays ((pdats 1 c).arrAt · 0) ∗ Pipeline.unscopedRest spec1 c (Vr1 m outs c)) := by
      rw [← Pipeline.unscopedBufs_held (Ix := Unit) (Name := ℕ) (U := UR sig nD τ) (Lvl := ℕ) c (V1 m outs c),
        Pipeline.unscopedBufs_split₀ cfgs 1 unscoped1 c (Vr1 m outs c)]
      exact sep_mono (arrays_of_arrBufs1 c (pdats 1 c) (hq c) (Vr1 m outs c) _ (fun w => hA c w)) .rfl
    have hO : (iprop(∃ W, owes (c : Thread nD τ) (0 : CellTallies nD τ sig Unit) W) : sProp 𝕄) ⊢ (pdats 1 c).owesAt () 0 := by
      unfold Pipeline.Dat.owesAt Pipeline.owesWithin
      rw [howed c 0]
      iintro ⟨%W, HO⟩; iexists W; isplitr; · ipureintro; exact fun _ _ => Or.inl ((hrec c 0).symm ▸ Set.mem_univ _)
      iexact HO
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hO; iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin : iprop((pdats 1 c).arrays ((pdats 1 c).arrAt · cfg1.N) ∗ Pipeline.unscopedRest spec1 c (Vr1 m outs c))
        ⊢ (StableHlo.held (c : Thread nD τ) (Pipeline.ucRefs τ sig) (V2 m outs c) : sProp 𝕄) := by
      rw [← Pipeline.unscopedBufs_held (Ix := Unit) (Name := ℕ) (U := UR sig nD τ) (Lvl := ℕ) c (V2 m outs c),
        Pipeline.unscopedBufs_split₀ cfgs 1 unscoped1 c (Vr2 m outs c),
        show (Pipeline.unscopedRest (cfgs 1).spec c (Vr2 m outs c) : sProp 𝕄) = Pipeline.unscopedRest spec1 c (Vr1 m outs c) from rest1_eq m outs c]
      exact sep_mono (arrBufs_of_arrays1 c (pdats 1 c) (hq c) (Vr2 m outs c) _ (fun w => hN c w)) .rfl
    have hO : (pdats 1 c).owesAt () (Fin.last cfg1.N) ⊢ (iprop(∃ W, owes (c : Thread nD τ) (0 : CellTallies nD τ sig Unit) W) : sProp 𝕄) := by
      unfold Pipeline.Dat.owesAt Pipeline.owesWithin
      rw [howed c (Fin.last cfg1.N)]
      iintro ⟨%W, -, HO⟩; iexists W; iexact HO
    iintro ⟨Ha, HO, HY, Hrest⟩
    imodintro
    isplitl [Ha Hrest]
    · iapply hjoin; isplitl [Ha] <;> iassumption
    isplitl [HY]; · iexact HY
    iapply hO; iexact HO

end Cert.KernelIdeal.Hand
end
-- ==== Proof.Frame.Ends.lean ====
/- What the unscoped buffers hold after each kernel region.

   The host side of @main is written over unknowns: what each region leaves in its output arrays. After a region
   every window's array must be the next valuation's contents of the buffer behind it: for an input window that is
   what the region found (an input's array is never written back, and no region output lies behind it), for an output
   window it is what is recorded as the region's output. -/
import proofs.«123878_j24489903522258_2_alg».proof.Proof.Frame.Region1
import Idealize.ShloMosaic.Lib.Pipeline.Frame
import Idealize.ShloMosaic.Lib.Pipeline.Regions

set_option maxRecDepth 4096

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The valuations after a region, read at the region's output arrays -/

theorem V1_at_v0_0 (outs : Outs (F := F)) (c : Dev nD) : V1 m outs c main_v0_0 = outs 1 main_v0_0 c := by
  unfold V1
  rw [Function.update_of_ne (StableHlo.devRef_ne_of_ne (by decide : main_v0_0 ≠ main_v0_1) : (Proc.devRef .tc main_v0_0 : DevRef τ sig) ≠ Proc.devRef .tc main_v0_1),
    Function.update_self]
theorem V1_at_v0_1 (outs : Outs (F := F)) (c : Dev nD) : V1 m outs c main_v0_1 = outs 1 main_v0_1 c := by
  unfold V1
  rw [Function.update_self]

theorem V2_at_v1_0 (outs : Outs (F := F)) (c : Dev nD) : V2 m outs c main_v1_0 = outs 2 main_v1_0 c := by
  unfold V2
  rw [Function.update_of_ne (StableHlo.devRef_ne_of_ne (by decide : main_v1_0 ≠ main_v1_3) : (Proc.devRef .tc main_v1_0 : DevRef τ sig) ≠ Proc.devRef .tc main_v1_3),
    Function.update_of_ne (StableHlo.devRef_ne_of_ne (by decide : main_v1_0 ≠ main_v1_2) : (Proc.devRef .tc main_v1_0 : DevRef τ sig) ≠ Proc.devRef .tc main_v1_2),
    Function.update_of_ne (StableHlo.devRef_ne_of_ne (by decide : main_v1_0 ≠ main_v1_1) : (Proc.devRef .tc main_v1_0 : DevRef τ sig) ≠ Proc.devRef .tc main_v1_1),
    Function.update_self]
theorem V2_at_v1_1 (outs : Outs (F := F)) (c : Dev nD) : V2 m outs c main_v1_1 = outs 2 main_v1_1 c := by
  unfold V2
  rw [Function.update_of_ne (StableHlo.devRef_ne_of_ne (by decide : main_v1_1 ≠ main_v1_3) : (Proc.devRef .tc main_v1_1 : DevRef τ sig) ≠ Proc.devRef .tc main_v1_3),
    Function.update_of_ne (StableHlo.devRef_ne_of_ne (by decide : main_v1_1 ≠ main_v1_2) : (Proc.devRef .tc main_v1_1 : DevRef τ sig) ≠ Proc.devRef .tc main_v1_2),
    Function.update_self]
theorem V2_at_v1_2 (outs : Outs (F := F)) (c : Dev nD) : V2 m outs c main_v1_2 = outs 2 main_v1_2 c := by
  unfold V2
  rw [Function.update_of_ne (StableHlo.devRef_ne_of_ne (by decide : main_v1_2 ≠ main_v1_3) : (Proc.devRef .tc main_v1_2 : DevRef τ sig) ≠ Proc.devRef .tc main_v1_3),
    Function.update_self]
theorem V2_at_v1_3 (outs : Outs (F := F)) (c : Dev nD) : V2 m outs c main_v1_3 = outs 2 main_v1_3 c := by
  unfold V2
  rw [Function.update_self]

/-! ## The arrays after a region are the next valuation's -/

/-- After the first region: an input window's array is as it was found, which no region output overwrites; the two
    output windows' arrays are what is recorded as the region's outputs. -/
theorem arrAt_end0 (c : Dev nD) (dat : Dat τ (Elt F) Unit ℕ (UR sig nD τ) ℕ cfg0 c)
    (hA : ∀ w, dat.A w = Vr0 m c (Pipeline.arrRef spec0 w)) (outs : Outs (F := F))
    (h4 : outs 1 main_v0_0 c = dat.arrAt 4 cfg0.N) (h5 : outs 1 main_v0_1 c = dat.arrAt 5 cfg0.N) :
    ∀ w, dat.arrAt w cfg0.N = Vr1 m outs c (Pipeline.arrRef spec0 w)
  | ⟨0, _⟩ => (dat.arrAt_in 0 rfl _).trans ((hA 0).trans (V1_of m outs c main_arg0 (by decide)).symm)
  | ⟨1, _⟩ => (dat.arrAt_in 1 rfl _).trans ((hA 1).trans (V1_of m outs c main_arg0 (by decide)).symm)
  | ⟨2, _⟩ => (dat.arrAt_in 2 rfl _).trans ((hA 2).trans (V1_of m outs c main_arg1 (by decide)).symm)
  | ⟨3, _⟩ => (dat.arrAt_in 3 rfl _).trans ((hA 3).trans (V1_of m outs c main_arg1 (by decide)).symm)
  | ⟨4, _⟩ => h4.symm.trans (V1_at_v0_0 m outs c).symm
  | ⟨5, _⟩ => h5.symm.trans (V1_at_v0_1 m outs c).symm

/-- After the second region, likewise: six input windows, four output windows. -/
theorem arrAt_end1 (outs : Outs (F := F)) (c : Dev nD) (dat : Dat τ (Elt F) Unit ℕ (UR sig nD τ) ℕ cfg1 c)
    (hA : ∀ w, dat.A w = Vr1 m outs c (Pipeline.arrRef spec1 w))
    (h6 : outs 2 main_v1_0 c = dat.arrAt 6 cfg1.N) (h7 : outs 2 main_v1_1 c = dat.arrAt 7 cfg1.N)
    (h8 : outs 2 main_v1_2 c = dat.arrAt 8 cfg1.N) (h9 : outs 2 main_v1_3 c = dat.arrAt 9 cfg1.N) :
    ∀ w, dat.arrAt w cfg1.N = Vr2 m outs c (Pipeline.arrRef spec1 w)
  | ⟨0, _⟩ => (dat.arrAt_in 0 rfl _).trans ((hA 0).trans (V2_of m outs c main_arg0 (by decide)).symm)
  | ⟨1, _⟩ => (dat.arrAt_in 1 rfl _).trans ((hA 1).trans (V2_of m outs c main_arg0 (by decide)).symm)
  | ⟨2, _⟩ => (dat.arrAt_in 2 rfl _).trans ((hA 2).trans (V2_of m outs c main_arg1 (by decide)).symm)
  | ⟨3, _⟩ => (dat.arrAt_in 3 rfl _).trans ((hA 3).trans (V2_of m outs c main_arg1 (by decide)).symm)
  | ⟨4, _⟩ => (dat.arrAt_in 4 rfl _).trans ((hA 4).trans (V2_of m outs c main_v0_0 (by decide)).symm)
  | ⟨5, _⟩ => (dat.arrAt_in 5 rfl _).trans ((hA 5).trans (V2_of m outs c main_v0_1 (by decide)).symm)
  | ⟨6, _⟩ => h6.symm.trans (V2_at_v1_0 m outs c).symm
  | ⟨7, _⟩ => h7.symm.trans (V2_at_v1_1 m outs c).symm
  | ⟨8, _⟩ => h8.symm.trans (V2_at_v1_2 m outs c).symm
  | ⟨9, _⟩ => h9.symm.trans (V2_at_v1_3 m outs c).symm

end Cert.KernelIdeal.Hand
end
-- ==== Proof.Frame.Family.lean ====
/- The two pipelines' proof data as one family, and what the regions leave.

   The first region is entered at the launch contents. What it leaves in its two output arrays is what its
   write-backs fold there; with those two buffers so updated the second region is entered, and what it leaves in its
   four output arrays is what its write-backs fold there. These are the unknowns the host side of @main is written
   over, and after each region every window's array is the next valuation's contents of its buffer. -/
import proofs.«123878_j24489903522258_2_alg».proof.Proof.Bounds.Data
import proofs.«123878_j24489903522258_2_alg».proof.Proof.Lse.Carry
import proofs.«123878_j24489903522258_2_alg».proof.Proof.Frame.Ends
import Idealize.ShloMosaic.Lib.Pipeline.Frame
import Idealize.ShloMosaic.Lib.Pipeline.Regions

set_option maxRecDepth 4096

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ (UR sig nD τ) ℕ

set_option maxHeartbeats 400000

variable (m : (ℓ : Loc nD τ sig) → Buf (Elt F) ℓ)

/-- The unscoped buffers after the first region: the two bound vectors at what the region's write-backs leave, every
    other buffer as launched. -/
def after0 (c : Dev nD) : (b : Ref sig .tc) → Buf (Elt F) ((c : Thread nD τ).loc b) :=
  Function.update (Function.update (Vr0 m c) main_v0_0 ((Bounds.dat (Vr0 m) c).arrAt 4 cfg0.N)) main_v0_1 ((Bounds.dat (Vr0 m) c).arrAt 5 cfg0.N)

theorem after0_v0_0 (c : Dev nD) : after0 m c main_v0_0 = (Bounds.dat (Vr0 m) c).arrAt 4 cfg0.N := by
  unfold after0
  rw [Function.update_of_ne (by decide : main_v0_0 ≠ main_v0_1), Function.update_self]
theorem after0_v0_1 (c : Dev nD) : after0 m c main_v0_1 = (Bounds.dat (Vr0 m) c).arrAt 5 cfg0.N := by
  unfold after0
  rw [Function.update_self]

/-- What the first region leaves, as the unknowns the host side is written over (only item 1 is read). -/
def outs0 : Outs (F := F) := fun _ r c => after0 m c r

/-- The unscoped buffers after the second region: its four output vectors at what its write-backs leave, every
    other buffer as the first region left it. -/
def after1 (c : Dev nD) : (b : Ref sig .tc) → Buf (Elt F) ((c : Thread nD τ).loc b) :=
  Function.update (Function.update (Function.update (Function.update (Vr1 m (outs0 m) c)
    main_v1_0 ((Lse.dat (Vr1 m (outs0 m)) c).arrAt 6 cfg1.N)) main_v1_1 ((Lse.dat (Vr1 m (outs0 m)) c).arrAt 7 cfg1.N))
    main_v1_2 ((Lse.dat (Vr1 m (outs0 m)) c).arrAt 8 cfg1.N)) main_v1_3 ((Lse.dat (Vr1 m (outs0 m)) c).arrAt 9 cfg1.N)

theorem after1_v1_0 (c : Dev nD) : after1 m c main_v1_0 = (Lse.dat (Vr1 m (outs0 m)) c).arrAt 6 cfg1.N := by
  unfold after1
  rw [Function.update_of_ne (by decide : main_v1_0 ≠ main_v1_3), Function.update_of_ne (by decide : main_v1_0 ≠ main_v1_2),
    Function.update_of_ne (by decide : main_v1_0 ≠ main_v1_1), Function.update_self]
theorem after1_v1_1 (c : Dev nD) : after1 m c main_v1_1 = (Lse.dat (Vr1 m (outs0 m)) c).arrAt 7 cfg1.N := by
  unfold after1
  rw [Function.update_of_ne (by decide : main_v1_1 ≠ main_v1_3), Function.update_of_ne (by decide : main_v1_1 ≠ main_v1_2), Function.update_self]
theorem after1_v1_2 (c : Dev nD) : after1 m c main_v1_2 = (Lse.dat (Vr1 m (outs0 m)) c).arrAt 8 cfg1.N := by
  unfold after1
  rw [Function.update_of_ne (by decide : main_v1_2 ≠ main_v1_3), Function.update_self]
theorem after1_v1_3 (c : Dev nD) : after1 m c main_v1_3 = (Lse.dat (Vr1 m (outs0 m)) c).arrAt 9 cfg1.N := by
  unfold after1
  rw [Function.update_self]

/-- What the two regions leave: item 1 the first region's, item 2 the second's. -/
def outs : Outs (F := F) := fun n r c => match n with
  | 1 => after0 m c r
  | _ => after1 m c r

theorem outs_one (r : Ref sig .tc) (c : Dev nD) : outs m 1 r c = after0 m c r := rfl
theorem outs_two (r : Ref sig .tc) (c : Dev nD) : outs m 2 r c = after1 m c r := rfl

/-- The valuation after the first region reads only item 1 of the unknowns. -/
theorem V1_congr (o o' : Outs (F := F)) (c : Dev nD) (h0 : o 1 main_v0_0 c = o' 1 main_v0_0 c) (h1 : o 1 main_v0_1 c = o' 1 main_v0_1 c) :
    V1 m o c = V1 m o' c := by
  unfold V1; rw [h0, h1]

theorem V1_outs (c : Dev nD) : V1 m (outs m) c = V1 m (outs0 m) c :=
  V1_congr m _ _ c (outs_one m main_v0_0 c) (outs_one m main_v0_1 c)

/-- Each pipeline's proof data at its region's entry contents. -/
def pdats : (p : Fin 2) → (c : Dev nD) → Dat τ (Elt F) Unit ℕ (UR sig nD τ) ℕ (cfgs p) c
  | ⟨0, _⟩ => fun c => Bounds.dat (Vr0 m) c
  | ⟨1, _⟩ => fun c => Lse.dat (Vr1 m (outs0 m)) c

theorem pdats_zero (c : Dev nD) : pdats m 0 c = Bounds.dat (Vr0 m) c := rfl
theorem pdats_one (c : Dev nD) : pdats m 1 c = Lse.dat (Vr1 m (outs0 m)) c := rfl

theorem hA1 (c : Dev nD) (w : Fin cfg1.W) : (Lse.dat (Vr1 m (outs0 m)) c).A w = Vr1 m (outs m) c (Pipeline.arrRef spec1 w) :=
  (Lse.A_eq (Vr1 m (outs0 m)) c w).trans (congrFun (V1_outs m c).symm _)

theorem hN0 (c : Dev nD) (w : Fin cfg0.W) : (Bounds.dat (Vr0 m) c).arrAt w cfg0.N = Vr1 m (outs m) c (Pipeline.arrRef spec0 w) :=
  arrAt_end0 m c (Bounds.dat (Vr0 m) c) (fun w => Bounds.A_eq (Vr0 m) c w) (outs m)
    ((outs_one m main_v0_0 c).trans (after0_v0_0 m c)) ((outs_one m main_v0_1 c).trans (after0_v0_1 m c)) w

theorem hN1 (c : Dev nD) (w : Fin cfg1.W) : (Lse.dat (Vr1 m (outs0 m)) c).arrAt w cfg1.N = Vr2 m (outs m) c (Pipeline.arrRef spec1 w) :=
  arrAt_end1 m (outs m) c (Lse.dat (Vr1 m (outs0 m)) c) (hA1 m c)
    ((outs_two m main_v1_0 c).trans (after1_v1_0 m c)) ((outs_two m main_v1_1 c).trans (after1_v1_1 m c))
    ((outs_two m main_v1_2 c).trans (after1_v1_2 m c)) ((outs_two m main_v1_3 c).trans (after1_v1_3 m c)) w

end Cert.KernelIdeal.Hand
end
-- ==== Proof.Frame.Cond.lean ====
/- The program's run, given what its two kernel regions do.

   @main is two kernel regions followed by seventeen stretches of host operations. Between two items a core holds
   every unscoped buffer whole: at launch the launch contents; after a region the same with the region's output
   arrays at what the region left there; after a host stretch the stretch's operations applied. The host stretches
   are segments of the library's launch theorem for several regions as they stand, so the run follows from one segment record per kernel region,
   entered from the thread state before it and left at the one after it. Every final memory then holds each buffer
   at the last valuation: the result scalar at the host tail's value of what the second region left, and the two
   arguments as launched, which no item writes. -/
import proofs.«123878_j24489903522258_2_alg».proof.Proof.Gen.KernelIdeal.Regions

set_option maxRecDepth 1116

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]
variable (m : (ℓ : Loc nD τ sig) → Buf (Elt F) ℓ)

set_option backward.isDefEq.respectTransparency.types false in
/-- Every weakly fair execution of @main from `m` with zero counters terminates, and every final memory holds the
    result at the last valuation's value and both arguments as launched — given, for each kernel region, a segment
    record entered from the thread state before the region and left at the one after it. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V1 m outs c) ∗ E 1 c) ⊢ R1.pre c)
    (hpost1 : ∀ c : Dev nD, R1.post c ⊢ iprop(StableHlo.held (c : Thread nD τ) (Pipeline.ucRefs τ sig) (V2 m outs c) ∗ E 2 c)) :
    θ_run defs (onTc (τ := τ) (main (F := F))) ⟨m, fun _ => 0, ρ⟩ (fun r => ∀ c : Dev nD,
      r.2.mem ((c.tc : Thread nD τ).loc main_v34) = V19 m outs c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          Prog.lift (.customCall (Pipeline.entry 1) ()),
          StableHlo.seq hostOps2, StableHlo.seq hostOps2_1, StableHlo.seq hostOps2_2, StableHlo.seq hostOps2_3,
          StableHlo.seq hostOps2_4, StableHlo.seq hostOps2_5, StableHlo.seq hostOps2_6, StableHlo.seq hostOps2_7,
          StableHlo.seq hostOps2_8, StableHlo.seq hostOps2_9, StableHlo.seq hostOps2_10, StableHlo.seq hostOps2_11,
          StableHlo.seq hostOps2_12, StableHlo.seq hostOps2_13, StableHlo.seq hostOps2_14, StableHlo.seq hostOps2_15,
          StableHlo.seq hostOps2_16 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V19 m outs c))
    (hch := fun c => ⟨hpre0 c, (hpost0 c).trans (hpre1 c), hpost1 c, .rfl, .rfl, .rfl, .rfl, .rfl, .rfl, .rfl, .rfl, .rfl, .rfl, .rfl, .rfl, .rfl, .rfl, .rfl, .rfl, sep_mono .rfl (hE2 c)⟩)
    (hinit := ?_)
    (QY := fun c s => s.mem ((c.tc : Thread nD τ).loc main_v34) = V19 m outs c main_v34
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h => h)
  · -- at launch the unscoped buffers are held at the launch contents, and the rest makes the first rest state
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the end every unscoped buffer is read off the last valuation
    unfold StableHlo.held
    iintro ⟨Hh, HSI⟩
    ihave Hr := (pointsTo_read_all (Pipeline.ucRefs τ sig) (fun b => ((c : Thread nD τ).1, b)) (V19 m outs c) s') $$ [Hh HSI]
    · isplitl [Hh] <;> iassumption
    icases Hr with ⟨%h, HSI⟩
    imodintro
    isplitr
    · ipureintro
      exact ⟨h (Proc.devRef .tc main_v34) (Finset.mem_filter.mpr ⟨StableHlo.devRef_mem_tcRefs main_v34, by decide⟩),
        (h (Proc.devRef .tc main_arg0) (Finset.mem_filter.mpr ⟨StableHlo.devRef_mem_tcRefs main_arg0, by decide⟩)).trans (V19_main_arg0 m outs c),
        (h (Proc.devRef .tc main_arg1) (Finset.mem_filter.mpr ⟨StableHlo.devRef_mem_tcRefs main_arg1, by decide⟩)).trans (V19_main_arg1 m outs c)⟩
    · iexact HSI

end Cert.KernelIdeal.Hand

end
-- ==== Proof.Frame.Run.lean ====
/- The kernel program's run and its frame.

   @main's two kernel regions are segments of the library's launch theorem for several regions, over the family of their proof data; the host stretches
   after them are segments as they stand. Beside the buffers every item carries the core's generator register and its
   debts, none: the launch makes that rest state on every core, and it ends owing nothing. -/
import proofs.«123878_j24489903522258_2_alg».proof.Proof.Bounds.Obligation
import proofs.«123878_j24489903522258_2_alg».proof.Proof.Lse.Obligation
import proofs.«123878_j24489903522258_2_alg».proof.Proof.Frame.Family
import proofs.«123878_j24489903522258_2_alg».proof.Proof.Frame.Cond
import Idealize.ShloMosaic.Lib.Pipeline.Frame
import Idealize.ShloMosaic.Lib.Pipeline.Regions

set_option maxRecDepth 4096

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The kernel program's run: from any memory with zero counters every weakly fair execution of @main terminates,
    nothing faulting; the result scalar ends at the host tail's value of what the two regions leave, and both arguments
    end as launched. -/
theorem run_main (ρ : Dev nD → PrngReg) :
    θ_run defs (onTc (τ := τ) (main (F := F))) ⟨m, fun _ => 0, ρ⟩ (fun r => ∀ c : Dev nD,
      r.2.mem ((c.tc : Thread nD τ).loc main_v34) = V19 m (outs m) c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, HO⟩; iexact HO)
    (R0 := reg0 m (outs m) (pdats m) (fun c w => Bounds.q_eq (Vr0 m) c w) (fun c w => Bounds.A_eq (Vr0 m) c w) (fun c w => hN0 m c w)
      (fun c t => Bounds.owed_eq (Vr0 m) c t) (fun _ _ => rfl) (fun c => Bounds.body_obligation (Vr0 m) c)
      (fun c => Bounds.hin (Vr0 m) c) (fun c => Bounds.hout (Vr0 m) c))
    (hpre0 := fun _ => .rfl) (hpost0 := fun _ => .rfl)
    (R1 := reg1 m (outs m) (pdats m) (fun c w => Lse.q_eq (Vr1 m (outs0 m)) c w) (fun c w => hA1 m c w) (fun c w => hN1 m c w)
      (fun c t => Lse.owed_eq (Vr1 m (outs0 m)) c t) (fun _ _ => rfl) (fun c => Lse.body_obligation (Vr1 m (outs0 m)) c)
      (fun c => Lse.hin (Vr1 m (outs0 m)) c) (fun c => Lse.hout (Vr1 m (outs0 m)) c))
    (hpre1 := fun _ => .rfl) (hpost1 := fun _ => .rfl)

/-- The frame: the arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand
end
-- ==== Proof.Word.Shares.lean ====
/- How the arrays the two kernels read are shared among their windows.

   Both kernels are handed the embeddings through two windows (a block of rows for the tile's first axis and a
   block of rows for its second) and the labels through two windows likewise. One buffer lies behind each pair,
   so the pair reads it at the two halves of the full share; every other window has its array to itself. -/
import proofs.«123878_j24489903522258_2_alg».proof.Proof.Gen.Kernel.Launch

namespace Cert.Kernel.Hand

open Idealize.ShloMosaic Idealize.SL.RA

/-- The bounds kernel: windows 0, 1 read the embeddings, 2, 3 the labels; 4, 5 are the two bounds it writes. -/
def q0 : Fin 6 → PosShare TreeShare
  | ⟨0, _⟩ => fullShare.left
  | ⟨1, _⟩ => fullShare.right
  | ⟨2, _⟩ => fullShare.left
  | ⟨3, _⟩ => fullShare.right
  | _ => fullShare

/-- The log-sum-exp kernel: windows 0, 1 read the embeddings, 2, 3 the labels, 4, 5 the two bounds; 6 to 9 are
    the four vectors it writes. -/
def q1 : Fin 10 → PosShare TreeShare
  | ⟨0, _⟩ => fullShare.left
  | ⟨1, _⟩ => fullShare.right
  | ⟨2, _⟩ => fullShare.left
  | ⟨3, _⟩ => fullShare.right
  | _ => fullShare

end Cert.Kernel.Hand
-- ==== Proof.Word.Bounds.Setup.lean ====
import proofs.«123878_j24489903522258_2_alg».proof.Proof.Gen.Kernel.Launch
import proofs.«123878_j24489903522258_2_alg».proof.Proof.Gen.Kernel.Skeleton
import proofs.«123878_j24489903522258_2_alg».proof.Proof.Gen.Kernel.Points
import proofs.«123878_j24489903522258_2_alg».proof.Proof.Word.Shares
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Bounds

open Cert.Kernel Cert.Kernel.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The bounds kernel: what its proofs share

The grid is 8 × 8; point `t` has coordinates `(i, j) = (t / 8, t % 8)`. Along a row of the grid (fixed `i`, `j` from 0 to 7)
the kernel keeps a running column minimum and a running column maximum in two scratch vectors: they are reset when `j = 0`,
folded with the tile's column minimum / maximum at every point, and copied to the two output blocks when `j = 7`. -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The two conditions on the grid point -/

/-- `j = 0`: the point opens a row of the grid (the kernel's first conditional, as its scalar chain computes it). -/
abbrev rowStart (i : grid0.Coords) : Prop :=
  (Scalar.cmpi .ne (Scalar.extui (Scalar.cmpi .eq (BitVec.ofNat 32 (i 1).val) 0#32)) 0#32) = 1#1

/-- `j = 7`: the point closes a row of the grid (the kernel's second conditional). -/
abbrev rowEnd (i : grid0.Coords) : Prop := k0_cond2 i = 1#1

theorem rowStart_iff : ∀ t : Fin cfg0.N, rowStart (grid0.coords t) ↔ t.val % 8 = 0 :=
  (by decide +kernel : ∀ t : Fin grid0.N, rowStart (grid0.coords t) ↔ t.val % 8 = 0)

theorem rowEnd_iff : ∀ t : Fin cfg0.N, rowEnd (grid0.coords t) ↔ t.val % 8 = 7 :=
  (by decide +kernel : ∀ t : Fin grid0.N, rowEnd (grid0.coords t) ↔ t.val % 8 = 7)

/-! ## Where the output windows are idle -/

theorem idle4_of_not_rowEnd : ∀ t : Fin cfg0.N, ¬rowEnd (grid0.coords t) → cfg0.idle 4 (grid0.coords t) = true := by decide +kernel
theorem idle5_of_not_rowEnd : ∀ t : Fin cfg0.N, ¬rowEnd (grid0.coords t) → cfg0.idle 5 (grid0.coords t) = true := by decide +kernel
theorem noFlush4_of_not_rowEnd : ∀ t : Fin cfg0.N, ¬rowEnd (grid0.coords t) → (cfg0.win 4).flush t = false := by decide +kernel
theorem noFlush5_of_not_rowEnd : ∀ t : Fin cfg0.N, ¬rowEnd (grid0.coords t) → (cfg0.win 5).flush t = false := by decide +kernel
theorem live4_of_rowEnd : ∀ t : Fin cfg0.N, rowEnd (grid0.coords t) → cfg0.idle 4 (grid0.coords t) = false := by decide +kernel
theorem live5_of_rowEnd : ∀ t : Fin cfg0.N, rowEnd (grid0.coords t) → cfg0.idle 5 (grid0.coords t) = false := by decide +kernel

/-! ## The memrefs the body is called with -/

abbrev ms0 (t : Fin cfg0.N) : Memref sig .tc .vmem S512x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512 .f32 := win0_5.stage (cfg0.slots t 5)
abbrev hs5 (t : Fin cfg0.N) : (ms5 t).IsWhole := hstage0_5 ((cfg0.slots t 5).cast nbuf0_5)

/-- The running-minimum scratch vector and the running-maximum one: whole buffers of the kernel's own. -/
abbrev scMin : Memref sig .tc .vmem S512 .f32 := Memref.whole cc0_scratch0
abbrev scMax : Memref sig .tc .vmem S512 .f32 := Memref.whole cc0_scratch1

/-- What the region's invariant holds beside the windows, with the two scratch vectors named: each at some contents,
    the other scoped buffers unopened, the generator register at some state. -/
theorem PhiA_eq (c : Dev nD) :
    (Pipeline.ΦA spec0 c : sProp 𝕄)
      = iprop(iprop(iprop((∃ d, owns (c : Thread nD τ) scMin fullShare d) ∗ (∃ d, owns (c : Thread nD τ) scMax fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scMin, scMax, owns_whole]; try rfl

/-! ## Each input window holds its block at every point -/

section Before
variable {c : Dev nD} (dat : Dat τ (Elt F) Unit ℕ (UR sig nD τ) ℕ cfg0 c)

/-! An input window of a body that only reads it holds its block at every point, whether the pipeline fetched it there or
    not: unfetched, the block index has not moved, so the previous point's block is this point's. -/

theorem before_in0 (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2 (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3 (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Before

end Cert.Kernel.Bounds

end
-- ==== Proof.Word.Bounds.Data.lean ====
import proofs.«123878_j24489903522258_2_alg».proof.Proof.Word.Bounds.Setup

set_option maxRecDepth 16384

noncomputable section

namespace Cert.Kernel.Bounds

open Cert.Kernel Cert.Kernel.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The bounds kernel: the running bounds point by point, and the pipeline's proof data -/

variable (V : (c : Dev nD) → (b : Ref sig .tc) → Buf (Elt F) ((c : Thread nD τ).loc b))

/-! ## The running minimum and maximum after each point -/

/-- THE ACCUMULATION. What the two scratch vectors hold after the body at position `n`: the running column minimum (first
    component) and the running column maximum (second component) of the current row of the grid. At a point that opens a
    row (`n % 8 = 0`) the tile's column bounds are folded into `+∞` / `-∞`; at any other point into what the point before
    left. At a point that closes a row (`n % 8 = 7`) the two components are also what the two output blocks receive. -/
def acc (c : Dev nD) : (n : ℕ) → n < cfg0.N → Vec F S512 .f32 × Vec F S512 .f32
  | 0, hn => (k0_pay7 (grid0.coords ⟨0, hn⟩) (iblk V c 0 ⟨0, hn⟩) (iblk V c 1 ⟨0, hn⟩) (iblk V c 2 ⟨0, hn⟩) (iblk V c 3 ⟨0, hn⟩) k0_pay2, k0_pay1 (k0_pay6 (iblk V c 0 ⟨0, hn⟩) (iblk V c 1 ⟨0, hn⟩) (iblk V c 2 ⟨0, hn⟩) (iblk V c 3 ⟨0, hn⟩)) k0_pay3)
  | n + 1, hn =>
    if (n + 1) % 8 = 0 then
      (k0_pay7 (grid0.coords ⟨n + 1, hn⟩) (iblk V c 0 ⟨n + 1, hn⟩) (iblk V c 1 ⟨n + 1, hn⟩) (iblk V c 2 ⟨n + 1, hn⟩) (iblk V c 3 ⟨n + 1, hn⟩) k0_pay2, k0_pay1 (k0_pay6 (iblk V c 0 ⟨n + 1, hn⟩) (iblk V c 1 ⟨n + 1, hn⟩) (iblk V c 2 ⟨n + 1, hn⟩) (iblk V c 3 ⟨n + 1, hn⟩)) k0_pay3)
    else
      (k0_pay7 (grid0.coords ⟨n + 1, hn⟩) (iblk V c 0 ⟨n + 1, hn⟩) (iblk V c 1 ⟨n + 1, hn⟩) (iblk V c 2 ⟨n + 1, hn⟩) (iblk V c 3 ⟨n + 1, hn⟩) (acc c n (Nat.lt_of_succ_lt hn)).1, k0_pay1 (k0_pay6 (iblk V c 0 ⟨n + 1, hn⟩) (iblk V c 1 ⟨n + 1, hn⟩) (iblk V c 2 ⟨n + 1, hn⟩) (iblk V c 3 ⟨n + 1, hn⟩)) (acc c n (Nat.lt_of_succ_lt hn)).2)

/-- At a point that opens a row of the grid the running bounds start afresh from `+∞` / `-∞`. -/
theorem acc_rowStart (c : Dev nD) (t : Fin cfg0.N) (h : t.val % 8 = 0) :
    acc V c t.val t.isLt = (k0_pay7 (grid0.coords t) (iblk V c 0 t) (iblk V c 1 t) (iblk V c 2 t) (iblk V c 3 t) k0_pay2, k0_pay1 (k0_pay6 (iblk V c 0 t) (iblk V c 1 t) (iblk V c 2 t) (iblk V c 3 t)) k0_pay3) := by
  obtain ⟨n, hn⟩ := t
  cases n with
  | zero => rfl
  | succ n => exact (if_pos h).trans rfl

/-- At any other point they fold the tile's column bounds into what the point before left. -/
theorem acc_inRow (c : Dev nD) (t : Fin cfg0.N) (h : ¬t.val % 8 = 0) :
    acc V c t.val t.isLt
      = (k0_pay7 (grid0.coords t) (iblk V c 0 t) (iblk V c 1 t) (iblk V c 2 t) (iblk V c 3 t) (acc V c (t.val - 1) (Nat.lt_of_le_of_lt (Nat.sub_le _ _) t.isLt)).1,
         k0_pay1 (k0_pay6 (iblk V c 0 t) (iblk V c 1 t) (iblk V c 2 t) (iblk V c 3 t)) (acc V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The invariant -/

/-- The region's invariant before position `n`: before the first point every scoped buffer that is no staging buffer at
    anything (and the generator register at some state); afterwards the same with the two scratch vectors at the running
    bounds the point before left. -/
def Phi (c : Dev nD) : (n : ℕ) → n ≤ cfg0.N → sProp 𝕄
  | 0, _ => Pipeline.ΦA spec0 c
  | n + 1, hn => iprop(iprop(iprop(owns (c : Thread nD τ) scMin fullShare (acc V c n hn).1 ∗ owns (c : Thread nD τ) scMax fullShare (acc V c n hn).2)
          ∗ Pipeline.scopedRestBut (Ix := Unit) (Name := ℕ) (U := UR sig nD τ) (Lvl := ℕ) (Val := Elt F) spec0 c [cc0_scratch0, cc0_scratch1])
          ∗ (∃ r, prngReg c r))

theorem Phi_zero (c : Dev nD) (n : ℕ) (h : n ≤ cfg0.N) (hz : n = 0) : Phi V c n h = Pipeline.ΦA spec0 c := by
  subst hz; rfl

theorem Phi_succ (c : Dev nD) (n : ℕ) (hn : n < cfg0.N) :
    Phi V c (n + 1) hn = iprop(iprop(iprop(owns (c : Thread nD τ) scMin fullShare (acc V c n hn).1 ∗ owns (c : Thread nD τ) scMax fullShare (acc V c n hn).2)
          ∗ Pipeline.scopedRestBut (Ix := Unit) (Name := ℕ) (U := UR sig nD τ) (Lvl := ℕ) (Val := Elt F) spec0 c [cc0_scratch0, cc0_scratch1])
          ∗ (∃ r, prngReg c r)) := rfl

theorem Phi_pos (c : Dev nD) (n : ℕ) (h : n ≤ cfg0.N) (hz : n ≠ 0) :
    Phi V c n h = iprop(iprop(iprop(owns (c : Thread nD τ) scMin fullShare (acc V c (n - 1) (by omega)).1 ∗ owns (c : Thread nD τ) scMax fullShare (acc V c (n - 1) (by omega)).2)
          ∗ Pipeline.scopedRestBut (Ix := Unit) (Name := ℕ) (U := UR sig nD τ) (Lvl := ℕ) (Val := Elt F) spec0 c [cc0_scratch0, cc0_scratch1])
          ∗ (∃ r, prngReg c r)) := by
  cases n with
  | zero => exact absurd rfl hz
  | succ n => rfl

/-! ## The proof data -/

/-- The proof data of the bounds kernel's pipeline on core `c`: the arrays as the region finds them; after the body at
    point `t` each input's buffer at its block, the two outputs' at the running bounds; the invariant `Phi`; the embeddings
    and the labels each read through two windows at the two halves of the full share; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (acc V c t.val t.isLt).1
    | ⟨5, _⟩ => (acc V c t.val t.isLt).2
  Φ t := Phi V c t.val (Nat.le_of_lt_succ t.isLt)
  q w := Hand.q0 w
  owed _ := 0

theorem A_eq (c : Dev nD) (w : Fin cfg0.W) : (dat V c).A w = V c (Pipeline.arrRef spec0 w) := by
  dsimp only [dat]

theorem q_eq (c : Dev nD) (w : Fin cfg0.W) : (dat V c).q w = Hand.q0 w := by
  dsimp only [dat]

theorem owed_eq (c : Dev nD) (t : Fin (cfg0.N + 1)) : (dat V c).owed t = 0 := by
  dsimp only [dat]

/-- The invariant at a point's start, restated at `t.val`. -/
theorem Phi_castSucc (c : Dev nD) (t : Fin cfg0.N) :
    (dat V c).Φ t.castSucc = Phi V c t.val (Nat.le_of_lt t.isLt) := by
  dsimp only [dat]; simp only [Fin.coe_castSucc]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = (acc V c t.val t.isLt).1 := by dsimp only [dat]
theorem after_5 (c : Dev nD) (t : Fin cfg0.N) : (dat V c).after 5 t = (acc V c t.val t.isLt).2 := by dsimp only [dat]

/-- Each input's current staging buffer holds its block at every point. -/
theorem before_0 (c : Dev nD) (t : Fin cfg0.N) (d) : (dat V c).before 0 t d = iblk V c 0 t :=
  before_in0 V (dat V c) (A_eq V c 0) (after_0 V c) t d
theorem before_1 (c : Dev nD) (t : Fin cfg0.N) (d) : (dat V c).before 1 t d = iblk V c 1 t :=
  before_in1 V (dat V c) (A_eq V c 1) (after_1 V c) t d
theorem before_2 (c : Dev nD) (t : Fin cfg0.N) (d) : (dat V c).before 2 t d = iblk V c 2 t :=
  before_in2 V (dat V c) (A_eq V c 2) (after_2 V c) t d
theorem before_3 (c : Dev nD) (t : Fin cfg0.N) (d) : (dat V c).before 3 t d = iblk V c 3 t :=
  before_in3 V (dat V c) (A_eq V c 3) (after_3 V c) t d

/-- What the launch hands the region is the invariant before the first point. -/
theorem hin (c : Dev nD) : (Pipeline.ΦA spec0 c : sProp 𝕄) ⊢ (dat V c).Φ 0 := by
  rw [show (dat V c).Φ 0 = Phi V c 0 (Nat.zero_le _) from rfl, Phi_zero V c 0 _ rfl]
  try exact Idealize.SL.BI.Entails.refl _

/-- After any point but the first the invariant gives the launch's back: the scratch vectors' named contents are forgotten. -/
theorem Phi_out (c : Dev nD) (t : Fin (cfg0.N + 1)) (ht : t.val ≠ 0) : (dat V c).Φ t ⊢ (Pipeline.ΦA spec0 c : sProp 𝕄) := by
  rw [show (dat V c).Φ t = Phi V c t.val (Nat.le_of_lt_succ t.isLt) from rfl, Phi_pos V c _ _ ht, PhiA_eq]
  iintro ⟨⟨⟨Hmin, Hmax⟩, Hrest⟩, Hg⟩
  isplitr [Hg]
  · isplitr [Hrest]
    · isplitl [Hmin]
      · iexists _; iexact Hmin
      · iexists _; iexact Hmax
    · iexact Hrest
  · iexact Hg

theorem hout (c : Dev nD) : (dat V c).Φ (Fin.last cfg0.N) ⊢ (Pipeline.ΦA spec0 c : sProp 𝕄) :=
  Phi_out V c _ (by rw [Fin.val_last]; have : cfg0.N = 64 := N_0; omega)

end Cert.Kernel.Bounds

end
-- ==== Proof.Word.Bounds.Whole.lean ====
import Idealize.ShloMosaic.Lib.Pipeline.Value
import Idealize.ShloMosaic.Lib.WholeRead

/-! # Whole-block loads and stores

The bounds kernel moves every one of its buffers as ONE block: each load and each store goes through the rectangle that
starts at offset zero and has the buffer's own extents. Through that rectangle a load reads the contents as they are,
and a store leaves exactly its payload, whatever the buffer held and whatever was stored before. -/

namespace Cert.Kernel.Bounds

open Idealize.ShloMosaic

variable {sig : RefSig} {Val : EltTy → Type} {κ : Kind} {sp : Space} {S : Shape} {e : EltTy}

theorem zeros1 : (![0] : Fin 1 → ℕ) = fun _ => 0 := by funext a; fin_cases a; rfl
theorem zeros2 : (![0, 0] : Fin 2 → ℕ) = fun _ => 0 := by funext a; fin_cases a <;> rfl

/-- A load of the whole block through a whole memref held at the contents that read `X` reads `X`. -/
theorem readAt_whole {m : Memref sig κ sp S e} (h : m.IsWhole) (X : S.Idx → Val e) {off : Fin S.rank → ℕ}
    (ho : off = fun _ => 0) (inb : ∀ a, off a + S.size a ≤ S.size a) :
    View.readAt Val m.view (Rect.unit off S.size inb).toLoadRect (h.unread X) = X := by
  show View.ld (m.view.read Val (h.unread X)) (Rect.unit off S.size inb) = X
  rw [h.read_unread, View.ld_unit_zero ho]

/-- What a store of the whole block leaves, read back: its payload, whatever was stored before it. -/
theorem read_writes_whole (v : View sig κ sp S e) (f : v.ty.Contents Val) {off : Fin S.rank → ℕ} (ho : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst ho; funext y
  have e := View.read_writes_cons_emb v f (Rect.whole S) w L y
  rw [Rect.emb_whole_apply] at e
  exact e

end Cert.Kernel.Bounds
-- ==== Proof.Word.Bounds.RunStart.lean ====
import proofs.«123878_j24489903522258_2_alg».proof.Proof.Word.Bounds.Setup
import proofs.«123878_j24489903522258_2_alg».proof.Proof.Word.Bounds.Whole

set_option maxRecDepth 16384

noncomputable section

namespace Cert.Kernel.Bounds

open Cert.Kernel Cert.Kernel.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The bounds kernel's body at a point that opens a row of the grid (`j = 0`)

The two scratch vectors are reset to `+∞` / `-∞` and the tile's column minimum / maximum folded in; the output blocks are
not touched. On whole memrefs — the four inputs at their contents, the two outputs at contents handed back untouched, the
scratch vectors at anything — the body runs to the continuation with the running minimum and maximum in the scratch
vectors, stated through the kernel's payload functions. -/
set_option maxHeartbeats 1000000 in
theorem run_rowStart (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S512 .f32) (harg9 : arg9.IsWhole)
    (hc0 : rowStart i) (hc1 : ¬rowEnd i)
    (x0 x1 : Vec F S512x512 .f32) (x2 x3 : Vec F S512 .i32) (y4 y5 : Vec F S512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare y4 ∗ owns (c : Thread nD τ) arg7 fullShare y5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare y4 ∗ owns (c : Thread nD τ) arg7 fullShare y5
            ∗ owns (c : Thread nD τ) arg8 fullShare (k0_pay7 i x0 x1 x2 x3 k0_pay2) ∗ owns (c : Thread nD τ) arg9 fullShare (k0_pay1 (k0_pay6 x0 x1 x2 x3) k0_pay3)) -∗ K ⟨⟩))
      ⊢ wp frame (wpE (defs₀ (F := F)) Variants.none c none) E (cc0__bounds_kernel i arg2 harg2 arg3 harg3 arg4 harg4 arg5 harg5 arg6 harg6 arg7 harg7 arg8 harg8 arg9 harg9) K := by
  simp only [cc0__bounds_kernel_eq_skeleton]; unfold cc0__bounds_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr
    swap; · iexact H8
    ipureintro
    rw [read_writes_whole _ _ zeros1]
    sl_unfold_run_names
    rw [readAt_whole harg2 x0 zeros2, readAt_whole harg3 x1 zeros2, readAt_whole harg4 x2 zeros1, readAt_whole harg5 x3 zeros1, View.readCov_unit_zero _ zeros1]
  iexists _; isplitr
  swap; · iexact H9
  ipureintro
  rw [read_writes_whole _ _ zeros1]
  sl_unfold_run_names
  rw [readAt_whole harg2 x0 zeros2, readAt_whole harg3 x1 zeros2, readAt_whole harg4 x2 zeros1, readAt_whole harg5 x3 zeros1, View.readCov_unit_zero _ zeros1]

end Cert.Kernel.Bounds

end
-- ==== Proof.Word.Bounds.RunMid.lean ====
import proofs.«123878_j24489903522258_2_alg».proof.Proof.Word.Bounds.RunStart

set_option maxRecDepth 16384

noncomputable section

namespace Cert.Kernel.Bounds

open Cert.Kernel Cert.Kernel.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The bounds kernel's body at a point inside a row of the grid (`0 < j < 7`)

The tile's column minimum / maximum are folded into what the scratch vectors hold (`s8`, `s9`: what the point before left);
the output blocks are not touched. -/
set_option maxHeartbeats 1000000 in
theorem run_inRow (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S512 .f32) (harg9 : arg9.IsWhole)
    (hc0 : ¬rowStart i) (hc1 : ¬rowEnd i)
    (x0 x1 : Vec F S512x512 .f32) (x2 x3 : Vec F S512 .i32) (y4 y5 : Vec F S512 .f32) (s8 s9 : Vec F S512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare y4 ∗ owns (c : Thread nD τ) arg7 fullShare y5 ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare y4 ∗ owns (c : Thread nD τ) arg7 fullShare y5
            ∗ owns (c : Thread nD τ) arg8 fullShare (k0_pay7 i x0 x1 x2 x3 s8) ∗ owns (c : Thread nD τ) arg9 fullShare (k0_pay1 (k0_pay6 x0 x1 x2 x3) s9)) -∗ K ⟨⟩))
      ⊢ wp frame (wpE (defs₀ (F := F)) Variants.none c none) E (cc0__bounds_kernel i arg2 harg2 arg3 harg3 arg4 harg4 arg5 harg5 arg6 harg6 arg7 harg7 arg8 harg8 arg9 harg9) K := by
  simp only [cc0__bounds_kernel_eq_skeleton]; unfold cc0__bounds_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5
  obtain rfl := harg8.eq_unread hf8; obtain rfl := harg9.eq_unread hf9
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr
    swap; · iexact H8
    ipureintro
    rw [read_writes_whole _ _ zeros1]
    sl_unfold_run_names
    simp only [readAt_whole harg2 x0 zeros2, readAt_whole harg3 x1 zeros2, readAt_whole harg4 x2 zeros1, readAt_whole harg5 x3 zeros1, readAt_whole harg8 s8 zeros1, readAt_whole harg9 s9 zeros1]
  iexists _; isplitr
  swap; · iexact H9
  ipureintro
  rw [read_writes_whole _ _ zeros1]
  sl_unfold_run_names
  simp only [readAt_whole harg2 x0 zeros2, readAt_whole harg3 x1 zeros2, readAt_whole harg4 x2 zeros1, readAt_whole harg5 x3 zeros1, readAt_whole harg8 s8 zeros1, readAt_whole harg9 s9 zeros1]

end Cert.Kernel.Bounds

end
-- ==== Proof.Word.Bounds.RunEnd.lean ====
import proofs.«123878_j24489903522258_2_alg».proof.Proof.Word.Bounds.RunMid

set_option maxRecDepth 16384

noncomputable section

namespace Cert.Kernel.Bounds

open Cert.Kernel Cert.Kernel.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The bounds kernel's body at a point that closes a row of the grid (`j = 7`)

The tile's column minimum / maximum are folded into what the scratch vectors hold (`s8`, `s9`), and the two running bounds
are then copied to the two output blocks, whatever those held. -/
set_option maxHeartbeats 1000000 in
theorem run_rowEnd (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S512 .f32) (harg9 : arg9.IsWhole)
    (hc0 : ¬rowStart i) (hc1 : rowEnd i)
    (x0 x1 : Vec F S512x512 .f32) (x2 x3 : Vec F S512 .i32) (s8 s9 : Vec F S512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay7 i x0 x1 x2 x3 s8) ∗ owns (c : Thread nD τ) arg7 fullShare (k0_pay1 (k0_pay6 x0 x1 x2 x3) s9)
            ∗ owns (c : Thread nD τ) arg8 fullShare (k0_pay7 i x0 x1 x2 x3 s8) ∗ owns (c : Thread nD τ) arg9 fullShare (k0_pay1 (k0_pay6 x0 x1 x2 x3) s9)) -∗ K ⟨⟩))
      ⊢ wp frame (wpE (defs₀ (F := F)) Variants.none c none) E (cc0__bounds_kernel i arg2 harg2 arg3 harg3 arg4 harg4 arg5 harg5 arg6 harg6 arg7 harg7 arg8 harg8 arg9 harg9) K := by
  simp only [cc0__bounds_kernel_eq_skeleton]; unfold cc0__bounds_kernel_skel
  unfold owns
  iintro ⟨⟨%f0, %hf0, H0⟩, ⟨%f1, %hf1, H1⟩, ⟨%f2, %hf2, H2⟩, ⟨%f3, %hf3, H3⟩, ⟨%d6, %f4, -, H4⟩, ⟨%d7, %f5, -, H5⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg8.eq_unread hf8; obtain rfl := harg9.eq_unread hf9
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    rw [read_writes_whole (S := S512) _ _ zeros1]
    simp only [readAt_whole harg2 x0 zeros2, readAt_whole harg3 x1 zeros2, readAt_whole harg4 x2 zeros1, readAt_whole harg5 x3 zeros1, readAt_whole harg8 s8 zeros1, readAt_whole harg9 s9 zeros1]
    exact View.readCov_unit_zero (S := S512) _ zeros1 _ _
  isplitl [H5]
  · iexists _; isplitr
    swap; · iexact H5
    ipureintro
    sl_unfold_run_names
    rw [read_writes_whole (S := S512) _ _ zeros1]
    simp only [readAt_whole harg2 x0 zeros2, readAt_whole harg3 x1 zeros2, readAt_whole harg4 x2 zeros1, readAt_whole harg5 x3 zeros1, readAt_whole harg8 s8 zeros1, readAt_whole harg9 s9 zeros1]
    exact View.readCov_unit_zero (S := S512) _ zeros1 _ _
  isplitl [H8]
  · iexists _; isplitr
    swap; · iexact H8
    ipureintro
    sl_unfold_run_names
    rw [read_writes_whole (S := S512) _ _ zeros1]
    simp only [readAt_whole harg2 x0 zeros2, readAt_whole harg3 x1 zeros2, readAt_whole harg4 x2 zeros1, readAt_whole harg5 x3 zeros1, readAt_whole harg8 s8 zeros1, readAt_whole harg9 s9 zeros1]
  iexists _; isplitr
  swap; · iexact H9
  ipureintro
  sl_unfold_run_names
  rw [read_writes_whole (S := S512) _ _ zeros1]
  simp only [readAt_whole harg2 x0 zeros2, readAt_whole harg3 x1 zeros2, readAt_whole harg4 x2 zeros1, readAt_whole harg5 x3 zeros1, readAt_whole harg8 s8 zeros1, readAt_whole harg9 s9 zeros1]

end Cert.Kernel.Bounds

end
-- ==== Proof.Word.Bounds.Obligation.lean ====
import proofs.«123878_j24489903522258_2_alg».proof.Proof.Word.Bounds.Data
import proofs.«123878_j24489903522258_2_alg».proof.Proof.Word.Bounds.RunEnd

set_option maxRecDepth 16384

noncomputable section

namespace Cert.Kernel.Bounds

open Cert.Kernel Cert.Kernel.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The bounds kernel: the body obligation

At every point the pipeline calls the body with the invariant, what the core owes (nothing) and every window's current
staging buffer. Which of the body's three runs applies is decided by `t % 8`: `0` opens a row of the grid (the scratch
vectors are reset, so what they held does not matter — at the very first point they hold anything), `7` closes it (the
running bounds go to the two output blocks, which the pipeline then writes back), anything between only folds the tile's
column bounds in. The invariant hands the body the two scratch vectors at what the point before left and takes them back
at this point's running bounds. -/

variable (V : (c : Dev nD) → (b : Ref sig .tc) → Buf (Elt F) ((c : Thread nD τ).loc b))

/-- The input windows are never idle. -/
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms0 t) fullShare ((dat V c).after 0 t) from by
    unfold Dat.leavesExact; rw [live0 t], after_0]
  rw [show (dat V c).leavesExact 1 t = owns (c : Thread nD τ) (ms1 t) fullShare ((dat V c).after 1 t) from by
    unfold Dat.leavesExact; rw [live1 t], after_1]
  rw [show (dat V c).leavesExact 2 t = owns (c : Thread nD τ) (ms2 t) fullShare ((dat V c).after 2 t) from by
    unfold Dat.leavesExact; rw [live2 t], after_2]
  rw [show (dat V c).leavesExact 3 t = owns (c : Thread nD τ) (ms3 t) fullShare ((dat V c).after 3 t) from by
    unfold Dat.leavesExact; rw [live3 t], after_3]
  have hN : t.val < 64 := lt_of_lt_of_eq t.isLt (show cfg0.N = 64 from N_0)
  by_cases h0 : t.val % 8 = 0
  · have hs : rowStart (grid0.coords t) := (rowStart_iff t).mpr h0
    have he : ¬rowEnd (grid0.coords t) := fun h => by have := (rowEnd_iff t).mp h; omega
    rw [Dat.leavesExact_idle (dat V c) 4 t (idle4_of_not_rowEnd t he) (noFlush4_of_not_rowEnd t he),
      Dat.leavesExact_idle (dat V c) 5 t (idle5_of_not_rowEnd t he) (noFlush5_of_not_rowEnd t he)]
    rw [acc_rowStart V c t h0]; dsimp only
    by_cases hz : t.val = 0
    · rw [Phi_castSucc V c t, Phi_zero V c _ _ hz, PhiA_eq]
      iintro ⟨⟨⟨⟨Hmin, Hmax⟩, Hrest⟩, Hg⟩, Ho, ⟨%d0, H0⟩, ⟨%d1, H1⟩, ⟨%d2, H2⟩, ⟨%d3, H3⟩, ⟨%d4, H4⟩, ⟨%d5, H5⟩⟩
      iapply (run_rowStart c (grid0.coords t) (ms0 t) (hs0 t) (ms1 t) (hs1 t) (ms2 t) (hs2 t) (ms3 t) (hs3 t) (ms4 t) (hs4 t) (ms5 t) (hs5 t) scMin (Memref.isWhole_whole _) scMax (Memref.isWhole_whole _) hs he (iblk V c 0 t) (iblk V c 1 t) (iblk V c 2 t) (iblk V c 3 t) _ _ Set.univ _)
      isplitl [H0]; · iexact H0
      isplitl [H1]; · iexact H1
      isplitl [H2]; · iexact H2
      isplitl [H3]; · iexact H3
      isplitl [H4]; · iexact H4
      isplitl [H5]; · iexact H5
      isplitl [Hmin]; · iexact Hmin
      isplitl [Hmax]; · iexact Hmax
      iintro ⟨H0, H1, H2, H3, H4, H5, Hmin, Hmax⟩
      isplitl [Hmin Hmax Hrest Hg]
      · isplitr [Hg]
        · isplitr [Hrest]
          · isplitl [Hmin]
            · iexact Hmin
            · iexact Hmax
          · iexact Hrest
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [Phi_castSucc V c t, Phi_pos V c _ _ hz]
      iintro ⟨⟨⟨⟨Hmin, Hmax⟩, Hrest⟩, Hg⟩, Ho, ⟨%d0, H0⟩, ⟨%d1, H1⟩, ⟨%d2, H2⟩, ⟨%d3, H3⟩, ⟨%d4, H4⟩, ⟨%d5, H5⟩⟩
      iapply (run_rowStart c (grid0.coords t) (ms0 t) (hs0 t) (ms1 t) (hs1 t) (ms2 t) (hs2 t) (ms3 t) (hs3 t) (ms4 t) (hs4 t) (ms5 t) (hs5 t) scMin (Memref.isWhole_whole _) scMax (Memref.isWhole_whole _) hs he (iblk V c 0 t) (iblk V c 1 t) (iblk V c 2 t) (iblk V c 3 t) _ _ Set.univ _)
      isplitl [H0]; · iexact H0
      isplitl [H1]; · iexact H1
      isplitl [H2]; · iexact H2
      isplitl [H3]; · iexact H3
      isplitl [H4]; · iexact H4
      isplitl [H5]; · iexact H5
      isplitl [Hmin]; · iexists _; iexact Hmin
      isplitl [Hmax]; · iexists _; iexact Hmax
      iintro ⟨H0, H1, H2, H3, H4, H5, Hmin, Hmax⟩
      isplitl [Hmin Hmax Hrest Hg]
      · isplitr [Hg]
        · isplitr [Hrest]
          · isplitl [Hmin]
            · iexact Hmin
            · iexact Hmax
          · iexact Hrest
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hs : ¬rowStart (grid0.coords t) := fun h => h0 ((rowStart_iff t).mp h)
    have hz : t.val ≠ 0 := fun h => h0 (by rw [h])
    rw [Phi_castSucc V c t, Phi_pos V c _ _ hz]
    by_cases h1 : t.val % 8 = 7
    · have he : rowEnd (grid0.coords t) := (rowEnd_iff t).mpr h1
      rw [show (dat V c).leavesExact 4 t = owns (c : Thread nD τ) (ms4 t) fullShare ((dat V c).after 4 t) from by
        unfold Dat.leavesExact; rw [live4_of_rowEnd t he], after_4]
      rw [show (dat V c).leavesExact 5 t = owns (c : Thread nD τ) (ms5 t) fullShare ((dat V c).after 5 t) from by
        unfold Dat.leavesExact; rw [live5_of_rowEnd t he], after_5]
      rw [acc_inRow V c t h0]; dsimp only
      iintro ⟨⟨⟨⟨Hmin, Hmax⟩, Hrest⟩, Hg⟩, Ho, ⟨%d0, H0⟩, ⟨%d1, H1⟩, ⟨%d2, H2⟩, ⟨%d3, H3⟩, ⟨%d4, H4⟩, ⟨%d5, H5⟩⟩
      iapply (run_rowEnd c (grid0.coords t) (ms0 t) (hs0 t) (ms1 t) (hs1 t) (ms2 t) (hs2 t) (ms3 t) (hs3 t) (ms4 t) (hs4 t) (ms5 t) (hs5 t) scMin (Memref.isWhole_whole _) scMax (Memref.isWhole_whole _) hs he (iblk V c 0 t) (iblk V c 1 t) (iblk V c 2 t) (iblk V c 3 t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [Hmin]; · iexact Hmin
      isplitl [Hmax]; · iexact Hmax
      iintro ⟨H0, H1, H2, H3, H4, H5, Hmin, Hmax⟩
      isplitl [Hmin Hmax Hrest Hg]
      · isplitr [Hg]
        · isplitr [Hrest]
          · isplitl [Hmin]
            · iexact Hmin
            · iexact Hmax
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      iexact H5
    · have he : ¬rowEnd (grid0.coords t) := fun h => h1 ((rowEnd_iff t).mp h)
      rw [Dat.leavesExact_idle (dat V c) 4 t (idle4_of_not_rowEnd t he) (noFlush4_of_not_rowEnd t he),
        Dat.leavesExact_idle (dat V c) 5 t (idle5_of_not_rowEnd t he) (noFlush5_of_not_rowEnd t he)]
      rw [acc_inRow V c t h0]; dsimp only
      iintro ⟨⟨⟨⟨Hmin, Hmax⟩, Hrest⟩, Hg⟩, Ho, ⟨%d0, H0⟩, ⟨%d1, H1⟩, ⟨%d2, H2⟩, ⟨%d3, H3⟩, ⟨%d4, H4⟩, ⟨%d5, H5⟩⟩
      iapply (run_inRow c (grid0.coords t) (ms0 t) (hs0 t) (ms1 t) (hs1 t) (ms2 t) (hs2 t) (ms3 t) (hs3 t) (ms4 t) (hs4 t) (ms5 t) (hs5 t) scMin (Memref.isWhole_whole _) scMax (Memref.isWhole_whole _) hs he (iblk V c 0 t) (iblk V c 1 t) (iblk V c 2 t) (iblk V c 3 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [Hmin]; · iexact Hmin
      isplitl [Hmax]; · iexact Hmax
      iintro ⟨H0, H1, H2, H3, H4, H5, Hmin, Hmax⟩
      isplitl [Hmin Hmax Hrest Hg]
      · isplitr [Hg]
        · isplitr [Hrest]
          · isplitl [Hmin]
            · iexact Hmin
            · iexact Hmax
          · iexact Hrest
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Bounds

end
-- ==== Proof.Word.Lse.Carry.lean ====
/- The log-sum-exp kernel, point by point: what its six carried vectors and its four result vectors hold.

   The grid is 8 × 8; point t has block row j = t / 8 of the output and block row i = t % 8 of the sweep.
   At each point the kernel forms, from the two 512-row blocks of the embeddings, the two label blocks and the two
   bound blocks, one 512 × 512 tile: the two masks, the two weight matrices and the two masked weight matrices.
   For each of the two masked sums it carries, per column, a running reference (the least, resp. greatest, masked
   weight so far), the running sum of exponentials taken relative to that reference, and a running check extremum.
   At i = 0 the carried vectors are set from the tile; at i > 0 the sum is rescaled to the new reference and the
   tile's part added; at i = 7 the four results are read off the carried vectors. -/
import proofs.«123878_j24489903522258_2_alg».proof.Proof.Word.Shares
import proofs.«123878_j24489903522258_2_alg».proof.Proof.Gen.Kernel.Launch
import proofs.«123878_j24489903522258_2_alg».proof.Proof.Gen.Kernel.Skeleton
import proofs.«123878_j24489903522258_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point reads -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## One tile -/

/-- What the kernel forms from the blocks of one point: the mask of same-label pairs under the negative bound and
    the mask of different-label pairs over the positive bound, the two weight matrices, and the weight matrices
    with the unmasked entries set to zero. -/
structure Tile (F : FTy → Type) where
  posMask : IVec S512x512 1
  negMask : IVec S512x512 1
  posW : FVec F S512x512 .f32
  negW : FVec F S512x512 .f32
  posM : FVec F S512x512 .f32
  negM : FVec F S512x512 .f32

/-- The tile of embeddings blocks `ej`, `ei`, label blocks `lj`, `li` and bound blocks `pb`, `nb`. -/
def tile (ej ei : Vec F S512x512 .f32) (lj li : Vec F S512 .i32) (pb nb : Vec F S512 .f32) : Tile F where
  posMask := k1_pay27 ej ei li lj nb
  negMask := k1_pay28 ej ei li lj pb
  posW := k1_pay29 ej ei
  negW := k1_pay30 ej ei
  posM := k1_pay31 ej ei li lj nb
  negM := k1_pay32 ej ei li lj pb

/-! ## The carried vectors -/

/-- The six vectors carried along a row of the grid: for each masked sum its running reference, its running sum of
    exponentials relative to the reference, and its running check extremum. -/
structure Carry (F : FTy → Type) where
  posRef : Vec F S512 .f32
  posSum : Vec F S512 .f32
  posChk : Vec F S512 .f32
  negRef : Vec F S512 .f32
  negSum : Vec F S512 .f32
  negChk : Vec F S512 .f32

/-- At the first point of a row the carried vectors are set from the tile alone. -/
def Carry.first (T : Tile F) : Carry F where
  posRef := k1_pay5 T.posM
  posSum := k1_pay7 T.posMask T.posW T.posM
  posChk := k1_pay6 T.posM
  negRef := k1_pay8 T.negM
  negSum := k1_pay10 T.negMask T.negW T.negM
  negChk := k1_pay9 T.negM

/-- At a later point the reference moves to the extremum of the old one and the tile's, the sum is rescaled to the
    new reference and the tile's exponentials added, and the check extremum is updated. -/
def Carry.next (T : Tile F) (s : Carry F) : Carry F where
  posRef := k1_pay21 (k1_pay1 T.posM) s.posRef
  posSum := k1_pay20 T.posMask T.posW (k1_pay1 T.posM) s.posRef s.posSum
  posChk := k1_pay22 (k1_pay2 T.posM) s.posChk
  negRef := k1_pay11 (k1_pay23 (k1_pay3 T.negM) s.negRef)
  negSum := k1_pay24 T.negMask T.negW (k1_pay3 T.negM) s.negRef s.negSum
  negChk := k1_pay12 T.negM s.negChk

/-- The four result vectors: for each masked sum the logarithm of the sum (of one where the column is empty) plus
    the reference, and the indicator that the column is not empty. -/
structure Results (F : FTy → Type) where
  posVals : Vec F S512 .f32
  posNz : Vec F S512 .f32
  negVals : Vec F S512 .f32
  negNz : Vec F S512 .f32

/-- The results read off the carried vectors. -/
def Carry.results (s : Carry F) : Results F where
  posVals := k1_pay14 s.posRef s.posChk s.posSum s.posRef
  posNz := k1_pay15 s.posRef s.posChk
  negVals := k1_pay17 s.negRef s.negChk s.negSum s.negRef
  negNz := k1_pay18 s.negRef s.negChk

/-! ## Point by point -/

/-- The tile of point `t`. -/
def tileAt (c : Dev nD) (t : Fin cfg1.N) : Tile F :=
  tile (iblk V c 0 t) (iblk V c 1 t) (iblk V c 2 t) (iblk V c 3 t) (iblk V c 4 t) (iblk V c 5 t)

/-- The carried vectors after the body at position `n`: set from the tile where a row begins (`n` a multiple of 8),
    else updated from what position `n - 1` left. -/
def carryAt (c : Dev nD) : (n : ℕ) → n < cfg1.N → Carry F
  | 0, hn => Carry.first (tileAt V c ⟨0, hn⟩)
  | n + 1, hn =>
    if (n + 1) % 8 = 0 then Carry.first (tileAt V c ⟨n + 1, hn⟩)
    else Carry.next (tileAt V c ⟨n + 1, hn⟩) (carryAt c n (Nat.lt_of_succ_lt hn))

/-- The result vectors as the carried vectors after point `t` give them; the kernel stores them at the last
    point of a row only. -/
def resultsAt (c : Dev nD) (t : Fin cfg1.N) : Results F := (carryAt V c t.val t.isLt).results

/-- Where a row begins the carried vectors are the tile's. -/
theorem carryAt_first (c : Dev nD) (t : Fin cfg1.N) (h : t.val % 8 = 0) :
    carryAt V c t.val t.isLt = Carry.first (tileAt V c t) := by
  obtain ⟨n, hn⟩ := t
  cases n with
  | zero => rfl
  | succ n => exact if_pos h

/-- Elsewhere they are the update of what the point before left. -/
theorem carryAt_next (c : Dev nD) (t : Fin cfg1.N) (h : ¬t.val % 8 = 0) :
    carryAt V c t.val t.isLt
      = Carry.next (tileAt V c t) (carryAt V c (t.val - 1) (Nat.lt_of_le_of_lt (Nat.sub_le _ _) t.isLt)) := by
  obtain ⟨n, hn⟩ := t
  cases n with
  | zero => exact absurd (Nat.zero_mod _) h
  | succ n => exact if_neg h

/-- At the last point of a row (both the update and the read-off happen there) the results are read off the update
    of what the point before left. -/
theorem resultsAt_last (c : Dev nD) (t : Fin cfg1.N) (h : t.val % 8 = 7) :
    resultsAt V c t
      = (Carry.next (tileAt V c t) (carryAt V c (t.val - 1) (Nat.lt_of_le_of_lt (Nat.sub_le _ _) t.isLt))).results := by
  unfold resultsAt; rw [carryAt_next V c t (by omega)]

/-! ## The carried vectors in memory -/

/-- The six scratch vectors, whole buffers of the kernel's own. -/
abbrev scM0 : Memref sig .tc .vmem S512 .f32 := Memref.whole cc1_scratch0
abbrev scM1 : Memref sig .tc .vmem S512 .f32 := Memref.whole cc1_scratch1
abbrev scM2 : Memref sig .tc .vmem S512 .f32 := Memref.whole cc1_scratch2
abbrev scM3 : Memref sig .tc .vmem S512 .f32 := Memref.whole cc1_scratch3
abbrev scM4 : Memref sig .tc .vmem S512 .f32 := Memref.whole cc1_scratch4
abbrev scM5 : Memref sig .tc .vmem S512 .f32 := Memref.whole cc1_scratch5

/-- The scratch vectors holding the carried vectors `s`. -/
def held (c : Dev nD) (s : Carry F) : sProp 𝕄 :=
  iprop(owns (c : Thread nD τ) scM0 fullShare s.posRef ∗ owns (c : Thread nD τ) scM1 fullShare s.posSum
    ∗ owns (c : Thread nD τ) scM2 fullShare s.posChk ∗ owns (c : Thread nD τ) scM3 fullShare s.negRef
    ∗ owns (c : Thread nD τ) scM4 fullShare s.negSum ∗ owns (c : Thread nD τ) scM5 fullShare s.negChk)

/-- The scratch vectors holding anything. -/
def heldAny (c : Dev nD) : sProp 𝕄 :=
  iprop((∃ d, owns (c : Thread nD τ) scM0 fullShare d) ∗ (∃ d, owns (c : Thread nD τ) scM1 fullShare d)
    ∗ (∃ d, owns (c : Thread nD τ) scM2 fullShare d) ∗ (∃ d, owns (c : Thread nD τ) scM3 fullShare d)
    ∗ (∃ d, owns (c : Thread nD τ) scM4 fullShare d) ∗ (∃ d, owns (c : Thread nD τ) scM5 fullShare d))

/-- The core's other scoped buffers that are no staging buffer of this call (the bounds kernel's staging buffers
    and scratch), each at some contents, beside `S`. -/
def withRest (c : Dev nD) (S : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ S)

/-- The class invariant, with the six scratch vectors as memrefs owned at some contents. -/
theorem PhiA_eq (c : Dev nD) :
    (Pipeline.ΦA spec1 c : sProp 𝕄) = iprop(withRest c (heldAny c) ∗ (∃ r, prngReg c r)) := by
  unfold Pipeline.ΦA withRest heldAny; rw [scopedRest1_eq]; simp only [scM0, scM1, scM2, scM3, scM4, scM5, owns_whole]; try rfl

/-- The region invariant before position `n`: before the first point the class's (every scratch vector at
    anything); afterwards the six scratch vectors hold what the point before left. -/
def PhiS (c : Dev nD) : (n : ℕ) → n ≤ cfg1.N → sProp 𝕄
  | 0, _ => Pipeline.ΦA spec1 c
  | n + 1, hn => iprop(withRest c (held c (carryAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(withRest c (held c (carryAt V c n hn)) ∗ (∃ r, prngReg c r)) := rfl

theorem PhiS_pos (c : Dev nD) (n : ℕ) (h : n ≤ cfg1.N) (hz : n ≠ 0) :
    PhiS V c n h = iprop(withRest c (held c (carryAt V c (n - 1) (by omega))) ∗ (∃ r, prngReg c r)) := by
  cases n with
  | zero => exact absurd rfl hz
  | succ n => rfl

/-! ## The proof data -/

/-- The proof data of the pipeline on core `c`: the arrays as the region finds them; after the body at point `t`
    each input's buffer at its block and the four outputs' at the results of the carried vectors; the invariant
    `PhiS`; the shares of the share table; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (resultsAt V c t).posVals
    | ⟨7, _⟩ => (resultsAt V c t).posNz
    | ⟨8, _⟩ => (resultsAt V c t).negVals
    | ⟨9, _⟩ => (resultsAt V c t).negNz
  Φ t := PhiS V c t.val (Nat.le_of_lt_succ t.isLt)
  q w := Hand.q1 w
  owed _ := 0

theorem A_eq (c : Dev nD) (w : Fin cfg1.W) : (dat V c).A w = V c (Pipeline.arrRef spec1 w) := by
  dsimp only [dat]

theorem q_eq (c : Dev nD) (w : Fin cfg1.W) : (dat V c).q w = Hand.q1 w := by
  dsimp only [dat]

theorem owed_eq (c : Dev nD) (t : Fin (cfg1.N + 1)) : (dat V c).owed t = 0 := by
  dsimp only [dat]

theorem after_0 (c : Dev nD) (t : Fin cfg1.N) : (dat V c).after ⟨0, by decide⟩ t = iblk V c 0 t := by dsimp only [dat]
theorem after_1 (c : Dev nD) (t : Fin cfg1.N) : (dat V c).after ⟨1, by decide⟩ t = iblk V c 1 t := by dsimp only [dat]
theorem after_2 (c : Dev nD) (t : Fin cfg1.N) : (dat V c).after ⟨2, by decide⟩ t = iblk V c 2 t := by dsimp only [dat]
theorem after_3 (c : Dev nD) (t : Fin cfg1.N) : (dat V c).after ⟨3, by decide⟩ t = iblk V c 3 t := by dsimp only [dat]
theorem after_4 (c : Dev nD) (t : Fin cfg1.N) : (dat V c).after ⟨4, by decide⟩ t = iblk V c 4 t := by dsimp only [dat]
theorem after_5 (c : Dev nD) (t : Fin cfg1.N) : (dat V c).after ⟨5, by decide⟩ t = iblk V c 5 t := by dsimp only [dat]
theorem after_6 (c : Dev nD) (t : Fin cfg1.N) : (dat V c).after ⟨6, by decide⟩ t = (resultsAt V c t).posVals := by dsimp only [dat]
theorem after_7 (c : Dev nD) (t : Fin cfg1.N) : (dat V c).after ⟨7, by decide⟩ t = (resultsAt V c t).posNz := by dsimp only [dat]
theorem after_8 (c : Dev nD) (t : Fin cfg1.N) : (dat V c).after ⟨8, by decide⟩ t = (resultsAt V c t).negVals := by dsimp only [dat]
theorem after_9 (c : Dev nD) (t : Fin cfg1.N) : (dat V c).after ⟨9, by decide⟩ t = (resultsAt V c t).negNz := by dsimp only [dat]

/-- The invariant at a point's start, restated at `t.val`. -/
theorem PhiS_castSucc (c : Dev nD) (t : Fin cfg1.N) :
    (dat V c).Φ t.castSucc = PhiS V c t.val (Nat.le_of_lt t.isLt) := by
  dsimp only [dat]; simp only [Fin.coe_castSucc]

/-- What the launch hands the region is the invariant before the first point. -/
theorem hin (c : Dev nD) : (Pipeline.ΦA spec1 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives the class invariant back: what the scratch vectors hold is forgotten. -/
theorem Phi_out (c : Dev nD) (t : Fin (cfg1.N + 1)) (ht : t.val ≠ 0) : (dat V c).Φ t ⊢ (Pipeline.ΦA spec1 c : sProp 𝕄) := by
  rw [show (dat V c).Φ t = PhiS V c t.val (Nat.le_of_lt_succ t.isLt) from rfl, PhiS_pos V c _ _ ht, PhiA_eq]
  unfold withRest held heldAny
  iintro ⟨⟨R0, R1, R2, R3, R4, R5, R6, R7, R8, R9, R10, R11, R12, R13, S0, S1, S2, S3, S4, S5⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [S0]; · iexists _; iexact S0
    isplitl [S1]; · iexists _; iexact S1
    isplitl [S2]; · iexists _; iexact S2
    isplitl [S3]; · iexists _; iexact S3
    isplitl [S4]; · iexists _; iexact S4
    iexists _; iexact S5
  iexact Hg

/-- The same after the last point. -/
theorem hout (c : Dev nD) : (dat V c).Φ (Fin.last cfg1.N) ⊢ (Pipeline.ΦA spec1 c : sProp 𝕄) :=
  Phi_out V c _ (by rw [Fin.val_last]; have : cfg1.N = 64 := N_1; omega)

end Cert.Kernel.Lse

end
-- ==== Proof.Word.Lse.Sched.lean ====
/- The schedule of the log-sum-exp kernel's body: which of its three conditional regions a point takes, where its
   output windows are idle, the memrefs the pipeline hands it, and what its input windows hold. -/
import proofs.«123878_j24489903522258_2_alg».proof.Proof.Word.Lse.Carry

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three conditions -/

/-- The body sets the carried vectors from the tile: sweep coordinate `i = 0`. -/
abbrev condFirst (i : grid1.Coords) : Prop :=
  (Scalar.cmpi .ne (Scalar.extui (Scalar.cmpi .eq (BitVec.ofNat 32 (i 1).val) 0#32)) 0#32) = 1#1
theorem hcondFirst : ∀ t : Fin cfg1.N, condFirst (grid1.coords t) ↔ t.val % 8 = 0 :=
  (by decide +kernel : ∀ t : Fin grid1.N, condFirst (grid1.coords t) ↔ t.val % 8 = 0)

/-- The body updates the carried vectors: `i > 0`. -/
abbrev condNext (i : grid1.Coords) : Prop :=
  (Scalar.cmpi .ne (Scalar.extui (Scalar.cmpi .sgt (BitVec.ofNat 32 (i 1).val) 0#32)) 0#32) = 1#1
theorem hcondNext : ∀ t : Fin cfg1.N, condNext (grid1.coords t) ↔ ¬t.val % 8 = 0 :=
  (by decide +kernel : ∀ t : Fin grid1.N, condNext (grid1.coords t) ↔ ¬t.val % 8 = 0)

/-- The body reads the results off the carried vectors: `i = 7`. -/
abbrev condLast (i : grid1.Coords) : Prop := k1_cond3 i = 1#1
theorem hcondLast : ∀ t : Fin cfg1.N, condLast (grid1.coords t) ↔ t.val % 8 = 7 :=
  (by decide +kernel : ∀ t : Fin grid1.N, condLast (grid1.coords t) ↔ t.val % 8 = 7)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, cfg1.idle 3 (grid1.coords t) = false := by decide +kernel
theorem live_4 : ∀ t : Fin cfg1.N, cfg1.idle 4 (grid1.coords t) = false := by decide +kernel
theorem live_5 : ∀ t : Fin cfg1.N, cfg1.idle 5 (grid1.coords t) = false := by decide +kernel
/-- Off the last point of a row the four outputs are idle and not written back. -/
theorem idle_6 : ∀ t : Fin cfg1.N, ¬condLast (grid1.coords t) → cfg1.idle 6 (grid1.coords t) = true := by decide +kernel
theorem idle_7 : ∀ t : Fin cfg1.N, ¬condLast (grid1.coords t) → cfg1.idle 7 (grid1.coords t) = true := by decide +kernel
theorem idle_8 : ∀ t : Fin cfg1.N, ¬condLast (grid1.coords t) → cfg1.idle 8 (grid1.coords t) = true := by decide +kernel
theorem idle_9 : ∀ t : Fin cfg1.N, ¬condLast (grid1.coords t) → cfg1.idle 9 (grid1.coords t) = true := by decide +kernel
theorem noFlush_6 : ∀ t : Fin cfg1.N, ¬condLast (grid1.coords t) → (cfg1.win 6).flush t = false := by decide +kernel
theorem noFlush_7 : ∀ t : Fin cfg1.N, ¬condLast (grid1.coords t) → (cfg1.win 7).flush t = false := by decide +kernel
theorem noFlush_8 : ∀ t : Fin cfg1.N, ¬condLast (grid1.coords t) → (cfg1.win 8).flush t = false := by decide +kernel
theorem noFlush_9 : ∀ t : Fin cfg1.N, ¬condLast (grid1.coords t) → (cfg1.win 9).flush t = false := by decide +kernel
/-- At the last point of a row they are live. -/
theorem live_6 : ∀ t : Fin cfg1.N, condLast (grid1.coords t) → cfg1.idle 6 (grid1.coords t) = false := by decide +kernel
theorem live_7 : ∀ t : Fin cfg1.N, condLast (grid1.coords t) → cfg1.idle 7 (grid1.coords t) = false := by decide +kernel
theorem live_8 : ∀ t : Fin cfg1.N, condLast (grid1.coords t) → cfg1.idle 8 (grid1.coords t) = false := by decide +kernel
theorem live_9 : ∀ t : Fin cfg1.N, condLast (grid1.coords t) → cfg1.idle 9 (grid1.coords t) = false := by decide +kernel

/-! ## The staging memrefs at a point -/

abbrev ms0 (t : Fin cfg1.N) : Memref sig .tc .vmem S512x512 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x512 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S512 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S512 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S512 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S512 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S512 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S512 .f32 := win1_8.stage (cfg1.slots t 8)
abbrev hs8 (t : Fin cfg1.N) : (ms8 t).IsWhole := hstage1_8 ((cfg1.slots t 8).cast nbuf1_8)
abbrev ms9 (t : Fin cfg1.N) : Memref sig .tc .vmem S512 .f32 := win1_9.stage (cfg1.slots t 9)
abbrev hs9 (t : Fin cfg1.N) : (ms9 t).IsWhole := hstage1_9 ((cfg1.slots t 9).cast nbuf1_9)

/-! ## What the inputs' staging buffers hold -/

/-- What the body leaves in each input's buffer, the window written as a numeral. -/
theorem afterLit_0 (c : Dev nD) (t : Fin cfg1.N) : (dat V c).after 0 t = iblk V c 0 t := by dsimp only [dat]
theorem afterLit_1 (c : Dev nD) (t : Fin cfg1.N) : (dat V c).after 1 t = iblk V c 1 t := by dsimp only [dat]
theorem afterLit_2 (c : Dev nD) (t : Fin cfg1.N) : (dat V c).after 2 t = iblk V c 2 t := by dsimp only [dat]
theorem afterLit_3 (c : Dev nD) (t : Fin cfg1.N) : (dat V c).after 3 t = iblk V c 3 t := by dsimp only [dat]
theorem afterLit_4 (c : Dev nD) (t : Fin cfg1.N) : (dat V c).after 4 t = iblk V c 4 t := by dsimp only [dat]
theorem afterLit_5 (c : Dev nD) (t : Fin cfg1.N) : (dat V c).after 5 t = iblk V c 5 t := by dsimp only [dat]

/-- Each input's current staging buffer holds its block at every point, fetched there or not: unfetched, the
    block index has not moved since the point that fetched it. -/
theorem before_0 (c : Dev nD) (t : Fin cfg1.N) (d) : (dat V c).before 0 t d = iblk V c 0 t :=
  ((dat V c).before_in_eq_fetched 0 rfl (fun _ => rfl) (fun _ _ _ => rfl) (fun t => by rw [afterLit_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [afterLit_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [afterLit_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl) (fun t => by rw [afterLit_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl) (fun t => by rw [afterLit_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl) (fun t => by rw [afterLit_5]; unfold Dat.blockOf iblk; rw [A_eq]; try rfl) t d).trans
    (by unfold Dat.fetched Dat.blockOf iblk; rw [A_eq]; try rfl)

end Cert.Kernel.Lse

end
-- ==== Proof.Word.Lse.Whole.lean ====
/- Loads and stores through a whole buffer: a load of the whole buffer reads its contents, a store of the whole
   buffer leaves the stored vector whatever was there, and a load after such a store reads the stored vector. -/
import proofs.«123878_j24489903522258_2_alg».proof.Proof.Word.Shares
import Idealize.ShloMosaic.Lib.Pipeline.Value
import Idealize.ShloMosaic.Lib.WholeRead

namespace Cert.Kernel.Lse

open Cert.Kernel
open Idealize.ShloMosaic

/-- The offsets of a whole-vector access are zero. -/
theorem zeros_S512 : (![0] : Fin S512.rank → ℕ) = fun _ => 0 := by
  funext a; exact Fin.cases rfl (fun j => j.elim0) a

/-- The offsets of a whole-matrix access are zero. -/
theorem zeros_S512x512 : (![0, 0] : Fin S512x512.rank → ℕ) = fun _ => 0 := by
  funext a; exact Fin.cases rfl (fun j => Fin.cases rfl (fun k => k.elim0) j) a

variable {sig : RefSig} {κ : Kind} {sp : Space} {S : Shape} {e : EltTy} {Val : EltTy → Type}

/-- A load of a whole buffer held at the contents that read `X` reads `X`. -/
theorem load_whole {m : Memref sig κ sp S e} (h : m.IsWhole) (X : S.Idx → Val e) {off : Fin S.rank → ℕ}
    (ho : off = fun _ => 0) (inb : ∀ a, off a + S.size a ≤ S.size a) :
    m.view.readAt Val (Rect.unit off S.size inb).toLoadRect (h.unread X) = X := by
  show View.ld (m.view.read Val (h.unread X)) (Rect.unit off S.size inb) = X
  rw [h.read_unread]; exact View.ld_unit_zero ho inb X

/-- After a store of the whole buffer, the buffer reads the stored vector. -/
theorem store_whole [∀ e, Nonempty (Val e)] (v : View sig κ sp S e) (f : v.ty.Contents Val) {off : Fin S.rank → ℕ}
    (ho : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero ho inb y⟩),
    View.canon_cons_unit_zero ho]

/-- A load of the whole buffer after a store of the whole buffer reads the stored vector. -/
theorem reload_whole [∀ e, Nonempty (Val e)] (v : View sig κ sp S e) {off : Fin S.rank → ℕ}
    (ho : off = fun _ => 0) (inb : ∀ a, off a + S.size a ≤ S.size a) (w : S.Idx → Val e) (L : List (View.Piece Val S e))
    {off' : Fin S.rank → ℕ} (ho' : off' = fun _ => 0) (inb' : ∀ a, off' a + S.size a ≤ S.size a) :
    v.readCov ((⟨Rect.unit off S.size inb, w⟩ : View.Piece Val S e) :: L) (Rect.unit off' S.size inb').toLoadRect = w := by
  rw [View.readCov_eq_canon', View.canon_cons_unit_zero ho]; exact View.ld_unit_zero ho' inb' w

end Cert.Kernel.Lse
-- ==== Proof.Word.Lse.RunFirst.lean ====
/- The body of the log-sum-exp kernel at the first point of a row: the six carried vectors are set from the tile. -/
import proofs.«123878_j24489903522258_2_alg».proof.Proof.Word.Lse.Sched
import proofs.«123878_j24489903522258_2_alg».proof.Proof.Word.Lse.Whole

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option pp.maxSteps 20000
set_option pp.deepTerms false

set_option maxHeartbeats 2000000 in
/-- At a point with sweep coordinate 0, on whole staging memrefs holding the six input blocks, the body leaves the
    inputs and the four output buffers as they were and the six scratch vectors at the tile's first carry,
    whatever they held. -/
theorem run_first (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S512 .f32) (harg11 : arg11.IsWhole) (arg12 : Memref sig .tc .vmem S512 .f32) (harg12 : arg12.IsWhole) (arg13 : Memref sig .tc .vmem S512 .f32) (harg13 : arg13.IsWhole) (arg14 : Memref sig .tc .vmem S512 .f32) (harg14 : arg14.IsWhole) (arg15 : Memref sig .tc .vmem S512 .f32) (harg15 : arg15.IsWhole) (arg16 : Memref sig .tc .vmem S512 .f32) (harg16 : arg16.IsWhole) (arg17 : Memref sig .tc .vmem S512 .f32) (harg17 : arg17.IsWhole)
    (hc1 : condFirst i) (hc2 : ¬condNext i) (hc3 : ¬condLast i)
    (ej ei : Vec F S512x512 .f32) (lj li : Vec F S512 .i32) (pb nb : Vec F S512 .f32)
    (o6 o7 o8 o9 : Vec F S512 .f32) (E : Set ℕ) (K : PUnit → sProp 𝕄) :
    iprop(owns (c : Thread nD τ) arg2 fullShare ej ∗ owns (c : Thread nD τ) arg3 fullShare ei
        ∗ owns (c : Thread nD τ) arg4 fullShare lj ∗ owns (c : Thread nD τ) arg5 fullShare li
        ∗ owns (c : Thread nD τ) arg6 fullShare pb ∗ owns (c : Thread nD τ) arg7 fullShare nb
        ∗ owns (c : Thread nD τ) arg8 fullShare o6 ∗ owns (c : Thread nD τ) arg9 fullShare o7
        ∗ owns (c : Thread nD τ) arg10 fullShare o8 ∗ owns (c : Thread nD τ) arg11 fullShare o9
        ∗ (∃ d, owns (c : Thread nD τ) arg12 fullShare d) ∗ (∃ d, owns (c : Thread nD τ) arg13 fullShare d)
        ∗ (∃ d, owns (c : Thread nD τ) arg14 fullShare d) ∗ (∃ d, owns (c : Thread nD τ) arg15 fullShare d)
        ∗ (∃ d, owns (c : Thread nD τ) arg16 fullShare d) ∗ (∃ d, owns (c : Thread nD τ) arg17 fullShare d)
        ∗ (iprop(owns (c : Thread nD τ) arg2 fullShare ej ∗ owns (c : Thread nD τ) arg3 fullShare ei
        ∗ owns (c : Thread nD τ) arg4 fullShare lj ∗ owns (c : Thread nD τ) arg5 fullShare li
        ∗ owns (c : Thread nD τ) arg6 fullShare pb ∗ owns (c : Thread nD τ) arg7 fullShare nb
        ∗ owns (c : Thread nD τ) arg8 fullShare o6 ∗ owns (c : Thread nD τ) arg9 fullShare o7
        ∗ owns (c : Thread nD τ) arg10 fullShare o8 ∗ owns (c : Thread nD τ) arg11 fullShare o9
        ∗ owns (c : Thread nD τ) arg12 fullShare (Carry.first (tile ej ei lj li pb nb)).posRef ∗ owns (c : Thread nD τ) arg13 fullShare (Carry.first (tile ej ei lj li pb nb)).posSum
        ∗ owns (c : Thread nD τ) arg14 fullShare (Carry.first (tile ej ei lj li pb nb)).posChk ∗ owns (c : Thread nD τ) arg15 fullShare (Carry.first (tile ej ei lj li pb nb)).negRef
        ∗ owns (c : Thread nD τ) arg16 fullShare (Carry.first (tile ej ei lj li pb nb)).negSum ∗ owns (c : Thread nD τ) arg17 fullShare (Carry.first (tile ej ei lj li pb nb)).negChk) -∗ K ⟨⟩))
      ⊢ wp frame (wpE (defs₀ (F := F)) Variants.none c none) E (cc1__logsumexp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__logsumexp_kernel_eq_skeleton]; unfold cc1__logsumexp_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  obtain rfl := harg8.eq_unread hf8; obtain rfl := harg9.eq_unread hf9; obtain rfl := harg10.eq_unread hf10; obtain rfl := harg11.eq_unread hf11
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr
    swap; · iexact H12
    ipureintro; refine (store_whole arg12.view _ zeros_S512 _ _ _).trans ?_
    sl_unfold_run_names
    simp only [Carry.first, tile, load_whole harg2 ej zeros_S512x512, load_whole harg3 ei zeros_S512x512, load_whole harg4 lj zeros_S512, load_whole harg5 li zeros_S512, load_whole harg6 pb zeros_S512, load_whole harg7 nb zeros_S512]
  isplitl [H13]
  · iexists _; isplitr
    swap; · iexact H13
    ipureintro; refine (store_whole arg13.view _ zeros_S512 _ _ _).trans ?_
    sl_unfold_run_names
    simp only [Carry.first, tile, load_whole harg2 ej zeros_S512x512, load_whole harg3 ei zeros_S512x512, load_whole harg4 lj zeros_S512, load_whole harg5 li zeros_S512, load_whole harg6 pb zeros_S512, load_whole harg7 nb zeros_S512]
  isplitl [H14]
  · iexists _; isplitr
    swap; · iexact H14
    ipureintro; refine (store_whole arg14.view _ zeros_S512 _ _ _).trans ?_
    sl_unfold_run_names
    simp only [Carry.first, tile, load_whole harg2 ej zeros_S512x512, load_whole harg3 ei zeros_S512x512, load_whole harg4 lj zeros_S512, load_whole harg5 li zeros_S512, load_whole harg6 pb zeros_S512, load_whole harg7 nb zeros_S512]
  isplitl [H15]
  · iexists _; isplitr
    swap; · iexact H15
    ipureintro; refine (store_whole arg15.view _ zeros_S512 _ _ _).trans ?_
    sl_unfold_run_names
    simp only [Carry.first, tile, load_whole harg2 ej zeros_S512x512, load_whole harg3 ei zeros_S512x512, load_whole harg4 lj zeros_S512, load_whole harg5 li zeros_S512, load_whole harg6 pb zeros_S512, load_whole harg7 nb zeros_S512]
  isplitl [H16]
  · iexists _; isplitr
    swap; · iexact H16
    ipureintro; refine (store_whole arg16.view _ zeros_S512 _ _ _).trans ?_
    sl_unfold_run_names
    simp only [Carry.first, tile, load_whole harg2 ej zeros_S512x512, load_whole harg3 ei zeros_S512x512, load_whole harg4 lj zeros_S512, load_whole harg5 li zeros_S512, load_whole harg6 pb zeros_S512, load_whole harg7 nb zeros_S512]
  iexists _; isplitr
  swap; · iexact H17
  ipureintro; refine (store_whole arg17.view _ zeros_S512 _ _ _).trans ?_
  sl_unfold_run_names
  simp only [Carry.first, tile, load_whole harg2 ej zeros_S512x512, load_whole harg3 ei zeros_S512x512, load_whole harg4 lj zeros_S512, load_whole harg5 li zeros_S512, load_whole harg6 pb zeros_S512, load_whole harg7 nb zeros_S512]

end Cert.Kernel.Lse

end
-- ==== Proof.Word.Lse.RunNext.lean ====
/- The body of the log-sum-exp kernel at an inner point of a row: the six carried vectors are updated from the tile. -/
import proofs.«123878_j24489903522258_2_alg».proof.Proof.Word.Lse.Sched
import proofs.«123878_j24489903522258_2_alg».proof.Proof.Word.Lse.Whole

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option pp.maxSteps 20000
set_option pp.deepTerms false

set_option maxHeartbeats 2000000 in
/-- At a point with sweep coordinate strictly between 0 and 7, on whole staging memrefs holding the six input blocks
    and scratch vectors holding the carry `s`, the body leaves the inputs and the four output buffers as they were
    and the scratch vectors at the update of `s` by the tile. -/
theorem run_next (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S512 .f32) (harg11 : arg11.IsWhole) (arg12 : Memref sig .tc .vmem S512 .f32) (harg12 : arg12.IsWhole) (arg13 : Memref sig .tc .vmem S512 .f32) (harg13 : arg13.IsWhole) (arg14 : Memref sig .tc .vmem S512 .f32) (harg14 : arg14.IsWhole) (arg15 : Memref sig .tc .vmem S512 .f32) (harg15 : arg15.IsWhole) (arg16 : Memref sig .tc .vmem S512 .f32) (harg16 : arg16.IsWhole) (arg17 : Memref sig .tc .vmem S512 .f32) (harg17 : arg17.IsWhole)
    (hc1 : ¬condFirst i) (hc2 : condNext i) (hc3 : ¬condLast i)
    (ej ei : Vec F S512x512 .f32) (lj li : Vec F S512 .i32) (pb nb : Vec F S512 .f32)
    (o6 o7 o8 o9 : Vec F S512 .f32) (s : Carry F) (E : Set ℕ) (K : PUnit → sProp 𝕄) :
    iprop(owns (c : Thread nD τ) arg2 fullShare ej ∗ owns (c : Thread nD τ) arg3 fullShare ei
        ∗ owns (c : Thread nD τ) arg4 fullShare lj ∗ owns (c : Thread nD τ) arg5 fullShare li
        ∗ owns (c : Thread nD τ) arg6 fullShare pb ∗ owns (c : Thread nD τ) arg7 fullShare nb
        ∗ owns (c : Thread nD τ) arg8 fullShare o6 ∗ owns (c : Thread nD τ) arg9 fullShare o7
        ∗ owns (c : Thread nD τ) arg10 fullShare o8 ∗ owns (c : Thread nD τ) arg11 fullShare o9
        ∗ owns (c : Thread nD τ) arg12 fullShare (s).posRef ∗ owns (c : Thread nD τ) arg13 fullShare (s).posSum
        ∗ owns (c : Thread nD τ) arg14 fullShare (s).posChk ∗ owns (c : Thread nD τ) arg15 fullShare (s).negRef
        ∗ owns (c : Thread nD τ) arg16 fullShare (s).negSum ∗ owns (c : Thread nD τ) arg17 fullShare (s).negChk
        ∗ (iprop(owns (c : Thread nD τ) arg2 fullShare ej ∗ owns (c : Thread nD τ) arg3 fullShare ei
        ∗ owns (c : Thread nD τ) arg4 fullShare lj ∗ owns (c : Thread nD τ) arg5 fullShare li
        ∗ owns (c : Thread nD τ) arg6 fullShare pb ∗ owns (c : Thread nD τ) arg7 fullShare nb
        ∗ owns (c : Thread nD τ) arg8 fullShare o6 ∗ owns (c : Thread nD τ) arg9 fullShare o7
        ∗ owns (c : Thread nD τ) arg10 fullShare o8 ∗ owns (c : Thread nD τ) arg11 fullShare o9
        ∗ owns (c : Thread nD τ) arg12 fullShare (Carry.next (tile ej ei lj li pb nb) s).posRef ∗ owns (c : Thread nD τ) arg13 fullShare (Carry.next (tile ej ei lj li pb nb) s).posSum
        ∗ owns (c : Thread nD τ) arg14 fullShare (Carry.next (tile ej ei lj li pb nb) s).posChk ∗ owns (c : Thread nD τ) arg15 fullShare (Carry.next (tile ej ei lj li pb nb) s).negRef
        ∗ owns (c : Thread nD τ) arg16 fullShare (Carry.next (tile ej ei lj li pb nb) s).negSum ∗ owns (c : Thread nD τ) arg17 fullShare (Carry.next (tile ej ei lj li pb nb) s).negChk) -∗ K ⟨⟩))
      ⊢ wp frame (wpE (defs₀ (F := F)) Variants.none c none) E (cc1__logsumexp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__logsumexp_kernel_eq_skeleton]; unfold cc1__logsumexp_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  obtain rfl := harg8.eq_unread hf8; obtain rfl := harg9.eq_unread hf9; obtain rfl := harg10.eq_unread hf10; obtain rfl := harg11.eq_unread hf11
  obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr
    swap; · iexact H12
    ipureintro; refine (store_whole arg12.view _ zeros_S512 _ _ _).trans ?_
    sl_unfold_run_names
    simp only [Carry.next, tile, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  isplitl [H13]
  · iexists _; isplitr
    swap; · iexact H13
    ipureintro; refine (store_whole arg13.view _ zeros_S512 _ _ _).trans ?_
    sl_unfold_run_names
    simp only [Carry.next, tile, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  isplitl [H14]
  · iexists _; isplitr
    swap; · iexact H14
    ipureintro; refine (store_whole arg14.view _ zeros_S512 _ _ _).trans ?_
    sl_unfold_run_names
    simp only [Carry.next, tile, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  isplitl [H15]
  · iexists _; isplitr
    swap; · iexact H15
    ipureintro; refine (store_whole arg15.view _ zeros_S512 _ _ _).trans ?_
    sl_unfold_run_names
    simp only [Carry.next, tile, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  isplitl [H16]
  · iexists _; isplitr
    swap; · iexact H16
    ipureintro; refine (store_whole arg16.view _ zeros_S512 _ _ _).trans ?_
    sl_unfold_run_names
    simp only [Carry.next, tile, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  iexists _; isplitr
  swap; · iexact H17
  ipureintro; refine (store_whole arg17.view _ zeros_S512 _ _ _).trans ?_
  sl_unfold_run_names
  simp only [Carry.next, tile, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]

end Cert.Kernel.Lse

end
-- ==== Proof.Word.Lse.RunLast.lean ====
/- The body of the log-sum-exp kernel at the last point of a row: the six carried vectors are updated from the tile
   and the four results are read off them. -/
import proofs.«123878_j24489903522258_2_alg».proof.Proof.Word.Lse.Sched
import proofs.«123878_j24489903522258_2_alg».proof.Proof.Word.Lse.Whole

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option pp.maxSteps 20000
set_option pp.deepTerms false

set_option maxHeartbeats 2000000 in
/-- At a point with sweep coordinate 7, on whole staging memrefs holding the six input blocks and scratch vectors
    holding the carry `s`, the body leaves the inputs as they were, the scratch vectors at the update of `s` by the
    tile, and the four output buffers at the results of that update, whatever they held. -/
theorem run_last (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512 .i32) (harg4 : arg4.IsWhole) (arg5 : Memref sig .tc .vmem S512 .i32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S512 .f32) (harg11 : arg11.IsWhole) (arg12 : Memref sig .tc .vmem S512 .f32) (harg12 : arg12.IsWhole) (arg13 : Memref sig .tc .vmem S512 .f32) (harg13 : arg13.IsWhole) (arg14 : Memref sig .tc .vmem S512 .f32) (harg14 : arg14.IsWhole) (arg15 : Memref sig .tc .vmem S512 .f32) (harg15 : arg15.IsWhole) (arg16 : Memref sig .tc .vmem S512 .f32) (harg16 : arg16.IsWhole) (arg17 : Memref sig .tc .vmem S512 .f32) (harg17 : arg17.IsWhole)
    (hc1 : ¬condFirst i) (hc2 : condNext i) (hc3 : condLast i)
    (ej ei : Vec F S512x512 .f32) (lj li : Vec F S512 .i32) (pb nb : Vec F S512 .f32)
    (s : Carry F) (E : Set ℕ) (K : PUnit → sProp 𝕄) :
    iprop(owns (c : Thread nD τ) arg2 fullShare ej ∗ owns (c : Thread nD τ) arg3 fullShare ei
        ∗ owns (c : Thread nD τ) arg4 fullShare lj ∗ owns (c : Thread nD τ) arg5 fullShare li
        ∗ owns (c : Thread nD τ) arg6 fullShare pb ∗ owns (c : Thread nD τ) arg7 fullShare nb
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ owns (c : Thread nD τ) arg12 fullShare (s).posRef ∗ owns (c : Thread nD τ) arg13 fullShare (s).posSum
        ∗ owns (c : Thread nD τ) arg14 fullShare (s).posChk ∗ owns (c : Thread nD τ) arg15 fullShare (s).negRef
        ∗ owns (c : Thread nD τ) arg16 fullShare (s).negSum ∗ owns (c : Thread nD τ) arg17 fullShare (s).negChk
        ∗ (iprop(owns (c : Thread nD τ) arg2 fullShare ej ∗ owns (c : Thread nD τ) arg3 fullShare ei
        ∗ owns (c : Thread nD τ) arg4 fullShare lj ∗ owns (c : Thread nD τ) arg5 fullShare li
        ∗ owns (c : Thread nD τ) arg6 fullShare pb ∗ owns (c : Thread nD τ) arg7 fullShare nb
        ∗ owns (c : Thread nD τ) arg8 fullShare (Carry.next (tile ej ei lj li pb nb) s).results.posVals ∗ owns (c : Thread nD τ) arg9 fullShare (Carry.next (tile ej ei lj li pb nb) s).results.posNz
        ∗ owns (c : Thread nD τ) arg10 fullShare (Carry.next (tile ej ei lj li pb nb) s).results.negVals ∗ owns (c : Thread nD τ) arg11 fullShare (Carry.next (tile ej ei lj li pb nb) s).results.negNz
        ∗ owns (c : Thread nD τ) arg12 fullShare (Carry.next (tile ej ei lj li pb nb) s).posRef ∗ owns (c : Thread nD τ) arg13 fullShare (Carry.next (tile ej ei lj li pb nb) s).posSum
        ∗ owns (c : Thread nD τ) arg14 fullShare (Carry.next (tile ej ei lj li pb nb) s).posChk ∗ owns (c : Thread nD τ) arg15 fullShare (Carry.next (tile ej ei lj li pb nb) s).negRef
        ∗ owns (c : Thread nD τ) arg16 fullShare (Carry.next (tile ej ei lj li pb nb) s).negSum ∗ owns (c : Thread nD τ) arg17 fullShare (Carry.next (tile ej ei lj li pb nb) s).negChk) -∗ K ⟨⟩))
      ⊢ wp frame (wpE (defs₀ (F := F)) Variants.none c none) E (cc1__logsumexp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__logsumexp_kernel_eq_skeleton]; unfold cc1__logsumexp_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro; refine (store_whole arg8.view _ zeros_S512 _ _ _).trans ?_
    sl_unfold_run_names
    simp only [Carry.results, Carry.next, tile, reload_whole arg12.view zeros_S512 _ _ _ zeros_S512, reload_whole arg13.view zeros_S512 _ _ _ zeros_S512, reload_whole arg14.view zeros_S512 _ _ _ zeros_S512, reload_whole arg15.view zeros_S512 _ _ _ zeros_S512, reload_whole arg16.view zeros_S512 _ _ _ zeros_S512, reload_whole arg17.view zeros_S512 _ _ _ zeros_S512, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  isplitl [H9]
  · iexists _; isplitr
    swap; · iexact H9
    ipureintro; refine (store_whole arg9.view _ zeros_S512 _ _ _).trans ?_
    sl_unfold_run_names
    simp only [Carry.results, Carry.next, tile, reload_whole arg12.view zeros_S512 _ _ _ zeros_S512, reload_whole arg13.view zeros_S512 _ _ _ zeros_S512, reload_whole arg14.view zeros_S512 _ _ _ zeros_S512, reload_whole arg15.view zeros_S512 _ _ _ zeros_S512, reload_whole arg16.view zeros_S512 _ _ _ zeros_S512, reload_whole arg17.view zeros_S512 _ _ _ zeros_S512, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  isplitl [H10]
  · iexists _; isplitr
    swap; · iexact H10
    ipureintro; refine (store_whole arg10.view _ zeros_S512 _ _ _).trans ?_
    sl_unfold_run_names
    simp only [Carry.results, Carry.next, tile, reload_whole arg12.view zeros_S512 _ _ _ zeros_S512, reload_whole arg13.view zeros_S512 _ _ _ zeros_S512, reload_whole arg14.view zeros_S512 _ _ _ zeros_S512, reload_whole arg15.view zeros_S512 _ _ _ zeros_S512, reload_whole arg16.view zeros_S512 _ _ _ zeros_S512, reload_whole arg17.view zeros_S512 _ _ _ zeros_S512, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  isplitl [H11]
  · iexists _; isplitr
    swap; · iexact H11
    ipureintro; refine (store_whole arg11.view _ zeros_S512 _ _ _).trans ?_
    sl_unfold_run_names
    simp only [Carry.results, Carry.next, tile, reload_whole arg12.view zeros_S512 _ _ _ zeros_S512, reload_whole arg13.view zeros_S512 _ _ _ zeros_S512, reload_whole arg14.view zeros_S512 _ _ _ zeros_S512, reload_whole arg15.view zeros_S512 _ _ _ zeros_S512, reload_whole arg16.view zeros_S512 _ _ _ zeros_S512, reload_whole arg17.view zeros_S512 _ _ _ zeros_S512, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  isplitl [H12]
  · iexists _; isplitr
    swap; · iexact H12
    ipureintro; refine (store_whole arg12.view _ zeros_S512 _ _ _).trans ?_
    sl_unfold_run_names
    simp only [Carry.results, Carry.next, tile, reload_whole arg12.view zeros_S512 _ _ _ zeros_S512, reload_whole arg13.view zeros_S512 _ _ _ zeros_S512, reload_whole arg14.view zeros_S512 _ _ _ zeros_S512, reload_whole arg15.view zeros_S512 _ _ _ zeros_S512, reload_whole arg16.view zeros_S512 _ _ _ zeros_S512, reload_whole arg17.view zeros_S512 _ _ _ zeros_S512, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  isplitl [H13]
  · iexists _; isplitr
    swap; · iexact H13
    ipureintro; refine (store_whole arg13.view _ zeros_S512 _ _ _).trans ?_
    sl_unfold_run_names
    simp only [Carry.results, Carry.next, tile, reload_whole arg12.view zeros_S512 _ _ _ zeros_S512, reload_whole arg13.view zeros_S512 _ _ _ zeros_S512, reload_whole arg14.view zeros_S512 _ _ _ zeros_S512, reload_whole arg15.view zeros_S512 _ _ _ zeros_S512, reload_whole arg16.view zeros_S512 _ _ _ zeros_S512, reload_whole arg17.view zeros_S512 _ _ _ zeros_S512, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  isplitl [H14]
  · iexists _; isplitr
    swap; · iexact H14
    ipureintro; refine (store_whole arg14.view _ zeros_S512 _ _ _).trans ?_
    sl_unfold_run_names
    simp only [Carry.results, Carry.next, tile, reload_whole arg12.view zeros_S512 _ _ _ zeros_S512, reload_whole arg13.view zeros_S512 _ _ _ zeros_S512, reload_whole arg14.view zeros_S512 _ _ _ zeros_S512, reload_whole arg15.view zeros_S512 _ _ _ zeros_S512, reload_whole arg16.view zeros_S512 _ _ _ zeros_S512, reload_whole arg17.view zeros_S512 _ _ _ zeros_S512, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  isplitl [H15]
  · iexists _; isplitr
    swap; · iexact H15
    ipureintro; refine (store_whole arg15.view _ zeros_S512 _ _ _).trans ?_
    sl_unfold_run_names
    simp only [Carry.results, Carry.next, tile, reload_whole arg12.view zeros_S512 _ _ _ zeros_S512, reload_whole arg13.view zeros_S512 _ _ _ zeros_S512, reload_whole arg14.view zeros_S512 _ _ _ zeros_S512, reload_whole arg15.view zeros_S512 _ _ _ zeros_S512, reload_whole arg16.view zeros_S512 _ _ _ zeros_S512, reload_whole arg17.view zeros_S512 _ _ _ zeros_S512, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  isplitl [H16]
  · iexists _; isplitr
    swap; · iexact H16
    ipureintro; refine (store_whole arg16.view _ zeros_S512 _ _ _).trans ?_
    sl_unfold_run_names
    simp only [Carry.results, Carry.next, tile, reload_whole arg12.view zeros_S512 _ _ _ zeros_S512, reload_whole arg13.view zeros_S512 _ _ _ zeros_S512, reload_whole arg14.view zeros_S512 _ _ _ zeros_S512, reload_whole arg15.view zeros_S512 _ _ _ zeros_S512, reload_whole arg16.view zeros_S512 _ _ _ zeros_S512, reload_whole arg17.view zeros_S512 _ _ _ zeros_S512, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]
  iexists _; isplitr
  swap; · iexact H17
  ipureintro; refine (store_whole arg17.view _ zeros_S512 _ _ _).trans ?_
  sl_unfold_run_names
  simp only [Carry.results, Carry.next, tile, reload_whole arg12.view zeros_S512 _ _ _ zeros_S512, reload_whole arg13.view zeros_S512 _ _ _ zeros_S512, reload_whole arg14.view zeros_S512 _ _ _ zeros_S512, reload_whole arg15.view zeros_S512 _ _ _ zeros_S512, reload_whole arg16.view zeros_S512 _ _ _ zeros_S512, reload_whole arg17.view zeros_S512 _ _ _ zeros_S512, load_whole harg2 ej zeros_S512x512, load_whole harg3 ei zeros_S512x512, load_whole harg4 lj zeros_S512, load_whole harg5 li zeros_S512, load_whole harg6 pb zeros_S512, load_whole harg7 nb zeros_S512, load_whole harg12 s.posRef zeros_S512, load_whole harg13 s.posSum zeros_S512, load_whole harg14 s.posChk zeros_S512, load_whole harg15 s.negRef zeros_S512, load_whole harg16 s.negSum zeros_S512, load_whole harg17 s.negChk zeros_S512]

end Cert.Kernel.Lse

end
-- ==== Proof.Word.Lse.Obligation.lean ====
/- The body obligation of the log-sum-exp kernel's pipeline: at every point the body, called on the current staging
   buffers, takes the invariant before the point to the invariant after it and leaves every window's buffer at what
   the proof data say. Three cases by the sweep coordinate: first point of a row, inner point, last point. -/
import proofs.«123878_j24489903522258_2_alg».proof.Proof.Word.Lse.RunFirst
import proofs.«123878_j24489903522258_2_alg».proof.Proof.Word.Lse.RunNext
import proofs.«123878_j24489903522258_2_alg».proof.Proof.Word.Lse.RunLast

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option pp.maxSteps 20000
set_option pp.deepTerms false

variable (V : (c : Dev nD) → (b : Ref sig .tc) → Buf (Elt F) ((c : Thread nD τ).loc b))

/-- What the body leaves in each output's buffer, the window written as a numeral. -/
theorem outLit_6 (c : Dev nD) (t : Fin cfg1.N) : (dat V c).after 6 t = (resultsAt V c t).posVals := by dsimp only [dat]
theorem outLit_7 (c : Dev nD) (t : Fin cfg1.N) : (dat V c).after 7 t = (resultsAt V c t).posNz := by dsimp only [dat]
theorem outLit_8 (c : Dev nD) (t : Fin cfg1.N) : (dat V c).after 8 t = (resultsAt V c t).negVals := by dsimp only [dat]
theorem outLit_9 (c : Dev nD) (t : Fin cfg1.N) : (dat V c).after 9 t = (resultsAt V c t).negNz := by dsimp only [dat]

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

set_option maxHeartbeats 4800000 in
/-- The body at any point. The inputs' buffers hold their blocks; the sweep coordinate says which case the point
    is in; the invariant hands the body the scratch vectors at what the point before left (at anything before the
    first point) and takes them back at this point's carry; off the last point of a row the outputs' buffers are
    handed back untouched, at it they hold the results. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  rw [show (dat V c).leavesExact 0 t = owns (c : Thread nD τ) (ms0 t) fullShare ((dat V c).after 0 t) from by
    unfold Dat.leavesExact; rw [live_0 t], afterLit_0]
  rw [show (dat V c).leavesExact 1 t = owns (c : Thread nD τ) (ms1 t) fullShare ((dat V c).after 1 t) from by
    unfold Dat.leavesExact; rw [live_1 t], afterLit_1]
  rw [show (dat V c).leavesExact 2 t = owns (c : Thread nD τ) (ms2 t) fullShare ((dat V c).after 2 t) from by
    unfold Dat.leavesExact; rw [live_2 t], afterLit_2]
  rw [show (dat V c).leavesExact 3 t = owns (c : Thread nD τ) (ms3 t) fullShare ((dat V c).after 3 t) from by
    unfold Dat.leavesExact; rw [live_3 t], afterLit_3]
  rw [show (dat V c).leavesExact 4 t = owns (c : Thread nD τ) (ms4 t) fullShare ((dat V c).after 4 t) from by
    unfold Dat.leavesExact; rw [live_4 t], afterLit_4]
  rw [show (dat V c).leavesExact 5 t = owns (c : Thread nD τ) (ms5 t) fullShare ((dat V c).after 5 t) from by
    unfold Dat.leavesExact; rw [live_5 t], afterLit_5]
  by_cases h0 : t.val % 8 = 0
  · have hc1 : condFirst (grid1.coords t) := (hcondFirst t).mpr h0
    have hc2 : ¬condNext (grid1.coords t) := fun h => (hcondNext t).mp h h0
    have hc3 : ¬condLast (grid1.coords t) := fun h => by have := (hcondLast t).mp h; omega
    rw [Dat.leavesExact_idle (dat V c) 6 t (idle_6 t hc3) (noFlush_6 t hc3)]
    rw [Dat.leavesExact_idle (dat V c) 7 t (idle_7 t hc3) (noFlush_7 t hc3)]
    rw [Dat.leavesExact_idle (dat V c) 8 t (idle_8 t hc3) (noFlush_8 t hc3)]
    rw [Dat.leavesExact_idle (dat V c) 9 t (idle_9 t hc3) (noFlush_9 t hc3)]
    rw [carryAt_first V c t h0]; unfold tileAt
    by_cases hz : t.val = 0
    · rw [PhiS_castSucc V c t, PhiS_zero V c _ _ hz, PhiA_eq]; unfold withRest heldAny held
      iintro ⟨⟨⟨R0, R1, R2, R3, R4, R5, R6, R7, R8, R9, R10, R11, R12, R13, S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_first c (grid1.coords t) _ _ _ _ _ _ _ _ _ _ _ _ _ _ _ _ _ _ _ _ _ _ _ _ _ _ _ _ _ _ _ _ hc1 hc2 hc3 (iblk V c 0 t) (iblk V c 1 t) (iblk V c 2 t) (iblk V c 3 t) (iblk V c 4 t) (iblk V c 5 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, H7, H8, H9, S0, S1, S2, S3, S4, S5⟩
      isplitl [R0 R1 R2 R3 R4 R5 R6 R7 R8 R9 R10 R11 R12 R13 S0 S1 S2 S3 S4 S5 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [S0]; · iexact S0
          isplitl [S1]; · iexact S1
          isplitl [S2]; · iexact S2
          isplitl [S3]; · iexact S3
          isplitl [S4]; · iexact S4
          iexact S5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      iexists _; iexact H9
    · rw [PhiS_castSucc V c t, PhiS_pos V c _ _ hz]; unfold withRest held
      iintro ⟨⟨⟨R0, R1, R2, R3, R4, R5, R6, R7, R8, R9, R10, R11, R12, R13, S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_first c (grid1.coords t) _ _ _ _ _ _ _ _ _ _ _ _ _ _ _ _ _ _ _ _ _ _ _ _ _ _ _ _ _ _ _ _ hc1 hc2 hc3 (iblk V c 0 t) (iblk V c 1 t) (iblk V c 2 t) (iblk V c 3 t) (iblk V c 4 t) (iblk V c 5 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      iintro ⟨H0, H1, H2, H3, H4, H5, H6, H7, H8, H9, S0, S1, S2, S3, S4, S5⟩
      isplitl [R0 R1 R2 R3 R4 R5 R6 R7 R8 R9 R10 R11 R12 R13 S0 S1 S2 S3 S4 S5 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [S0]; · iexact S0
          isplitl [S1]; · iexact S1
          isplitl [S2]; · iexact S2
          isplitl [S3]; · iexact S3
          isplitl [S4]; · iexact S4
          iexact S5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      iexists _; iexact H9
  · have hc1 : ¬condFirst (grid1.coords t) := fun h => h0 ((hcondFirst t).mp h)
    have hc2 : condNext (grid1.coords t) := (hcondNext t).mpr h0
    have hz : t.val ≠ 0 := fun h => h0 (by rw [h])
    by_cases h7 : t.val % 8 = 7
    · have hc3 : condLast (grid1.coords t) := (hcondLast t).mpr h7
      rw [show (dat V c).leavesExact 6 t = owns (c : Thread nD τ) (ms6 t) fullShare ((dat V c).after 6 t) from by
        unfold Dat.leavesExact; rw [live_6 t hc3], outLit_6]
      rw [show (dat V c).leavesExact 7 t = owns (c : Thread nD τ) (ms7 t) fullShare ((dat V c).after 7 t) from by
        unfold Dat.leavesExact; rw [live_7 t hc3], outLit_7]
      rw [show (dat V c).leavesExact 8 t = owns (c : Thread nD τ) (ms8 t) fullShare ((dat V c).after 8 t) from by
        unfold Dat.leavesExact; rw [live_8 t hc3], outLit_8]
      rw [show (dat V c).leavesExact 9 t = owns (c : Thread nD τ) (ms9 t) fullShare ((dat V c).after 9 t) from by
        unfold Dat.leavesExact; rw [live_9 t hc3], outLit_9]
      unfold resultsAt; rw [carryAt_next V c t h0]; unfold tileAt
      rw [PhiS_castSucc V c t, PhiS_pos V c _ _ hz]; unfold withRest held
      iintro ⟨⟨⟨R0, R1, R2, R3, R4, R5, R6, R7, R8, R9, R10, R11, R12, R13, S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_last c (grid1.coords t) _ _ _ _ _ _ _ _ _ _ _ _ _ _ _ _ _ _ _ _ _ _ _ _ _ _ _ _ _ _ _ _ hc1 hc2 hc3 (iblk V c 0 t) (iblk V c 1 t) (iblk V c 2 t) (iblk V c 3 t) (iblk V c 4 t) (iblk V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, H7, H8, H9, S0, S1, S2, S3, S4, S5⟩
      isplitl [R0 R1 R2 R3 R4 R5 R6 R7 R8 R9 R10 R11 R12 R13 S0 S1 S2 S3 S4 S5 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [S0]; · iexact S0
          isplitl [S1]; · iexact S1
          isplitl [S2]; · iexact S2
          isplitl [S3]; · iexact S3
          isplitl [S4]; · iexact S4
          iexact S5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · have hc3 : ¬condLast (grid1.coords t) := fun h => h7 ((hcondLast t).mp h)
      rw [Dat.leavesExact_idle (dat V c) 6 t (idle_6 t hc3) (noFlush_6 t hc3)]
      rw [Dat.leavesExact_idle (dat V c) 7 t (idle_7 t hc3) (noFlush_7 t hc3)]
      rw [Dat.leavesExact_idle (dat V c) 8 t (idle_8 t hc3) (noFlush_8 t hc3)]
      rw [Dat.leavesExact_idle (dat V c) 9 t (idle_9 t hc3) (noFlush_9 t hc3)]
      rw [carryAt_next V c t h0]; unfold tileAt
      rw [PhiS_castSucc V c t, PhiS_pos V c _ _ hz]; unfold withRest held
      iintro ⟨⟨⟨R0, R1, R2, R3, R4, R5, R6, R7, R8, R9, R10, R11, R12, R13, S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_next c (grid1.coords t) _ _ _ _ _ _ _ _ _ _ _ _ _ _ _ _ _ _ _ _ _ _ _ _ _ _ _ _ _ _ _ _ hc1 hc2 hc3 (iblk V c 0 t) (iblk V c 1 t) (iblk V c 2 t) (iblk V c 3 t) (iblk V c 4 t) (iblk V c 5 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, H7, H8, H9, S0, S1, S2, S3, S4, S5⟩
      isplitl [R0 R1 R2 R3 R4 R5 R6 R7 R8 R9 R10 R11 R12 R13 S0 S1 S2 S3 S4 S5 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [S0]; · iexact S0
          isplitl [S1]; · iexact S1
          isplitl [S2]; · iexact S2
          isplitl [S3]; · iexact S3
          isplitl [S4]; · iexact S4
          iexact S5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      iexists _; iexact H9

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Lse

end
-- ==== Proof.Word.Frame.Deal1.lean ====
/- Dealing the arrays of the log-sum-exp kernel among its windows.

   The kernel reads each of the program's two arguments through two windows, so one buffer lies behind two of the
   pipeline's arrays. When the region is entered the core holds that buffer whole; the pipeline takes it as its two
   half shares, one per window, at the same contents. When the region is left the two halves, still at the contents
   they were taken at (an input's array is never written), make the buffer whole again. Every other window's array is
   a buffer of its own and passes whole in both directions. -/
import proofs.«123878_j24489903522258_2_alg».proof.Proof.Word.Shares
import Idealize.ShloMosaic.Lib.Pipeline.Frame
import Idealize.ShloMosaic.Lib.Pipeline.Regions

set_option maxRecDepth 4096

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen

variable {F : FTy → Type} [FloatOps F]

local notation "𝕄" => MT nD τ sig Unit (Elt F) ℕ (UR sig nD τ) ℕ

/-- The distinct buffers behind the log-sum-exp kernel's ten windows: the two arguments, the two bound vectors it
    reads and the four vectors it writes. -/
theorem image1 : (Finset.univ.image (Pipeline.arrRef spec1) : Finset (Ref sig .tc)) = {main_arg0, main_arg1, main_v0_0, main_v0_1, main_v1_0, main_v1_1, main_v1_2, main_v1_3} := by decide

/-- Those eight buffers, each whole at the full share. -/
theorem arrBufs1_eq (c : Dev nD) (V : (b : Ref sig .tc) → Buf (Elt F) ((c.tc : Thread nD τ).loc b)) :
    (Pipeline.arrBufs spec1 c V : sProp 𝕄) =
      iprop((((c.tc : Thread nD τ).loc main_arg0) ↦{fullShare} V main_arg0)
        ∗ (((c.tc : Thread nD τ).loc main_arg1) ↦{fullShare} V main_arg1)
        ∗ (((c.tc : Thread nD τ).loc main_v0_0) ↦{fullShare} V main_v0_0)
        ∗ (((c.tc : Thread nD τ).loc main_v0_1) ↦{fullShare} V main_v0_1)
        ∗ (((c.tc : Thread nD τ).loc main_v1_0) ↦{fullShare} V main_v1_0)
        ∗ (((c.tc : Thread nD τ).loc main_v1_1) ↦{fullShare} V main_v1_1)
        ∗ (((c.tc : Thread nD τ).loc main_v1_2) ↦{fullShare} V main_v1_2)
        ∗ (((c.tc : Thread nD τ).loc main_v1_3) ↦{fullShare} V main_v1_3)) := by
  unfold Pipeline.arrBufs
  rw [image1, bigSep_insert (by decide), bigSep_insert (by decide), bigSep_insert (by decide), bigSep_insert (by decide), bigSep_insert (by decide), bigSep_insert (by decide), bigSep_insert (by decide), bigSep_singleton]
  rfl

/-- The ten windows' arrays as the pipeline holds them: each argument at the two halves of the full share, one
    half per window that reads it, and every other array whole. -/
theorem arrays1_eq (c : Dev nD) (dat : Dat τ (Elt F) Unit ℕ (UR sig nD τ) ℕ cfg1 c) (hq : ∀ w, dat.q w = q1 w)
    (V : (b : Ref sig .tc) → Buf (Elt F) ((c.tc : Thread nD τ).loc b))
    (Fw : (w : Fin cfg1.W) → Buf (Elt F) ((cfg1.win w).arr.view.loc (c.tc : Thread nD τ)))
    (hF : ∀ w, Fw w = V (Pipeline.arrRef spec1 w)) :
    (dat.arrays Fw : sProp 𝕄) =
      iprop((((c.tc : Thread nD τ).loc main_arg0) ↦{fullShare.left} V main_arg0)
        ∗ (((c.tc : Thread nD τ).loc main_arg0) ↦{fullShare.right} V main_arg0)
        ∗ (((c.tc : Thread nD τ).loc main_arg1) ↦{fullShare.left} V main_arg1)
        ∗ (((c.tc : Thread nD τ).loc main_arg1) ↦{fullShare.right} V main_arg1)
        ∗ (((c.tc : Thread nD τ).loc main_v0_0) ↦{fullShare} V main_v0_0)
        ∗ (((c.tc : Thread nD τ).loc main_v0_1) ↦{fullShare} V main_v0_1)
        ∗ (((c.tc : Thread nD τ).loc main_v1_0) ↦{fullShare} V main_v1_0)
        ∗ (((c.tc : Thread nD τ).loc main_v1_1) ↦{fullShare} V main_v1_1)
        ∗ (((c.tc : Thread nD τ).loc main_v1_2) ↦{fullShare} V main_v1_2)
        ∗ (((c.tc : Thread nD τ).loc main_v1_3) ↦{fullShare} V main_v1_3)) := by
  have s0 : dat.share 0 = fullShare.left := by unfold Dat.share; rw [hq 0]; rfl
  have s1 : dat.share 1 = fullShare.right := by unfold Dat.share; rw [hq 1]; rfl
  have s2 : dat.share 2 = fullShare.left := by unfold Dat.share; rw [hq 2]; rfl
  have s3 : dat.share 3 = fullShare.right := by unfold Dat.share; rw [hq 3]; rfl
  have s4 : dat.share 4 = fullShare := by unfold Dat.share; rw [hq 4]; rfl
  have s5 : dat.share 5 = fullShare := by unfold Dat.share; rw [hq 5]; rfl
  have s6 : dat.share 6 = fullShare := rfl
  have s7 : dat.share 7 = fullShare := rfl
  have s8 : dat.share 8 = fullShare := rfl
  have s9 : dat.share 9 = fullShare := rfl
  unfold Dat.arrays
  rw [bigSep_W1]
  simp only [(arr_whole1 0).set_eq_univ, (arr_whole1 1).set_eq_univ, (arr_whole1 2).set_eq_univ, (arr_whole1 3).set_eq_univ, (arr_whole1 4).set_eq_univ, (arr_whole1 5).set_eq_univ, (arr_whole1 6).set_eq_univ, (arr_whole1 7).set_eq_univ, (arr_whole1 8).set_eq_univ, (arr_whole1 9).set_eq_univ,
    s0, s1, s2, s3, s4, s5, s6, s7, s8, s9, hF 0, hF 1, hF 2, hF 3, hF 4, hF 5, hF 6, hF 7, hF 8, hF 9]

/-- Entering the region: the eight whole buffers give the ten windows' arrays, each argument's full share dealt in
    halves to the two windows that read it. -/
theorem arrays_of_arrBufs1 (c : Dev nD) (dat : Dat τ (Elt F) Unit ℕ (UR sig nD τ) ℕ cfg1 c) (hq : ∀ w, dat.q w = q1 w)
    (V : (b : Ref sig .tc) → Buf (Elt F) ((c.tc : Thread nD τ).loc b))
    (Fw : (w : Fin cfg1.W) → Buf (Elt F) ((cfg1.win w).arr.view.loc (c.tc : Thread nD τ)))
    (hF : ∀ w, Fw w = V (Pipeline.arrRef spec1 w)) :
    (Pipeline.arrBufs spec1 c V : sProp 𝕄) ⊢ dat.arrays Fw := by
  rw [arrBufs1_eq, arrays1_eq c dat hq V Fw hF]
  iintro ⟨H0, H1, H2, H3, H4, H5, H6, H7⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitl [H0l]; · iexact H0l
  isplitl [H0r]; · iexact H0r
  isplitl [H1l]; · iexact H1l
  isplitl [H1r]; · iexact H1r
  isplitl [H2]; · iexact H2
  isplitl [H3]; · iexact H3
  isplitl [H4]; · iexact H4
  isplitl [H5]; · iexact H5
  isplitl [H6]; · iexact H6
  iexact H7

/-- Leaving the region: the two halves of each argument, at the same contents, make its buffer whole again. -/
theorem arrBufs_of_arrays1 (c : Dev nD) (dat : Dat τ (Elt F) Unit ℕ (UR sig nD τ) ℕ cfg1 c) (hq : ∀ w, dat.q w = q1 w)
    (V : (b : Ref sig .tc) → Buf (Elt F) ((c.tc : Thread nD τ).loc b))
    (Fw : (w : Fin cfg1.W) → Buf (Elt F) ((cfg1.win w).arr.view.loc (c.tc : Thread nD τ)))
    (hF : ∀ w, Fw w = V (Pipeline.arrRef spec1 w)) :
    (dat.arrays Fw : sProp 𝕄) ⊢ Pipeline.arrBufs spec1 c V := by
  rw [arrBufs1_eq, arrays1_eq c dat hq V Fw hF]
  iintro ⟨H0l, H0r, H1l, H1r, H2, H3, H4, H5, H6, H7⟩
  isplitl [H0l H0r]
  · iapply (pointsTo_share (PosShare.mem_left_op_right fullShare)).2
    isplitl [H0l]; · iexact H0l
    iexact H0r
  isplitl [H1l H1r]
  · iapply (pointsTo_share (PosShare.mem_left_op_right fullShare)).2
    isplitl [H1l]; · iexact H1l
    iexact H1r
  isplitl [H2]; · iexact H2
  isplitl [H3]; · iexact H3
  isplitl [H4]; · iexact H4
  isplitl [H5]; · iexact H5
  isplitl [H6]; · iexact H6
  iexact H7

end Cert.Kernel.Hand
end
-- ==== Proof.Word.Frame.Deal0.lean ====
/- Dealing the arrays of the bounds kernel among its windows.

   The kernel reads each of the program's two arguments through two windows, so one buffer lies behind two of the
   pipeline's arrays. When the region is entered the core holds that buffer whole; the pipeline takes it as its two
   half shares, one per window, at the same contents. When the region is left the two halves, still at the contents
   they were taken at (an input's array is never written), make the buffer whole again. Every other window's array is
   a buffer of its own and passes whole in both directions. -/
import proofs.«123878_j24489903522258_2_alg».proof.Proof.Word.Shares
import Idealize.ShloMosaic.Lib.Pipeline.Frame
import Idealize.ShloMosaic.Lib.Pipeline.Regions

set_option maxRecDepth 4096

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen

variable {F : FTy → Type} [FloatOps F]

local notation "𝕄" => MT nD τ sig Unit (Elt F) ℕ (UR sig nD τ) ℕ

/-- The distinct buffers behind the bounds kernel's six windows: the two arguments and the two bound vectors. -/
theorem image0 : (Finset.univ.image (Pipeline.arrRef spec0) : Finset (Ref sig .tc)) = {main_arg0, main_arg1, main_v0_0, main_v0_1} := by decide

/-- Those four buffers, each whole at the full share. -/
theorem arrBufs0_eq (c : Dev nD) (V : (b : Ref sig .tc) → Buf (Elt F) ((c.tc : Thread nD τ).loc b)) :
    (Pipeline.arrBufs spec0 c V : sProp 𝕄) =
      iprop((((c.tc : Thread nD τ).loc main_arg0) ↦{fullShare} V main_arg0) ∗ (((c.tc : Thread nD τ).loc main_arg1) ↦{fullShare} V main_arg1)
        ∗ (((c.tc : Thread nD τ).loc main_v0_0) ↦{fullShare} V main_v0_0) ∗ (((c.tc : Thread nD τ).loc main_v0_1) ↦{fullShare} V main_v0_1)) := by
  unfold Pipeline.arrBufs
  rw [image0, bigSep_insert (by decide), bigSep_insert (by decide), bigSep_insert (by decide), bigSep_singleton]
  rfl

/-- The six windows' arrays as the pipeline holds them: each argument at the two halves of the full share, one
    half per window that reads it, and each bound vector whole. -/
theorem arrays0_eq (c : Dev nD) (dat : Dat τ (Elt F) Unit ℕ (UR sig nD τ) ℕ cfg0 c) (hq : ∀ w, dat.q w = q0 w)
    (V : (b : Ref sig .tc) → Buf (Elt F) ((c.tc : Thread nD τ).loc b))
    (Fw : (w : Fin cfg0.W) → Buf (Elt F) ((cfg0.win w).arr.view.loc (c.tc : Thread nD τ)))
    (hF : ∀ w, Fw w = V (Pipeline.arrRef spec0 w)) :
    (dat.arrays Fw : sProp 𝕄) =
      iprop((((c.tc : Thread nD τ).loc main_arg0) ↦{fullShare.left} V main_arg0) ∗ (((c.tc : Thread nD τ).loc main_arg0) ↦{fullShare.right} V main_arg0)
        ∗ (((c.tc : Thread nD τ).loc main_arg1) ↦{fullShare.left} V main_arg1) ∗ (((c.tc : Thread nD τ).loc main_arg1) ↦{fullShare.right} V main_arg1)
        ∗ (((c.tc : Thread nD τ).loc main_v0_0) ↦{fullShare} V main_v0_0) ∗ (((c.tc : Thread nD τ).loc main_v0_1) ↦{fullShare} V main_v0_1)) := by
  have s0 : dat.share 0 = fullShare.left := by unfold Dat.share; rw [hq 0]; rfl
  have s1 : dat.share 1 = fullShare.right := by unfold Dat.share; rw [hq 1]; rfl
  have s2 : dat.share 2 = fullShare.left := by unfold Dat.share; rw [hq 2]; rfl
  have s3 : dat.share 3 = fullShare.right := by unfold Dat.share; rw [hq 3]; rfl
  have s4 : dat.share 4 = fullShare := rfl
  have s5 : dat.share 5 = fullShare := rfl
  unfold Dat.arrays
  rw [bigSep_W0]
  simp only [(arr_whole0 0).set_eq_univ, (arr_whole0 1).set_eq_univ, (arr_whole0 2).set_eq_univ, (arr_whole0 3).set_eq_univ,
    (arr_whole0 4).set_eq_univ, (arr_whole0 5).set_eq_univ, s0, s1, s2, s3, s4, s5, hF 0, hF 1, hF 2, hF 3, hF 4, hF 5]

/-- Entering the region: the four whole buffers give the six windows' arrays, each argument's full share dealt
    in halves to the two windows that read it. -/
theorem arrays_of_arrBufs0 (c : Dev nD) (dat : Dat τ (Elt F) Unit ℕ (UR sig nD τ) ℕ cfg0 c) (hq : ∀ w, dat.q w = q0 w)
    (V : (b : Ref sig .tc) → Buf (Elt F) ((c.tc : Thread nD τ).loc b))
    (Fw : (w : Fin cfg0.W) → Buf (Elt F) ((cfg0.win w).arr.view.loc (c.tc : Thread nD τ)))
    (hF : ∀ w, Fw w = V (Pipeline.arrRef spec0 w)) :
    (Pipeline.arrBufs spec0 c V : sProp 𝕄) ⊢ dat.arrays Fw := by
  rw [arrBufs0_eq, arrays0_eq c dat hq V Fw hF]
  iintro ⟨H0, H1, H2, H3⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitl [H0l]; · iexact H0l
  isplitl [H0r]; · iexact H0r
  isplitl [H1l]; · iexact H1l
  isplitl [H1r]; · iexact H1r
  isplitl [H2]; · iexact H2
  iexact H3

/-- Leaving the region: the two halves of each argument, at the same contents, make its buffer whole again. -/
theorem arrBufs_of_arrays0 (c : Dev nD) (dat : Dat τ (Elt F) Unit ℕ (UR sig nD τ) ℕ cfg0 c) (hq : ∀ w, dat.q w = q0 w)
    (V : (b : Ref sig .tc) → Buf (Elt F) ((c.tc : Thread nD τ).loc b))
    (Fw : (w : Fin cfg0.W) → Buf (Elt F) ((cfg0.win w).arr.view.loc (c.tc : Thread nD τ)))
    (hF : ∀ w, Fw w = V (Pipeline.arrRef spec0 w)) :
    (dat.arrays Fw : sProp 𝕄) ⊢ Pipeline.arrBufs spec0 c V := by
  rw [arrBufs0_eq, arrays0_eq c dat hq V Fw hF]
  iintro ⟨H0l, H0r, H1l, H1r, H2, H3⟩
  isplitl [H0l H0r]
  · iapply (pointsTo_share (PosShare.mem_left_op_right fullShare)).2
    isplitl [H0l]; · iexact H0l
    iexact H0r
  isplitl [H1l H1r]
  · iapply (pointsTo_share (PosShare.mem_left_op_right fullShare)).2
    isplitl [H1l]; · iexact H1l
    iexact H1r
  isplitl [H2]; · iexact H2
  iexact H3

end Cert.Kernel.Hand
end
-- ==== Proof.Word.Frame.Region0.lean ====
/- The first kernel region as a segment of @main.

   Between two items of @main a core holds every unscoped buffer whole, beside its generator register and its debts
   (none). Entering the region, the buffers that lie behind the kernel's windows are dealt to the pipeline (an argument
   read through two windows as its two half shares) and every other unscoped buffer bypasses the region; the generator
   register and the scoped buffers that are no staging buffer go into the pipeline's invariant. Leaving it, the
   windows' arrays come back at what the write-backs left — an input's as it was, an output's at the folded blocks —
   the halves are joined, and with the buffers that bypassed the region they are again every unscoped buffer whole,
   now at the contents after the region. -/
import proofs.«123878_j24489903522258_2_alg».proof.Proof.Word.Frame.Deal0
import proofs.«123878_j24489903522258_2_alg».proof.Proof.Gen.Kernel.Regions
import Idealize.ShloMosaic.Lib.Pipeline.Frame
import Idealize.ShloMosaic.Lib.Pipeline.Regions

set_option maxRecDepth 4096

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (outs : Outs (F := F))

/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)

/-- The unscoped buffers' contents at launch, before the second region and after it, read at the TensorCore's references. -/
abbrev Vr0 : (c : Dev nD) → (b : Ref sig .tc) → Buf (Elt F) ((c : Thread nD τ).loc b) := fun c b => V0 m c b
abbrev Vr1 : (c : Dev nD) → (b : Ref sig .tc) → Buf (Elt F) ((c : Thread nD τ).loc b) := fun c b => V1 m outs c b
abbrev Vr2 : (c : Dev nD) → (b : Ref sig .tc) → Buf (Elt F) ((c : Thread nD τ).loc b) := fun c b => V2 m outs c b

theorem unscoped0 : ∀ w, (Pipeline.arrRef spec0 w).isScoped = false := by decide

/-- A buffer that is none of the bounds kernel's arrays holds after the region what it held before. -/
theorem rest0_eq (c : Dev nD) :
    (Pipeline.unscopedRest (Ix := Unit) (Name := ℕ) (U := UR sig nD τ) (Lvl := ℕ) spec0 c (Vr1 m outs c) : sProp 𝕄)
      = Pipeline.unscopedRest spec0 c (Vr0 m c) := by
  unfold Pipeline.unscopedRest
  refine bigSep_congr fun b hb => ?_
  have hb' : b ∉ Finset.univ.image (Pipeline.arrRef spec0) := (Finset.mem_sdiff.mp hb).2
  rw [image0] at hb'
  have : b ∉ ([main_v0_0, main_v0_1] : List (Ref sig .tc)) := by
    intro h; apply hb'; simp only [List.mem_cons, List.mem_nil_iff, or_false] at h
    rcases h with rfl | rfl <;> decide
  rw [show Vr1 m outs c b = Vr0 m c b from V1_of m outs c b this]

set_option backward.isDefEq.respectTransparency.types false in
/-- The first region as a segment of @main, from the facts of its proof data. -/
def reg0 (pdats : (p : Fin 2) → (c : Dev nD) → Dat τ (Elt F) Unit ℕ (UR sig nD τ) ℕ (cfgs p) c)
    (hq : ∀ c w, (pdats 0 c).q w = q0 w)
    (hA : ∀ c w, (pdats 0 c).A w = Vr0 m c (Pipeline.arrRef spec0 w))
    (hN : ∀ c w, (pdats 0 c).arrAt w cfg0.N = Vr1 m outs c (Pipeline.arrRef spec0 w))
    (howed : ∀ c t, (pdats 0 c).owed t = 0)
    (hrec : ∀ c t, (pdats 0 c).recorded t = Set.univ)
    (hbody : ∀ c, Pipeline.BodyObligation (pdats 0 c) (defs₀ (F := F)) Variants.none () Set.univ)
    (hin : ∀ c, (Pipeline.ΦA spec0 c : sProp 𝕄) ⊢ (pdats 0 c).Φ 0)
    (hout : ∀ c, (pdats 0 c).Φ (Fin.last cfg0.N) ⊢ (Pipeline.ΦA spec0 c : sProp 𝕄)) :
    Pipeline.RegionSeg (pcfgs (F := F)) adm pdats () defs₀ Variants.none L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 howed
  pre c := iprop(StableHlo.held (c : Thread nD τ) (Pipeline.ucRefs τ sig) (V0 m c) ∗ R c)
  post c := iprop(StableHlo.held (c : Thread nD τ) (Pipeline.ucRefs τ sig) (V1 m outs c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit : (StableHlo.held (c : Thread nD τ) (Pipeline.ucRefs τ sig) (V0 m c) : sProp 𝕄)
        ⊢ iprop((pdats 0 c).arrays ((pdats 0 c).arrAt · 0) ∗ Pipeline.unscopedRest spec0 c (Vr0 m c)) := by
      rw [← Pipeline.unscopedBufs_held (Ix := Unit) (Name := ℕ) (U := UR sig nD τ) (Lvl := ℕ) c (V0 m c),
        Pipeline.unscopedBufs_split₀ cfgs 0 unscoped0 c (Vr0 m c)]
      exact sep_mono (arrays_of_arrBufs0 c (pdats 0 c) (hq c) (Vr0 m c) _ (fun w => hA c w)) .rfl
    have hO : (iprop(∃ W, owes (c : Thread nD τ) (0 : CellTallies nD τ sig Unit) W) : sProp 𝕄) ⊢ (pdats 0 c).owesAt () 0 := by
      unfold Pipeline.Dat.owesAt Pipeline.owesWithin
      rw [howed c 0]
      iintro ⟨%W, HO⟩; iexists W; isplitr; · ipureintro; exact fun _ _ => Or.inl ((hrec c 0).symm ▸ Set.mem_univ _)
      iexact HO
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hO; iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin : iprop((pdats 0 c).arrays ((pdats 0 c).arrAt · cfg0.N) ∗ Pipeline.unscopedRest spec0 c (Vr0 m c))
        ⊢ (StableHlo.held (c : Thread nD τ) (Pipeline.ucRefs τ sig) (V1 m outs c) : sProp 𝕄) := by
      rw [← Pipeline.unscopedBufs_held (Ix := Unit) (Name := ℕ) (U := UR sig nD τ) (Lvl := ℕ) c (V1 m outs c),
        Pipeline.unscopedBufs_split₀ cfgs 0 unscoped0 c (Vr1 m outs c),
        show (Pipeline.unscopedRest (cfgs 0).spec c (Vr1 m outs c) : sProp 𝕄) = Pipeline.unscopedRest spec0 c (Vr0 m c) from rest0_eq m outs c]
      exact sep_mono (arrBufs_of_arrays0 c (pdats 0 c) (hq c) (Vr1 m outs c) _ (fun w => hN c w)) .rfl
    have hO : (pdats 0 c).owesAt () (Fin.last cfg0.N) ⊢ (iprop(∃ W, owes (c : Thread nD τ) (0 : CellTallies nD τ sig Unit) W) : sProp 𝕄) := by
      unfold Pipeline.Dat.owesAt Pipeline.owesWithin
      rw [howed c (Fin.last cfg0.N)]
      iintro ⟨%W, -, HO⟩; iexists W; iexact HO
    iintro ⟨Ha, HO, HY, Hrest⟩
    imodintro
    isplitl [Ha Hrest]
    · iapply hjoin; isplitl [Ha] <;> iassumption
    isplitl [HY]; · iexact HY
    iapply hO; iexact HO

end Cert.Kernel.Hand
end
-- ==== Proof.Word.Frame.Region1.lean ====
/- The second kernel region as a segment of @main.

   Between two items of @main a core holds every unscoped buffer whole, beside its generator register and its debts
   (none). Entering the region, the buffers that lie behind the kernel's windows are dealt to the pipeline (an argument
   read through two windows as its two half shares) and every other unscoped buffer bypasses the region; the generator
   register and the scoped buffers that are no staging buffer go into the pipeline's invariant. Leaving it, the
   windows' arrays come back at what the write-backs left — an input's as it was, an output's at the folded blocks —
   the halves are joined, and with the buffers that bypassed the region they are again every unscoped buffer whole,
   now at the contents after the region. -/
import proofs.«123878_j24489903522258_2_alg».proof.Proof.Word.Frame.Deal1
import proofs.«123878_j24489903522258_2_alg».proof.Proof.Word.Frame.Region0
import Idealize.ShloMosaic.Lib.Pipeline.Frame
import Idealize.ShloMosaic.Lib.Pipeline.Regions

set_option maxRecDepth 4096

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (outs : Outs (F := F))

theorem unscoped1 : ∀ w, (Pipeline.arrRef spec1 w).isScoped = false := by decide

/-- A buffer that is none of the log-sum-exp kernel's arrays holds after the region what it held before. -/
theorem rest1_eq (c : Dev nD) :
    (Pipeline.unscopedRest (Ix := Unit) (Name := ℕ) (U := UR sig nD τ) (Lvl := ℕ) spec1 c (Vr2 m outs c) : sProp 𝕄)
      = Pipeline.unscopedRest spec1 c (Vr1 m outs c) := by
  unfold Pipeline.unscopedRest
  refine bigSep_congr fun b hb => ?_
  have hb' : b ∉ Finset.univ.image (Pipeline.arrRef spec1) := (Finset.mem_sdiff.mp hb).2
  rw [image1] at hb'
  have : b ∉ ([main_v1_0, main_v1_1, main_v1_2, main_v1_3] : List (Ref sig .tc)) := by
    intro h; apply hb'; simp only [List.mem_cons, List.mem_nil_iff, or_false] at h
    rcases h with rfl | rfl | rfl | rfl <;> decide
  rw [show Vr2 m outs c b = Vr1 m outs c b from V2_of m outs c b this]

set_option backward.isDefEq.respectTransparency.types false in
/-- The second region as a segment of @main, from the facts of its proof data. -/
def reg1 (pdats : (p : Fin 2) → (c : Dev nD) → Dat τ (Elt F) Unit ℕ (UR sig nD τ) ℕ (cfgs p) c)
    (hq : ∀ c w, (pdats 1 c).q w = q1 w)
    (hA : ∀ c w, (pdats 1 c).A w = Vr1 m outs c (Pipeline.arrRef spec1 w))
    (hN : ∀ c w, (pdats 1 c).arrAt w cfg1.N = Vr2 m outs c (Pipeline.arrRef spec1 w))
    (howed : ∀ c t, (pdats 1 c).owed t = 0)
    (hrec : ∀ c t, (pdats 1 c).recorded t = Set.univ)
    (hbody : ∀ c, Pipeline.BodyObligation (pdats 1 c) (defs₀ (F := F)) Variants.none () Set.univ)
    (hin : ∀ c, (Pipeline.ΦA spec1 c : sProp 𝕄) ⊢ (pdats 1 c).Φ 0)
    (hout : ∀ c, (pdats 1 c).Φ (Fin.last cfg1.N) ⊢ (Pipeline.ΦA spec1 c : sProp 𝕄)) :
    Pipeline.RegionSeg (pcfgs (F := F)) adm pdats () defs₀ Variants.none L lv 1 where
  win := winFacts₀1
  block_pos := block_pos1
  stage_whole := stage_whole1
  K := PEmpty
  osem k := k.elim
  ho := Pipeline.OwnSemFacts.none _
  hbody c := (hbody c).loose
  hwaits := Pipeline.hwaits_of_owed_zero _ _ _ _ L lv 1 howed
  pre c := iprop(StableHlo.held (c : Thread nD τ) (Pipeline.ucRefs τ sig) (V1 m outs c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec1 c (Vr1 m outs c)
  hentry c := by
    rw [Pipeline.ownSems0_none]
    have hsplit : (StableHlo.held (c : Thread nD τ) (Pipeline.ucRefs τ sig) (V1 m outs c) : sProp 𝕄)
        ⊢ iprop((pdats 1 c).arrays ((pdats 1 c).arrAt · 0) ∗ Pipeline.unscopedRest spec1 c (Vr1 m outs c)) := by
      rw [← Pipeline.unscopedBufs_held (Ix := Unit) (Name := ℕ) (U := UR sig nD τ) (Lvl := ℕ) c (V1 m outs c),
        Pipeline.unscopedBufs_split₀ cfgs 1 unscoped1 c (Vr1 m outs c)]
      exact sep_mono (arrays_of_arrBufs1 c (pdats 1 c) (hq c) (Vr1 m outs c) _ (fun w => hA c w)) .rfl
    have hO : (iprop(∃ W, owes (c : Thread nD τ) (0 : CellTallies nD τ sig Unit) W) : sProp 𝕄) ⊢ (pdats 1 c).owesAt () 0 := by
      unfold Pipeline.Dat.owesAt Pipeline.owesWithin
      rw [howed c 0]
      iintro ⟨%W, HO⟩; iexists W; isplitr; · ipureintro; exact fun _ _ => Or.inl ((hrec c 0).symm ▸ Set.mem_univ _)
      iexact HO
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hO; iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin : iprop((pdats 1 c).arrays ((pdats 1 c).arrAt · cfg1.N) ∗ Pipeline.unscopedRest spec1 c (Vr1 m outs c))
        ⊢ (StableHlo.held (c : Thread nD τ) (Pipeline.ucRefs τ sig) (V2 m outs c) : sProp 𝕄) := by
      rw [← Pipeline.unscopedBufs_held (Ix := Unit) (Name := ℕ) (U := UR sig nD τ) (Lvl := ℕ) c (V2 m outs c),
        Pipeline.unscopedBufs_split₀ cfgs 1 unscoped1 c (Vr2 m outs c),
        show (Pipeline.unscopedRest (cfgs 1).spec c (Vr2 m outs c) : sProp 𝕄) = Pipeline.unscopedRest spec1 c (Vr1 m outs c) from rest1_eq m outs c]
      exact sep_mono (arrBufs_of_arrays1 c (pdats 1 c) (hq c) (Vr2 m outs c) _ (fun w => hN c w)) .rfl
    have hO : (pdats 1 c).owesAt () (Fin.last cfg1.N) ⊢ (iprop(∃ W, owes (c : Thread nD τ) (0 : CellTallies nD τ sig Unit) W) : sProp 𝕄) := by
      unfold Pipeline.Dat.owesAt Pipeline.owesWithin
      rw [howed c (Fin.last cfg1.N)]
      iintro ⟨%W, -, HO⟩; iexists W; iexact HO
    iintro ⟨Ha, HO, HY, Hrest⟩
    imodintro
    isplitl [Ha Hrest]
    · iapply hjoin; isplitl [Ha] <;> iassumption
    isplitl [HY]; · iexact HY
    iapply hO; iexact HO

end Cert.Kernel.Hand
end
-- ==== Proof.Word.Frame.Ends.lean ====
/- What the unscoped buffers hold after each kernel region.

   The host side of @main is written over unknowns: what each region leaves in its output arrays. After a region
   every window's array must be the next valuation's contents of the buffer behind it: for an input window that is
   what the region found (an input's array is never written back, and no region output lies behind it), for an output
   window it is what is recorded as the region's output. -/
import proofs.«123878_j24489903522258_2_alg».proof.Proof.Word.Frame.Region1
import Idealize.ShloMosaic.Lib.Pipeline.Frame
import Idealize.ShloMosaic.Lib.Pipeline.Regions

set_option maxRecDepth 4096

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The valuations after a region, read at the region's output arrays -/

theorem V1_at_v0_0 (outs : Outs (F := F)) (c : Dev nD) : V1 m outs c main_v0_0 = outs 1 main_v0_0 c := by
  unfold V1
  rw [Function.update_of_ne (StableHlo.devRef_ne_of_ne (by decide : main_v0_0 ≠ main_v0_1) : (Proc.devRef .tc main_v0_0 : DevRef τ sig) ≠ Proc.devRef .tc main_v0_1),
    Function.update_self]
theorem V1_at_v0_1 (outs : Outs (F := F)) (c : Dev nD) : V1 m outs c main_v0_1 = outs 1 main_v0_1 c := by
  unfold V1
  rw [Function.update_self]

theorem V2_at_v1_0 (outs : Outs (F := F)) (c : Dev nD) : V2 m outs c main_v1_0 = outs 2 main_v1_0 c := by
  unfold V2
  rw [Function.update_of_ne (StableHlo.devRef_ne_of_ne (by decide : main_v1_0 ≠ main_v1_3) : (Proc.devRef .tc main_v1_0 : DevRef τ sig) ≠ Proc.devRef .tc main_v1_3),
    Function.update_of_ne (StableHlo.devRef_ne_of_ne (by decide : main_v1_0 ≠ main_v1_2) : (Proc.devRef .tc main_v1_0 : DevRef τ sig) ≠ Proc.devRef .tc main_v1_2),
    Function.update_of_ne (StableHlo.devRef_ne_of_ne (by decide : main_v1_0 ≠ main_v1_1) : (Proc.devRef .tc main_v1_0 : DevRef τ sig) ≠ Proc.devRef .tc main_v1_1),
    Function.update_self]
theorem V2_at_v1_1 (outs : Outs (F := F)) (c : Dev nD) : V2 m outs c main_v1_1 = outs 2 main_v1_1 c := by
  unfold V2
  rw [Function.update_of_ne (StableHlo.devRef_ne_of_ne (by decide : main_v1_1 ≠ main_v1_3) : (Proc.devRef .tc main_v1_1 : DevRef τ sig) ≠ Proc.devRef .tc main_v1_3),
    Function.update_of_ne (StableHlo.devRef_ne_of_ne (by decide : main_v1_1 ≠ main_v1_2) : (Proc.devRef .tc main_v1_1 : DevRef τ sig) ≠ Proc.devRef .tc main_v1_2),
    Function.update_self]
theorem V2_at_v1_2 (outs : Outs (F := F)) (c : Dev nD) : V2 m outs c main_v1_2 = outs 2 main_v1_2 c := by
  unfold V2
  rw [Function.update_of_ne (StableHlo.devRef_ne_of_ne (by decide : main_v1_2 ≠ main_v1_3) : (Proc.devRef .tc main_v1_2 : DevRef τ sig) ≠ Proc.devRef .tc main_v1_3),
    Function.update_self]
theorem V2_at_v1_3 (outs : Outs (F := F)) (c : Dev nD) : V2 m outs c main_v1_3 = outs 2 main_v1_3 c := by
  unfold V2
  rw [Function.update_self]

/-! ## The arrays after a region are the next valuation's -/

/-- After the first region: an input window's array is as it was found, which no region output overwrites; the two
    output windows' arrays are what is recorded as the region's outputs. -/
theorem arrAt_end0 (c : Dev nD) (dat : Dat τ (Elt F) Unit ℕ (UR sig nD τ) ℕ cfg0 c)
    (hA : ∀ w, dat.A w = Vr0 m c (Pipeline.arrRef spec0 w)) (outs : Outs (F := F))
    (h4 : outs 1 main_v0_0 c = dat.arrAt 4 cfg0.N) (h5 : outs 1 main_v0_1 c = dat.arrAt 5 cfg0.N) :
    ∀ w, dat.arrAt w cfg0.N = Vr1 m outs c (Pipeline.arrRef spec0 w)
  | ⟨0, _⟩ => (dat.arrAt_in 0 rfl _).trans ((hA 0).trans (V1_of m outs c main_arg0 (by decide)).symm)
  | ⟨1, _⟩ => (dat.arrAt_in 1 rfl _).trans ((hA 1).trans (V1_of m outs c main_arg0 (by decide)).symm)
  | ⟨2, _⟩ => (dat.arrAt_in 2 rfl _).trans ((hA 2).trans (V1_of m outs c main_arg1 (by decide)).symm)
  | ⟨3, _⟩ => (dat.arrAt_in 3 rfl _).trans ((hA 3).trans (V1_of m outs c main_arg1 (by decide)).symm)
  | ⟨4, _⟩ => h4.symm.trans (V1_at_v0_0 m outs c).symm
  | ⟨5, _⟩ => h5.symm.trans (V1_at_v0_1 m outs c).symm

/-- After the second region, likewise: six input windows, four output windows. -/
theorem arrAt_end1 (outs : Outs (F := F)) (c : Dev nD) (dat : Dat τ (Elt F) Unit ℕ (UR sig nD τ) ℕ cfg1 c)
    (hA : ∀ w, dat.A w = Vr1 m outs c (Pipeline.arrRef spec1 w))
    (h6 : outs 2 main_v1_0 c = dat.arrAt 6 cfg1.N) (h7 : outs 2 main_v1_1 c = dat.arrAt 7 cfg1.N)
    (h8 : outs 2 main_v1_2 c = dat.arrAt 8 cfg1.N) (h9 : outs 2 main_v1_3 c = dat.arrAt 9 cfg1.N) :
    ∀ w, dat.arrAt w cfg1.N = Vr2 m outs c (Pipeline.arrRef spec1 w)
  | ⟨0, _⟩ => (dat.arrAt_in 0 rfl _).trans ((hA 0).trans (V2_of m outs c main_arg0 (by decide)).symm)
  | ⟨1, _⟩ => (dat.arrAt_in 1 rfl _).trans ((hA 1).trans (V2_of m outs c main_arg0 (by decide)).symm)
  | ⟨2, _⟩ => (dat.arrAt_in 2 rfl _).trans ((hA 2).trans (V2_of m outs c main_arg1 (by decide)).symm)
  | ⟨3, _⟩ => (dat.arrAt_in 3 rfl _).trans ((hA 3).trans (V2_of m outs c main_arg1 (by decide)).symm)
  | ⟨4, _⟩ => (dat.arrAt_in 4 rfl _).trans ((hA 4).trans (V2_of m outs c main_v0_0 (by decide)).symm)
  | ⟨5, _⟩ => (dat.arrAt_in 5 rfl _).trans ((hA 5).trans (V2_of m outs c main_v0_1 (by decide)).symm)
  | ⟨6, _⟩ => h6.symm.trans (V2_at_v1_0 m outs c).symm
  | ⟨7, _⟩ => h7.symm.trans (V2_at_v1_1 m outs c).symm
  | ⟨8, _⟩ => h8.symm.trans (V2_at_v1_2 m outs c).symm
  | ⟨9, _⟩ => h9.symm.trans (V2_at_v1_3 m outs c).symm

end Cert.Kernel.Hand
end
-- ==== Proof.Word.Frame.Family.lean ====
/- The two pipelines' proof data as one family, and what the regions leave.

   The first region is entered at the launch contents. What it leaves in its two output arrays is what its
   write-backs fold there; with those two buffers so updated the second region is entered, and what it leaves in its
   four output arrays is what its write-backs fold there. These are the unknowns the host side of @main is written
   over, and after each region every window's array is the next valuation's contents of its buffer. -/
import proofs.«123878_j24489903522258_2_alg».proof.Proof.Word.Bounds.Data
import proofs.«123878_j24489903522258_2_alg».proof.Proof.Word.Lse.Carry
import proofs.«123878_j24489903522258_2_alg».proof.Proof.Word.Frame.Ends
import Idealize.ShloMosaic.Lib.Pipeline.Frame
import Idealize.ShloMosaic.Lib.Pipeline.Regions

set_option maxRecDepth 4096

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen

variable {F : FTy → Type} [FloatOps F]

local notation "𝕄" => MT nD τ sig Unit (Elt F) ℕ (UR sig nD τ) ℕ

set_option maxHeartbeats 400000

variable (m : (ℓ : Loc nD τ sig) → Buf (Elt F) ℓ)

/-- The unscoped buffers after the first region: the two bound vectors at what the region's write-backs leave, every
    other buffer as launched. -/
def after0 (c : Dev nD) : (b : Ref sig .tc) → Buf (Elt F) ((c : Thread nD τ).loc b) :=
  Function.update (Function.update (Vr0 m c) main_v0_0 ((Bounds.dat (Vr0 m) c).arrAt 4 cfg0.N)) main_v0_1 ((Bounds.dat (Vr0 m) c).arrAt 5 cfg0.N)

theorem after0_v0_0 (c : Dev nD) : after0 m c main_v0_0 = (Bounds.dat (Vr0 m) c).arrAt 4 cfg0.N := by
  unfold after0
  rw [Function.update_of_ne (by decide : main_v0_0 ≠ main_v0_1), Function.update_self]
theorem after0_v0_1 (c : Dev nD) : after0 m c main_v0_1 = (Bounds.dat (Vr0 m) c).arrAt 5 cfg0.N := by
  unfold after0
  rw [Function.update_self]

/-- What the first region leaves, as the unknowns the host side is written over (only item 1 is read). -/
def outs0 : Outs (F := F) := fun _ r c => after0 m c r

/-- The unscoped buffers after the second region: its four output vectors at what its write-backs leave, every
    other buffer as the first region left it. -/
def after1 (c : Dev nD) : (b : Ref sig .tc) → Buf (Elt F) ((c : Thread nD τ).loc b) :=
  Function.update (Function.update (Function.update (Function.update (Vr1 m (outs0 m) c)
    main_v1_0 ((Lse.dat (Vr1 m (outs0 m)) c).arrAt 6 cfg1.N)) main_v1_1 ((Lse.dat (Vr1 m (outs0 m)) c).arrAt 7 cfg1.N))
    main_v1_2 ((Lse.dat (Vr1 m (outs0 m)) c).arrAt 8 cfg1.N)) main_v1_3 ((Lse.dat (Vr1 m (outs0 m)) c).arrAt 9 cfg1.N)

theorem after1_v1_0 (c : Dev nD) : after1 m c main_v1_0 = (Lse.dat (Vr1 m (outs0 m)) c).arrAt 6 cfg1.N := by
  unfold after1
  rw [Function.update_of_ne (by decide : main_v1_0 ≠ main_v1_3), Function.update_of_ne (by decide : main_v1_0 ≠ main_v1_2),
    Function.update_of_ne (by decide : main_v1_0 ≠ main_v1_1), Function.update_self]
theorem after1_v1_1 (c : Dev nD) : after1 m c main_v1_1 = (Lse.dat (Vr1 m (outs0 m)) c).arrAt 7 cfg1.N := by
  unfold after1
  rw [Function.update_of_ne (by decide : main_v1_1 ≠ main_v1_3), Function.update_of_ne (by decide : main_v1_1 ≠ main_v1_2), Function.update_self]
theorem after1_v1_2 (c : Dev nD) : after1 m c main_v1_2 = (Lse.dat (Vr1 m (outs0 m)) c).arrAt 8 cfg1.N := by
  unfold after1
  rw [Function.update_of_ne (by decide : main_v1_2 ≠ main_v1_3), Function.update_self]
theorem after1_v1_3 (c : Dev nD) : after1 m c main_v1_3 = (Lse.dat (Vr1 m (outs0 m)) c).arrAt 9 cfg1.N := by
  unfold after1
  rw [Function.update_self]

/-- What the two regions leave: item 1 the first region's, item 2 the second's. -/
def outs : Outs (F := F) := fun n r c => match n with
  | 1 => after0 m c r
  | _ => after1 m c r

theorem outs_one (r : Ref sig .tc) (c : Dev nD) : outs m 1 r c = after0 m c r := rfl
theorem outs_two (r : Ref sig .tc) (c : Dev nD) : outs m 2 r c = after1 m c r := rfl

/-- The valuation after the first region reads only item 1 of the unknowns. -/
theorem V1_congr (o o' : Outs (F := F)) (c : Dev nD) (h0 : o 1 main_v0_0 c = o' 1 main_v0_0 c) (h1 : o 1 main_v0_1 c = o' 1 main_v0_1 c) :
    V1 m o c = V1 m o' c := by
  unfold V1; rw [h0, h1]

theorem V1_outs (c : Dev nD) : V1 m (outs m) c = V1 m (outs0 m) c :=
  V1_congr m _ _ c (outs_one m main_v0_0 c) (outs_one m main_v0_1 c)

/-- Each pipeline's proof data at its region's entry contents. -/
def pdats : (p : Fin 2) → (c : Dev nD) → Dat τ (Elt F) Unit ℕ (UR sig nD τ) ℕ (cfgs p) c
  | ⟨0, _⟩ => fun c => Bounds.dat (Vr0 m) c
  | ⟨1, _⟩ => fun c => Lse.dat (Vr1 m (outs0 m)) c

theorem pdats_zero (c : Dev nD) : pdats m 0 c = Bounds.dat (Vr0 m) c := rfl
theorem pdats_one (c : Dev nD) : pdats m 1 c = Lse.dat (Vr1 m (outs0 m)) c := rfl

theorem hA1 (c : Dev nD) (w : Fin cfg1.W) : (Lse.dat (Vr1 m (outs0 m)) c).A w = Vr1 m (outs m) c (Pipeline.arrRef spec1 w) :=
  (Lse.A_eq (Vr1 m (outs0 m)) c w).trans (congrFun (V1_outs m c).symm _)

theorem hN0 (c : Dev nD) (w : Fin cfg0.W) : (Bounds.dat (Vr0 m) c).arrAt w cfg0.N = Vr1 m (outs m) c (Pipeline.arrRef spec0 w) :=
  arrAt_end0 m c (Bounds.dat (Vr0 m) c) (fun w => Bounds.A_eq (Vr0 m) c w) (outs m)
    ((outs_one m main_v0_0 c).trans (after0_v0_0 m c)) ((outs_one m main_v0_1 c).trans (after0_v0_1 m c)) w

theorem hN1 (c : Dev nD) (w : Fin cfg1.W) : (Lse.dat (Vr1 m (outs0 m)) c).arrAt w cfg1.N = Vr2 m (outs m) c (Pipeline.arrRef spec1 w) :=
  arrAt_end1 m (outs m) c (Lse.dat (Vr1 m (outs0 m)) c) (hA1 m c)
    ((outs_two m main_v1_0 c).trans (after1_v1_0 m c)) ((outs_two m main_v1_1 c).trans (after1_v1_1 m c))
    ((outs_two m main_v1_2 c).trans (after1_v1_2 m c)) ((outs_two m main_v1_3 c).trans (after1_v1_3 m c)) w

end Cert.Kernel.Hand
end
-- ==== Proof.Word.Frame.Cond.lean ====
/- The program's run, given what its two kernel regions do.

   @main is two kernel regions followed by seventeen stretches of host operations. Between two items a core holds
   every unscoped buffer whole: at launch the launch contents; after a region the same with the region's output
   arrays at what the region left there; after a host stretch the stretch's operations applied. The host stretches
   are segments of the library's launch theorem for several regions as they stand, so the run follows from one segment record per kernel region,
   entered from the thread state before it and left at the one after it. Every final memory then holds each buffer
   at the last valuation: the result scalar at the host tail's value of what the second region left, and the two
   arguments as launched, which no item writes. -/
import proofs.«123878_j24489903522258_2_alg».proof.Proof.Gen.Kernel.Regions

set_option maxRecDepth 1116

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]
variable (m : (ℓ : Loc nD τ sig) → Buf (Elt F) ℓ)

set_option backward.isDefEq.respectTransparency.types false in
/-- Every weakly fair execution of @main from `m` with zero counters terminates, and every final memory holds the
    result at the last valuation's value and both arguments as launched — given, for each kernel region, a segment
    record entered from the thread state before the region and left at the one after it. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V1 m outs c) ∗ E 1 c) ⊢ R1.pre c)
    (hpost1 : ∀ c : Dev nD, R1.post c ⊢ iprop(StableHlo.held (c : Thread nD τ) (Pipeline.ucRefs τ sig) (V2 m outs c) ∗ E 2 c)) :
    θ_run defs (onTc (τ := τ) (main (F := F))) ⟨m, fun _ => 0, ρ⟩ (fun r => ∀ c : Dev nD,
      r.2.mem ((c.tc : Thread nD τ).loc main_v34) = V19 m outs c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          Prog.lift (.customCall (Pipeline.entry 1) ()),
          StableHlo.seq hostOps2, StableHlo.seq hostOps2_1, StableHlo.seq hostOps2_2, StableHlo.seq hostOps2_3,
          StableHlo.seq hostOps2_4, StableHlo.seq hostOps2_5, StableHlo.seq hostOps2_6, StableHlo.seq hostOps2_7,
          StableHlo.seq hostOps2_8, StableHlo.seq hostOps2_9, StableHlo.seq hostOps2_10, StableHlo.seq hostOps2_11,
          StableHlo.seq hostOps2_12, StableHlo.seq hostOps2_13, StableHlo.seq hostOps2_14, StableHlo.seq hostOps2_15,
          StableHlo.seq hostOps2_16 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V19 m outs c))
    (hch := fun c => ⟨hpre0 c, (hpost0 c).trans (hpre1 c), hpost1 c, .rfl, .rfl, .rfl, .rfl, .rfl, .rfl, .rfl, .rfl, .rfl, .rfl, .rfl, .rfl, .rfl, .rfl, .rfl, .rfl, sep_mono .rfl (hE2 c)⟩)
    (hinit := ?_)
    (QY := fun c s => s.mem ((c.tc : Thread nD τ).loc main_v34) = V19 m outs c main_v34
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h => h)
  · -- at launch the unscoped buffers are held at the launch contents, and the rest makes the first rest state
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the end every unscoped buffer is read off the last valuation
    unfold StableHlo.held
    iintro ⟨Hh, HSI⟩
    ihave Hr := (pointsTo_read_all (Pipeline.ucRefs τ sig) (fun b => ((c : Thread nD τ).1, b)) (V19 m outs c) s') $$ [Hh HSI]
    · isplitl [Hh] <;> iassumption
    icases Hr with ⟨%h, HSI⟩
    imodintro
    isplitr
    · ipureintro
      exact ⟨h (Proc.devRef .tc main_v34) (Finset.mem_filter.mpr ⟨StableHlo.devRef_mem_tcRefs main_v34, by decide⟩),
        (h (Proc.devRef .tc main_arg0) (Finset.mem_filter.mpr ⟨StableHlo.devRef_mem_tcRefs main_arg0, by decide⟩)).trans (V19_main_arg0 m outs c),
        (h (Proc.devRef .tc main_arg1) (Finset.mem_filter.mpr ⟨StableHlo.devRef_mem_tcRefs main_arg1, by decide⟩)).trans (V19_main_arg1 m outs c)⟩
    · iexact HSI

end Cert.Kernel.Hand

end
-- ==== Proof.Word.Frame.Run.lean ====
/- The kernel program's run and its frame.

   @main's two kernel regions are segments of the library's launch theorem for several regions, over the family of their proof data; the host stretches
   after them are segments as they stand. Beside the buffers every item carries the core's generator register and its
   debts, none: the launch makes that rest state on every core, and it ends owing nothing. -/
import proofs.«123878_j24489903522258_2_alg».proof.Proof.Word.Bounds.Obligation
import proofs.«123878_j24489903522258_2_alg».proof.Proof.Word.Lse.Obligation
import proofs.«123878_j24489903522258_2_alg».proof.Proof.Word.Frame.Family
import proofs.«123878_j24489903522258_2_alg».proof.Proof.Word.Frame.Cond
import Idealize.ShloMosaic.Lib.Pipeline.Frame
import Idealize.ShloMosaic.Lib.Pipeline.Regions

set_option maxRecDepth 4096

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The kernel program's run: from any memory with zero counters every weakly fair execution of @main terminates,
    nothing faulting; the result scalar ends at the host tail's value of what the two regions leave, and both arguments
    end as launched. -/
theorem run_main (ρ : Dev nD → PrngReg) :
    θ_run defs (onTc (τ := τ) (main (F := F))) ⟨m, fun _ => 0, ρ⟩ (fun r => ∀ c : Dev nD,
      r.2.mem ((c.tc : Thread nD τ).loc main_v34) = V19 m (outs m) c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, HO⟩; iexact HO)
    (R0 := reg0 m (outs m) (pdats m) (fun c w => Bounds.q_eq (Vr0 m) c w) (fun c w => Bounds.A_eq (Vr0 m) c w) (fun c w => hN0 m c w)
      (fun c t => Bounds.owed_eq (Vr0 m) c t) (fun _ _ => rfl) (fun c => Bounds.body_obligation (Vr0 m) c)
      (fun c => Bounds.hin (Vr0 m) c) (fun c => Bounds.hout (Vr0 m) c))
    (hpre0 := fun _ => .rfl) (hpost0 := fun _ => .rfl)
    (R1 := reg1 m (outs m) (pdats m) (fun c w => Lse.q_eq (Vr1 m (outs0 m)) c w) (fun c w => hA1 m c w) (fun c w => hN1 m c w)
      (fun c t => Lse.owed_eq (Vr1 m (outs0 m)) c t) (fun _ _ => rfl) (fun c => Lse.body_obligation (Vr1 m (outs0 m)) c)
      (fun c => Lse.hin (Vr1 m (outs0 m)) c) (fun c => Lse.hout (Vr1 m (outs0 m)) c))
    (hpre1 := fun _ => .rfl) (hpost1 := fun _ => .rfl)

/-- The frame: the arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Hand
end
-- ==== Proof.Ref.Frame.lean ====
/- The reference program's frame: it runs to the end without a fault and leaves both argument arrays as it found
   them. This is the reference's generated run with the statement about the result dropped. -/
import proofs.«123878_j24489903522258_2_alg».proof.Defs
import proofs.«123878_j24489903522258_2_alg».proof.Proof.Gen.ReferenceIdeal
import proofs.«123878_j24489903522258_2_alg».proof.Proof.Gen.Pre_finite_inputs
import proofs.«123878_j24489903522258_2_alg».proof.Proof.Ref.RunPatched

noncomputable section

namespace Cert.ReferenceIdeal.RefValue

open Idealize.ShloMosaic Idealize.SL.Sem

/-- Every weakly fair execution of the reference ends, nothing faults, and the embeddings and the labels end
    unchanged. -/
theorem frame_ri : Cert.frame_ReferenceIdeal := fun m ρ _ =>
  (θ_run Cert.ReferenceIdeal.defs _ _).mono (fun _ h c => (h c).2)
    (Cert.ReferenceIdeal.ValueP.run (F := Ideal) m ρ)

end Cert.ReferenceIdeal.RefValue

end
-- ==== Proof.Finite.lean ====
/- The precondition, decoded: every entry of the embeddings is a real number.

   The precondition's function compares the absolute value of every entry with +inf and takes the conjunction over
   the whole array. Where that conjunction is true every entry x has max x (-x) < +inf on the extended reals, so x is
   neither +inf nor -inf: it is a real number. The sums of products, the weights and every running reference the two
   kernels form from such entries are then real numbers too, which is what the laws joining the kernel's arithmetic to
   the reference's need. -/
import proofs.«123878_j24489903522258_2_alg».proof.Defs
import Idealize.ShloMosaic.Lib.ReduceAll
import Idealize.ShloMosaic.Lib.ValueIdx

noncomputable section

namespace Cert.Proof

open Idealize.ShloMosaic

instance : Subsingleton Cert.Pre_finite_inputs.S_.Idx := ⟨fun a b => funext fun d => d.elim0⟩

theorem real_of_pre [Cert.Pre_finite_inputs.Facts] (x : FVec Ideal Cert.Pre_finite_inputs.S4096x512 .f32) (ℓ : IVec Cert.Pre_finite_inputs.S4096 32)
    (h : Cert.Pre_finite_inputs.fn (F := Ideal) x ℓ = fun _ => 1#1) : ∀ i, ∃ a : ℝ, x i = (a : EReal) := by
  intro i
  have h0 := congrFun h ValueIdx.ix0
  dsimp only [Cert.Pre_finite_inputs.fn] at h0
  have hi := Host.reduce_andi_all _ _ _ _ _ h0 i
  have e : Ideal.ofBits .f32 0x7F800000#32 = (⊤ : EReal) := by simp [Ideal.ofBits, Ideal.ieee]
  have hi' : Ideal.cmp .olt (max (x i) (-(x i))) ⊤ = 1#1 := by rw [← e]; exact hi
  have hP : max (x i) (-(x i)) < (⊤ : EReal) := by
    by_contra hn
    have h0' : Ideal.cmp .olt (max (x i) (-(x i))) ⊤ = 0#1 := by simp [Ideal.cmp, hn]
    rw [h0'] at hi'
    exact absurd hi' (by decide)
  have h1 : x i < ⊤ := lt_of_le_of_lt (le_max_left _ _) hP
  have h2 : -(x i) < ⊤ := lt_of_le_of_lt (le_max_right _ _) hP
  have hne_bot : x i ≠ ⊥ := by
    intro hb
    rw [hb, EReal.neg_bot] at h2
    exact lt_irrefl _ h2
  exact ⟨(x i).toReal, (EReal.coe_toReal (ne_of_lt h1) hne_bot).symm⟩

end Cert.Proof
end
-- ==== Proof.Spec.lean ====
/- What the loss is, as a function of the embeddings and the labels alone.

   The embeddings are a matrix `x` of 4096 rows and 512 columns of extended reals, the labels a vector `ℓ` of 4096
   thirty-two-bit words. Everything below is stated entry by entry over explicit coordinates: `r` and `c` range over
   the 4096 rows (a pair of rows is an entry of the similarity matrix, `r` its row and `c` its column) and `k` over
   the 512 features.

   * `sim r c` is the inner product of rows `r` and `c`.
   * Two rows are `same` when their labels are equal words. For row `r`, `posBound r` is the least similarity to
     another row of the same label (from +∞ when there is none) and `negBound r` the greatest similarity to a row of a
     different label (from −∞).
   * An entry is in the positive mask when its rows share a label and its similarity, less the margin, lies below the
     negative bound OF ITS COLUMN; it is in the negative mask when the labels differ and the similarity plus the margin
     lies above the positive bound of its column.
   * The weights are `wPos = a · (sim − t)` and `wNeg = b · (sim − t)` for the program's constants `a`, `b`, `t`.
   * For each of the two masks and each column `c`: the masked weight of an entry is the weight times the mask's bit
     read as 0 or 1; the reference point is the least masked weight of the column (positive side) or the greatest
     (negative side); the column counts (`nz`) when the greatest and the least masked weight of the column do not
     add up to zero; the column's sum is `∑ r, exp (w r c − ref c) · bit`; its value is `log` of that sum (of the
     constant one when the column does not count) plus the reference point.
   * `tail` turns a vector of column values and the bits saying which columns count into the mean, over the counting
     columns, of `softplus value / weight` (`softplus 0 / weight` when no column counts).
   * The loss is the tail of the positive side plus the tail of the negative side.

   A bit is a one-bit word, as the programs compute it: equality of labels by `IntOp.cmpi .eq`, conjunction by
   `IntOp.andi`, negation by `~~~`, an order comparison of extended reals by `Ideal.cmp`. A float constant of the
   programs is the extended real its bit pattern denotes, `Ideal.ofBits .f32 w`, and is never evaluated here, with one
   exception: the zero a sum starts from and the zero `nz` compares with are written `0`. -/
import Idealize.ShloMosaic.PureOps.Ideal
import Idealize.ShloMosaic.Lib.ValueIdx

noncomputable section

namespace Cert.Spec

open Idealize.ShloMosaic Idealize.ShloMosaic.ValueIdx
open scoped BigOperators

/-- The embeddings' shape, 4096 rows of 512 features. -/
abbrev S4096x512 : Shape := ⟨2, ![4096, 512]⟩
/-- The shape of the labels and of every per-row or per-column vector. -/
abbrev S4096 : Shape := ⟨1, ![4096]⟩
/-- The shape of a single number. -/
abbrev S_ : Shape := ⟨0, ![]⟩

theorem bcast_S_S4096 : S_.BroadcastsInDim S4096 (![] : Fin 0 → Fin S4096.rank) := by decide
theorem reducesTo_S4096_S_d0 : S4096.ReducesTo [0] S_ := by decide
theorem h_S_ : 0 < S_.numel := by decide
theorem natLt_1_32 : 1 < 32 := by decide

/-- A one-bit word read as the number 0 or 1. -/
def bit01 (b : BitVec 1) : EReal := ((b.toNat : ℝ) : EReal)

/-! ## The similarity matrix, the masks and the weights -/

section Entries

variable (x : FVec Ideal S4096x512 .f32) (ℓ : IVec S4096 32)

/-- The inner product of rows `r` and `c` of the embeddings. -/
def sim (r c : Fin 4096) : EReal := ∑ k : Fin 512, x (ix2 r k) * x (ix2 c k)

/-- The bit "rows `r` and `c` carry the same label". -/
def same (r c : Fin 4096) : BitVec 1 := IntOp.cmpi .eq (ℓ (ix1 r)) (ℓ (ix1 c))

/-- The bit "`r` and `c` are different rows". -/
def offDiag (r c : Fin 4096) : BitVec 1 := BitVec.ofBool (decide (r ≠ c))

/-- The similarity where the rows are different rows of one label, +∞ elsewhere. -/
def posCand (r c : Fin 4096) : EReal :=
  Scalar.select (IntOp.andi (same ℓ r c) (offDiag r c)) (sim x r c) (Ideal.ofBits .f32 0x7F800000#32)

/-- The similarity where the labels differ, −∞ elsewhere. -/
def negCand (r c : Fin 4096) : EReal :=
  Scalar.select (~~~(same ℓ r c)) (sim x r c) (Ideal.ofBits .f32 0xFF800000#32)

/-- Row `r`'s least similarity to another row of its label. -/
def posBound (r : Fin 4096) : EReal :=
  (Finset.univ : Finset (Fin 4096)).fold min (Ideal.ofBits .f32 0x7F800000#32) (fun c => posCand x ℓ r c)

/-- Row `r`'s greatest similarity to a row of a different label. -/
def negBound (r : Fin 4096) : EReal :=
  (Finset.univ : Finset (Fin 4096)).fold max (Ideal.ofBits .f32 0xFF800000#32) (fun c => negCand x ℓ r c)

/-- The positive mask: same label, and the similarity less the margin is below the COLUMN's negative bound. -/
def posMask (r c : Fin 4096) : BitVec 1 :=
  IntOp.andi (same ℓ r c) (Ideal.cmp .olt (sim x r c - Ideal.ofBits .f32 0x3DCCCCCD#32) (negBound x ℓ c))

/-- The negative mask: different labels, and the similarity plus the margin is above the COLUMN's positive bound. -/
def negMask (r c : Fin 4096) : BitVec 1 :=
  IntOp.andi (~~~(same ℓ r c)) (Ideal.cmp .ogt (sim x r c + Ideal.ofBits .f32 0x3DCCCCCD#32) (posBound x ℓ c))

/-- The positive weight of an entry. -/
def wPos (r c : Fin 4096) : EReal :=
  Ideal.ofBits .f32 0xC0000000#32 * (sim x r c - Ideal.ofBits .f32 0x3F000000#32)

/-- The negative weight of an entry. -/
def wNeg (r c : Fin 4096) : EReal :=
  Ideal.ofBits .f32 0x42200000#32 * (sim x r c - Ideal.ofBits .f32 0x3F000000#32)

/-! ## The masked log-sum-exp of each column, positive side -/

/-- The positive weight where the positive mask holds, zero elsewhere. -/
def posM (r c : Fin 4096) : EReal := wPos x r c * bit01 (posMask x ℓ r c)

/-- The column's reference point: its least masked weight. -/
def posRef (c : Fin 4096) : EReal :=
  (Finset.univ : Finset (Fin 4096)).fold min (Ideal.ofBits .f32 0x7F800000#32) (fun r => posM x ℓ r c)

/-- The column's greatest masked weight. -/
def posMax (c : Fin 4096) : EReal :=
  (Finset.univ : Finset (Fin 4096)).fold max (Ideal.ofBits .f32 0xFF800000#32) (fun r => posM x ℓ r c)

/-- The column counts: its greatest and least masked weights do not add up to zero. -/
def posNz (c : Fin 4096) : BitVec 1 := Ideal.cmp .une (posMax x ℓ c + posRef x ℓ c) 0

/-- The column's sum of exponentials of the weights above the reference point, over the mask. -/
def posSum (c : Fin 4096) : EReal :=
  ∑ r : Fin 4096, Ideal.exp (wPos x r c - posRef x ℓ c) * bit01 (posMask x ℓ r c)

/-- The column's value. -/
def posVals (c : Fin 4096) : EReal :=
  Ideal.log (Scalar.select (posNz x ℓ c) (posSum x ℓ c) (Ideal.ofBits .f32 0x3F800000#32)) + posRef x ℓ c

/-! ## The masked log-sum-exp of each column, negative side -/

/-- The negative weight where the negative mask holds, zero elsewhere. -/
def negM (r c : Fin 4096) : EReal := wNeg x r c * bit01 (negMask x ℓ r c)

/-- The column's reference point: its greatest masked weight. -/
def negRef (c : Fin 4096) : EReal :=
  (Finset.univ : Finset (Fin 4096)).fold max (Ideal.ofBits .f32 0xFF800000#32) (fun r => negM x ℓ r c)

/-- The column's least masked weight. -/
def negMin (c : Fin 4096) : EReal :=
  (Finset.univ : Finset (Fin 4096)).fold min (Ideal.ofBits .f32 0x7F800000#32) (fun r => negM x ℓ r c)

/-- The column counts: its greatest and least masked weights do not add up to zero. -/
def negNz (c : Fin 4096) : BitVec 1 := Ideal.cmp .une (negRef x ℓ c + negMin x ℓ c) 0

/-- The column's sum of exponentials of the weights below the reference point, over the mask. -/
def negSum (c : Fin 4096) : EReal :=
  ∑ r : Fin 4096, Ideal.exp (wNeg x r c - negRef x ℓ c) * bit01 (negMask x ℓ r c)

/-- The column's value. -/
def negVals (c : Fin 4096) : EReal :=
  Ideal.log (Scalar.select (negNz x ℓ c) (negSum x ℓ c) (Ideal.ofBits .f32 0x3F800000#32)) + negRef x ℓ c

end Entries

/-! ## From the column values to a number

These are, operation by operation, the host operations both programs end with; `softplus` is left as the sequence
of operations it is traced to and never opened. -/

/-- `softplus` of every entry of a vector: `max v 0 + log1p (exp (−|v − 0|))`, except that an entry at which
    `v − 0` differs from itself is answered `v + 0`. -/
def softplusV (v : FVec Ideal S4096 .f32) : FVec Ideal S4096 .f32 :=
  select
    (cmpf .une (subf v (broadcastInDim S4096 ![] bcast_S_S4096 (constant (F := Ideal) S_ .f32 0x00000000#32)))
      (subf v (broadcastInDim S4096 ![] bcast_S_S4096 (constant (F := Ideal) S_ .f32 0x00000000#32))))
    (addf v (broadcastInDim S4096 ![] bcast_S_S4096 (constant (F := Ideal) S_ .f32 0x00000000#32)))
    (addf (maximumf v (broadcastInDim S4096 ![] bcast_S_S4096 (constant (F := Ideal) S_ .f32 0x00000000#32)))
      (Host.log1p (Host.exp (Host.negf (Host.absf
        (subf v (broadcastInDim S4096 ![] bcast_S_S4096 (constant (F := Ideal) S_ .f32 0x00000000#32))))))))

/-- `softplus` of the constant zero, by the same operations on a single number. -/
def softplus0 : FVec Ideal S_ .f32 :=
  select
    (cmpf .une (subf (constant (F := Ideal) S_ .f32 0x00000000#32) (constant (F := Ideal) S_ .f32 0x00000000#32))
      (subf (constant (F := Ideal) S_ .f32 0x00000000#32) (constant (F := Ideal) S_ .f32 0x00000000#32)))
    (addf (constant (F := Ideal) S_ .f32 0x00000000#32) (constant (F := Ideal) S_ .f32 0x00000000#32))
    (addf (maximumf (constant (F := Ideal) S_ .f32 0x00000000#32) (constant (F := Ideal) S_ .f32 0x00000000#32))
      (Host.log1p (Host.exp (Host.negf (Host.absf
        (subf (constant (F := Ideal) S_ .f32 0x00000000#32) (constant (F := Ideal) S_ .f32 0x00000000#32)))))))

/-- The number of counting columns, as a float: the bits widened to thirty-two-bit words, added up, converted. -/
def count (nz : IVec S4096 1) : FVec Ideal S_ .f32 :=
  sitofp .f32 (Host.reduce IntOp.addi (extui 32 nz natLt_1_32) (constantI S_ 32 0#32) reducesTo_S4096_S_d0 h_S_)

/-- The mean over the counting columns of `softplus value / weight`, the weight being the float of pattern `wb`;
    `softplus 0 / weight` when no column counts. -/
def tail (vals : FVec Ideal S4096 .f32) (nz : IVec S4096 1) (wb : BitVec 32) : FVec Ideal S_ .f32 :=
  select (cmpf .ogt (count nz) (constant (F := Ideal) S_ .f32 0x00000000#32))
    (Host.divf
      (Host.reduceAdd
        (select nz
          (Host.divf (softplusV vals) (broadcastInDim S4096 ![] bcast_S_S4096 (constant (F := Ideal) S_ .f32 wb)))
          (broadcastInDim S4096 ![] bcast_S_S4096 (constant (F := Ideal) S_ .f32 0x00000000#32)))
        (constant (F := Ideal) S_ .f32 0x00000000#32) reducesTo_S4096_S_d0 h_S_)
      (maximumf (count nz) (constant (F := Ideal) S_ .f32 0x3F800000#32)))
    (Host.divf softplus0 (constant (F := Ideal) S_ .f32 wb))

/-! ## The loss -/

/-- The loss: the positive side's tail, at the weight of pattern `0x40000000`, plus the negative side's, at the
    weight of pattern `0x42200000`. -/
def loss (x : FVec Ideal S4096x512 .f32) (ℓ : IVec S4096 32) : EReal :=
  tail (fun i => posVals x ℓ (i 0)) (fun i => posNz x ℓ (i 0)) 0x40000000#32 ix0
    + tail (fun i => negVals x ℓ (i 0)) (fun i => negNz x ℓ (i 0)) 0x42200000#32 ix0

end Cert.Spec

end
-- ==== Proof.Frame.Value.lean ====
/- The kernel program's result as a function of the launch arguments, from the values of its parts.

   The result scalar ends at the host tail's value of what the second region leaves. The second region is entered with
   the arguments as launched and the two bound vectors as the first region left them, which are the hardest positive
   and the hardest negative of every row; from real entries it leaves the two masked log-sum-exp vectors and their
   non-zero flags, as floats 0 / 1; and the host tail of those four vectors is the loss. -/
import proofs.«123878_j24489903522258_2_alg».proof.Proof.Frame.Family
import proofs.«123878_j24489903522258_2_alg».proof.Proof.Spec
import Idealize.ShloMosaic.PureOps.Ideal
import Idealize.ShloMosaic.Lib.Pipeline.Frame
import Idealize.ShloMosaic.Lib.Pipeline.Regions

set_option maxRecDepth 4096

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ (UR sig nD τ) ℕ

open Cert.Spec in
/-- The value of the kernel program's result, from the four facts about its parts: the first region leaves the two
    bounds, the second region (from real entries and those bounds) leaves the two masked log-sum-exp vectors and
    their non-zero flags, and the host tail of those four vectors is the loss. -/
theorem kernel_value (m : (ℓ : Loc nD τ sig) → Buf (Elt Ideal) ℓ) (c : Dev nD)
    (hfin : ∀ idx, ∃ a : ℝ, m ((c.tc : Thread nD τ).loc main_arg0) idx = (a : EReal))
    (hPB : ∀ (V : (c : Dev nD) → (b : Ref sig .tc) → Buf (Elt Ideal) ((c : Thread nD τ).loc b)) (c : Dev nD),
      (Bounds.dat (F := Ideal) V c).arrAt 4 cfg0.N = fun i => Cert.Spec.posBound (V c main_arg0) (V c main_arg1) (i 0))
    (hNB : ∀ (V : (c : Dev nD) → (b : Ref sig .tc) → Buf (Elt Ideal) ((c : Thread nD τ).loc b)) (c : Dev nD),
      (Bounds.dat (F := Ideal) V c).arrAt 5 cfg0.N = fun i => Cert.Spec.negBound (V c main_arg0) (V c main_arg1) (i 0))
    (hL : ∀ (V : (c : Dev nD) → (b : Ref sig .tc) → Buf (Elt Ideal) ((c : Thread nD τ).loc b)) (c : Dev nD),
      (∀ idx, ∃ a : ℝ, V c main_arg0 idx = (a : EReal)) →
      (V c main_v0_0 = fun i => Cert.Spec.posBound (V c main_arg0) (V c main_arg1) (i 0)) →
      (V c main_v0_1 = fun i => Cert.Spec.negBound (V c main_arg0) (V c main_arg1) (i 0)) →
      ((Lse.dat (F := Ideal) V c).arrAt 6 cfg1.N = fun i => Cert.Spec.posVals (V c main_arg0) (V c main_arg1) (i 0))
      ∧ ((Lse.dat (F := Ideal) V c).arrAt 7 cfg1.N = fun i => Cert.Spec.bit01 (Cert.Spec.posNz (V c main_arg0) (V c main_arg1) (i 0)))
      ∧ ((Lse.dat (F := Ideal) V c).arrAt 8 cfg1.N = fun i => Cert.Spec.negVals (V c main_arg0) (V c main_arg1) (i 0))
      ∧ ((Lse.dat (F := Ideal) V c).arrAt 9 cfg1.N = fun i => Cert.Spec.bit01 (Cert.Spec.negNz (V c main_arg0) (V c main_arg1) (i 0))))
    (hT : ∀ (outs : Outs (F := Ideal)) (x : FVec Ideal Cert.Spec.S4096x512 .f32) (ℓ : IVec Cert.Spec.S4096 32),
      (outs 2 main_v1_0 c = fun i => Cert.Spec.posVals x ℓ (i 0)) →
      (outs 2 main_v1_1 c = fun i => Cert.Spec.bit01 (Cert.Spec.posNz x ℓ (i 0))) →
      (outs 2 main_v1_2 c = fun i => Cert.Spec.negVals x ℓ (i 0)) →
      (outs 2 main_v1_3 c = fun i => Cert.Spec.bit01 (Cert.Spec.negNz x ℓ (i 0))) →
      V19 m outs c main_v34 = fun _ => Cert.Spec.loss x ℓ) :
    V19 m (outs m) c main_v34 = fun _ => Cert.Spec.loss (m ((c.tc : Thread nD τ).loc main_arg0)) (m ((c.tc : Thread nD τ).loc main_arg1)) := by
  -- the second region's entry contents: the arguments as launched, the bounds as the first region left them
  have e0 : Vr1 m (outs0 m) c main_arg0 = m ((c.tc : Thread nD τ).loc main_arg0) := V1_of m (outs0 m) c main_arg0 (by decide)
  have e1 : Vr1 m (outs0 m) c main_arg1 = m ((c.tc : Thread nD τ).loc main_arg1) := V1_of m (outs0 m) c main_arg1 (by decide)
  have eb0 : Vr1 m (outs0 m) c main_v0_0 = fun i => Cert.Spec.posBound (m ((c.tc : Thread nD τ).loc main_arg0)) (m ((c.tc : Thread nD τ).loc main_arg1)) (i 0) :=
    (V1_at_v0_0 m (outs0 m) c).trans ((after0_v0_0 m c).trans (hPB (Vr0 m) c))
  have eb1 : Vr1 m (outs0 m) c main_v0_1 = fun i => Cert.Spec.negBound (m ((c.tc : Thread nD τ).loc main_arg0)) (m ((c.tc : Thread nD τ).loc main_arg1)) (i 0) :=
    (V1_at_v0_1 m (outs0 m) c).trans ((after0_v0_1 m c).trans (hNB (Vr0 m) c))
  obtain ⟨h6, h7, h8, h9⟩ := hL (Vr1 m (outs0 m)) c (by rw [e0]; exact hfin) (by rw [e0, e1]; exact eb0) (by rw [e0, e1]; exact eb1)
  rw [e0, e1] at h6 h7 h8 h9
  exact hT (outs m) _ _ ((outs_two m main_v1_0 c).trans ((after1_v1_0 m c).trans h6)) ((outs_two m main_v1_1 c).trans ((after1_v1_1 m c).trans h7))
    ((outs_two m main_v1_2 c).trans ((after1_v1_2 m c).trans h8)) ((outs_two m main_v1_3 c).trans ((after1_v1_3 m c).trans h9))

end Cert.KernelIdeal.Hand
end
-- ==== Proof.Lse.OnlineAlg.lean ====
/- The algebra of a masked log-sum-exp taken in eight passes.

   A column's 4096 rows are cut into eight blocks of 512: row `512 i + l` is entry `l` of block `i`. For real weights
   `w` and mask bits `b`, the masked weight of a row is `w` where the bit is set and zero elsewhere.

   * Extremes. The least (greatest) masked weight of the column is the least (greatest) of the eight blocks' least
     (greatest) masked weights: `min` and `max` are idempotent, so starting every block from the same initial value
     changes nothing. This needs no finiteness.
   * Sums. Carry a reference point `ρ` and the sum `S` of `exp (w − ρ)` over the masked rows seen so far. When the
     reference moves to `ρ'`, `S · exp (ρ − ρ')` is the same sum taken relative to `ρ'`, because
     `exp (w − ρ) · exp (ρ − ρ') = exp (w − ρ')` and a real factor distributes over a finite sum of reals. After the
     eighth block the carried sum is the whole column's sum relative to the final reference. Here every weight and
     every reference point must be a real number: the identity fails at the infinities.

   Two carries are defined: one whose reference is the running least masked weight and whose check value is the
   running greatest, and one with the two exchanged. -/
import Idealize.ShloMosaic.PureOps.Ideal
import proofs.«123878_j24489903522258_2_alg».proof.Proof.Spec

noncomputable section

namespace Cert.Online

open Idealize.ShloMosaic
open scoped BigOperators

/-! ## Rows in blocks -/

/-- Entry `l` of block `i`. -/
def row (i : Fin 8) (l : Fin 512) : Fin 4096 :=
  ⟨512 * i.val + l.val, by have := i.isLt; have := l.isLt; omega⟩

/-- The block a pass number names. -/
def blk (n : ℕ) : Fin 8 := ⟨n % 8, Nat.mod_lt _ (by decide)⟩

theorem blk_val (i : Fin 8) : blk i.val = i := Fin.ext (Nat.mod_eq_of_lt i.isLt)

theorem blk_of_lt {n : ℕ} (h : n < 8) : blk n = ⟨n, h⟩ := Fin.ext (Nat.mod_eq_of_lt h)

/-- Every row is an entry of exactly one block. -/
def rowEquiv : Fin 8 × Fin 512 ≃ Fin 4096 where
  toFun p := row p.1 p.2
  invFun r := (⟨r.val / 512, by have := r.isLt; omega⟩, ⟨r.val % 512, Nat.mod_lt _ (by decide)⟩)
  left_inv p := by
    obtain ⟨i, l⟩ := p
    have hi := i.isLt
    have hl := l.isLt
    refine Prod.ext (Fin.ext ?_) (Fin.ext ?_)
    · show (512 * i.val + l.val) / 512 = i.val
      omega
    · show (512 * i.val + l.val) % 512 = l.val
      omega
  right_inv r := by
    refine Fin.ext ?_
    show 512 * (r.val / 512) + r.val % 512 = r.val
    omega

theorem exists_row (r : Fin 4096) : ∃ i l, r = row i l :=
  ⟨(rowEquiv.symm r).1, (rowEquiv.symm r).2, (rowEquiv.apply_symm_apply r).symm⟩

/-- A sum over the rows is the sum over the blocks of the sums over their entries. -/
theorem sum_rows {M : Type*} [AddCommMonoid M] (g : Fin 4096 → M) :
    ∑ r, g r = ∑ i : Fin 8, ∑ l : Fin 512, g (row i l) := by
  rw [← Equiv.sum_comp rowEquiv g, Fintype.sum_prod_type]
  rfl

/-- A lower bound of the fold of `min` over the rows: of the initial value and of every entry of every block. -/
theorem le_fold_min_rows (init : EReal) (f : Fin 4096 → EReal) (d : EReal) :
    d ≤ (Finset.univ : Finset (Fin 4096)).fold min init f ↔ d ≤ init ∧ ∀ i l, d ≤ f (row i l) := by
  rw [Finset.le_fold_min]
  constructor
  · rintro ⟨h0, h⟩
    exact ⟨h0, fun i l => h _ (Finset.mem_univ _)⟩
  · rintro ⟨h0, h⟩
    refine ⟨h0, fun r _ => ?_⟩
    obtain ⟨i, l, rfl⟩ := exists_row r
    exact h i l

/-- An upper bound of the fold of `max` over the rows, likewise. -/
theorem fold_max_rows_le (init : EReal) (f : Fin 4096 → EReal) (d : EReal) :
    (Finset.univ : Finset (Fin 4096)).fold max init f ≤ d ↔ init ≤ d ∧ ∀ i l, f (row i l) ≤ d := by
  rw [Finset.fold_max_le]
  constructor
  · rintro ⟨h0, h⟩
    exact ⟨h0, fun i l => h _ (Finset.mem_univ _)⟩
  · rintro ⟨h0, h⟩
    refine ⟨h0, fun r _ => ?_⟩
    obtain ⟨i, l, rfl⟩ := exists_row r
    exact h i l

/-! ## Bits and real numbers -/

/-- The +∞ pattern denotes the top element. -/
theorem ofBits_pinf : Ideal.ofBits .f32 0x7F800000#32 = ⊤ := by simp [Ideal.ofBits, Ideal.ieee]

/-- The −∞ pattern denotes the bottom element. -/
theorem ofBits_ninf : Ideal.ofBits .f32 0xFF800000#32 = ⊥ := by simp [Ideal.ofBits, Ideal.ieee]

/-- A finite sum of reals, read in the extended reals, is the sum of the readings. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reading of reals in the extended reals keeps the order, so it commutes with `min` and `max`. -/
theorem coe_min (a c : ℝ) : ((min a c : ℝ) : EReal) = min (a : EReal) (c : EReal) :=
  EReal.coe_strictMono.monotone.map_min

theorem coe_max (a c : ℝ) : ((max a c : ℝ) : EReal) = max (a : EReal) (c : EReal) :=
  EReal.coe_strictMono.monotone.map_max

/-- A selection between two reals, read in the extended reals. -/
theorem coe_select (c : BitVec 1) (a a' : ℝ) :
    ((Scalar.select c a a' : ℝ) : EReal) = Scalar.select c (a : EReal) (a' : EReal) := by
  unfold Scalar.select
  split_ifs <;> rfl

/-- Setting a value to zero off a bit is multiplying it by the bit read as 0 or 1. -/
theorem select_zero_eq_mul (c : BitVec 1) (a : EReal) : Scalar.select c a 0 = a * Spec.bit01 c := by
  unfold Scalar.select Spec.bit01
  rcases BitVec.eq_zero_or_eq_one c with h | h
  · subst h
    simp
  · subst h
    simp

/-- The bit is recovered from its reading as 0 or 1 by comparing with zero. -/
theorem cmp_une_bit01 (c : BitVec 1) : Ideal.cmp .une (Spec.bit01 c) 0 = c := by
  unfold Spec.bit01 Ideal.cmp
  rcases BitVec.eq_zero_or_eq_one c with h | h
  · subst h
    simp
  · subst h
    simp

/-- Converting the bit to a float is reading it as 0 or 1. -/
theorem uitofp_eq_bit01 (c : BitVec 1) : FloatOps.uitofp (F := Ideal) .f32 c = Spec.bit01 c := rfl

/-- An extended real that is neither infinity is a real number. -/
theorem exists_real_of_ne {a : EReal} (hb : a ≠ ⊥) (ht : a ≠ ⊤) : ∃ ρ : ℝ, a = (ρ : EReal) :=
  ⟨a.toReal, (EReal.coe_toReal ht hb).symm⟩

/-- The least of the initial +∞ and finitely many reals, at least one, is a real number. -/
theorem fold_min_real {ι : Type*} (s : Finset ι) (hs : s.Nonempty) (g : ι → ℝ) :
    ∃ ρ : ℝ, s.fold min (Ideal.ofBits .f32 0x7F800000#32) (fun i => (g i : EReal)) = (ρ : EReal) := by
  rw [ofBits_pinf]
  obtain ⟨i0, hi0⟩ := hs
  refine exists_real_of_ne (ne_of_gt ?_) (ne_of_lt ?_)
  · rw [Finset.lt_fold_min]
    exact ⟨bot_lt_top, fun i _ => EReal.bot_lt_coe _⟩
  · rw [Finset.fold_min_lt]
    exact Or.inr ⟨i0, hi0, EReal.coe_lt_top _⟩

/-- The greatest of the initial −∞ and finitely many reals, at least one, is a real number. -/
theorem fold_max_real {ι : Type*} (s : Finset ι) (hs : s.Nonempty) (g : ι → ℝ) :
    ∃ ρ : ℝ, s.fold max (Ideal.ofBits .f32 0xFF800000#32) (fun i => (g i : EReal)) = (ρ : EReal) := by
  rw [ofBits_ninf]
  obtain ⟨i0, hi0⟩ := hs
  refine exists_real_of_ne (ne_of_gt ?_) (ne_of_lt ?_)
  · rw [Finset.lt_fold_max]
    exact Or.inr ⟨i0, hi0, EReal.bot_lt_coe _⟩
  · rw [Finset.fold_max_lt]
    exact ⟨bot_lt_top, fun i _ => EReal.coe_lt_top _⟩

/-! ## One column: masked weights, block extremes, block sums -/

section Column

variable (w : Fin 4096 → EReal) (b : Fin 4096 → BitVec 1)

/-- The weight where the bit is set, zero elsewhere. -/
def masked (r : Fin 4096) : EReal := Scalar.select (b r) (w r) 0

/-- A block's least masked weight, from +∞. -/
def blkMin (i : Fin 8) : EReal :=
  (Finset.univ : Finset (Fin 512)).fold min (Ideal.ofBits .f32 0x7F800000#32) (fun l => masked w b (row i l))

/-- A block's greatest masked weight, from −∞. -/
def blkMax (i : Fin 8) : EReal :=
  (Finset.univ : Finset (Fin 512)).fold max (Ideal.ofBits .f32 0xFF800000#32) (fun l => masked w b (row i l))

/-- A block's sum of exponentials relative to `ref`, over its masked rows. -/
def blkSum (i : Fin 8) (ref : EReal) : EReal :=
  ∑ l : Fin 512, Scalar.select (b (row i l)) (Ideal.exp (w (row i l) - ref)) 0

/-- The carry whose reference is the running least masked weight: (reference, sum, check) after passes `0 … n`. -/
def carryMin : ℕ → EReal × EReal × EReal
  | 0 => (blkMin w b (blk 0), blkSum w b (blk 0) (blkMin w b (blk 0)), blkMax w b (blk 0))
  | n + 1 =>
    (min (carryMin n).1 (blkMin w b (blk (n + 1))),
      (carryMin n).2.1 * Ideal.exp ((carryMin n).1 - min (carryMin n).1 (blkMin w b (blk (n + 1))))
        + blkSum w b (blk (n + 1)) (min (carryMin n).1 (blkMin w b (blk (n + 1)))),
      max (carryMin n).2.2 (blkMax w b (blk (n + 1))))

/-- The carry whose reference is the running greatest masked weight: (reference, sum, check) after passes `0 … n`. -/
def carryMax : ℕ → EReal × EReal × EReal
  | 0 => (blkMax w b (blk 0), blkSum w b (blk 0) (blkMax w b (blk 0)), blkMin w b (blk 0))
  | n + 1 =>
    (max (carryMax n).1 (blkMax w b (blk (n + 1))),
      (carryMax n).2.1 * Ideal.exp ((carryMax n).1 - max (carryMax n).1 (blkMax w b (blk (n + 1))))
        + blkSum w b (blk (n + 1)) (max (carryMax n).1 (blkMax w b (blk (n + 1)))),
      min (carryMax n).2.2 (blkMin w b (blk (n + 1))))

/-! ### The extremes -/

/-- The fold of `min` over the passes so far, whichever component carries it. -/
theorem le_runMin (ρ : ℕ → EReal) (h0 : ρ 0 = blkMin w b (blk 0))
    (hs : ∀ n, ρ (n + 1) = min (ρ n) (blkMin w b (blk (n + 1)))) (n : ℕ) (d : EReal) :
    d ≤ ρ n ↔ ∀ j, j < n + 1 → d ≤ blkMin w b (blk j) := by
  induction n with
  | zero =>
    rw [h0]
    constructor
    · intro h j hj
      obtain rfl : j = 0 := by omega
      exact h
    · intro h
      exact h 0 (by omega)
  | succ n ih =>
    rw [hs, le_min_iff, ih]
    constructor
    · rintro ⟨h1, h2⟩ j hj
      rcases Nat.lt_or_ge j (n + 1) with hlt | hge
      · exact h1 j hlt
      · obtain rfl : j = n + 1 := by omega
        exact h2
    · intro h
      exact ⟨fun j hj => h j (by omega), h (n + 1) (by omega)⟩

/-- The fold of `max` over the passes so far, whichever component carries it. -/
theorem runMax_le (ρ : ℕ → EReal) (h0 : ρ 0 = blkMax w b (blk 0))
    (hs : ∀ n, ρ (n + 1) = max (ρ n) (blkMax w b (blk (n + 1)))) (n : ℕ) (d : EReal) :
    ρ n ≤ d ↔ ∀ j, j < n + 1 → blkMax w b (blk j) ≤ d := by
  induction n with
  | zero =>
    rw [h0]
    constructor
    · intro h j hj
      obtain rfl : j = 0 := by omega
      exact h
    · intro h
      exact h 0 (by omega)
  | succ n ih =>
    rw [hs, max_le_iff, ih]
    constructor
    · rintro ⟨h1, h2⟩ j hj
      rcases Nat.lt_or_ge j (n + 1) with hlt | hge
      · exact h1 j hlt
      · obtain rfl : j = n + 1 := by omega
        exact h2
    · intro h
      exact ⟨fun j hj => h j (by omega), h (n + 1) (by omega)⟩

/-- After the eighth pass a running least masked weight is the column's. -/
theorem runMin_eq (ρ : ℕ → EReal) (h0 : ρ 0 = blkMin w b (blk 0))
    (hs : ∀ n, ρ (n + 1) = min (ρ n) (blkMin w b (blk (n + 1)))) :
    ρ 7 = (Finset.univ : Finset (Fin 4096)).fold min (Ideal.ofBits .f32 0x7F800000#32) (masked w b) := by
  refine eq_of_forall_le_iff fun d => ?_
  rw [le_runMin w b ρ h0 hs, le_fold_min_rows]
  constructor
  · intro h
    refine ⟨((Finset.le_fold_min _).mp (h 0 (by omega))).1, fun i l => ?_⟩
    have hi := h i.val (by have := i.isLt; omega)
    rw [blk_val] at hi
    exact ((Finset.le_fold_min _).mp hi).2 l (Finset.mem_univ _)
  · rintro ⟨h1, h2⟩ j _
    exact (Finset.le_fold_min _).mpr ⟨h1, fun l _ => h2 _ l⟩

/-- After the eighth pass a running greatest masked weight is the column's. -/
theorem runMax_eq (ρ : ℕ → EReal) (h0 : ρ 0 = blkMax w b (blk 0))
    (hs : ∀ n, ρ (n + 1) = max (ρ n) (blkMax w b (blk (n + 1)))) :
    ρ 7 = (Finset.univ : Finset (Fin 4096)).fold max (Ideal.ofBits .f32 0xFF800000#32) (masked w b) := by
  refine eq_of_forall_ge_iff fun d => ?_
  rw [runMax_le w b ρ h0 hs, fold_max_rows_le]
  constructor
  · intro h
    refine ⟨((Finset.fold_max_le _).mp (h 0 (by omega))).1, fun i l => ?_⟩
    have hi := h i.val (by have := i.isLt; omega)
    rw [blk_val] at hi
    exact ((Finset.fold_max_le _).mp hi).2 l (Finset.mem_univ _)
  · rintro ⟨h1, h2⟩ j _
    exact (Finset.fold_max_le _).mpr ⟨h1, fun l _ => h2 _ l⟩

theorem carryMin_ref : (carryMin w b 7).1
    = (Finset.univ : Finset (Fin 4096)).fold min (Ideal.ofBits .f32 0x7F800000#32) (masked w b) :=
  runMin_eq w b (fun n => (carryMin w b n).1) rfl (fun _ => rfl)

theorem carryMin_chk : (carryMin w b 7).2.2
    = (Finset.univ : Finset (Fin 4096)).fold max (Ideal.ofBits .f32 0xFF800000#32) (masked w b) :=
  runMax_eq w b (fun n => (carryMin w b n).2.2) rfl (fun _ => rfl)

theorem carryMax_ref : (carryMax w b 7).1
    = (Finset.univ : Finset (Fin 4096)).fold max (Ideal.ofBits .f32 0xFF800000#32) (masked w b) :=
  runMax_eq w b (fun n => (carryMax w b n).1) rfl (fun _ => rfl)

theorem carryMax_chk : (carryMax w b 7).2.2
    = (Finset.univ : Finset (Fin 4096)).fold min (Ideal.ofBits .f32 0x7F800000#32) (masked w b) :=
  runMin_eq w b (fun n => (carryMax w b n).2.2) rfl (fun _ => rfl)

end Column

/-! ### The sums, for real weights -/

section RealColumn

variable (wr : Fin 4096 → ℝ) (b : Fin 4096 → BitVec 1)

/-- A block's sum of exponentials relative to a real reference point, as a real number. -/
def blkSumR (i : Fin 8) (ρ : ℝ) : ℝ :=
  ∑ l : Fin 512, Scalar.select (b (row i l)) (Real.exp (wr (row i l) - ρ)) 0

theorem blkSum_coe (i : Fin 8) (ρ : ℝ) :
    blkSum (fun r => (wr r : EReal)) b i (ρ : EReal) = (blkSumR wr b i ρ : EReal) := by
  unfold blkSum blkSumR
  rw [coe_sum]
  refine Finset.sum_congr rfl fun l _ => ?_
  rw [coe_select, ← EReal.coe_sub, Ideal.exp_coe, EReal.coe_zero]

/-- Moving the reference point of a block's sum: a real factor. -/
theorem blkSumR_mul (i : Fin 8) (ρ ρ' : ℝ) : blkSumR wr b i ρ * Real.exp (ρ - ρ') = blkSumR wr b i ρ' := by
  unfold blkSumR
  rw [Finset.sum_mul]
  refine Finset.sum_congr rfl fun l _ => ?_
  unfold Scalar.select
  split_ifs
  · rw [← Real.exp_add]
    congr 1
    ring
  · exact zero_mul _

theorem masked_coe (r : Fin 4096) :
    masked (fun r => (wr r : EReal)) b r = ((Scalar.select (b r) (wr r) 0 : ℝ) : EReal) := by
  unfold masked
  rw [coe_select, EReal.coe_zero]

theorem blkMin_real (i : Fin 8) : ∃ ρ : ℝ, blkMin (fun r => (wr r : EReal)) b i = (ρ : EReal) := by
  unfold blkMin
  simp only [masked_coe]
  exact fold_min_real Finset.univ ⟨0, Finset.mem_univ _⟩ _

theorem blkMax_real (i : Fin 8) : ∃ ρ : ℝ, blkMax (fun r => (wr r : EReal)) b i = (ρ : EReal) := by
  unfold blkMax
  simp only [masked_coe]
  exact fold_max_real Finset.univ ⟨0, Finset.mem_univ _⟩ _

/-- One later pass: the carried sum, rescaled to the new real reference point, plus the new block's sum is the sum
    of the blocks so far relative to the new reference point. -/
theorem sum_step (n : ℕ) (ρ ρ' : ℝ) (S : EReal)
    (hS : S = ((∑ j ∈ Finset.range (n + 1), blkSumR wr b (blk j) ρ : ℝ) : EReal)) :
    S * Ideal.exp ((ρ : EReal) - (ρ' : EReal)) + blkSum (fun r => (wr r : EReal)) b (blk (n + 1)) (ρ' : EReal)
      = ((∑ j ∈ Finset.range (n + 2), blkSumR wr b (blk j) ρ' : ℝ) : EReal) := by
  rw [hS, ← EReal.coe_sub, Ideal.exp_coe, ← EReal.coe_mul, blkSum_coe, ← EReal.coe_add, Finset.sum_mul,
    Finset.sum_range_succ _ (n + 1)]
  congr 2
  exact Finset.sum_congr rfl fun j _ => blkSumR_mul wr b (blk j) ρ ρ'

/-- The carry with the least-weight reference: its reference is real and its sum is the sum of the blocks so far
    relative to it. -/
theorem carryMin_inv (n : ℕ) : ∃ ρ : ℝ, (carryMin (fun r => (wr r : EReal)) b n).1 = (ρ : EReal)
    ∧ (carryMin (fun r => (wr r : EReal)) b n).2.1
        = ((∑ j ∈ Finset.range (n + 1), blkSumR wr b (blk j) ρ : ℝ) : EReal) := by
  induction n with
  | zero =>
    obtain ⟨ρ, hρ⟩ := blkMin_real wr b (blk 0)
    refine ⟨ρ, hρ, ?_⟩
    show blkSum (fun r => (wr r : EReal)) b (blk 0) (blkMin (fun r => (wr r : EReal)) b (blk 0)) = _
    rw [hρ, blkSum_coe, Finset.sum_range_one]
  | succ n ih =>
    obtain ⟨ρ, h1, h2⟩ := ih
    obtain ⟨σ, hσ⟩ := blkMin_real wr b (blk (n + 1))
    have href : (carryMin (fun r => (wr r : EReal)) b (n + 1)).1 = ((min ρ σ : ℝ) : EReal) := by
      show min (carryMin (fun r => (wr r : EReal)) b n).1 (blkMin (fun r => (wr r : EReal)) b (blk (n + 1))) = _
      rw [h1, hσ, coe_min]
    refine ⟨min ρ σ, href, ?_⟩
    show (carryMin (fun r => (wr r : EReal)) b n).2.1
          * Ideal.exp ((carryMin (fun r => (wr r : EReal)) b n).1 - min (carryMin (fun r => (wr r : EReal)) b n).1 (blkMin (fun r => (wr r : EReal)) b (blk (n + 1))))
        + blkSum (fun r => (wr r : EReal)) b (blk (n + 1)) (min (carryMin (fun r => (wr r : EReal)) b n).1 (blkMin (fun r => (wr r : EReal)) b (blk (n + 1)))) = _
    rw [h1, hσ, ← coe_min]
    exact sum_step wr b n ρ (min ρ σ) _ h2

/-- The carry with the greatest-weight reference, likewise. -/
theorem carryMax_inv (n : ℕ) : ∃ ρ : ℝ, (carryMax (fun r => (wr r : EReal)) b n).1 = (ρ : EReal)
    ∧ (carryMax (fun r => (wr r : EReal)) b n).2.1
        = ((∑ j ∈ Finset.range (n + 1), blkSumR wr b (blk j) ρ : ℝ) : EReal) := by
  induction n with
  | zero =>
    obtain ⟨ρ, hρ⟩ := blkMax_real wr b (blk 0)
    refine ⟨ρ, hρ, ?_⟩
    show blkSum (fun r => (wr r : EReal)) b (blk 0) (blkMax (fun r => (wr r : EReal)) b (blk 0)) = _
    rw [hρ, blkSum_coe, Finset.sum_range_one]
  | succ n ih =>
    obtain ⟨ρ, h1, h2⟩ := ih
    obtain ⟨σ, hσ⟩ := blkMax_real wr b (blk (n + 1))
    have href : (carryMax (fun r => (wr r : EReal)) b (n + 1)).1 = ((max ρ σ : ℝ) : EReal) := by
      show max (carryMax (fun r => (wr r : EReal)) b n).1 (blkMax (fun r => (wr r : EReal)) b (blk (n + 1))) = _
      rw [h1, hσ, coe_max]
    refine ⟨max ρ σ, href, ?_⟩
    show (carryMax (fun r => (wr r : EReal)) b n).2.1
          * Ideal.exp ((carryMax (fun r => (wr r : EReal)) b n).1 - max (carryMax (fun r => (wr r : EReal)) b n).1 (blkMax (fun r => (wr r : EReal)) b (blk (n + 1))))
        + blkSum (fun r => (wr r : EReal)) b (blk (n + 1)) (max (carryMax (fun r => (wr r : EReal)) b n).1 (blkMax (fun r => (wr r : EReal)) b (blk (n + 1)))) = _
    rw [h1, hσ, ← coe_max]
    exact sum_step wr b n ρ (max ρ σ) _ h2

/-- The sum of all eight blocks relative to a real reference point is the column's sum. -/
theorem sum_blocks (ρ : ℝ) :
    ((∑ j ∈ Finset.range 8, blkSumR wr b (blk j) ρ : ℝ) : EReal)
      = ∑ r : Fin 4096, Scalar.select (b r) (Ideal.exp ((wr r : EReal) - (ρ : EReal))) 0 := by
  rw [coe_sum, Finset.sum_range (fun j => ((blkSumR wr b (blk j) ρ : ℝ) : EReal)),
    sum_rows (fun r => Scalar.select (b r) (Ideal.exp ((wr r : EReal) - (ρ : EReal))) 0)]
  refine Finset.sum_congr rfl fun i _ => ?_
  rw [blk_val, ← blkSum_coe]
  rfl

/-- After the eighth pass the carried sum is the column's sum relative to the carried reference. -/
theorem carryMin_sum :
    (carryMin (fun r => (wr r : EReal)) b 7).2.1
      = ∑ r : Fin 4096, Scalar.select (b r)
          (Ideal.exp ((wr r : EReal) - (carryMin (fun r => (wr r : EReal)) b 7).1)) 0 := by
  obtain ⟨ρ, h1, h2⟩ := carryMin_inv wr b 7
  rw [h2, h1]
  exact sum_blocks wr b ρ

theorem carryMax_sum :
    (carryMax (fun r => (wr r : EReal)) b 7).2.1
      = ∑ r : Fin 4096, Scalar.select (b r)
          (Ideal.exp ((wr r : EReal) - (carryMax (fun r => (wr r : EReal)) b 7).1)) 0 := by
  obtain ⟨ρ, h1, h2⟩ := carryMax_inv wr b 7
  rw [h2, h1]
  exact sum_blocks wr b ρ

end RealColumn

end Cert.Online

end
-- ==== Proof.Frame.Tail.lean ====
/- The kernel program's last stretch of host operations, read at the ideal values.

   After the two kernel regions the program holds four vectors over the columns: the positive side's values, the
   positive side's counting bits stored as the floats 0 and 1, and the same two for the negative side. The host
   operations that follow compare each stored float vector with zero, which gives the counting bits back, and then
   run, for each side, exactly the operations `Spec.tail` is made of; the last operation adds the two sides. So the
   program's result is the sum of the two tails of what the second region left; and when what it left is the
   specification's column values and counting bits, the result is the specification's loss. -/
import proofs.«123878_j24489903522258_2_alg».proof.Proof.Frame.Ends
import proofs.«123878_j24489903522258_2_alg».proof.Proof.Spec
import proofs.«123878_j24489903522258_2_alg».proof.Proof.Lse.OnlineAlg
import Idealize.ShloMosaic.Lib.StableHlo.Run
import Idealize.ShloMosaic.PureOps.Ideal.Laws

set_option maxRecDepth 16384

noncomputable section

namespace Cert.KernelIdeal.Hand

open Idealize.ShloMosaic Idealize.ShloMosaic.TcCoe Idealize.ShloMosaic.StableHlo
open Cert.KernelIdeal Cert.KernelIdeal.Gen

set_option maxHeartbeats 8000000 in
/-- The seventeen stretches of host operations, run from any contents `W` of the buffers: the result buffer ends at
    the sum of the two tails of `W`'s four vectors, the counting bits being the stored floats compared with zero. -/
theorem tail_all (W : Valuation τ sig (Elt Ideal)) :
    StableHlo.after (hostOps2_16 (F := Ideal)) (StableHlo.after (hostOps2_15 (F := Ideal)) (StableHlo.after (hostOps2_14 (F := Ideal)) (StableHlo.after (hostOps2_13 (F := Ideal)) (StableHlo.after (hostOps2_12 (F := Ideal)) (StableHlo.after (hostOps2_11 (F := Ideal)) (StableHlo.after (hostOps2_10 (F := Ideal)) (StableHlo.after (hostOps2_9 (F := Ideal)) (StableHlo.after (hostOps2_8 (F := Ideal)) (StableHlo.after (hostOps2_7 (F := Ideal)) (StableHlo.after (hostOps2_6 (F := Ideal)) (StableHlo.after (hostOps2_5 (F := Ideal)) (StableHlo.after (hostOps2_4 (F := Ideal)) (StableHlo.after (hostOps2_3 (F := Ideal)) (StableHlo.after (hostOps2_2 (F := Ideal)) (StableHlo.after (hostOps2_1 (F := Ideal)) (StableHlo.after (hostOps2 (F := Ideal)) (W))))))))))))))))) (Proc.devRef .tc main_v34)
      = addf (F := Ideal)
          (Cert.Spec.tail (W (Proc.devRef .tc main_v1_0))
            (cmpf (F := Ideal) .une (W (Proc.devRef .tc main_v1_1)) (broadcastInDim S4096 ![] bcast_S_S4096 (constant (F := Ideal) S_ .f32 0x00000000#32))) 0x40000000#32)
          (Cert.Spec.tail (W (Proc.devRef .tc main_v1_2))
            (cmpf (F := Ideal) .une (W (Proc.devRef .tc main_v1_3)) (broadcastInDim S4096 ![] bcast_S_S4096 (constant (F := Ideal) S_ .f32 0x00000000#32))) 0x42200000#32) := by
  after_results_simp
  rfl

variable (m : (ℓ : Loc nD τ sig) → Buf (Elt Ideal) ℓ) (outs : Outs (F := Ideal)) (c : Dev nD)

/-- The program's result after its host operations, over what the second region left in its four output arrays. -/
theorem tail_eq :
    V19 m outs c main_v34 = fun _ =>
      Cert.Spec.tail (outs 2 main_v1_0 c)
          (cmpf (F := Ideal) .une (outs 2 main_v1_1 c) (broadcastInDim S4096 ![] bcast_S_S4096 (constant (F := Ideal) S_ .f32 0x00000000#32))) 0x40000000#32 ValueIdx.ix0
        + Cert.Spec.tail (outs 2 main_v1_2 c)
          (cmpf (F := Ideal) .une (outs 2 main_v1_3 c) (broadcastInDim S4096 ![] bcast_S_S4096 (constant (F := Ideal) S_ .f32 0x00000000#32))) 0x42200000#32 ValueIdx.ix0 := by
  have h := tail_all (V2 m outs c)
  rw [V2_at_v1_0, V2_at_v1_1, V2_at_v1_2, V2_at_v1_3] at h
  refine h.trans (funext fun j => ?_)
  obtain rfl : j = ValueIdx.ix0 := ValueIdx.eq_ix0 j
  rfl

/-- A stored counting bit compared with zero is the bit. -/
theorem cmpf_une_bit01_zeros (b : Fin 4096 → BitVec 1) :
    cmpf (F := Ideal) .une (fun i : S4096.Idx => Cert.Spec.bit01 (b (i 0))) (broadcastInDim S4096 ![] bcast_S_S4096 (constant (F := Ideal) S_ .f32 0x00000000#32))
      = fun i => b (i 0) := by
  funext i
  show Ideal.cmp .une (Cert.Spec.bit01 (b (i 0))) (Ideal.ofBits .f32 0x00000000#32) = b (i 0)
  rw [Ideal.ofBits_zero_f32]
  exact Cert.Online.cmp_une_bit01 _

/-- When the second region left the specification's column values and counting bits, the program's result is the
    specification's loss. -/
theorem tail_loss (x : FVec Ideal Cert.Spec.S4096x512 .f32) (ℓ : IVec Cert.Spec.S4096 32)
    (h0 : outs 2 main_v1_0 c = fun i => Cert.Spec.posVals x ℓ (i 0))
    (h1 : outs 2 main_v1_1 c = fun i => Cert.Spec.bit01 (Cert.Spec.posNz x ℓ (i 0)))
    (h2 : outs 2 main_v1_2 c = fun i => Cert.Spec.negVals x ℓ (i 0))
    (h3 : outs 2 main_v1_3 c = fun i => Cert.Spec.bit01 (Cert.Spec.negNz x ℓ (i 0))) :
    V19 m outs c main_v34 = fun _ => Cert.Spec.loss x ℓ := by
  rw [tail_eq, h0, h1, h2, h3]
  funext _
  exact congrArg₂ (· + ·)
    (congrArg (fun nz => Cert.Spec.tail (fun i => Cert.Spec.posVals x ℓ (i 0)) nz 0x40000000#32 ValueIdx.ix0)
      (cmpf_une_bit01_zeros (fun r => Cert.Spec.posNz x ℓ r)))
    (congrArg (fun nz => Cert.Spec.tail (fun i => Cert.Spec.negVals x ℓ (i 0)) nz 0x42200000#32 ValueIdx.ix0)
      (cmpf_une_bit01_zeros (fun r => Cert.Spec.negNz x ℓ r)))

end Cert.KernelIdeal.Hand

end
-- ==== Proof.Bounds.ValueOps.lean ====
import proofs.«123878_j24489903522258_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.BoundsValue

open Cert.KernelIdeal Cert.KernelIdeal.Gen
open Idealize.ShloMosaic Idealize.ShloMosaic.TcCoe Idealize.ShloMosaic.ValueIdx Idealize.ShloMosaic.Pipeline
open scoped BigOperators

/-! # The bounds kernel's payloads read at an index, at the ideal values

A tile is indexed `(jl, il)`: `jl` runs over the 512 rows of the second block of embeddings (the tile's sublanes) and `il`
over the 512 rows of the first (its lanes). Entry `(jl, il)` of the product is the inner product of row `jl` of the second
block with row `il` of the first; the label test there compares label `jl` of the second block of labels with label `il` of
the first; the column reductions run over `jl` and leave one number per lane `il`. -/

/-! ## The product -/

theorem dot_lhs0 (i : S512x512.Idx) (q : dot_S512x512_S512x512_S512x512_1_0_0_1_n_n.contr.Idx) : (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl

theorem dot_rhs1 (i : S512x512.Idx) (q : dot_S512x512_S512x512_S512x512_1_0_0_1_n_n.contr.Idx) : (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- Entry `(jl, il)` of the tile's product: row `jl` of the second block against row `il` of the first. -/
theorem pay4_apply (x0 x1 : Vec Ideal S512x512 .f32) (jl il : Fin 512) :
    k0_pay4 (F := Ideal) x0 x1 (ix2 jl il) = ∑ k : Fin 512, x1 (ix2 jl k) * x0 (ix2 il k) := by
  unfold k0_pay4
  refine (Ideal.matmul_constant_zero_apply dot_S512x512_S512x512_S512x512_1_0_0_1_n_n (some .fp32) x1 _ (ix2 jl il)).trans ?_
  rw [← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 jl il) ((contrEquiv1 dot_S512x512_S512x512_S512x512_1_0_0_1_n_n 512 rfl rfl).symm k) = ix2 jl k := funext fun a => Fin.ext (by
    match a with
    | ⟨0, _⟩ => exact dot_lhs0 _ _
    | ⟨1, _⟩ => exact (dot_S512x512_S512x512_S512x512_1_0_0_1_n_n.lhsIdx_val_of_single rfl _ _).trans hk)
  have er : dot_S512x512_S512x512_S512x512_1_0_0_1_n_n.rhsIdx (ix2 jl il) ((contrEquiv1 dot_S512x512_S512x512_S512x512_1_0_0_1_n_n 512 rfl rfl).symm k) = ix2 k il := funext fun a => Fin.ext (by
    match a with
    | ⟨0, _⟩ => exact (dot_S512x512_S512x512_S512x512_1_0_0_1_n_n.rhsIdx_val_of_single rfl _ _).trans hk
    | ⟨1, _⟩ => exact dot_rhs1 _ _)
  rw [el, er]
  exact congrArg (x1 (ix2 jl k) * ·) (transpose_apply [1, 0] x0 transposes_S512x512_p1_0_S512x512 (ix2 k il) (ix2 il k) (fun b => match b with
    | ⟨0, _⟩ => rfl
    | ⟨1, _⟩ => rfl))

/-! ## The label test -/

/-- Entry `(jl, il)` of the label test: label `jl` of the second block against label `il` of the first. -/
theorem pay5_apply (l0 l1 : Vec Ideal S512 .i32) (jl il : Fin 512) :
    k0_pay5 (F := Ideal) l0 l1 (ix2 jl il) = IntOp.cmpi .eq (l1 (ix1 jl)) (l0 (ix1 il)) := by
  unfold k0_pay5
  have e1 : broadcastTo S512x512 (shapeCast S512x1 l1 shapeCasts_S512_S512x1) broadcasts_S512x1_S512x512 (ix2 jl il) = l1 (ix1 jl) :=
    (broadcastTo_apply _ broadcasts_S512x1_S512x512 (ix2 jl il) (ix2 jl (0 : Fin 1)) (fun a => by
      match a with
      | ⟨0, _⟩ => rfl
      | ⟨1, _⟩ => rfl)).trans
    (shapeCast_apply l1 shapeCasts_S512_S512x1 (ix2 jl (0 : Fin 1)) (ix1 jl) (by
      rw [Shape.rowMajor_val_one, Shape.rowMajor_val_two]; show jl.val = jl.val * 1 + 0; omega))
  have e2 : broadcastTo S512x512 (shapeCast S1x512 l0 shapeCasts_S512_S1x512) broadcasts_S1x512_S512x512 (ix2 jl il) = l0 (ix1 il) :=
    (broadcastTo_apply _ broadcasts_S1x512_S512x512 (ix2 jl il) (ix2 (0 : Fin 1) il) (fun a => by
      match a with
      | ⟨0, _⟩ => rfl
      | ⟨1, _⟩ => rfl)).trans
    (shapeCast_apply l0 shapeCasts_S512_S1x512 (ix2 (0 : Fin 1) il) (ix1 il) (by
      rw [Shape.rowMajor_val_one, Shape.rowMajor_val_two]; show il.val = 0 * 512 + il.val; omega))
  show IntOp.cmpi .eq (broadcastTo S512x512 (shapeCast S512x1 l1 shapeCasts_S512_S512x1) broadcasts_S512x1_S512x512 (ix2 jl il))
      (broadcastTo S512x512 (shapeCast S1x512 l0 shapeCasts_S512_S1x512) broadcasts_S1x512_S512x512 (ix2 jl il)) = _
  rw [e1, e2]

/-! ## A column reduction, lane by lane -/

/-- Over lane `il`, the tile index whose sublane is `jl`. -/
theorem lift_lane (il : Fin 512) (jl : Fin (S512x512.size 0)) :
    reduces_S512x512_S512.lift (ix1 il) jl = ix2 (⟨jl.val, jl.isLt⟩ : Fin 512) il := by
  funext a
  apply Fin.ext
  match a with
  | ⟨0, _⟩ => rfl
  | ⟨1, _⟩ => rfl

/-- A `minimumf` reduction over one axis, at the ideal values: the fold of `min` from the accumulator's value over that
    axis's coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## The tile's masked entries -/

/-- Entry `(jl, il)` of the tile masked for the minimum: the product where the two labels agree and the two rows' global
    numbers (`512 ·` the block coordinate `+` the row inside the block, as 32-bit words) differ, `+∞` elsewhere. -/
def posEntry (i : grid0.Coords) (x0 x1 : Vec Ideal S512x512 .f32) (l0 l1 : Vec Ideal S512 .i32) (jl il : Fin 512) : EReal :=
  Scalar.select
    (IntOp.andi (IntOp.cmpi .eq (l1 (ix1 jl)) (l0 (ix1 il)))
      (IntOp.xori (IntOp.cmpi .eq (IntOp.addi (Scalar.muli (BitVec.ofNat 32 (i 0).val) 512#32) (BitVec.ofNat 32 il.val))
        (IntOp.addi (Scalar.muli (BitVec.ofNat 32 (i 1).val) 512#32) (BitVec.ofNat 32 jl.val))) 1#1))
    (∑ k : Fin 512, x1 (ix2 jl k) * x0 (ix2 il k)) (Ideal.ofBits .f32 0x7F800000#32)

/-- Entry `(jl, il)` of the tile masked for the maximum: the product where the two labels differ, `-∞` elsewhere. -/
def negEntry (x0 x1 : Vec Ideal S512x512 .f32) (l0 l1 : Vec Ideal S512 .i32) (jl il : Fin 512) : EReal :=
  Scalar.select (IntOp.xori (IntOp.cmpi .eq (l1 (ix1 jl)) (l0 (ix1 il))) 1#1)
    (∑ k : Fin 512, x1 (ix2 jl k) * x0 (ix2 il k)) (Ideal.ofBits .f32 0xFF800000#32)

/-- Lane `il` of the running minimum after a point: what it held, and the least masked entry of the tile's column `il`. -/
theorem pay7_lane (i : grid0.Coords) (x0 x1 : Vec Ideal S512x512 .f32) (l0 l1 : Vec Ideal S512 .i32) (prev : Vec Ideal S512 .f32)
    (il : Fin 512) :
    k0_pay7 (F := Ideal) i x0 x1 l0 l1 prev (ix1 il)
      = min (prev (ix1 il)) ((Finset.univ : Finset (Fin 512)).fold min (Ideal.ofBits .f32 0x7F800000#32) (fun jl => posEntry i x0 x1 l0 l1 jl il)) := by
  unfold k0_pay7
  try dsimp only
  refine (congrFun (shapeCast_self _ _) (ix1 il)).trans ?_
  refine congrArg (min (prev (ix1 il))) ?_
  refine (multiReduction_minimumf_single _ _ reduces_S512x512_S512 _ _ (ix1 il)).trans ?_
  refine congrArg (fun (f : Fin 512 → EReal) => (Finset.univ : Finset (Fin 512)).fold min (Ideal.ofBits .f32 0x7F800000#32) f) (funext fun (jl : Fin 512) => ?_)
  refine (congrArg _ (lift_lane il jl)).trans ?_
  show Scalar.select (IntOp.andi (k0_pay5 (F := Ideal) l0 l1 (ix2 jl il))
      (IntOp.xori (IntOp.cmpi .eq (IntOp.addi _ (iota .tc S512x512 32 [1] iota_S512x512_d1_w32 (ix2 jl il)))
        (IntOp.addi _ (iota .tc S512x512 32 [0] iota_S512x512_d0_w32 (ix2 jl il)))) 1#1))
      (k0_pay4 (F := Ideal) x0 x1 (ix2 jl il)) _ = _
  rw [pay5_apply, pay4_apply, iota_single_apply, iota_single_apply]
  rfl

/-- Lane `il` of the tile's column maximum over the entries of differing labels. -/
theorem pay6_lane (x0 x1 : Vec Ideal S512x512 .f32) (l0 l1 : Vec Ideal S512 .i32) (il : Fin 512) :
    k0_pay6 (F := Ideal) x0 x1 l0 l1 (ix1 il)
      = (Finset.univ : Finset (Fin 512)).fold max (Ideal.ofBits .f32 0xFF800000#32) (fun jl => negEntry x0 x1 l0 l1 jl il) := by
  unfold k0_pay6
  try dsimp only
  refine (Ideal.multiReduction_maximumf_single _ _ reduces_S512x512_S512 _ _ (ix1 il)).trans ?_
  refine congrArg (fun (f : Fin 512 → EReal) => (Finset.univ : Finset (Fin 512)).fold max (Ideal.ofBits .f32 0xFF800000#32) f) (funext fun (jl : Fin 512) => ?_)
  refine (congrArg _ (lift_lane il jl)).trans ?_
  show Scalar.select (IntOp.xori (k0_pay5 (F := Ideal) l0 l1 (ix2 jl il)) 1#1) (k0_pay4 (F := Ideal) x0 x1 (ix2 jl il)) _ = _
  rw [pay5_apply, pay4_apply]
  rfl

/-- Lane `il` of the running maximum after a point. -/
theorem pay1_lane (v31 : FVec Ideal S512 .f32) (v37 : Vec Ideal S512 .f32) (il : Fin 512) :
    k0_pay1 (F := Ideal) v31 v37 (ix1 il) = max (v37 (ix1 il)) (v31 (ix1 il)) := by
  unfold k0_pay1
  try dsimp only
  exact congrFun (shapeCast_self _ _) (ix1 il)

/-- What the running minimum and maximum start from. -/
theorem pay2_lane (il : Fin 512) : k0_pay2 (F := Ideal) (ix1 il) = (Ideal.ofBits .f32 0x7F800000#32) := by
  unfold k0_pay2
  try dsimp only
  exact congrFun (shapeCast_self _ _) (ix1 il)

theorem pay3_lane (il : Fin 512) : k0_pay3 (F := Ideal) (ix1 il) = (Ideal.ofBits .f32 0xFF800000#32) := by
  unfold k0_pay3
  try dsimp only
  exact congrFun (shapeCast_self _ _) (ix1 il)

end Cert.KernelIdeal.BoundsValue

end
-- ==== Proof.Bounds.ValueEntry.lean ====
import proofs.«123878_j24489903522258_2_alg».proof.Proof.Bounds.ValueOps
import proofs.«123878_j24489903522258_2_alg».proof.Proof.Spec

set_option maxRecDepth 16384

noncomputable section

namespace Cert.KernelIdeal.BoundsValue

open Cert.KernelIdeal Cert.KernelIdeal.Gen
open Idealize.ShloMosaic Idealize.ShloMosaic.TcCoe Idealize.ShloMosaic.ValueIdx Idealize.ShloMosaic.Pipeline
open scoped BigOperators

/-! # The tile's masked entries are the specification's candidates

Row `il` of the first block is row `r` of the embeddings and row `jl` of the second block is row `c`. The tile's product at
`(jl, il)` multiplies row `c` by row `r`, the specification's similarity row `r` by row `c`: the same sum, factor by factor
(multiplication of extended reals commutes). The label test is symmetric. The kernel tells the diagonal by comparing the
two rows' global numbers as 32-bit words, which are below 4096 and so compare as the numbers do. -/

/-- Equality of two words as a bit does not depend on the order. -/
theorem cmpi_eq_comm {w : Nat} (a b : BitVec w) : IntOp.cmpi .eq a b = IntOp.cmpi .eq b a := by
  unfold IntOp.cmpi
  show BitVec.ofBool (a == b) = BitVec.ofBool (b == a)
  congr 1
  rw [Bool.eq_iff_iff, beq_iff_eq, beq_iff_eq]
  exact eq_comm

/-- A row's global number, computed in 32-bit words from its block's coordinate and its place in the block, is the word
    of the number. -/
theorem word_of_row (I a : Nat) (hI : I < 8) (ha : a < 512) :
    IntOp.addi (Scalar.muli (BitVec.ofNat 32 I) 512#32) (BitVec.ofNat 32 a) = BitVec.ofNat 32 (512 * I + a) := by
  unfold IntOp.addi Scalar.muli IntOp.muli
  apply BitVec.eq_of_toNat_eq
  simp only [BitVec.toNat_add, BitVec.toNat_mul, BitVec.toNat_ofNat]
  omega

/-- Two numbers below 4096 are equal exactly when their 32-bit words are. -/
theorem word_eq_iff (m n : Nat) (hm : m < 4096) (hn : n < 4096) : BitVec.ofNat 32 m = BitVec.ofNat 32 n ↔ m = n := by
  constructor
  · intro h
    have := congrArg BitVec.toNat h
    simp only [BitVec.toNat_ofNat] at this
    omega
  · intro h; rw [h]

/-- The kernel's "off the diagonal" bit is the specification's. -/
theorem offDiag_bit (I J : Nat) (hI : I < 8) (hJ : J < 8) (il jl : Fin 512) (r c : Fin 4096)
    (hr : r.val = 512 * I + il.val) (hc : c.val = 512 * J + jl.val) :
    IntOp.xori (IntOp.cmpi .eq (IntOp.addi (Scalar.muli (BitVec.ofNat 32 I) 512#32) (BitVec.ofNat 32 il.val))
        (IntOp.addi (Scalar.muli (BitVec.ofNat 32 J) 512#32) (BitVec.ofNat 32 jl.val))) 1#1
      = Cert.Spec.offDiag r c := by
  rw [word_of_row I il.val hI il.isLt, word_of_row J jl.val hJ jl.isLt, ← hr, ← hc]
  unfold Cert.Spec.offDiag IntOp.xori IntOp.cmpi
  by_cases h : r = c
  · subst h
    show BitVec.ofBool (BitVec.ofNat 32 r.val == BitVec.ofNat 32 r.val) ^^^ 1#1 = BitVec.ofBool (decide (r ≠ r))
    rw [beq_self_eq_true, show decide (r ≠ r) = false from decide_eq_false (fun h => h rfl)]
    rfl
  · have hne : ¬(BitVec.ofNat 32 r.val = BitVec.ofNat 32 c.val) := fun e =>
      h (Fin.ext ((word_eq_iff _ _ r.isLt c.isLt).mp e))
    have hb : (BitVec.ofNat 32 r.val == BitVec.ofNat 32 c.val) = false := beq_eq_false_iff_ne.mpr hne
    show BitVec.ofBool (BitVec.ofNat 32 r.val == BitVec.ofNat 32 c.val) ^^^ 1#1 = BitVec.ofBool (decide (r ≠ c))
    rw [hb, show decide (r ≠ c) = true from decide_eq_true h]
    rfl

section Entries

variable (x : FVec Ideal Cert.Spec.S4096x512 .f32) (ℓ : IVec Cert.Spec.S4096 32)
variable (i : grid0.Coords) (x0 x1 : Vec Ideal S512x512 .f32) (l0 l1 : Vec Ideal S512 .i32) (jl il : Fin 512) (r c : Fin 4096)

/-- The tile's product at `(jl, il)` is the similarity of rows `r` and `c`. -/
theorem tile_sim (hx0 : ∀ k : Fin 512, x0 (ix2 il k) = x (ix2 r k)) (hx1 : ∀ k : Fin 512, x1 (ix2 jl k) = x (ix2 c k)) :
    (∑ k : Fin 512, x1 (ix2 jl k) * x0 (ix2 il k)) = Cert.Spec.sim x r c := by
  unfold Cert.Spec.sim
  exact Finset.sum_congr rfl fun k _ => by rw [hx1 k, hx0 k, mul_comm]

/-- The tile's entry masked for the minimum is the specification's positive candidate. -/
theorem posEntry_eq (hr : r.val = 512 * (i 0).val + il.val) (hc : c.val = 512 * (i 1).val + jl.val)
    (hx0 : ∀ k : Fin 512, x0 (ix2 il k) = x (ix2 r k)) (hx1 : ∀ k : Fin 512, x1 (ix2 jl k) = x (ix2 c k))
    (hl0 : l0 (ix1 il) = ℓ (ix1 r)) (hl1 : l1 (ix1 jl) = ℓ (ix1 c)) :
    posEntry i x0 x1 l0 l1 jl il = Cert.Spec.posCand x ℓ r c := by
  have hsame : IntOp.cmpi .eq (l1 (ix1 jl)) (l0 (ix1 il)) = Cert.Spec.same ℓ r c := by
    unfold Cert.Spec.same; rw [hl1, hl0]; exact cmpi_eq_comm _ _
  unfold posEntry Cert.Spec.posCand
  rw [tile_sim x x0 x1 jl il r c hx0 hx1, hsame, offDiag_bit (i 0).val (i 1).val (i 0).isLt (i 1).isLt il jl r c hr hc]

/-- The tile's entry masked for the maximum is the specification's negative candidate. -/
theorem negEntry_eq (hx0 : ∀ k : Fin 512, x0 (ix2 il k) = x (ix2 r k)) (hx1 : ∀ k : Fin 512, x1 (ix2 jl k) = x (ix2 c k))
    (hl0 : l0 (ix1 il) = ℓ (ix1 r)) (hl1 : l1 (ix1 jl) = ℓ (ix1 c)) :
    negEntry x0 x1 l0 l1 jl il = Cert.Spec.negCand x ℓ r c := by
  have hsame : IntOp.cmpi .eq (l1 (ix1 jl)) (l0 (ix1 il)) = Cert.Spec.same ℓ r c := by
    unfold Cert.Spec.same; rw [hl1, hl0]; exact cmpi_eq_comm _ _
  have hnot : ∀ b : BitVec 1, IntOp.xori b 1#1 = ~~~b := fun b => by
    unfold IntOp.xori
    rcases BitVec.eq_zero_or_eq_one b with h | h <;> subst h <;> decide
  unfold negEntry Cert.Spec.negCand
  rw [tile_sim x x0 x1 jl il r c hx0 hx1, hsame, hnot]

end Entries

end Cert.KernelIdeal.BoundsValue

end
-- ==== Proof.Bounds.ValueBlocks.lean ====
import proofs.«123878_j24489903522258_2_alg».proof.Proof.Bounds.Setup
import Idealize.ShloMosaic.Lib.Pipeline.Value
import Idealize.ShloMosaic.Lib.ValueIdx

set_option maxRecDepth 16384

noncomputable section

namespace Cert.KernelIdeal.BoundsValue

open Cert.KernelIdeal Cert.KernelIdeal.Gen
open Idealize.ShloMosaic Idealize.ShloMosaic.TcCoe Idealize.ShloMosaic.ValueIdx Idealize.ShloMosaic.Pipeline
open scoped BigOperators

/-! # The windows' blocks as rows of the arrays

Point `t` of the 8 × 8 grid has coordinates `(t / 8, t % 8)`. The first window of the embeddings (and of the labels) is
block `t / 8`, the second is block `t % 8`: rows `512 · (t / 8) …` and `512 · (t % 8) …`. The two outputs' blocks are
block `t / 8`. -/

variable (V : (c : Dev nD) → (b : Ref sig .tc) → Buf (Elt Ideal) ((c : Thread nD τ).loc b))

/-- Which block each window is on, and the point's coordinates: decided over the 64 points. -/
theorem idx_facts : ∀ t : Fin cfg0.N,
    win0_0.index t 0 = t.val / 8 ∧ win0_0.index t 1 = 0 ∧ win0_1.index t 0 = t.val % 8 ∧ win0_1.index t 1 = 0
    ∧ win0_2.index t 0 = t.val / 8 ∧ win0_3.index t 0 = t.val % 8 ∧ win0_4.index t 0 = t.val / 8 ∧ win0_5.index t 0 = t.val / 8
    ∧ (grid0.coords t 0).val = t.val / 8 ∧ (grid0.coords t 1).val = t.val % 8 :=
  (by decide +kernel : ∀ t : Fin grid0.N,
    win0_0.index t 0 = t.val / 8 ∧ win0_0.index t 1 = 0 ∧ win0_1.index t 0 = t.val % 8 ∧ win0_1.index t 1 = 0
    ∧ win0_2.index t 0 = t.val / 8 ∧ win0_3.index t 0 = t.val % 8 ∧ win0_4.index t 0 = t.val / 8 ∧ win0_5.index t 0 = t.val / 8
    ∧ (grid0.coords t 0).val = t.val / 8 ∧ (grid0.coords t 1).val = t.val % 8)

/-- Row `a` of the first embeddings window at point `t` is row `512 · (t / 8) + a` of the embeddings. -/
theorem iblk0_apply (c : Dev nD) (t : Fin cfg0.N) (a k : Fin 512) (r : Fin 4096) (hr : r.val = 512 * (t.val / 8) + a.val) :
    (Bounds.iblk V c 0 t : Vec Ideal S512x512 .f32) (ix2 a k) = (V c main_arg0 : FVec Ideal S4096x512 .f32) (ix2 r k) := by
  have hi := idx_facts t
  unfold Bounds.iblk
  rw [View.read_apply]
  show V c main_arg0 _ = V c main_arg0 _
  congr 1
  funext d
  apply Fin.ext
  match d with
  | ⟨0, _⟩ => show win0_0.index t 0 * 512 + 1 * a.val = r.val; rw [hi.1, hr]; omega
  | ⟨1, _⟩ => show win0_0.index t 1 * 512 + 1 * k.val = k.val; rw [hi.2.1]; omega

/-- Row `a` of the second embeddings window at point `t` is row `512 · (t % 8) + a` of the embeddings. -/
theorem iblk1_apply (c : Dev nD) (t : Fin cfg0.N) (a k : Fin 512) (r : Fin 4096) (hr : r.val = 512 * (t.val % 8) + a.val) :
    (Bounds.iblk V c 1 t : Vec Ideal S512x512 .f32) (ix2 a k) = (V c main_arg0 : FVec Ideal S4096x512 .f32) (ix2 r k) := by
  have hi := idx_facts t
  unfold Bounds.iblk
  rw [View.read_apply]
  show V c main_arg0 _ = V c main_arg0 _
  congr 1
  funext d
  apply Fin.ext
  match d with
  | ⟨0, _⟩ => show win0_1.index t 0 * 512 + 1 * a.val = r.val; rw [hi.2.2.1, hr]; omega
  | ⟨1, _⟩ => show win0_1.index t 1 * 512 + 1 * k.val = k.val; rw [hi.2.2.2.1]; omega

/-- Entry `a` of the first labels window at point `t` is label `512 · (t / 8) + a`. -/
theorem iblk2_apply (c : Dev nD) (t : Fin cfg0.N) (a : Fin 512) (r : Fin 4096) (hr : r.val = 512 * (t.val / 8) + a.val) :
    (Bounds.iblk V c 2 t : Vec Ideal S512 .i32) (ix1 a) = (V c main_arg1 : IVec S4096 32) (ix1 r) := by
  have hi := idx_facts t
  unfold Bounds.iblk
  rw [View.read_apply]
  show V c main_arg1 _ = V c main_arg1 _
  congr 1
  funext d
  apply Fin.ext
  match d with
  | ⟨0, _⟩ => show win0_2.index t 0 * 512 + 1 * a.val = r.val; rw [hi.2.2.2.2.1, hr]; omega

/-- Entry `a` of the second labels window at point `t` is label `512 · (t % 8) + a`. -/
theorem iblk3_apply (c : Dev nD) (t : Fin cfg0.N) (a : Fin 512) (r : Fin 4096) (hr : r.val = 512 * (t.val % 8) + a.val) :
    (Bounds.iblk V c 3 t : Vec Ideal S512 .i32) (ix1 a) = (V c main_arg1 : IVec S4096 32) (ix1 r) := by
  have hi := idx_facts t
  unfold Bounds.iblk
  rw [View.read_apply]
  show V c main_arg1 _ = V c main_arg1 _
  congr 1
  funext d
  apply Fin.ext
  match d with
  | ⟨0, _⟩ => show win0_3.index t 0 * 512 + 1 * a.val = r.val; rw [hi.2.2.2.2.2.1, hr]; omega

end Cert.KernelIdeal.BoundsValue

end
-- ==== Proof.Bounds.ValueRow.lean ====
import proofs.«123878_j24489903522258_2_alg».proof.Proof.Bounds.Data
import proofs.«123878_j24489903522258_2_alg».proof.Proof.Bounds.ValueEntry
import proofs.«123878_j24489903522258_2_alg».proof.Proof.Bounds.ValueBlocks

set_option maxRecDepth 16384

noncomputable section

namespace Cert.KernelIdeal.BoundsValue

open Cert.KernelIdeal Cert.KernelIdeal.Gen
open Idealize.ShloMosaic Idealize.ShloMosaic.TcCoe Idealize.ShloMosaic.ValueIdx Idealize.ShloMosaic.Pipeline
open scoped BigOperators

/-! # The running bounds along a row of the grid

Fix a lane `il` of the block of rows `512 · (t / 8) …`, that is row `r = 512 · (t / 8) + il` of the embeddings. After the
point `t` of its row of the grid, the running minimum at lane `il` is the least of the specification's positive candidates
`posCand r cc` over the columns `cc < 512 · (t % 8 + 1)` met so far (from `+∞`), and the running maximum the greatest of the
negative candidates over the same columns (from `-∞`). Both are stated by their universal property — what lies below the
minimum, what lies above the maximum — so that no fold has to be regrouped: a minimum of minima is characterised by the
conjunction of the characterisations. -/

variable (V : (c : Dev nD) → (b : Ref sig .tc) → Buf (Elt Ideal) ((c : Thread nD τ).loc b))

/-- What lies below the least masked entry of the tile's column `il` at point `t`. -/
theorem tile_min_le (c : Dev nD) (t : Fin cfg0.N) (il : Fin 512) (r : Fin 4096) (hr : r.val = 512 * (t.val / 8) + il.val) (z : EReal) :
    z ≤ (Finset.univ : Finset (Fin 512)).fold min (Ideal.ofBits .f32 0x7F800000#32) (fun jl => posEntry (grid0.coords t) (Bounds.iblk V c 0 t) (Bounds.iblk V c 1 t) (Bounds.iblk V c 2 t) (Bounds.iblk V c 3 t) jl il)
      ↔ z ≤ (Ideal.ofBits .f32 0x7F800000#32) ∧ ∀ jl : Fin 512, ∀ cc : Fin 4096, cc.val = 512 * (t.val % 8) + jl.val → z ≤ Cert.Spec.posCand (V c main_arg0 : FVec Ideal Cert.Spec.S4096x512 .f32) (V c main_arg1 : IVec Cert.Spec.S4096 32) r cc := by
  have hi := idx_facts t
  have hr' : r.val = 512 * (grid0.coords t 0).val + il.val := by rw [hi.2.2.2.2.2.2.2.2.1]; exact hr
  have key : ∀ (jl : Fin 512) (cc : Fin 4096), cc.val = 512 * (t.val % 8) + jl.val →
      posEntry (grid0.coords t) (Bounds.iblk V c 0 t) (Bounds.iblk V c 1 t) (Bounds.iblk V c 2 t) (Bounds.iblk V c 3 t) jl il = Cert.Spec.posCand (V c main_arg0 : FVec Ideal Cert.Spec.S4096x512 .f32) (V c main_arg1 : IVec Cert.Spec.S4096 32) r cc := fun jl cc hcc =>
    posEntry_eq (V c main_arg0 : FVec Ideal Cert.Spec.S4096x512 .f32) (V c main_arg1 : IVec Cert.Spec.S4096 32) (grid0.coords t) (Bounds.iblk V c 0 t) (Bounds.iblk V c 1 t) (Bounds.iblk V c 2 t) (Bounds.iblk V c 3 t) jl il r cc hr'
      (by rw [hi.2.2.2.2.2.2.2.2.2]; exact hcc)
      (fun k => iblk0_apply V c t il k r hr) (fun k => iblk1_apply V c t jl k cc hcc)
      (iblk2_apply V c t il r hr) (iblk3_apply V c t jl cc hcc)
  rw [Finset.le_fold_min]
  refine and_congr Iff.rfl ⟨fun h jl cc hcc => ?_, fun h jl _ => ?_⟩
  · rw [← key jl cc hcc]; exact h jl (Finset.mem_univ _)
  · have hjl := jl.isLt
    have ht : t.val % 8 < 8 := Nat.mod_lt _ (by decide)
    rw [key jl ⟨512 * (t.val % 8) + jl.val, by omega⟩ rfl]
    exact h jl _ rfl

/-- What lies above the greatest masked entry of the tile's column `il` at point `t`. -/
theorem tile_max_le (c : Dev nD) (t : Fin cfg0.N) (il : Fin 512) (r : Fin 4096) (hr : r.val = 512 * (t.val / 8) + il.val) (z : EReal) :
    (Finset.univ : Finset (Fin 512)).fold max (Ideal.ofBits .f32 0xFF800000#32) (fun jl => negEntry (Bounds.iblk V c 0 t) (Bounds.iblk V c 1 t) (Bounds.iblk V c 2 t) (Bounds.iblk V c 3 t) jl il) ≤ z
      ↔ (Ideal.ofBits .f32 0xFF800000#32) ≤ z ∧ ∀ jl : Fin 512, ∀ cc : Fin 4096, cc.val = 512 * (t.val % 8) + jl.val → Cert.Spec.negCand (V c main_arg0 : FVec Ideal Cert.Spec.S4096x512 .f32) (V c main_arg1 : IVec Cert.Spec.S4096 32) r cc ≤ z := by
  have key : ∀ (jl : Fin 512) (cc : Fin 4096), cc.val = 512 * (t.val % 8) + jl.val →
      negEntry (Bounds.iblk V c 0 t) (Bounds.iblk V c 1 t) (Bounds.iblk V c 2 t) (Bounds.iblk V c 3 t) jl il = Cert.Spec.negCand (V c main_arg0 : FVec Ideal Cert.Spec.S4096x512 .f32) (V c main_arg1 : IVec Cert.Spec.S4096 32) r cc := fun jl cc hcc =>
    negEntry_eq (V c main_arg0 : FVec Ideal Cert.Spec.S4096x512 .f32) (V c main_arg1 : IVec Cert.Spec.S4096 32) (Bounds.iblk V c 0 t) (Bounds.iblk V c 1 t) (Bounds.iblk V c 2 t) (Bounds.iblk V c 3 t) jl il r cc
      (fun k => iblk0_apply V c t il k r hr) (fun k => iblk1_apply V c t jl k cc hcc)
      (iblk2_apply V c t il r hr) (iblk3_apply V c t jl cc hcc)
  rw [Finset.fold_max_le]
  refine and_congr Iff.rfl ⟨fun h jl cc hcc => ?_, fun h jl _ => ?_⟩
  · rw [← key jl cc hcc]; exact h jl (Finset.mem_univ _)
  · have hjl := jl.isLt
    have ht : t.val % 8 < 8 := Nat.mod_lt _ (by decide)
    rw [key jl ⟨512 * (t.val % 8) + jl.val, by omega⟩ rfl]
    exact h jl _ rfl

/-! ## The running minimum -/

theorem start_min (c : Dev nD) (t : Fin cfg0.N) (h0 : t.val % 8 = 0) (il : Fin 512) (r : Fin 4096)
    (hr : r.val = 512 * (t.val / 8) + il.val) (z : EReal) :
    z ≤ (Bounds.acc (F := Ideal) V c t.val t.isLt).1 (ix1 il)
      ↔ z ≤ (Ideal.ofBits .f32 0x7F800000#32) ∧ ∀ cc : Fin 4096, cc.val < 512 * (t.val % 8 + 1) → z ≤ Cert.Spec.posCand (V c main_arg0 : FVec Ideal Cert.Spec.S4096x512 .f32) (V c main_arg1 : IVec Cert.Spec.S4096 32) r cc := by
  rw [Bounds.acc_rowStart V c t h0]
  show z ≤ k0_pay7 (F := Ideal) (grid0.coords t) (Bounds.iblk V c 0 t) (Bounds.iblk V c 1 t) (Bounds.iblk V c 2 t) (Bounds.iblk V c 3 t) (k0_pay2 (F := Ideal)) (ix1 il) ↔ _
  rw [pay7_lane (grid0.coords t) (Bounds.iblk V c 0 t) (Bounds.iblk V c 1 t) (Bounds.iblk V c 2 t) (Bounds.iblk V c 3 t) (k0_pay2 (F := Ideal)) il, pay2_lane, le_min_iff, tile_min_le V c t il r hr z, h0]
  constructor
  · rintro ⟨hz, -, htile⟩
    exact ⟨hz, fun cc hcc => htile ⟨cc.val, by omega⟩ cc (by simp)⟩
  · rintro ⟨hz, hall⟩
    exact ⟨hz, hz, fun jl cc hcc => hall cc (by have := jl.isLt; omega)⟩

theorem step_min (c : Dev nD) (t : Fin cfg0.N) (h0 : ¬t.val % 8 = 0) (il : Fin 512) (r : Fin 4096)
    (hr : r.val = 512 * (t.val / 8) + il.val) (z : EReal)
    (ih : ∀ z' : EReal, z' ≤ (Bounds.acc (F := Ideal) V c (t.val - 1) (Nat.lt_of_le_of_lt (Nat.sub_le _ _) t.isLt)).1 (ix1 il)
      ↔ z' ≤ (Ideal.ofBits .f32 0x7F800000#32) ∧ ∀ cc : Fin 4096, cc.val < 512 * (t.val % 8) → z' ≤ Cert.Spec.posCand (V c main_arg0 : FVec Ideal Cert.Spec.S4096x512 .f32) (V c main_arg1 : IVec Cert.Spec.S4096 32) r cc) :
    z ≤ (Bounds.acc (F := Ideal) V c t.val t.isLt).1 (ix1 il)
      ↔ z ≤ (Ideal.ofBits .f32 0x7F800000#32) ∧ ∀ cc : Fin 4096, cc.val < 512 * (t.val % 8 + 1) → z ≤ Cert.Spec.posCand (V c main_arg0 : FVec Ideal Cert.Spec.S4096x512 .f32) (V c main_arg1 : IVec Cert.Spec.S4096 32) r cc := by
  rw [Bounds.acc_inRow V c t h0]
  show z ≤ k0_pay7 (F := Ideal) (grid0.coords t) (Bounds.iblk V c 0 t) (Bounds.iblk V c 1 t) (Bounds.iblk V c 2 t) (Bounds.iblk V c 3 t) (Bounds.acc (F := Ideal) V c (t.val - 1) (Nat.lt_of_le_of_lt (Nat.sub_le _ _) t.isLt)).1 (ix1 il) ↔ _
  rw [pay7_lane (grid0.coords t) (Bounds.iblk V c 0 t) (Bounds.iblk V c 1 t) (Bounds.iblk V c 2 t) (Bounds.iblk V c 3 t) (Bounds.acc (F := Ideal) V c (t.val - 1) (Nat.lt_of_le_of_lt (Nat.sub_le _ _) t.isLt)).1 il, le_min_iff, ih z, tile_min_le V c t il r hr z]
  constructor
  · rintro ⟨⟨hz, hprev⟩, -, htile⟩
    refine ⟨hz, fun cc hcc => ?_⟩
    by_cases hlt : cc.val < 512 * (t.val % 8)
    · exact hprev cc hlt
    · exact htile ⟨cc.val - 512 * (t.val % 8), by omega⟩ cc (by simp only; omega)
  · rintro ⟨hz, hall⟩
    exact ⟨⟨hz, fun cc hcc => hall cc (by omega)⟩, hz, fun jl cc hcc => hall cc (by have := jl.isLt; omega)⟩

/-- THE RUNNING MINIMUM: what lies below it, after every point. -/
theorem acc_min_le (c : Dev nD) : ∀ (n : ℕ) (hn : n < cfg0.N) (il : Fin 512) (r : Fin 4096), r.val = 512 * (n / 8) + il.val →
    ∀ z : EReal, (z ≤ (Bounds.acc (F := Ideal) V c n hn).1 (ix1 il)
      ↔ z ≤ (Ideal.ofBits .f32 0x7F800000#32) ∧ ∀ cc : Fin 4096, cc.val < 512 * (n % 8 + 1) → z ≤ Cert.Spec.posCand (V c main_arg0 : FVec Ideal Cert.Spec.S4096x512 .f32) (V c main_arg1 : IVec Cert.Spec.S4096 32) r cc) := by
  intro n
  induction n with
  | zero => intro hn il r hr z; exact start_min V c ⟨0, hn⟩ rfl il r hr z
  | succ m ih =>
    intro hn il r hr z
    by_cases h0 : (m + 1) % 8 = 0
    · exact start_min V c ⟨m + 1, hn⟩ h0 il r hr z
    · refine step_min V c ⟨m + 1, hn⟩ h0 il r hr z (fun z' => ?_)
      have hm : m < cfg0.N := Nat.lt_of_succ_lt hn
      have e : m % 8 + 1 = (m + 1) % 8 := by omega
      have := ih hm il r (by rw [hr]; omega) z'
      rw [e] at this
      exact this

/-! ## The running maximum -/

theorem start_max (c : Dev nD) (t : Fin cfg0.N) (h0 : t.val % 8 = 0) (il : Fin 512) (r : Fin 4096)
    (hr : r.val = 512 * (t.val / 8) + il.val) (z : EReal) :
    (Bounds.acc (F := Ideal) V c t.val t.isLt).2 (ix1 il) ≤ z
      ↔ (Ideal.ofBits .f32 0xFF800000#32) ≤ z ∧ ∀ cc : Fin 4096, cc.val < 512 * (t.val % 8 + 1) → Cert.Spec.negCand (V c main_arg0 : FVec Ideal Cert.Spec.S4096x512 .f32) (V c main_arg1 : IVec Cert.Spec.S4096 32) r cc ≤ z := by
  rw [Bounds.acc_rowStart V c t h0]
  show k0_pay1 (F := Ideal) (k0_pay6 (F := Ideal) (Bounds.iblk V c 0 t) (Bounds.iblk V c 1 t) (Bounds.iblk V c 2 t) (Bounds.iblk V c 3 t)) (k0_pay3 (F := Ideal)) (ix1 il) ≤ z ↔ _
  rw [pay1_lane (k0_pay6 (F := Ideal) (Bounds.iblk V c 0 t) (Bounds.iblk V c 1 t) (Bounds.iblk V c 2 t) (Bounds.iblk V c 3 t)) (k0_pay3 (F := Ideal)) il, pay3_lane, pay6_lane (Bounds.iblk V c 0 t) (Bounds.iblk V c 1 t) (Bounds.iblk V c 2 t) (Bounds.iblk V c 3 t) il, max_le_iff, tile_max_le V c t il r hr z, h0]
  constructor
  · rintro ⟨hz, -, htile⟩
    exact ⟨hz, fun cc hcc => htile ⟨cc.val, by omega⟩ cc (by simp)⟩
  · rintro ⟨hz, hall⟩
    exact ⟨hz, hz, fun jl cc hcc => hall cc (by have := jl.isLt; omega)⟩

theorem step_max (c : Dev nD) (t : Fin cfg0.N) (h0 : ¬t.val % 8 = 0) (il : Fin 512) (r : Fin 4096)
    (hr : r.val = 512 * (t.val / 8) + il.val) (z : EReal)
    (ih : ∀ z' : EReal, (Bounds.acc (F := Ideal) V c (t.val - 1) (Nat.lt_of_le_of_lt (Nat.sub_le _ _) t.isLt)).2 (ix1 il) ≤ z'
      ↔ (Ideal.ofBits .f32 0xFF800000#32) ≤ z' ∧ ∀ cc : Fin 4096, cc.val < 512 * (t.val % 8) → Cert.Spec.negCand (V c main_arg0 : FVec Ideal Cert.Spec.S4096x512 .f32) (V c main_arg1 : IVec Cert.Spec.S4096 32) r cc ≤ z') :
    (Bounds.acc (F := Ideal) V c t.val t.isLt).2 (ix1 il) ≤ z
      ↔ (Ideal.ofBits .f32 0xFF800000#32) ≤ z ∧ ∀ cc : Fin 4096, cc.val < 512 * (t.val % 8 + 1) → Cert.Spec.negCand (V c main_arg0 : FVec Ideal Cert.Spec.S4096x512 .f32) (V c main_arg1 : IVec Cert.Spec.S4096 32) r cc ≤ z := by
  rw [Bounds.acc_inRow V c t h0]
  show k0_pay1 (F := Ideal) (k0_pay6 (F := Ideal) (Bounds.iblk V c 0 t) (Bounds.iblk V c 1 t) (Bounds.iblk V c 2 t) (Bounds.iblk V c 3 t)) (Bounds.acc (F := Ideal) V c (t.val - 1) (Nat.lt_of_le_of_lt (Nat.sub_le _ _) t.isLt)).2 (ix1 il) ≤ z ↔ _
  rw [pay1_lane (k0_pay6 (F := Ideal) (Bounds.iblk V c 0 t) (Bounds.iblk V c 1 t) (Bounds.iblk V c 2 t) (Bounds.iblk V c 3 t)) (Bounds.acc (F := Ideal) V c (t.val - 1) (Nat.lt_of_le_of_lt (Nat.sub_le _ _) t.isLt)).2 il, pay6_lane (Bounds.iblk V c 0 t) (Bounds.iblk V c 1 t) (Bounds.iblk V c 2 t) (Bounds.iblk V c 3 t) il, max_le_iff, ih z, tile_max_le V c t il r hr z]
  constructor
  · rintro ⟨⟨hz, hprev⟩, -, htile⟩
    refine ⟨hz, fun cc hcc => ?_⟩
    by_cases hlt : cc.val < 512 * (t.val % 8)
    · exact hprev cc hlt
    · exact htile ⟨cc.val - 512 * (t.val % 8), by omega⟩ cc (by simp only; omega)
  · rintro ⟨hz, hall⟩
    exact ⟨⟨hz, fun cc hcc => hall cc (by omega)⟩, hz, fun jl cc hcc => hall cc (by have := jl.isLt; omega)⟩

/-- THE RUNNING MAXIMUM: what lies above it, after every point. -/
theorem acc_max_le (c : Dev nD) : ∀ (n : ℕ) (hn : n < cfg0.N) (il : Fin 512) (r : Fin 4096), r.val = 512 * (n / 8) + il.val →
    ∀ z : EReal, ((Bounds.acc (F := Ideal) V c n hn).2 (ix1 il) ≤ z
      ↔ (Ideal.ofBits .f32 0xFF800000#32) ≤ z ∧ ∀ cc : Fin 4096, cc.val < 512 * (n % 8 + 1) → Cert.Spec.negCand (V c main_arg0 : FVec Ideal Cert.Spec.S4096x512 .f32) (V c main_arg1 : IVec Cert.Spec.S4096 32) r cc ≤ z) := by
  intro n
  induction n with
  | zero => intro hn il r hr z; exact start_max V c ⟨0, hn⟩ rfl il r hr z
  | succ m ih =>
    intro hn il r hr z
    by_cases h0 : (m + 1) % 8 = 0
    · exact start_max V c ⟨m + 1, hn⟩ h0 il r hr z
    · refine step_max V c ⟨m + 1, hn⟩ h0 il r hr z (fun z' => ?_)
      have hm : m < cfg0.N := Nat.lt_of_succ_lt hn
      have e : m % 8 + 1 = (m + 1) % 8 := by omega
      have := ih hm il r (by rw [hr]; omega) z'
      rw [e] at this
      exact this

end Cert.KernelIdeal.BoundsValue

end
-- ==== Proof.Bounds.Value.lean ====
import proofs.«123878_j24489903522258_2_alg».proof.Proof.Bounds.ValueRow

set_option maxRecDepth 16384

noncomputable section

namespace Cert.KernelIdeal.BoundsValue

open Cert.KernelIdeal Cert.KernelIdeal.Gen
open Idealize.ShloMosaic Idealize.ShloMosaic.TcCoe Idealize.ShloMosaic.ValueIdx Idealize.ShloMosaic.Pipeline
open scoped BigOperators

/-! # The two bounds the region leaves

The block written back at the point `t` that closes a row of the grid (`t % 8 = 7`) holds, at lane `il`, the running bound
after all eight tiles of the row: the fold over every column `cc < 4096`, which is the specification's bound of row
`512 · (t / 8) + il`. The eight row-closing points' blocks are rows `0 … 511`, …, `3584 … 4095`: they cover the output. -/

variable (V : (c : Dev nD) → (b : Ref sig .tc) → Buf (Elt Ideal) ((c : Thread nD τ).loc b))

/-- The output windows' blocks are whole: 512 rows at every point. -/
theorem out_facts : ∀ t : Fin cfg0.N, win0_4.xsize (grid0.coords t) 0 = 512 ∧ win0_5.xsize (grid0.coords t) 0 = 512 :=
  (by decide +kernel : ∀ t : Fin grid0.N, win0_4.xsize (grid0.coords t) 0 = 512 ∧ win0_5.xsize (grid0.coords t) 0 = 512)

/-- The block the pipeline writes back at the end of a row of the grid is the specification's positive bound on that block's rows. -/
theorem flushed4_eq (c : Dev nD) (t : Fin cfg0.N) (hf : (cfg0.win 4).flush t = true) :
    (Bounds.dat (F := Ideal) V c).flushed 4 t = ((cfg0.win 4).blk t).view.read (Elt Ideal)
      (fun i => Cert.Spec.posBound (V c main_arg0 : FVec Ideal Cert.Spec.S4096x512 .f32) (V c main_arg1 : IVec Cert.Spec.S4096 32) (i 0)) := by
  have h7 : t.val % 8 = 7 := (flush0_4 t).mp hf
  have hi := idx_facts t
  have hN : t.val < 64 := lt_of_lt_of_eq t.isLt (show cfg0.N = 64 from N_0)
  show (cfg0.win 4).cut (grid0.coords t) ((Bounds.dat (F := Ideal) V c).after 4 t) = _
  rw [Bounds.after_4]
  refine funext fun (y : S512.Idx) => ?_
  obtain ⟨il, rfl⟩ : ∃ il : Fin 512, y = ix1 il := ⟨y 0, eq_ix1 y⟩
  have hil := il.isLt
  have hidx : ((cfg0.win 4).blk t).view.emb (ix1 il) = (ix1 (⟨512 * (t.val / 8) + il.val, by omega⟩ : Fin 4096) : S4096.Idx) :=
    funext fun a => Fin.ext (by
      match a with
      | ⟨0, _⟩ => show win0_4.index t 0 * 512 + 1 * il.val = 512 * (t.val / 8) + il.val; rw [hi.2.2.2.2.2.2.1]; omega)
  rw [View.read_apply, hidx]
  show (Bounds.acc (F := Ideal) V c t.val t.isLt).1 (ix1 il)
    = Cert.Spec.posBound (V c main_arg0 : FVec Ideal Cert.Spec.S4096x512 .f32) (V c main_arg1 : IVec Cert.Spec.S4096 32) (⟨512 * (t.val / 8) + il.val, by omega⟩ : Fin 4096)
  refine eq_of_forall_le_iff fun z => ?_
  rw [acc_min_le V c t.val t.isLt il ⟨512 * (t.val / 8) + il.val, by omega⟩ rfl z, h7]
  unfold Cert.Spec.posBound
  rw [Finset.le_fold_min]
  exact and_congr Iff.rfl ⟨fun h cc _ => h cc (by have := cc.isLt; omega), fun h cc _ => h cc (Finset.mem_univ _)⟩

/-- Every row of the output lies in the block written back at the end of its row of the grid. -/
theorem cover4 (c : Dev nD) (i : ((cfg0.win 4).arr.view.loc (c.tc : Thread nD τ)).2.ty.Idx) :
    ∃ t : Fin cfg0.N, (cfg0.win 4).flush t = true ∧ i ∈ ((cfg0.win 4).blk t).view.set := by
  have h0 : (i 0 : Nat) < 4096 := (i 0).isLt
  have hN : cfg0.N = 64 := N_0
  let t : Fin cfg0.N := ⟨8 * ((i 0 : Nat) / 512) + 7, by rw [hN]; omega⟩
  have ht : t.val = 8 * ((i 0 : Nat) / 512) + 7 := rfl
  refine ⟨t, (flush0_4 t).mpr (by rw [ht]; omega), ?_⟩
  have hi := idx_facts t
  have ho := out_facts t
  show i ∈ ((View.whole main_v0_0).slice (win0_4.rect t)).set
  rw [View.set_slice_whole, Rect.mem_set_unit]
  intro a
  match a with
  | ⟨0, _⟩ =>
    show win0_4.index t 0 * win0_4.size 0 ≤ (i 0 : Nat) ∧ (i 0 : Nat) < win0_4.index t 0 * win0_4.size 0 + win0_4.xsize (grid0.coords t) 0
    rw [hi.2.2.2.2.2.2.1, ho.1, show win0_4.size 0 = 512 from rfl, ht]
    omega

/-- The block the pipeline writes back at the end of a row of the grid is the specification's negative bound on that block's rows. -/
theorem flushed5_eq (c : Dev nD) (t : Fin cfg0.N) (hf : (cfg0.win 5).flush t = true) :
    (Bounds.dat (F := Ideal) V c).flushed 5 t = ((cfg0.win 5).blk t).view.read (Elt Ideal)
      (fun i => Cert.Spec.negBound (V c main_arg0 : FVec Ideal Cert.Spec.S4096x512 .f32) (V c main_arg1 : IVec Cert.Spec.S4096 32) (i 0)) := by
  have h7 : t.val % 8 = 7 := (flush0_5 t).mp hf
  have hi := idx_facts t
  have hN : t.val < 64 := lt_of_lt_of_eq t.isLt (show cfg0.N = 64 from N_0)
  show (cfg0.win 5).cut (grid0.coords t) ((Bounds.dat (F := Ideal) V c).after 5 t) = _
  rw [Bounds.after_5]
  refine funext fun (y : S512.Idx) => ?_
  obtain ⟨il, rfl⟩ : ∃ il : Fin 512, y = ix1 il := ⟨y 0, eq_ix1 y⟩
  have hil := il.isLt
  have hidx : ((cfg0.win 5).blk t).view.emb (ix1 il) = (ix1 (⟨512 * (t.val / 8) + il.val, by omega⟩ : Fin 4096) : S4096.Idx) :=
    funext fun a => Fin.ext (by
      match a with
      | ⟨0, _⟩ => show win0_5.index t 0 * 512 + 1 * il.val = 512 * (t.val / 8) + il.val; rw [hi.2.2.2.2.2.2.2.1]; omega)
  rw [View.read_apply, hidx]
  show (Bounds.acc (F := Ideal) V c t.val t.isLt).2 (ix1 il)
    = Cert.Spec.negBound (V c main_arg0 : FVec Ideal Cert.Spec.S4096x512 .f32) (V c main_arg1 : IVec Cert.Spec.S4096 32) (⟨512 * (t.val / 8) + il.val, by omega⟩ : Fin 4096)
  refine eq_of_forall_ge_iff fun z => ?_
  rw [acc_max_le V c t.val t.isLt il ⟨512 * (t.val / 8) + il.val, by omega⟩ rfl z, h7]
  unfold Cert.Spec.negBound
  rw [Finset.fold_max_le]
  exact and_congr Iff.rfl ⟨fun h cc _ => h cc (by have := cc.isLt; omega), fun h cc _ => h cc (Finset.mem_univ _)⟩

/-- Every row of the output lies in the block written back at the end of its row of the grid. -/
theorem cover5 (c : Dev nD) (i : ((cfg0.win 5).arr.view.loc (c.tc : Thread nD τ)).2.ty.Idx) :
    ∃ t : Fin cfg0.N, (cfg0.win 5).flush t = true ∧ i ∈ ((cfg0.win 5).blk t).view.set := by
  have h0 : (i 0 : Nat) < 4096 := (i 0).isLt
  have hN : cfg0.N = 64 := N_0
  let t : Fin cfg0.N := ⟨8 * ((i 0 : Nat) / 512) + 7, by rw [hN]; omega⟩
  have ht : t.val = 8 * ((i 0 : Nat) / 512) + 7 := rfl
  refine ⟨t, (flush0_5 t).mpr (by rw [ht]; omega), ?_⟩
  have hi := idx_facts t
  have ho := out_facts t
  show i ∈ ((View.whole main_v0_1).slice (win0_5.rect t)).set
  rw [View.set_slice_whole, Rect.mem_set_unit]
  intro a
  match a with
  | ⟨0, _⟩ =>
    show win0_5.index t 0 * win0_5.size 0 ≤ (i 0 : Nat) ∧ (i 0 : Nat) < win0_5.index t 0 * win0_5.size 0 + win0_5.xsize (grid0.coords t) 0
    rw [hi.2.2.2.2.2.2.2.1, ho.2, show win0_5.size 0 = 512 from rfl, ht]
    omega

/-- THE POSITIVE BOUNDS: the first output array ends holding, row by row, the least similarity to another row of the same
    label. -/
theorem posBound_eq (c : Dev nD) :
    (Bounds.dat (F := Ideal) V c).arrAt 4 cfg0.N = fun i => Cert.Spec.posBound (V c main_arg0 : FVec Ideal Cert.Spec.S4096x512 .f32) (V c main_arg1 : IVec Cert.Spec.S4096 32) (i 0) :=
  (Bounds.dat (F := Ideal) V c).arrAt_eq_of_cover 4 _ (flushed4_eq V c) (cover4 c)

/-- THE NEGATIVE BOUNDS: the second output array ends holding, row by row, the greatest similarity to a row of a different
    label. -/
theorem negBound_eq (c : Dev nD) :
    (Bounds.dat (F := Ideal) V c).arrAt 5 cfg0.N = fun i => Cert.Spec.negBound (V c main_arg0 : FVec Ideal Cert.Spec.S4096x512 .f32) (V c main_arg1 : IVec Cert.Spec.S4096 32) (i 0) :=
  (Bounds.dat (F := Ideal) V c).arrAt_eq_of_cover 5 _ (flushed5_eq V c) (cover5 c)

end Cert.KernelIdeal.BoundsValue

end
-- ==== Proof.Lse.ValueLane.lean ====
/- The carried vectors of the log-sum-exp kernel read one lane at a time, at the ideal values.

   A lane is a column `jl` of the 512 × 512 tile. The column reductions of the tile are folds of `min` and `max` and
   sums over the tile's 512 rows; every other operation acts lane by lane. -/
import proofs.«123878_j24489903522258_2_alg».proof.Proof.Lse.Carry
import proofs.«123878_j24489903522258_2_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.LseValue

open Cert.KernelIdeal Cert.KernelIdeal.Gen Cert.KernelIdeal.Lse
open Idealize.ShloMosaic Idealize.ShloMosaic.TcCoe Idealize.ShloMosaic.ValueIdx
open Idealize.ShloMosaic.Pipeline (Dat)
open scoped BigOperators

/-! ## Column reductions -/

/-- The least entry of column `jl`, from +∞. -/
def colMin (M : FVec Ideal S512x512 .f32) (jl : Fin 512) : EReal :=
  (Finset.univ : Finset (Fin 512)).fold min (Ideal.ofBits .f32 0x7F800000#32) (fun il => M (ix2 il jl))

/-- The greatest entry of column `jl`, from −∞. -/
def colMax (M : FVec Ideal S512x512 .f32) (jl : Fin 512) : EReal :=
  (Finset.univ : Finset (Fin 512)).fold max (Ideal.ofBits .f32 0xFF800000#32) (fun il => M (ix2 il jl))

/-- The source index over lane `jl` at row `il`. -/
theorem lift_col (jl : Fin 512) (il : Fin (S512x512.size 0)) :
    reduces_S512x512_S512.lift (ix1 jl) il = ix2 (n0 := 512) (n1 := 512) il jl := by
  funext d
  apply Fin.ext
  show reduces_S512x512_S512.liftVal (ix1 jl) il.val d = _
  unfold Shape.Reduces.liftVal
  match d with
  | ⟨0, _⟩ => first | rfl | simp
  | ⟨1, _⟩ => first | rfl | simp

theorem colMin_eq (M : FVec Ideal S512x512 .f32) (hφ : FKind.Formats .f32)
    (hacc : (0x7F800000#32 : BitVec FTy.f32.bits) = FKind.minimumf.neutral .f32 hφ) (jl : Fin 512) :
    multiReduction (F := Ideal) .minimumf [0] S512 M 0x7F800000#32 reduces_S512x512_S512 hφ hacc (ix1 jl) = colMin M jl := by
  rw [multiReduction_minimumf_eq_fold]
  refine (reduces_S512x512_S512.fold_filter_drop_single _ _ M (ix1 jl)).trans ?_
  unfold colMin
  refine congrArg (fun g => (Finset.univ : Finset (Fin 512)).fold min (Ideal.ofBits .f32 0x7F800000#32) g) ?_
  funext il
  exact congrArg M (lift_col jl il)

theorem colMax_eq (M : FVec Ideal S512x512 .f32) (hφ : FKind.Formats .f32)
    (hacc : (0xFF800000#32 : BitVec FTy.f32.bits) = FKind.maximumf.neutral .f32 hφ) (jl : Fin 512) :
    multiReduction (F := Ideal) .maximumf [0] S512 M 0xFF800000#32 reduces_S512x512_S512 hφ hacc (ix1 jl) = colMax M jl := by
  rw [multiReduction_maximumf_eq_fold]
  refine (reduces_S512x512_S512.fold_filter_drop_single _ _ M (ix1 jl)).trans ?_
  unfold colMax
  refine congrArg (fun g => (Finset.univ : Finset (Fin 512)).fold max (Ideal.ofBits .f32 0xFF800000#32) g) ?_
  funext il
  exact congrArg M (lift_col jl il)

theorem colSum_eq (M : FVec Ideal S512x512 .f32) (hφ : FKind.Formats .f32)
    (hacc : (0x00000000#32 : BitVec FTy.f32.bits) = FKind.add.neutral .f32 hφ) (jl : Fin 512) :
    multiReduction (F := Ideal) .add [0] S512 M 0x00000000#32 reduces_S512x512_S512 hφ hacc (ix1 jl)
      = ∑ il : Fin 512, M (ix2 il jl) := by
  refine (Ideal.multiReduction_add_single M 0x00000000#32 reduces_S512x512_S512 hφ hacc (ix1 jl)).trans ?_
  exact Finset.sum_congr rfl fun il _ => congrArg M (lift_col jl il)

/-- A lane's value spread over its column. -/
theorem spread_apply (v : FVec Ideal S512 .f32) (il jl : Fin 512) :
    broadcastTo S512x512 (shapeCast S1x512 v shapeCasts_S512_S1x512) broadcasts_S1x512_S512x512 (ix2 il jl) = v (ix1 jl) := by
  refine (broadcastTo_apply _ _ (ix2 il jl) (ix2 (0 : Fin 1) jl) ?_).trans ?_
  · intro a
    match a with
    | ⟨0, _⟩ => rfl
    | ⟨1, _⟩ => rfl
  · refine shapeCast_apply v _ _ (ix1 jl) ?_
    rw [Shape.rowMajor_val_one, Shape.rowMajor_val_two]
    show (jl : ℕ) = 0 * 512 + (jl : ℕ)
    omega

/-! ## The reduction payloads at a lane -/

theorem pay1_lane (M : FVec Ideal S512x512 .f32) (jl : Fin 512) : k1_pay1 M (ix1 jl) = colMin M jl := by
  unfold k1_pay1; exact colMin_eq M _ _ jl
theorem pay2_lane (M : FVec Ideal S512x512 .f32) (jl : Fin 512) : k1_pay2 M (ix1 jl) = colMax M jl := by
  unfold k1_pay2; exact colMax_eq M _ _ jl
theorem pay3_lane (M : FVec Ideal S512x512 .f32) (jl : Fin 512) : k1_pay3 M (ix1 jl) = colMax M jl := by
  unfold k1_pay3; exact colMax_eq M _ _ jl
theorem pay4_lane (M : FVec Ideal S512x512 .f32) (jl : Fin 512) : k1_pay4 M (ix1 jl) = colMin M jl := by
  unfold k1_pay4; exact colMin_eq M _ _ jl

/-- The sum down a column of the exponentials of the weights relative to a per-lane reference, over a mask. -/
theorem expSum_lane (mask : IVec S512x512 1) (W : FVec Ideal S512x512 .f32) (ref : FVec Ideal S512 .f32)
    (hφ : FKind.Formats .f32) (hacc : (0x00000000#32 : BitVec FTy.f32.bits) = FKind.add.neutral .f32 hφ) (jl : Fin 512) :
    multiReduction (F := Ideal) .add [0] S512
        (select mask (exp (subf W (broadcastTo S512x512 (shapeCast S1x512 ref shapeCasts_S512_S1x512) broadcasts_S1x512_S512x512)))
          (broadcast S512x512 (Scalar.ofBits (F := Ideal) .f32 0x00000000#32)))
        0x00000000#32 reduces_S512x512_S512 hφ hacc (ix1 jl)
      = ∑ il : Fin 512, Scalar.select (mask (ix2 il jl)) (Ideal.exp (W (ix2 il jl) - ref (ix1 jl))) 0 := by
  refine (colSum_eq _ hφ hacc jl).trans ?_
  refine Finset.sum_congr rfl fun il _ => ?_
  show Scalar.select (mask (ix2 il jl))
      (Ideal.exp (W (ix2 il jl) - broadcastTo S512x512 (shapeCast S1x512 ref shapeCasts_S512_S1x512) broadcasts_S1x512_S512x512 (ix2 il jl)))
      (Ideal.ofBits .f32 0x00000000#32) = _
  rw [spread_apply, Ideal.ofBits_zero_f32]

/-! ## The carried vectors at a lane -/

section Lanes

variable (T : Tile Ideal) (s : Carry Ideal) (jl : Fin 512)

/-- The tile's sum of exponentials of the positive weights relative to `ref`, over the positive mask, at a lane. -/
def posTileSum (ref : EReal) : EReal :=
  ∑ il : Fin 512, Scalar.select (T.posMask (ix2 il jl)) (Ideal.exp (T.posW (ix2 il jl) - ref)) 0

/-- The same on the negative side. -/
def negTileSum (ref : EReal) : EReal :=
  ∑ il : Fin 512, Scalar.select (T.negMask (ix2 il jl)) (Ideal.exp (T.negW (ix2 il jl) - ref)) 0

theorem first_posRef : (Carry.first T).posRef (ix1 jl) = colMin T.posM jl := by
  unfold Carry.first; dsimp only
  unfold k1_pay5; (try dsimp only); rw [shapeCast_self]; exact pay1_lane _ _

theorem first_posChk : (Carry.first T).posChk (ix1 jl) = colMax T.posM jl := by
  unfold Carry.first; dsimp only
  unfold k1_pay6; (try dsimp only); rw [shapeCast_self]; exact pay2_lane _ _

theorem first_negRef : (Carry.first T).negRef (ix1 jl) = colMax T.negM jl := by
  unfold Carry.first; dsimp only
  unfold k1_pay8; (try dsimp only); rw [shapeCast_self]; exact pay3_lane _ _

theorem first_negChk : (Carry.first T).negChk (ix1 jl) = colMin T.negM jl := by
  unfold Carry.first; dsimp only
  unfold k1_pay9; (try dsimp only); rw [shapeCast_self]; exact pay4_lane _ _

theorem first_posSum : (Carry.first T).posSum (ix1 jl) = posTileSum T jl (colMin T.posM jl) := by
  unfold Carry.first; dsimp only
  unfold k1_pay7; (try dsimp only); rw [shapeCast_self]
  refine (expSum_lane _ _ _ _ _ jl).trans ?_
  rw [pay1_lane]; rfl

theorem first_negSum : (Carry.first T).negSum (ix1 jl) = negTileSum T jl (colMax T.negM jl) := by
  unfold Carry.first; dsimp only
  unfold k1_pay10; (try dsimp only); rw [shapeCast_self]
  refine (expSum_lane _ _ _ _ _ jl).trans ?_
  rw [pay3_lane]; rfl

theorem next_posRef : (Carry.next T s).posRef (ix1 jl) = min (s.posRef (ix1 jl)) (colMin T.posM jl) := by
  unfold Carry.next; dsimp only
  unfold k1_pay21 k1_pay19; (try dsimp only); rw [shapeCast_self]
  show min (s.posRef (ix1 jl)) (k1_pay1 T.posM (ix1 jl)) = _
  rw [pay1_lane]

theorem next_posChk : (Carry.next T s).posChk (ix1 jl) = max (s.posChk (ix1 jl)) (colMax T.posM jl) := by
  unfold Carry.next; dsimp only
  unfold k1_pay22; (try dsimp only); rw [shapeCast_self]
  show max (s.posChk (ix1 jl)) (k1_pay2 T.posM (ix1 jl)) = _
  rw [pay2_lane]

theorem next_negRef : (Carry.next T s).negRef (ix1 jl) = max (s.negRef (ix1 jl)) (colMax T.negM jl) := by
  unfold Carry.next; dsimp only
  unfold k1_pay11 k1_pay23; (try dsimp only); rw [shapeCast_self]
  show max (s.negRef (ix1 jl)) (k1_pay3 T.negM (ix1 jl)) = _
  rw [pay3_lane]

theorem next_negChk : (Carry.next T s).negChk (ix1 jl) = min (s.negChk (ix1 jl)) (colMin T.negM jl) := by
  unfold Carry.next; dsimp only
  unfold k1_pay12; (try dsimp only); rw [shapeCast_self]
  show min (s.negChk (ix1 jl)) (k1_pay4 T.negM (ix1 jl)) = _
  rw [pay4_lane]

theorem next_posSum : (Carry.next T s).posSum (ix1 jl)
    = s.posSum (ix1 jl) * Ideal.exp (s.posRef (ix1 jl) - min (s.posRef (ix1 jl)) (colMin T.posM jl))
      + posTileSum T jl (min (s.posRef (ix1 jl)) (colMin T.posM jl)) := by
  unfold Carry.next; dsimp only
  unfold k1_pay20 k1_pay19; (try dsimp only); rw [shapeCast_self]
  show s.posSum (ix1 jl) * Ideal.exp (s.posRef (ix1 jl) - min (s.posRef (ix1 jl)) (k1_pay1 T.posM (ix1 jl)))
      + multiReduction (F := Ideal) .add [0] S512 _ 0x00000000#32 reduces_S512x512_S512 _ _ (ix1 jl) = _
  refine (congrArg (fun z => s.posSum (ix1 jl) * Ideal.exp (s.posRef (ix1 jl) - min (s.posRef (ix1 jl)) (k1_pay1 T.posM (ix1 jl))) + z)
    (expSum_lane _ _ _ _ _ jl)).trans ?_
  show _ + posTileSum T jl (min (s.posRef (ix1 jl)) (k1_pay1 T.posM (ix1 jl))) = _
  rw [pay1_lane]

theorem next_negSum : (Carry.next T s).negSum (ix1 jl)
    = s.negSum (ix1 jl) * Ideal.exp (s.negRef (ix1 jl) - max (s.negRef (ix1 jl)) (colMax T.negM jl))
      + negTileSum T jl (max (s.negRef (ix1 jl)) (colMax T.negM jl)) := by
  unfold Carry.next; dsimp only
  unfold k1_pay24 k1_pay23; (try dsimp only); rw [shapeCast_self]
  show s.negSum (ix1 jl) * Ideal.exp (s.negRef (ix1 jl) - max (s.negRef (ix1 jl)) (k1_pay3 T.negM (ix1 jl)))
      + multiReduction (F := Ideal) .add [0] S512 _ 0x00000000#32 reduces_S512x512_S512 _ _ (ix1 jl) = _
  refine (congrArg (fun z => s.negSum (ix1 jl) * Ideal.exp (s.negRef (ix1 jl) - max (s.negRef (ix1 jl)) (k1_pay3 T.negM (ix1 jl))) + z)
    (expSum_lane _ _ _ _ _ jl)).trans ?_
  show _ + negTileSum T jl (max (s.negRef (ix1 jl)) (k1_pay3 T.negM (ix1 jl))) = _
  rw [pay3_lane]

/-! ## The results at a lane -/

theorem results_posVals : s.results.posVals (ix1 jl)
    = Ideal.log (Scalar.select (Ideal.cmp .une (s.posRef (ix1 jl) + s.posChk (ix1 jl)) 0) (s.posSum (ix1 jl))
        (Ideal.ofBits .f32 0x3F800000#32)) + s.posRef (ix1 jl) := by
  unfold Carry.results; dsimp only
  unfold k1_pay14 k1_pay13; (try dsimp only)
  show Ideal.log (Scalar.select (Ideal.cmp .one (s.posRef (ix1 jl) + s.posChk (ix1 jl)) (Ideal.ofBits .f32 0x00000000#32))
      (s.posSum (ix1 jl)) (Ideal.ofBits .f32 0x3F800000#32)) + s.posRef (ix1 jl) = _
  rw [Ideal.ofBits_zero_f32]; rfl

theorem results_negVals : s.results.negVals (ix1 jl)
    = Ideal.log (Scalar.select (Ideal.cmp .une (s.negRef (ix1 jl) + s.negChk (ix1 jl)) 0) (s.negSum (ix1 jl))
        (Ideal.ofBits .f32 0x3F800000#32)) + s.negRef (ix1 jl) := by
  unfold Carry.results; dsimp only
  unfold k1_pay17 k1_pay16; (try dsimp only)
  show Ideal.log (Scalar.select (Ideal.cmp .one (s.negRef (ix1 jl) + s.negChk (ix1 jl)) (Ideal.ofBits .f32 0x00000000#32))
      (s.negSum (ix1 jl)) (Ideal.ofBits .f32 0x3F800000#32)) + s.negRef (ix1 jl) = _
  rw [Ideal.ofBits_zero_f32]; rfl

theorem results_posNz : s.results.posNz (ix1 jl)
    = FloatOps.sitofp (F := Ideal) .f32 ((Ideal.cmp .une (s.posRef (ix1 jl) + s.posChk (ix1 jl)) 0).setWidth 32) := by
  unfold Carry.results; dsimp only
  unfold k1_pay15 k1_pay13; (try dsimp only)
  show FloatOps.sitofp (F := Ideal) .f32 ((Ideal.cmp .one (s.posRef (ix1 jl) + s.posChk (ix1 jl)) (Ideal.ofBits .f32 0x00000000#32)).setWidth 32) = _
  rw [Ideal.ofBits_zero_f32]; rfl

theorem results_negNz : s.results.negNz (ix1 jl)
    = FloatOps.sitofp (F := Ideal) .f32 ((Ideal.cmp .une (s.negRef (ix1 jl) + s.negChk (ix1 jl)) 0).setWidth 32) := by
  unfold Carry.results; dsimp only
  unfold k1_pay18 k1_pay16; (try dsimp only)
  show FloatOps.sitofp (F := Ideal) .f32 ((Ideal.cmp .one (s.negRef (ix1 jl) + s.negChk (ix1 jl)) (Ideal.ofBits .f32 0x00000000#32)).setWidth 32) = _
  rw [Ideal.ofBits_zero_f32]; rfl

end Lanes

end Cert.KernelIdeal.LseValue

end
-- ==== Proof.Lse.Online.lean ====
/- The online masked log-sum-exp of a column is the two-pass one.

   Fix a column `c`. Sweeping its rows in eight blocks of 512 and carrying a reference point, a sum of exponentials
   relative to it and a check value — the update rules are those of `carryMin` (positive side: the reference is the
   running least masked weight, the check value the running greatest) and `carryMax` (negative side: exchanged) —
   ends, after the eighth block, at the specification's reference point, sum and check value of the column; so the
   column's value and the bit "the column counts" read off the carry are the specification's.

   The reference points and check values need no finiteness: they are folds of `min` and `max`. The sums need every
   embedding entry to be a real number: rescaling a carried sum multiplies it by `exp (ρ − ρ')`, and
   `exp (w − ρ) · exp (ρ − ρ') = exp (w − ρ')` fails when a weight or a reference point is infinite (for instance
   `w = ρ = +∞`, `ρ'` real: the left side is `exp (−∞) · exp (+∞) = 0 · ∞ = 0`, the right side `exp (+∞) = +∞`). -/
import proofs.«123878_j24489903522258_2_alg».proof.Proof.Lse.OnlineAlg

noncomputable section

namespace Cert.Online

open Idealize.ShloMosaic Idealize.ShloMosaic.ValueIdx
open scoped BigOperators

/-! ## The sums, for weights known to be real -/

theorem carryMin_sum_of_real (w : Fin 4096 → EReal) (b : Fin 4096 → BitVec 1)
    (hw : ∀ r, ∃ a : ℝ, w r = (a : EReal)) :
    (carryMin w b 7).2.1 = ∑ r : Fin 4096, Scalar.select (b r) (Ideal.exp (w r - (carryMin w b 7).1)) 0 := by
  choose wr hwr using hw
  obtain rfl : w = fun r => (wr r : EReal) := funext hwr
  exact carryMin_sum wr b

theorem carryMax_sum_of_real (w : Fin 4096 → EReal) (b : Fin 4096 → BitVec 1)
    (hw : ∀ r, ∃ a : ℝ, w r = (a : EReal)) :
    (carryMax w b 7).2.1 = ∑ r : Fin 4096, Scalar.select (b r) (Ideal.exp (w r - (carryMax w b 7).1)) 0 := by
  choose wr hwr using hw
  obtain rfl : w = fun r => (wr r : EReal) := funext hwr
  exact carryMax_sum wr b

/-! ## The weights are real when the embeddings are -/

/-- The three constants of the weights are real numbers. -/
theorem ofBits_C0000000 : Ideal.ofBits .f32 0xC0000000#32 = ((-2 : ℝ) : EReal) := by
  simp [Ideal.ofBits, Ideal.ieee, -EReal.coe_mul]; norm_num

theorem ofBits_3F000000 : Ideal.ofBits .f32 0x3F000000#32 = ((1 / 2 : ℝ) : EReal) := by
  simp [Ideal.ofBits, Ideal.ieee, -EReal.coe_mul]; norm_num

theorem ofBits_42200000 : Ideal.ofBits .f32 0x42200000#32 = ((40 : ℝ) : EReal) := by
  simp [Ideal.ofBits, Ideal.ieee, -EReal.coe_mul]; norm_num

section Real

variable (x : FVec Ideal Spec.S4096x512 .f32)
  (hfin : ∀ idx, ∃ a : ℝ, x idx = (a : EReal))

include hfin

theorem sim_real (r c : Fin 4096) : ∃ a : ℝ, Spec.sim x r c = (a : EReal) := by
  choose xr hxr using hfin
  refine ⟨∑ k : Fin 512, xr (ix2 r k) * xr (ix2 c k), ?_⟩
  unfold Spec.sim
  rw [coe_sum]
  exact Finset.sum_congr rfl fun k _ => by simp only [hxr, EReal.coe_mul]

theorem wPos_real (r c : Fin 4096) : ∃ a : ℝ, Spec.wPos x r c = (a : EReal) := by
  obtain ⟨s, hs⟩ := sim_real x hfin r c
  refine ⟨(-2) * (s - 1 / 2), ?_⟩
  unfold Spec.wPos
  rw [hs, ofBits_C0000000, ofBits_3F000000, ← EReal.coe_sub, ← EReal.coe_mul]

theorem wNeg_real (r c : Fin 4096) : ∃ a : ℝ, Spec.wNeg x r c = (a : EReal) := by
  obtain ⟨s, hs⟩ := sim_real x hfin r c
  refine ⟨40 * (s - 1 / 2), ?_⟩
  unfold Spec.wNeg
  rw [hs, ofBits_42200000, ofBits_3F000000, ← EReal.coe_sub, ← EReal.coe_mul]

end Real

/-! ## The two carries of a column -/

section Carries

variable (x : FVec Ideal Spec.S4096x512 .f32) (ℓ : IVec Spec.S4096 32) (c : Fin 4096)

/-- A block's least masked positive weight. -/
def posBlkMin (i : Fin 8) : EReal :=
  (Finset.univ : Finset (Fin 512)).fold min (Ideal.ofBits .f32 0x7F800000#32)
    (fun l => Scalar.select (Spec.posMask x ℓ (row i l) c) (Spec.wPos x (row i l) c) 0)

/-- A block's greatest masked positive weight. -/
def posBlkMax (i : Fin 8) : EReal :=
  (Finset.univ : Finset (Fin 512)).fold max (Ideal.ofBits .f32 0xFF800000#32)
    (fun l => Scalar.select (Spec.posMask x ℓ (row i l) c) (Spec.wPos x (row i l) c) 0)

/-- A block's sum of exponentials of positive weights relative to `ref`, over the positive mask. -/
def posBlkSum (i : Fin 8) (ref : EReal) : EReal :=
  ∑ l : Fin 512, Scalar.select (Spec.posMask x ℓ (row i l) c) (Ideal.exp (Spec.wPos x (row i l) c - ref)) 0

/-- A block's greatest masked negative weight. -/
def negBlkMax (i : Fin 8) : EReal :=
  (Finset.univ : Finset (Fin 512)).fold max (Ideal.ofBits .f32 0xFF800000#32)
    (fun l => Scalar.select (Spec.negMask x ℓ (row i l) c) (Spec.wNeg x (row i l) c) 0)

/-- A block's least masked negative weight. -/
def negBlkMin (i : Fin 8) : EReal :=
  (Finset.univ : Finset (Fin 512)).fold min (Ideal.ofBits .f32 0x7F800000#32)
    (fun l => Scalar.select (Spec.negMask x ℓ (row i l) c) (Spec.wNeg x (row i l) c) 0)

/-- A block's sum of exponentials of negative weights relative to `ref`, over the negative mask. -/
def negBlkSum (i : Fin 8) (ref : EReal) : EReal :=
  ∑ l : Fin 512, Scalar.select (Spec.negMask x ℓ (row i l) c) (Ideal.exp (Spec.wNeg x (row i l) c - ref)) 0

/-- The positive side's (reference, sum, check) after blocks `0 … n`. -/
def posCarry : ℕ → EReal × EReal × EReal :=
  carryMin (fun r => Spec.wPos x r c) (fun r => Spec.posMask x ℓ r c)

/-- The negative side's (reference, sum, check) after blocks `0 … n`. -/
def negCarry : ℕ → EReal × EReal × EReal :=
  carryMax (fun r => Spec.wNeg x r c) (fun r => Spec.negMask x ℓ r c)

theorem posCarry_zero :
    posCarry x ℓ c 0
      = (posBlkMin x ℓ c (blk 0), posBlkSum x ℓ c (blk 0) (posBlkMin x ℓ c (blk 0)), posBlkMax x ℓ c (blk 0)) := rfl

theorem posCarry_succ (n : ℕ) :
    posCarry x ℓ c (n + 1)
      = (min (posCarry x ℓ c n).1 (posBlkMin x ℓ c (blk (n + 1))),
          (posCarry x ℓ c n).2.1
              * Ideal.exp ((posCarry x ℓ c n).1 - min (posCarry x ℓ c n).1 (posBlkMin x ℓ c (blk (n + 1))))
            + posBlkSum x ℓ c (blk (n + 1)) (min (posCarry x ℓ c n).1 (posBlkMin x ℓ c (blk (n + 1)))),
          max (posCarry x ℓ c n).2.2 (posBlkMax x ℓ c (blk (n + 1)))) := rfl

theorem negCarry_zero :
    negCarry x ℓ c 0
      = (negBlkMax x ℓ c (blk 0), negBlkSum x ℓ c (blk 0) (negBlkMax x ℓ c (blk 0)), negBlkMin x ℓ c (blk 0)) := rfl

theorem negCarry_succ (n : ℕ) :
    negCarry x ℓ c (n + 1)
      = (max (negCarry x ℓ c n).1 (negBlkMax x ℓ c (blk (n + 1))),
          (negCarry x ℓ c n).2.1
              * Ideal.exp ((negCarry x ℓ c n).1 - max (negCarry x ℓ c n).1 (negBlkMax x ℓ c (blk (n + 1))))
            + negBlkSum x ℓ c (blk (n + 1)) (max (negCarry x ℓ c n).1 (negBlkMax x ℓ c (blk (n + 1)))),
          min (negCarry x ℓ c n).2.2 (negBlkMin x ℓ c (blk (n + 1)))) := rfl

/-! ### After the eighth block -/

/-- The positive reference point is the specification's. -/
theorem posCarry_ref : (posCarry x ℓ c 7).1 = Spec.posRef x ℓ c := by
  unfold posCarry Spec.posRef
  rw [carryMin_ref]
  exact congrArg (fun g => (Finset.univ : Finset (Fin 4096)).fold min (Ideal.ofBits .f32 0x7F800000#32) g)
    (funext fun r => select_zero_eq_mul _ _)

/-- The positive check value is the specification's greatest masked weight. -/
theorem posCarry_chk : (posCarry x ℓ c 7).2.2 = Spec.posMax x ℓ c := by
  unfold posCarry Spec.posMax
  rw [carryMin_chk]
  exact congrArg (fun g => (Finset.univ : Finset (Fin 4096)).fold max (Ideal.ofBits .f32 0xFF800000#32) g)
    (funext fun r => select_zero_eq_mul _ _)

/-- The negative reference point is the specification's. -/
theorem negCarry_ref : (negCarry x ℓ c 7).1 = Spec.negRef x ℓ c := by
  unfold negCarry Spec.negRef
  rw [carryMax_ref]
  exact congrArg (fun g => (Finset.univ : Finset (Fin 4096)).fold max (Ideal.ofBits .f32 0xFF800000#32) g)
    (funext fun r => select_zero_eq_mul _ _)

/-- The negative check value is the specification's least masked weight. -/
theorem negCarry_chk : (negCarry x ℓ c 7).2.2 = Spec.negMin x ℓ c := by
  unfold negCarry Spec.negMin
  rw [carryMax_chk]
  exact congrArg (fun g => (Finset.univ : Finset (Fin 4096)).fold min (Ideal.ofBits .f32 0x7F800000#32) g)
    (funext fun r => select_zero_eq_mul _ _)

/-- The positive sum is the specification's, when every embedding entry is a real number. -/
theorem posCarry_sum (hfin : ∀ idx, ∃ a : ℝ, x idx = (a : EReal)) :
    (posCarry x ℓ c 7).2.1 = Spec.posSum x ℓ c := by
  have href := posCarry_ref x ℓ c
  unfold posCarry at href ⊢
  rw [carryMin_sum_of_real _ _ (fun r => wPos_real x hfin r c), href]
  unfold Spec.posSum
  exact Finset.sum_congr rfl fun r _ => select_zero_eq_mul _ _

/-- The negative sum is the specification's, when every embedding entry is a real number. -/
theorem negCarry_sum (hfin : ∀ idx, ∃ a : ℝ, x idx = (a : EReal)) :
    (negCarry x ℓ c 7).2.1 = Spec.negSum x ℓ c := by
  have href := negCarry_ref x ℓ c
  unfold negCarry at href ⊢
  rw [carryMax_sum_of_real _ _ (fun r => wNeg_real x hfin r c), href]
  unfold Spec.negSum
  exact Finset.sum_congr rfl fun r _ => select_zero_eq_mul _ _

/-! ### What is read off the carry -/

/-- The bit "the column counts", positive side. -/
theorem posNz_of_carry :
    Ideal.cmp .une ((posCarry x ℓ c 7).1 + (posCarry x ℓ c 7).2.2) 0 = Spec.posNz x ℓ c := by
  rw [posCarry_ref, posCarry_chk, add_comm]
  rfl

/-- The same bit as the float the kernel stores. -/
theorem posNz_float_of_carry :
    FloatOps.uitofp (F := Ideal) .f32 (Ideal.cmp .une ((posCarry x ℓ c 7).1 + (posCarry x ℓ c 7).2.2) 0)
      = Spec.bit01 (Spec.posNz x ℓ c) := by
  rw [posNz_of_carry]
  rfl

/-- The column's value, positive side. -/
theorem posVals_of_carry (hfin : ∀ idx, ∃ a : ℝ, x idx = (a : EReal)) :
    Ideal.log (Scalar.select (Ideal.cmp .une ((posCarry x ℓ c 7).1 + (posCarry x ℓ c 7).2.2) 0)
        (posCarry x ℓ c 7).2.1 (Ideal.ofBits .f32 0x3F800000#32)) + (posCarry x ℓ c 7).1
      = Spec.posVals x ℓ c := by
  rw [posNz_of_carry, posCarry_sum x ℓ c hfin, posCarry_ref]
  rfl

/-- The bit "the column counts", negative side. -/
theorem negNz_of_carry :
    Ideal.cmp .une ((negCarry x ℓ c 7).1 + (negCarry x ℓ c 7).2.2) 0 = Spec.negNz x ℓ c := by
  rw [negCarry_ref, negCarry_chk]
  rfl

/-- The same bit as the float the kernel stores. -/
theorem negNz_float_of_carry :
    FloatOps.uitofp (F := Ideal) .f32 (Ideal.cmp .une ((negCarry x ℓ c 7).1 + (negCarry x ℓ c 7).2.2) 0)
      = Spec.bit01 (Spec.negNz x ℓ c) := by
  rw [negNz_of_carry]
  rfl

/-- The column's value, negative side. -/
theorem negVals_of_carry (hfin : ∀ idx, ∃ a : ℝ, x idx = (a : EReal)) :
    Ideal.log (Scalar.select (Ideal.cmp .une ((negCarry x ℓ c 7).1 + (negCarry x ℓ c 7).2.2) 0)
        (negCarry x ℓ c 7).2.1 (Ideal.ofBits .f32 0x3F800000#32)) + (negCarry x ℓ c 7).1
      = Spec.negVals x ℓ c := by
  rw [negNz_of_carry, negCarry_sum x ℓ c hfin, negCarry_ref]
  rfl

end Carries

end Cert.Online

end
-- ==== Proof.Lse.OnlineBits.lean ====
/- The float a one-bit word becomes when it is widened to thirty-two bits and converted as a signed integer is the
   bit read as 0 or 1: the widened word is 0 or 1, far below the sign bit. -/
import proofs.«123878_j24489903522258_2_alg».proof.Proof.Lse.OnlineAlg

noncomputable section

namespace Cert.Online

open Idealize.ShloMosaic

/-- Widened without sign and converted as signed: 0 or 1. -/
theorem sitofp_setWidth_eq_bit01 (b : BitVec 1) :
    FloatOps.sitofp (F := Ideal) .f32 (b.setWidth 32) = Spec.bit01 b := by
  show (((b.setWidth 32).toInt : ℝ) : EReal) = (((b.toNat : ℕ) : ℝ) : EReal)
  rcases BitVec.eq_zero_or_eq_one b with h | h
  · subst h
    simp
  · subst h
    simp

/-- The same with the scalar unit's widening. -/
theorem sitofp_extui_eq_bit01 (b : BitVec 1) :
    FloatOps.sitofp (F := Ideal) .f32 (Scalar.extui b) = Spec.bit01 b :=
  sitofp_setWidth_eq_bit01 b

/-- Lane by lane: a vector of bits widened and converted is the vector of their readings. -/
theorem sitofp_extui_vec {s : Shape} (v : IVec s 1) (h : 1 < 32) :
    (sitofp .f32 (extui 32 v h) : FVec Ideal s .f32) = fun i => Spec.bit01 (v i) :=
  funext fun i => sitofp_setWidth_eq_bit01 (v i)

end Cert.Online

end
-- ==== Proof.Lse.ValueSweep.lean ====
/- Along a sweep, lane by lane, the kernel's carried vectors are the online carries of the lane's column.

   Point `8 j + i` of the grid handles row block `i` against column block `j`; lane `jl` of the carried vectors
   belongs to column `512 j + jl`. Given what the tile's entries are, the carried vectors after that point are, at the
   lane, the positive and the negative carry of the column after row blocks `0 … i`. -/
import proofs.«123878_j24489903522258_2_alg».proof.Proof.Lse.ValueLane
import proofs.«123878_j24489903522258_2_alg».proof.Proof.Lse.Online
import proofs.«123878_j24489903522258_2_alg».proof.Proof.Lse.OnlineBits

set_option maxRecDepth 16384

noncomputable section

namespace Cert.KernelIdeal.LseValue

open Cert.KernelIdeal Cert.KernelIdeal.Gen Cert.KernelIdeal.Lse
open Idealize.ShloMosaic Idealize.ShloMosaic.TcCoe Idealize.ShloMosaic.ValueIdx
open Idealize.ShloMosaic.Pipeline (Dat)
open scoped BigOperators

open Cert.Online (row blk)

variable (V : (c : Dev nD) → (b : Ref sig .tc) → Buf (Elt Ideal) ((c : Thread nD τ).loc b)) (c : Dev nD)

/-- The embeddings as the region finds them. -/
abbrev xs : FVec Ideal Spec.S4096x512 .f32 := V c main_arg0
/-- The labels as the region finds them. -/
abbrev ls : IVec Spec.S4096 32 := V c main_arg1

/-- What the entries of the tile of a point are: entry `(il, jl)` of the tile of point `8 j + i` is the
    specification's mask bit, weight and masked weight of row `512 i + il` and column `512 j + jl`. -/
def TileEntry : Prop :=
  ∀ (t : Fin cfg1.N) (j i : Fin 8), t.val = 8 * j.val + i.val → ∀ (il jl : Fin 512),
    (tileAt (F := Ideal) V c t).posMask (ix2 il jl) = Spec.posMask (xs V c) (ls V c) (row i il) (row j jl)
    ∧ (tileAt (F := Ideal) V c t).negMask (ix2 il jl) = Spec.negMask (xs V c) (ls V c) (row i il) (row j jl)
    ∧ (tileAt (F := Ideal) V c t).posW (ix2 il jl) = Spec.wPos (xs V c) (row i il) (row j jl)
    ∧ (tileAt (F := Ideal) V c t).negW (ix2 il jl) = Spec.wNeg (xs V c) (row i il) (row j jl)
    ∧ (tileAt (F := Ideal) V c t).posM (ix2 il jl) = Scalar.select (Spec.posMask (xs V c) (ls V c) (row i il) (row j jl)) (Spec.wPos (xs V c) (row i il) (row j jl)) 0
    ∧ (tileAt (F := Ideal) V c t).negM (ix2 il jl) = Scalar.select (Spec.negMask (xs V c) (ls V c) (row i il) (row j jl)) (Spec.wNeg (xs V c) (row i il) (row j jl)) 0

section Bridge

variable (htile : TileEntry V c) (t : Fin cfg1.N) (j i : Fin 8) (ht : t.val = 8 * j.val + i.val) (jl : Fin 512)

include htile ht

theorem colMin_posM : colMin (tileAt (F := Ideal) V c t).posM jl = Online.posBlkMin (xs V c) (ls V c) (row j jl) i := by
  unfold colMin Online.posBlkMin
  exact congrArg (fun g => (Finset.univ : Finset (Fin 512)).fold min (Ideal.ofBits .f32 0x7F800000#32) g)
    (funext fun il => (htile t j i ht il jl).2.2.2.2.1)

theorem colMax_posM : colMax (tileAt (F := Ideal) V c t).posM jl = Online.posBlkMax (xs V c) (ls V c) (row j jl) i := by
  unfold colMax Online.posBlkMax
  exact congrArg (fun g => (Finset.univ : Finset (Fin 512)).fold max (Ideal.ofBits .f32 0xFF800000#32) g)
    (funext fun il => (htile t j i ht il jl).2.2.2.2.1)

theorem colMax_negM : colMax (tileAt (F := Ideal) V c t).negM jl = Online.negBlkMax (xs V c) (ls V c) (row j jl) i := by
  unfold colMax Online.negBlkMax
  exact congrArg (fun g => (Finset.univ : Finset (Fin 512)).fold max (Ideal.ofBits .f32 0xFF800000#32) g)
    (funext fun il => (htile t j i ht il jl).2.2.2.2.2)

theorem colMin_negM : colMin (tileAt (F := Ideal) V c t).negM jl = Online.negBlkMin (xs V c) (ls V c) (row j jl) i := by
  unfold colMin Online.negBlkMin
  exact congrArg (fun g => (Finset.univ : Finset (Fin 512)).fold min (Ideal.ofBits .f32 0x7F800000#32) g)
    (funext fun il => (htile t j i ht il jl).2.2.2.2.2)

theorem posTileSum_eq (ref : EReal) :
    posTileSum (tileAt (F := Ideal) V c t) jl ref = Online.posBlkSum (xs V c) (ls V c) (row j jl) i ref := by
  unfold posTileSum Online.posBlkSum
  exact Finset.sum_congr rfl fun il _ => by rw [(htile t j i ht il jl).1, (htile t j i ht il jl).2.2.1]

theorem negTileSum_eq (ref : EReal) :
    negTileSum (tileAt (F := Ideal) V c t) jl ref = Online.negBlkSum (xs V c) (ls V c) (row j jl) i ref := by
  unfold negTileSum Online.negBlkSum
  exact Finset.sum_congr rfl fun il _ => by rw [(htile t j i ht il jl).2.1, (htile t j i ht il jl).2.2.2.1]

end Bridge

/-- THE SWEEP. After point `8 j + i`, lane `jl` of the carried vectors is the carries of column `512 j + jl` after
    row blocks `0 … i`. -/
theorem sweep (htile : TileEntry V c) (j : Fin 8) (jl : Fin 512) :
    ∀ (i : ℕ), i < 8 → ∀ t : Fin cfg1.N, t.val = 8 * j.val + i →
      (carryAt (F := Ideal) V c t.val t.isLt).posRef (ix1 jl) = (Online.posCarry (xs V c) (ls V c) (row j jl) i).1
      ∧ (carryAt (F := Ideal) V c t.val t.isLt).posSum (ix1 jl) = (Online.posCarry (xs V c) (ls V c) (row j jl) i).2.1
      ∧ (carryAt (F := Ideal) V c t.val t.isLt).posChk (ix1 jl) = (Online.posCarry (xs V c) (ls V c) (row j jl) i).2.2
      ∧ (carryAt (F := Ideal) V c t.val t.isLt).negRef (ix1 jl) = (Online.negCarry (xs V c) (ls V c) (row j jl) i).1
      ∧ (carryAt (F := Ideal) V c t.val t.isLt).negSum (ix1 jl) = (Online.negCarry (xs V c) (ls V c) (row j jl) i).2.1
      ∧ (carryAt (F := Ideal) V c t.val t.isLt).negChk (ix1 jl) = (Online.negCarry (xs V c) (ls V c) (row j jl) i).2.2 := by
  intro i
  induction i with
  | zero =>
    intro _ t ht
    have h0 : t.val % 8 = 0 := by omega
    have ht' : t.val = 8 * j.val + (blk 0).val := ht
    rw [carryAt_first V c t h0, Online.posCarry_zero, Online.negCarry_zero]
    refine ⟨?_, ?_, ?_, ?_, ?_, ?_⟩
    · rw [first_posRef]; exact colMin_posM V c htile t j (blk 0) ht' jl
    · rw [first_posSum, colMin_posM V c htile t j (blk 0) ht' jl]; exact posTileSum_eq V c htile t j (blk 0) ht' jl _
    · rw [first_posChk]; exact colMax_posM V c htile t j (blk 0) ht' jl
    · rw [first_negRef]; exact colMax_negM V c htile t j (blk 0) ht' jl
    · rw [first_negSum, colMax_negM V c htile t j (blk 0) ht' jl]; exact negTileSum_eq V c htile t j (blk 0) ht' jl _
    · rw [first_negChk]; exact colMin_negM V c htile t j (blk 0) ht' jl
  | succ i ih =>
    intro hi t ht
    have h0 : ¬t.val % 8 = 0 := by omega
    have hb : (blk (i + 1)).val = i + 1 := Nat.mod_eq_of_lt hi
    have ht' : t.val = 8 * j.val + (blk (i + 1)).val := by rw [hb]; exact ht
    have hlt : t.val - 1 < cfg1.N := Nat.lt_of_le_of_lt (Nat.sub_le _ _) t.isLt
    obtain ⟨p1, p2, p3, n1, n2, n3⟩ := ih (by omega) ⟨t.val - 1, hlt⟩ (by show t.val - 1 = 8 * j.val + i; omega)
    have p1 : (carryAt (F := Ideal) V c (t.val - 1) hlt).posRef (ix1 jl) = _ := p1
    have p2 : (carryAt (F := Ideal) V c (t.val - 1) hlt).posSum (ix1 jl) = _ := p2
    have p3 : (carryAt (F := Ideal) V c (t.val - 1) hlt).posChk (ix1 jl) = _ := p3
    have n1 : (carryAt (F := Ideal) V c (t.val - 1) hlt).negRef (ix1 jl) = _ := n1
    have n2 : (carryAt (F := Ideal) V c (t.val - 1) hlt).negSum (ix1 jl) = _ := n2
    have n3 : (carryAt (F := Ideal) V c (t.val - 1) hlt).negChk (ix1 jl) = _ := n3
    rw [carryAt_next V c t h0, Online.posCarry_succ, Online.negCarry_succ]
    refine ⟨?_, ?_, ?_, ?_, ?_, ?_⟩
    · rw [next_posRef, colMin_posM V c htile t j (blk (i + 1)) ht' jl, p1]
    · rw [next_posSum, colMin_posM V c htile t j (blk (i + 1)) ht' jl, posTileSum_eq V c htile t j (blk (i + 1)) ht' jl, p1, p2]
    · rw [next_posChk, colMax_posM V c htile t j (blk (i + 1)) ht' jl, p3]
    · rw [next_negRef, colMax_negM V c htile t j (blk (i + 1)) ht' jl, n1]
    · rw [next_negSum, colMax_negM V c htile t j (blk (i + 1)) ht' jl, negTileSum_eq V c htile t j (blk (i + 1)) ht' jl, n1, n2]
    · rw [next_negChk, colMin_negM V c htile t j (blk (i + 1)) ht' jl, n3]

end Cert.KernelIdeal.LseValue

end
-- ==== Proof.Lse.ValueArrays.lean ====
/- What the four result arrays of the log-sum-exp kernel hold after its region, at the ideal values.

   The last point of each of the eight sweeps writes one block of 512 lanes of each result back; the eight blocks
   tile the arrays. A lane of the block written at the end of sweep `j` is a column `512 j + jl`, and what is written
   there is read off the column's carries after its eighth row block, which are the specification's reference
   point, sum and check value of the column. -/
import proofs.«123878_j24489903522258_2_alg».proof.Proof.Lse.ValueSweep

set_option maxRecDepth 16384

noncomputable section

namespace Cert.KernelIdeal.LseValue

open Cert.KernelIdeal Cert.KernelIdeal.Gen Cert.KernelIdeal.Lse
open Idealize.ShloMosaic Idealize.ShloMosaic.TcCoe Idealize.ShloMosaic.ValueIdx
open Idealize.ShloMosaic.Pipeline (Dat)
open scoped BigOperators

open Cert.Online (row blk)

variable (V : (c : Dev nD) → (b : Ref sig .tc) → Buf (Elt Ideal) ((c : Thread nD τ).loc b)) (c : Dev nD)

/-! ## The output windows' blocks -/

/-- Output window `w`'s block at point `t` is block `t / 8` of 512 lanes. -/
theorem idx_6 : ∀ t : Fin cfg1.N, win1_6.index t (0 : Fin 1) = t.val / 8 ∧ win1_6.xsize (grid1.coords t) (0 : Fin 1) = 512 :=
  (by decide +kernel : ∀ t : Fin grid1.N, win1_6.index t (0 : Fin 1) = t.val / 8 ∧ win1_6.xsize (grid1.coords t) (0 : Fin 1) = 512)
theorem idx_7 : ∀ t : Fin cfg1.N, win1_7.index t (0 : Fin 1) = t.val / 8 ∧ win1_7.xsize (grid1.coords t) (0 : Fin 1) = 512 :=
  (by decide +kernel : ∀ t : Fin grid1.N, win1_7.index t (0 : Fin 1) = t.val / 8 ∧ win1_7.xsize (grid1.coords t) (0 : Fin 1) = 512)
theorem idx_8 : ∀ t : Fin cfg1.N, win1_8.index t (0 : Fin 1) = t.val / 8 ∧ win1_8.xsize (grid1.coords t) (0 : Fin 1) = 512 :=
  (by decide +kernel : ∀ t : Fin grid1.N, win1_8.index t (0 : Fin 1) = t.val / 8 ∧ win1_8.xsize (grid1.coords t) (0 : Fin 1) = 512)
theorem idx_9 : ∀ t : Fin cfg1.N, win1_9.index t (0 : Fin 1) = t.val / 8 ∧ win1_9.xsize (grid1.coords t) (0 : Fin 1) = 512 :=
  (by decide +kernel : ∀ t : Fin grid1.N, win1_9.index t (0 : Fin 1) = t.val / 8 ∧ win1_9.xsize (grid1.coords t) (0 : Fin 1) = 512)

/-- What window 6's array ends holding. -/
def posValsG : S4096.Idx → EReal := fun idx => Spec.posVals (xs V c) (ls V c) (idx 0)

theorem flushed_6 (htile : TileEntry V c) (hfin : ∀ idx, ∃ a : ℝ, xs V c idx = (a : EReal)) (t : Fin cfg1.N)
    (hf : (cfg1.win 6).flush t = true) :
    (dat (F := Ideal) V c).flushed 6 t = ((cfg1.win 6).blk t).view.read (Elt Ideal) (posValsG V c) := by
  have h7 : t.val % 8 = 7 := (flush1_6 t).mp hf
  have hN : t.val < 64 := lt_of_lt_of_eq t.isLt (show cfg1.N = 64 from N_1)
  obtain ⟨e0, e1⟩ := idx_6 t
  show (cfg1.win 6).cut (grid1.coords t) ((dat (F := Ideal) V c).after 6 t) = _
  rw [show (dat (F := Ideal) V c).after 6 t = (resultsAt V c t).posVals from by dsimp only [dat]]
  funext y
  obtain ⟨jl, rfl⟩ : ∃ jl : Fin 512, y = ix1 jl := ⟨y 0, eq_ix1 (n := 512) y⟩
  have hcol : (((cfg1.win 6).blk t).view.emb (ix1 jl) : S4096.Idx) 0 = row ⟨t.val / 8, by omega⟩ jl := by
    apply Fin.ext
    show win1_6.index t (0 : Fin 1) * 512 + 1 * jl.val = 512 * (t.val / 8) + jl.val
    rw [e0]; omega
  show (resultsAt V c t).posVals (ix1 jl) = posValsG V c (((cfg1.win 6).blk t).view.emb (ix1 jl))
  unfold posValsG
  rw [hcol]
  obtain ⟨p1, p2, p3, n1, n2, n3⟩ := sweep V c htile ⟨t.val / 8, by omega⟩ jl 7 (by decide) t (by show t.val = 8 * (t.val / 8) + 7; omega)
  unfold resultsAt
  rw [results_posVals, p1, p2, p3]
  exact Online.posVals_of_carry (xs V c) (ls V c) _ hfin

theorem cover_6 (idx : S4096.Idx) :
    ∃ t : Fin cfg1.N, (cfg1.win 6).flush t = true ∧ idx ∈ ((cfg1.win 6).blk t).view.set := by
  have hi : (idx 0).val < 4096 := (idx 0).isLt
  have hlt : 8 * ((idx 0).val / 512) + 7 < cfg1.N := by rw [show cfg1.N = 64 from N_1]; omega
  refine ⟨⟨_, hlt⟩, (flush1_6 _).mpr (by show (8 * ((idx 0).val / 512) + 7) % 8 = 7; omega), ?_⟩
  generalize ht : (⟨8 * ((idx 0).val / 512) + 7, hlt⟩ : Fin cfg1.N) = t
  have htv : t.val = 8 * ((idx 0).val / 512) + 7 := by rw [← ht]
  obtain ⟨e0, e1⟩ := idx_6 t
  show idx ∈ ((View.whole main_v1_0).slice (win1_6.rect t)).set
  rw [View.set_slice_whole, Rect.mem_set_unit]
  intro a
  match a with
  | ⟨0, _⟩ =>
    show win1_6.index t (0 : Fin 1) * win1_6.size (0 : Fin 1) ≤ (idx 0).val ∧ (idx 0).val < win1_6.index t (0 : Fin 1) * win1_6.size (0 : Fin 1) + win1_6.xsize (grid1.coords t) (0 : Fin 1)
    rw [e0, e1, htv]
    show (8 * ((idx 0).val / 512) + 7) / 8 * 512 ≤ (idx 0).val ∧ (idx 0).val < (8 * ((idx 0).val / 512) + 7) / 8 * 512 + 512
    omega

/-- What window 7's array ends holding. -/
def posNzG : S4096.Idx → EReal := fun idx => Spec.bit01 (Spec.posNz (xs V c) (ls V c) (idx 0))

theorem flushed_7 (htile : TileEntry V c) (hfin : ∀ idx, ∃ a : ℝ, xs V c idx = (a : EReal)) (t : Fin cfg1.N)
    (hf : (cfg1.win 7).flush t = true) :
    (dat (F := Ideal) V c).flushed 7 t = ((cfg1.win 7).blk t).view.read (Elt Ideal) (posNzG V c) := by
  have h7 : t.val % 8 = 7 := (flush1_7 t).mp hf
  have hN : t.val < 64 := lt_of_lt_of_eq t.isLt (show cfg1.N = 64 from N_1)
  obtain ⟨e0, e1⟩ := idx_7 t
  show (cfg1.win 7).cut (grid1.coords t) ((dat (F := Ideal) V c).after 7 t) = _
  rw [show (dat (F := Ideal) V c).after 7 t = (resultsAt V c t).posNz from by dsimp only [dat]]
  funext y
  obtain ⟨jl, rfl⟩ : ∃ jl : Fin 512, y = ix1 jl := ⟨y 0, eq_ix1 (n := 512) y⟩
  have hcol : (((cfg1.win 7).blk t).view.emb (ix1 jl) : S4096.Idx) 0 = row ⟨t.val / 8, by omega⟩ jl := by
    apply Fin.ext
    show win1_7.index t (0 : Fin 1) * 512 + 1 * jl.val = 512 * (t.val / 8) + jl.val
    rw [e0]; omega
  show (resultsAt V c t).posNz (ix1 jl) = posNzG V c (((cfg1.win 7).blk t).view.emb (ix1 jl))
  unfold posNzG
  rw [hcol]
  obtain ⟨p1, p2, p3, n1, n2, n3⟩ := sweep V c htile ⟨t.val / 8, by omega⟩ jl 7 (by decide) t (by show t.val = 8 * (t.val / 8) + 7; omega)
  unfold resultsAt
  rw [results_posNz, p1, p3, Online.sitofp_setWidth_eq_bit01]
  exact congrArg Spec.bit01 (Online.posNz_of_carry (xs V c) (ls V c) _)

theorem cover_7 (idx : S4096.Idx) :
    ∃ t : Fin cfg1.N, (cfg1.win 7).flush t = true ∧ idx ∈ ((cfg1.win 7).blk t).view.set := by
  have hi : (idx 0).val < 4096 := (idx 0).isLt
  have hlt : 8 * ((idx 0).val / 512) + 7 < cfg1.N := by rw [show cfg1.N = 64 from N_1]; omega
  refine ⟨⟨_, hlt⟩, (flush1_7 _).mpr (by show (8 * ((idx 0).val / 512) + 7) % 8 = 7; omega), ?_⟩
  generalize ht : (⟨8 * ((idx 0).val / 512) + 7, hlt⟩ : Fin cfg1.N) = t
  have htv : t.val = 8 * ((idx 0).val / 512) + 7 := by rw [← ht]
  obtain ⟨e0, e1⟩ := idx_7 t
  show idx ∈ ((View.whole main_v1_1).slice (win1_7.rect t)).set
  rw [View.set_slice_whole, Rect.mem_set_unit]
  intro a
  match a with
  | ⟨0, _⟩ =>
    show win1_7.index t (0 : Fin 1) * win1_7.size (0 : Fin 1) ≤ (idx 0).val ∧ (idx 0).val < win1_7.index t (0 : Fin 1) * win1_7.size (0 : Fin 1) + win1_7.xsize (grid1.coords t) (0 : Fin 1)
    rw [e0, e1, htv]
    show (8 * ((idx 0).val / 512) + 7) / 8 * 512 ≤ (idx 0).val ∧ (idx 0).val < (8 * ((idx 0).val / 512) + 7) / 8 * 512 + 512
    omega

/-- What window 8's array ends holding. -/
def negValsG : S4096.Idx → EReal := fun idx => Spec.negVals (xs V c) (ls V c) (idx 0)

theorem flushed_8 (htile : TileEntry V c) (hfin : ∀ idx, ∃ a : ℝ, xs V c idx = (a : EReal)) (t : Fin cfg1.N)
    (hf : (cfg1.win 8).flush t = true) :
    (dat (F := Ideal) V c).flushed 8 t = ((cfg1.win 8).blk t).view.read (Elt Ideal) (negValsG V c) := by
  have h7 : t.val % 8 = 7 := (flush1_8 t).mp hf
  have hN : t.val < 64 := lt_of_lt_of_eq t.isLt (show cfg1.N = 64 from N_1)
  obtain ⟨e0, e1⟩ := idx_8 t
  show (cfg1.win 8).cut (grid1.coords t) ((dat (F := Ideal) V c).after 8 t) = _
  rw [show (dat (F := Ideal) V c).after 8 t = (resultsAt V c t).negVals from by dsimp only [dat]]
  funext y
  obtain ⟨jl, rfl⟩ : ∃ jl : Fin 512, y = ix1 jl := ⟨y 0, eq_ix1 (n := 512) y⟩
  have hcol : (((cfg1.win 8).blk t).view.emb (ix1 jl) : S4096.Idx) 0 = row ⟨t.val / 8, by omega⟩ jl := by
    apply Fin.ext
    show win1_8.index t (0 : Fin 1) * 512 + 1 * jl.val = 512 * (t.val / 8) + jl.val
    rw [e0]; omega
  show (resultsAt V c t).negVals (ix1 jl) = negValsG V c (((cfg1.win 8).blk t).view.emb (ix1 jl))
  unfold negValsG
  rw [hcol]
  obtain ⟨p1, p2, p3, n1, n2, n3⟩ := sweep V c htile ⟨t.val / 8, by omega⟩ jl 7 (by decide) t (by show t.val = 8 * (t.val / 8) + 7; omega)
  unfold resultsAt
  rw [results_negVals, n1, n2, n3]
  exact Online.negVals_of_carry (xs V c) (ls V c) _ hfin

theorem cover_8 (idx : S4096.Idx) :
    ∃ t : Fin cfg1.N, (cfg1.win 8).flush t = true ∧ idx ∈ ((cfg1.win 8).blk t).view.set := by
  have hi : (idx 0).val < 4096 := (idx 0).isLt
  have hlt : 8 * ((idx 0).val / 512) + 7 < cfg1.N := by rw [show cfg1.N = 64 from N_1]; omega
  refine ⟨⟨_, hlt⟩, (flush1_8 _).mpr (by show (8 * ((idx 0).val / 512) + 7) % 8 = 7; omega), ?_⟩
  generalize ht : (⟨8 * ((idx 0).val / 512) + 7, hlt⟩ : Fin cfg1.N) = t
  have htv : t.val = 8 * ((idx 0).val / 512) + 7 := by rw [← ht]
  obtain ⟨e0, e1⟩ := idx_8 t
  show idx ∈ ((View.whole main_v1_2).slice (win1_8.rect t)).set
  rw [View.set_slice_whole, Rect.mem_set_unit]
  intro a
  match a with
  | ⟨0, _⟩ =>
    show win1_8.index t (0 : Fin 1) * win1_8.size (0 : Fin 1) ≤ (idx 0).val ∧ (idx 0).val < win1_8.index t (0 : Fin 1) * win1_8.size (0 : Fin 1) + win1_8.xsize (grid1.coords t) (0 : Fin 1)
    rw [e0, e1, htv]
    show (8 * ((idx 0).val / 512) + 7) / 8 * 512 ≤ (idx 0).val ∧ (idx 0).val < (8 * ((idx 0).val / 512) + 7) / 8 * 512 + 512
    omega

/-- What window 9's array ends holding. -/
def negNzG : S4096.Idx → EReal := fun idx => Spec.bit01 (Spec.negNz (xs V c) (ls V c) (idx 0))

theorem flushed_9 (htile : TileEntry V c) (hfin : ∀ idx, ∃ a : ℝ, xs V c idx = (a : EReal)) (t : Fin cfg1.N)
    (hf : (cfg1.win 9).flush t = true) :
    (dat (F := Ideal) V c).flushed 9 t = ((cfg1.win 9).blk t).view.read (Elt Ideal) (negNzG V c) := by
  have h7 : t.val % 8 = 7 := (flush1_9 t).mp hf
  have hN : t.val < 64 := lt_of_lt_of_eq t.isLt (show cfg1.N = 64 from N_1)
  obtain ⟨e0, e1⟩ := idx_9 t
  show (cfg1.win 9).cut (grid1.coords t) ((dat (F := Ideal) V c).after 9 t) = _
  rw [show (dat (F := Ideal) V c).after 9 t = (resultsAt V c t).negNz from by dsimp only [dat]]
  funext y
  obtain ⟨jl, rfl⟩ : ∃ jl : Fin 512, y = ix1 jl := ⟨y 0, eq_ix1 (n := 512) y⟩
  have hcol : (((cfg1.win 9).blk t).view.emb (ix1 jl) : S4096.Idx) 0 = row ⟨t.val / 8, by omega⟩ jl := by
    apply Fin.ext
    show win1_9.index t (0 : Fin 1) * 512 + 1 * jl.val = 512 * (t.val / 8) + jl.val
    rw [e0]; omega
  show (resultsAt V c t).negNz (ix1 jl) = negNzG V c (((cfg1.win 9).blk t).view.emb (ix1 jl))
  unfold negNzG
  rw [hcol]
  obtain ⟨p1, p2, p3, n1, n2, n3⟩ := sweep V c htile ⟨t.val / 8, by omega⟩ jl 7 (by decide) t (by show t.val = 8 * (t.val / 8) + 7; omega)
  unfold resultsAt
  rw [results_negNz, n1, n3, Online.sitofp_setWidth_eq_bit01]
  exact congrArg Spec.bit01 (Online.negNz_of_carry (xs V c) (ls V c) _)

theorem cover_9 (idx : S4096.Idx) :
    ∃ t : Fin cfg1.N, (cfg1.win 9).flush t = true ∧ idx ∈ ((cfg1.win 9).blk t).view.set := by
  have hi : (idx 0).val < 4096 := (idx 0).isLt
  have hlt : 8 * ((idx 0).val / 512) + 7 < cfg1.N := by rw [show cfg1.N = 64 from N_1]; omega
  refine ⟨⟨_, hlt⟩, (flush1_9 _).mpr (by show (8 * ((idx 0).val / 512) + 7) % 8 = 7; omega), ?_⟩
  generalize ht : (⟨8 * ((idx 0).val / 512) + 7, hlt⟩ : Fin cfg1.N) = t
  have htv : t.val = 8 * ((idx 0).val / 512) + 7 := by rw [← ht]
  obtain ⟨e0, e1⟩ := idx_9 t
  show idx ∈ ((View.whole main_v1_3).slice (win1_9.rect t)).set
  rw [View.set_slice_whole, Rect.mem_set_unit]
  intro a
  match a with
  | ⟨0, _⟩ =>
    show win1_9.index t (0 : Fin 1) * win1_9.size (0 : Fin 1) ≤ (idx 0).val ∧ (idx 0).val < win1_9.index t (0 : Fin 1) * win1_9.size (0 : Fin 1) + win1_9.xsize (grid1.coords t) (0 : Fin 1)
    rw [e0, e1, htv]
    show (8 * ((idx 0).val / 512) + 7) / 8 * 512 ≤ (idx 0).val ∧ (idx 0).val < (8 * ((idx 0).val / 512) + 7) / 8 * 512 + 512
    omega

/-! ## The arrays after the region -/

section Final

variable (htile : TileEntry V c) (hfin : ∀ idx, ∃ a : ℝ, xs V c idx = (a : EReal))

include htile hfin

theorem posVals_of_tile : (dat (F := Ideal) V c).arrAt 6 cfg1.N = posValsG V c :=
  (dat (F := Ideal) V c).arrAt_eq_of_cover 6 (posValsG V c) (flushed_6 V c htile hfin) (cover_6)

theorem posNz_of_tile : (dat (F := Ideal) V c).arrAt 7 cfg1.N = posNzG V c :=
  (dat (F := Ideal) V c).arrAt_eq_of_cover 7 (posNzG V c) (flushed_7 V c htile hfin) (cover_7)

theorem negVals_of_tile : (dat (F := Ideal) V c).arrAt 8 cfg1.N = negValsG V c :=
  (dat (F := Ideal) V c).arrAt_eq_of_cover 8 (negValsG V c) (flushed_8 V c htile hfin) (cover_8)

theorem negNz_of_tile : (dat (F := Ideal) V c).arrAt 9 cfg1.N = negNzG V c :=
  (dat (F := Ideal) V c).arrAt_eq_of_cover 9 (negNzG V c) (flushed_9 V c htile hfin) (cover_9)

end Final

end Cert.KernelIdeal.LseValue

end
-- ==== Proof.Lse.ValueTile.lean ====
import proofs.«123878_j24489903522258_2_alg».proof.Proof.Lse.Carry
import proofs.«123878_j24489903522258_2_alg».proof.Proof.Spec
import proofs.«123878_j24489903522258_2_alg».proof.Proof.Lse.Online
import proofs.«123878_j24489903522258_2_alg».proof.Proof.Bounds.ValueOps
import Idealize.ShloMosaic.PureOps.Ideal.Laws
import Idealize.ShloMosaic.Lib.Pipeline.Value
import Idealize.ShloMosaic.Lib.ValueIdx

set_option maxRecDepth 16384

noncomputable section

namespace Cert.KernelIdeal.LseValue

open Cert.KernelIdeal Cert.KernelIdeal.Gen
open Idealize.ShloMosaic Idealize.ShloMosaic.TcCoe Idealize.ShloMosaic.ValueIdx Idealize.ShloMosaic.Pipeline
open scoped BigOperators

/-! # One tile of the log-sum-exp kernel, entry by entry, is the specification's

At the point `t = 8 j + i` the kernel's tile has rows `il` over block `i` of the embeddings (row `r = 512 i + il`) and
columns `jl` over block `j` (row `col = 512 j + jl`). Entry `(il, jl)` of the product is the similarity of `r` and `col`;
the label test compares label `r` with label `col`; the two margin tests compare against the bound of the COLUMN, lane
`jl` of the two bound blocks, which hold the bounds of rows `512 j …`. -/

/-! ## The windows' blocks as rows of the arrays -/

/-- Which block each window is on: decided over the 64 points. -/
theorem lse_idx_facts : ∀ t : Fin cfg1.N,
    win1_0.index t 0 = t.val / 8 ∧ win1_0.index t 1 = 0 ∧ win1_1.index t 0 = t.val % 8 ∧ win1_1.index t 1 = 0
    ∧ win1_2.index t 0 = t.val / 8 ∧ win1_3.index t 0 = t.val % 8 ∧ win1_4.index t 0 = t.val / 8 ∧ win1_5.index t 0 = t.val / 8 :=
  (by decide +kernel : ∀ t : Fin grid1.N,
    win1_0.index t 0 = t.val / 8 ∧ win1_0.index t 1 = 0 ∧ win1_1.index t 0 = t.val % 8 ∧ win1_1.index t 1 = 0
    ∧ win1_2.index t 0 = t.val / 8 ∧ win1_3.index t 0 = t.val % 8 ∧ win1_4.index t 0 = t.val / 8 ∧ win1_5.index t 0 = t.val / 8)

section Blocks
variable (V : (c : Dev nD) → (b : Ref sig .tc) → Buf (Elt Ideal) ((c : Thread nD τ).loc b))

theorem lse_iblk0_apply (c : Dev nD) (t : Fin cfg1.N) (a k : Fin 512) (r : Fin 4096) (hr : r.val = 512 * (t.val / 8) + a.val) :
    (Lse.iblk V c 0 t : Vec Ideal S512x512 .f32) (ix2 a k) = (V c main_arg0 : FVec Ideal S4096x512 .f32) (ix2 r k) := by
  have hi := lse_idx_facts t
  unfold Lse.iblk
  rw [View.read_apply]
  show V c main_arg0 _ = V c main_arg0 _
  congr 1
  funext d
  apply Fin.ext
  match d with
  | ⟨0, _⟩ => show win1_0.index t 0 * 512 + 1 * a.val = r.val; rw [hi.1, hr]; omega
  | ⟨1, _⟩ => show win1_0.index t 1 * 512 + 1 * k.val = k.val; rw [hi.2.1]; omega

theorem lse_iblk1_apply (c : Dev nD) (t : Fin cfg1.N) (a k : Fin 512) (r : Fin 4096) (hr : r.val = 512 * (t.val % 8) + a.val) :
    (Lse.iblk V c 1 t : Vec Ideal S512x512 .f32) (ix2 a k) = (V c main_arg0 : FVec Ideal S4096x512 .f32) (ix2 r k) := by
  have hi := lse_idx_facts t
  unfold Lse.iblk
  rw [View.read_apply]
  show V c main_arg0 _ = V c main_arg0 _
  congr 1
  funext d
  apply Fin.ext
  match d with
  | ⟨0, _⟩ => show win1_1.index t 0 * 512 + 1 * a.val = r.val; rw [hi.2.2.1, hr]; omega
  | ⟨1, _⟩ => show win1_1.index t 1 * 512 + 1 * k.val = k.val; rw [hi.2.2.2.1]; omega

theorem lse_iblk2_apply (c : Dev nD) (t : Fin cfg1.N) (a : Fin 512) (r : Fin 4096) (hr : r.val = 512 * (t.val / 8) + a.val) :
    (Lse.iblk V c 2 t : Vec Ideal S512 .i32) (ix1 a) = (V c main_arg1 : IVec S4096 32) (ix1 r) := by
  have hi := lse_idx_facts t
  unfold Lse.iblk
  rw [View.read_apply]
  show V c main_arg1 _ = V c main_arg1 _
  congr 1
  funext d
  apply Fin.ext
  match d with
  | ⟨0, _⟩ => show win1_2.index t 0 * 512 + 1 * a.val = r.val; rw [hi.2.2.2.2.1, hr]; omega

theorem lse_iblk3_apply (c : Dev nD) (t : Fin cfg1.N) (a : Fin 512) (r : Fin 4096) (hr : r.val = 512 * (t.val % 8) + a.val) :
    (Lse.iblk V c 3 t : Vec Ideal S512 .i32) (ix1 a) = (V c main_arg1 : IVec S4096 32) (ix1 r) := by
  have hi := lse_idx_facts t
  unfold Lse.iblk
  rw [View.read_apply]
  show V c main_arg1 _ = V c main_arg1 _
  congr 1
  funext d
  apply Fin.ext
  match d with
  | ⟨0, _⟩ => show win1_3.index t 0 * 512 + 1 * a.val = r.val; rw [hi.2.2.2.2.2.1, hr]; omega

theorem lse_iblk4_apply (c : Dev nD) (t : Fin cfg1.N) (a : Fin 512) (r : Fin 4096) (hr : r.val = 512 * (t.val / 8) + a.val) :
    (Lse.iblk V c 4 t : Vec Ideal S512 .f32) (ix1 a) = (V c main_v0_0 : FVec Ideal S4096 .f32) (ix1 r) := by
  have hi := lse_idx_facts t
  unfold Lse.iblk
  rw [View.read_apply]
  show V c main_v0_0 _ = V c main_v0_0 _
  congr 1
  funext d
  apply Fin.ext
  match d with
  | ⟨0, _⟩ => show win1_4.index t 0 * 512 + 1 * a.val = r.val; rw [hi.2.2.2.2.2.2.1, hr]; omega

theorem lse_iblk5_apply (c : Dev nD) (t : Fin cfg1.N) (a : Fin 512) (r : Fin 4096) (hr : r.val = 512 * (t.val / 8) + a.val) :
    (Lse.iblk V c 5 t : Vec Ideal S512 .f32) (ix1 a) = (V c main_v0_1 : FVec Ideal S4096 .f32) (ix1 r) := by
  have hi := lse_idx_facts t
  unfold Lse.iblk
  rw [View.read_apply]
  show V c main_v0_1 _ = V c main_v0_1 _
  congr 1
  funext d
  apply Fin.ext
  match d with
  | ⟨0, _⟩ => show win1_5.index t 0 * 512 + 1 * a.val = r.val; rw [hi.2.2.2.2.2.2.2, hr]; omega

end Blocks

/-! ## The tile's operations at an entry -/

/-- A vector of 512 lanes spread over the rows of the tile reads, at `(a, b)`, lane `b`. -/
theorem tile_rowBcast {α : Type} (v : S512.Idx → α) (a b : Fin 512) :
    broadcastTo S512x512 (shapeCast S1x512 (shapeCast S512 v shapeCasts_S512_S512) shapeCasts_S512_S1x512) broadcasts_S1x512_S512x512 (ix2 a b)
      = v (ix1 b) := by
  rw [shapeCast_self]
  exact (broadcastTo_apply _ broadcasts_S1x512_S512x512 (ix2 a b) (ix2 (0 : Fin 1) b) (fun d => by
      match d with
      | ⟨0, _⟩ => rfl
      | ⟨1, _⟩ => rfl)).trans
    (shapeCast_apply v shapeCasts_S512_S1x512 (ix2 (0 : Fin 1) b) (ix1 b) (by
      rw [Shape.rowMajor_val_one, Shape.rowMajor_val_two]; show b.val = 0 * 512 + b.val; omega))

section Entry

variable (x : FVec Ideal Cert.Spec.S4096x512 .f32) (ℓ : IVec Cert.Spec.S4096 32)
variable (ej ei : Vec Ideal S512x512 .f32) (lj li : Vec Ideal S512 .i32) (pb nb : Vec Ideal S512 .f32)
variable (il jl : Fin 512) (r col : Fin 4096)

/-- The product at `(il, jl)` is the similarity of rows `r` and `col`. -/
theorem tile_sim (hei : ∀ k : Fin 512, ei (ix2 il k) = x (ix2 r k)) (hej : ∀ k : Fin 512, ej (ix2 jl k) = x (ix2 col k)) :
    k1_pay25 (F := Ideal) ej ei (ix2 il jl) = Cert.Spec.sim x r col := by
  show k0_pay4 (F := Ideal) ej ei (ix2 il jl) = _
  rw [BoundsValue.pay4_apply ej ei il jl]
  unfold Cert.Spec.sim
  exact Finset.sum_congr rfl fun k _ => by rw [hei k, hej k]

/-- The label test at `(il, jl)` is "rows `r` and `col` carry the same label". -/
theorem tile_same (hli : li (ix1 il) = ℓ (ix1 r)) (hlj : lj (ix1 jl) = ℓ (ix1 col)) :
    k1_pay26 (F := Ideal) li lj (ix2 il jl) = Cert.Spec.same ℓ r col := by
  show k0_pay5 (F := Ideal) lj li (ix2 il jl) = _
  rw [BoundsValue.pay5_apply lj li il jl, hli, hlj]
  rfl

end Entry

/-- A bit's exclusive-or with one is its complement. -/
theorem tile_xori_one (b : BitVec 1) : IntOp.xori b 1#1 = ~~~b := by
  unfold IntOp.xori
  rcases BitVec.eq_zero_or_eq_one b with h | h <;> subst h <;> decide

section Masks

variable (x : FVec Ideal Cert.Spec.S4096x512 .f32) (ℓ : IVec Cert.Spec.S4096 32)
variable (ej ei : Vec Ideal S512x512 .f32) (lj li : Vec Ideal S512 .i32) (pb nb : Vec Ideal S512 .f32)
variable (il jl : Fin 512) (r col : Fin 4096)
variable (hsim : k1_pay25 (F := Ideal) ej ei (ix2 il jl) = Cert.Spec.sim x r col)
variable (hsame : k1_pay26 (F := Ideal) li lj (ix2 il jl) = Cert.Spec.same ℓ r col)

include hsim hsame in
/-- The positive mask: same label, and the similarity less the margin below the column's negative bound. -/
theorem tile_posMask (hnbv : nb (ix1 jl) = Cert.Spec.negBound x ℓ col) :
    k1_pay27 (F := Ideal) ej ei li lj nb (ix2 il jl) = Cert.Spec.posMask x ℓ r col := by
  unfold k1_pay27
  try dsimp only
  show IntOp.andi (k1_pay26 (F := Ideal) li lj (ix2 il jl))
      (FloatOps.cmpf .olt (k1_pay25 (F := Ideal) ej ei (ix2 il jl) - Ideal.ofBits .f32 0x3DCCCCCD#32)
        (broadcastTo S512x512 (shapeCast S1x512 (shapeCast S512 nb shapeCasts_S512_S512) shapeCasts_S512_S1x512) broadcasts_S1x512_S512x512 (ix2 il jl))) = _
  rw [hsim, hsame, tile_rowBcast nb il jl, hnbv]
  rfl

include hsim hsame in
/-- The negative mask: different labels, and the similarity plus the margin above the column's positive bound. -/
theorem tile_negMask (hpbv : pb (ix1 jl) = Cert.Spec.posBound x ℓ col) :
    k1_pay28 (F := Ideal) ej ei li lj pb (ix2 il jl) = Cert.Spec.negMask x ℓ r col := by
  unfold k1_pay28
  try dsimp only
  show IntOp.andi (IntOp.xori (k1_pay26 (F := Ideal) li lj (ix2 il jl)) 1#1)
      (FloatOps.cmpf .ogt (k1_pay25 (F := Ideal) ej ei (ix2 il jl) + Ideal.ofBits .f32 0x3DCCCCCD#32)
        (broadcastTo S512x512 (shapeCast S1x512 (shapeCast S512 pb shapeCasts_S512_S512) shapeCasts_S512_S1x512) broadcasts_S1x512_S512x512 (ix2 il jl))) = _
  rw [hsim, hsame, tile_rowBcast pb il jl, hpbv, tile_xori_one]
  rfl

include hsim in
/-- The positive weight. -/
theorem tile_posW : k1_pay29 (F := Ideal) ej ei (ix2 il jl) = Cert.Spec.wPos x r col := by
  unfold k1_pay29
  try dsimp only
  show Ideal.ofBits .f32 0xC0000000#32 * (k1_pay25 (F := Ideal) ej ei (ix2 il jl) - Ideal.ofBits .f32 0x3F000000#32) = _
  rw [hsim]
  rfl

include hsim in
/-- The negative weight. -/
theorem tile_negW : k1_pay30 (F := Ideal) ej ei (ix2 il jl) = Cert.Spec.wNeg x r col := by
  unfold k1_pay30
  try dsimp only
  show Ideal.ofBits .f32 0x42200000#32 * (k1_pay25 (F := Ideal) ej ei (ix2 il jl) - Ideal.ofBits .f32 0x3F000000#32) = _
  rw [hsim]
  rfl

/-- The positive weight where the positive mask holds, zero elsewhere. -/
theorem tile_posM (hm : k1_pay27 (F := Ideal) ej ei li lj nb (ix2 il jl) = Cert.Spec.posMask x ℓ r col)
    (hw : k1_pay29 (F := Ideal) ej ei (ix2 il jl) = Cert.Spec.wPos x r col) :
    k1_pay31 (F := Ideal) ej ei li lj nb (ix2 il jl)
      = Scalar.select (Cert.Spec.posMask x ℓ r col) (Cert.Spec.wPos x r col) 0 := by
  unfold k1_pay31
  try dsimp only
  show Scalar.select (k1_pay27 (F := Ideal) ej ei li lj nb (ix2 il jl)) (k1_pay29 (F := Ideal) ej ei (ix2 il jl))
      (Ideal.ofBits .f32 0x00000000#32) = _
  rw [hm, hw, Ideal.ofBits_zero_f32]

/-- The negative weight where the negative mask holds, zero elsewhere. -/
theorem tile_negM (hm : k1_pay28 (F := Ideal) ej ei li lj pb (ix2 il jl) = Cert.Spec.negMask x ℓ r col)
    (hw : k1_pay30 (F := Ideal) ej ei (ix2 il jl) = Cert.Spec.wNeg x r col) :
    k1_pay32 (F := Ideal) ej ei li lj pb (ix2 il jl)
      = Scalar.select (Cert.Spec.negMask x ℓ r col) (Cert.Spec.wNeg x r col) 0 := by
  unfold k1_pay32
  try dsimp only
  show Scalar.select (k1_pay28 (F := Ideal) ej ei li lj pb (ix2 il jl)) (k1_pay30 (F := Ideal) ej ei (ix2 il jl))
      (Ideal.ofBits .f32 0x00000000#32) = _
  rw [hm, hw, Ideal.ofBits_zero_f32]

end Masks

/-! ## The tile of a point -/

theorem tile_entry (V : (c : Dev nD) → (b : Ref sig .tc) → Buf (Elt Ideal) ((c : Thread nD τ).loc b)) (c : Dev nD)
    (hpb : V c main_v0_0 = fun i => Cert.Spec.posBound (V c main_arg0) (V c main_arg1) (i 0))
    (hnb : V c main_v0_1 = fun i => Cert.Spec.negBound (V c main_arg0) (V c main_arg1) (i 0))
    (t : Fin cfg1.N) (j i : Fin 8) (ht : t.val = 8 * j.val + i.val) (il jl : Fin 512) :
    let T := Cert.KernelIdeal.Lse.tileAt (F := Ideal) V c t
    let r := Cert.Online.row i il; let col := Cert.Online.row j jl
    T.posMask (ix2 il jl) = Cert.Spec.posMask (V c main_arg0) (V c main_arg1) r col
    ∧ T.negMask (ix2 il jl) = Cert.Spec.negMask (V c main_arg0) (V c main_arg1) r col
    ∧ T.posW (ix2 il jl) = Cert.Spec.wPos (V c main_arg0) r col
    ∧ T.negW (ix2 il jl) = Cert.Spec.wNeg (V c main_arg0) r col
    ∧ T.posM (ix2 il jl) = Scalar.select (Cert.Spec.posMask (V c main_arg0) (V c main_arg1) r col) (Cert.Spec.wPos (V c main_arg0) r col) 0
    ∧ T.negM (ix2 il jl) = Scalar.select (Cert.Spec.negMask (V c main_arg0) (V c main_arg1) r col) (Cert.Spec.wNeg (V c main_arg0) r col) 0 := by
  intro T r col
  have hi8 := i.isLt
  have hj8 := j.isLt
  have hr : r.val = 512 * (t.val % 8) + il.val := by
    show 512 * i.val + il.val = _
    rw [ht]; omega
  have hc : col.val = 512 * (t.val / 8) + jl.val := by
    show 512 * j.val + jl.val = _
    rw [ht]; omega
  have hsim := tile_sim (V c main_arg0 : FVec Ideal Cert.Spec.S4096x512 .f32) (Lse.iblk V c 0 t) (Lse.iblk V c 1 t) il jl r col
    (fun k => lse_iblk1_apply V c t il k r hr) (fun k => lse_iblk0_apply V c t jl k col hc)
  have hsame := tile_same (V c main_arg1 : IVec Cert.Spec.S4096 32) (Lse.iblk V c 2 t) (Lse.iblk V c 3 t) il jl r col
    (lse_iblk3_apply V c t il r hr) (lse_iblk2_apply V c t jl col hc)
  have hnbv : ((Lse.iblk V c 5 t) : Vec Ideal S512 .f32) (ix1 jl) = Cert.Spec.negBound (V c main_arg0 : FVec Ideal Cert.Spec.S4096x512 .f32) (V c main_arg1 : IVec Cert.Spec.S4096 32) col := by
    rw [lse_iblk5_apply V c t jl col hc, hnb]; rfl
  have hpbv : ((Lse.iblk V c 4 t) : Vec Ideal S512 .f32) (ix1 jl) = Cert.Spec.posBound (V c main_arg0 : FVec Ideal Cert.Spec.S4096x512 .f32) (V c main_arg1 : IVec Cert.Spec.S4096 32) col := by
    rw [lse_iblk4_apply V c t jl col hc, hpb]; rfl
  have hpm := tile_posMask (V c main_arg0 : FVec Ideal Cert.Spec.S4096x512 .f32) (V c main_arg1 : IVec Cert.Spec.S4096 32) (Lse.iblk V c 0 t) (Lse.iblk V c 1 t) (Lse.iblk V c 2 t) (Lse.iblk V c 3 t) (Lse.iblk V c 5 t) il jl r col hsim hsame hnbv
  have hnm := tile_negMask (V c main_arg0 : FVec Ideal Cert.Spec.S4096x512 .f32) (V c main_arg1 : IVec Cert.Spec.S4096 32) (Lse.iblk V c 0 t) (Lse.iblk V c 1 t) (Lse.iblk V c 2 t) (Lse.iblk V c 3 t) (Lse.iblk V c 4 t) il jl r col hsim hsame hpbv
  have hpw := tile_posW (V c main_arg0 : FVec Ideal Cert.Spec.S4096x512 .f32) (Lse.iblk V c 0 t) (Lse.iblk V c 1 t) il jl r col hsim
  have hnw := tile_negW (V c main_arg0 : FVec Ideal Cert.Spec.S4096x512 .f32) (Lse.iblk V c 0 t) (Lse.iblk V c 1 t) il jl r col hsim
  exact ⟨hpm, hnm, hpw, hnw,
    tile_posM (V c main_arg0 : FVec Ideal Cert.Spec.S4096x512 .f32) (V c main_arg1 : IVec Cert.Spec.S4096 32) (Lse.iblk V c 0 t) (Lse.iblk V c 1 t) (Lse.iblk V c 2 t) (Lse.iblk V c 3 t) (Lse.iblk V c 5 t) il jl r col hpm hpw,
    tile_negM (V c main_arg0 : FVec Ideal Cert.Spec.S4096x512 .f32) (V c main_arg1 : IVec Cert.Spec.S4096 32) (Lse.iblk V c 0 t) (Lse.iblk V c 1 t) (Lse.iblk V c 2 t) (Lse.iblk V c 3 t) (Lse.iblk V c 4 t) il jl r col hnm hnw⟩

end Cert.KernelIdeal.LseValue

end
-- ==== Proof.Lse.Value.lean ====
/- The four result arrays of the log-sum-exp kernel after its region, at the ideal values, are the specification's
   column values and counting bits — given that every embedding entry is a real number and that the two bound
   vectors the kernel reads are the specification's bounds. -/
import proofs.«123878_j24489903522258_2_alg».proof.Proof.Lse.ValueArrays
import proofs.«123878_j24489903522258_2_alg».proof.Proof.Lse.ValueTile

set_option maxRecDepth 16384

noncomputable section

namespace Cert.KernelIdeal.LseValue

open Cert.KernelIdeal Cert.KernelIdeal.Gen Cert.KernelIdeal.Lse
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b)) (c : Dev nD)
  (hfin : ∀ idx, ∃ a : ℝ, V c main_arg0 idx = (a : EReal))
  (hpb : V c main_v0_0 = fun i => Cert.Spec.posBound (V c main_arg0) (V c main_arg1) (i 0))
  (hnb : V c main_v0_1 = fun i => Cert.Spec.negBound (V c main_arg0) (V c main_arg1) (i 0))

include hpb hnb in
/-- The tile's entries are the specification's, when the two bound vectors are. -/
theorem tileEntry_holds : TileEntry V c := fun t j i ht il jl => tile_entry V c hpb hnb t j i ht il jl

include hfin hpb hnb

/-- The positive values. -/
theorem posVals_eq : (Cert.KernelIdeal.Lse.dat (F := Ideal) V c).arrAt 6 cfg1.N
    = fun i => Cert.Spec.posVals (V c main_arg0) (V c main_arg1) (i 0) :=
  posVals_of_tile V c (tileEntry_holds V c hpb hnb) hfin

/-- The positive counting bits, as floats. -/
theorem posNz_eq : (Cert.KernelIdeal.Lse.dat (F := Ideal) V c).arrAt 7 cfg1.N
    = fun i => Cert.Spec.bit01 (Cert.Spec.posNz (V c main_arg0) (V c main_arg1) (i 0)) :=
  posNz_of_tile V c (tileEntry_holds V c hpb hnb) hfin

/-- The negative values. -/
theorem negVals_eq : (Cert.KernelIdeal.Lse.dat (F := Ideal) V c).arrAt 8 cfg1.N
    = fun i => Cert.Spec.negVals (V c main_arg0) (V c main_arg1) (i 0) :=
  negVals_of_tile V c (tileEntry_holds V c hpb hnb) hfin

/-- The negative counting bits, as floats. -/
theorem negNz_eq : (Cert.KernelIdeal.Lse.dat (F := Ideal) V c).arrAt 9 cfg1.N
    = fun i => Cert.Spec.bit01 (Cert.Spec.negNz (V c main_arg0) (V c main_arg1) (i 0)) :=
  negNz_of_tile V c (tileEntry_holds V c hpb hnb) hfin

end Cert.KernelIdeal.LseValue

end
-- ==== Proof.Ref.Folds.lean ====
/- Two facts used when the reference's operations are read entry by entry.

   A reduction of a 4096 × 4096 matrix along one axis by a commutative and associative operation is, at each entry of
   the result, the fold of that operation over the 4096 coordinates of the dropped axis, started from the initial value:
   along axis 1 the entry for row `r` folds over the columns `c ↦ X (r, c)`, along axis 0 the entry for column `c`
   folds over the rows `r ↦ X (r, c)`.

   Two row numbers below 4096, written as thirty-two-bit words, are equal words exactly when they are equal numbers,
   so the program's comparison of the two index grids is the bit "these are different rows". -/
import Idealize.ShloMosaic.PureOps.Ideal.Laws
import Idealize.ShloMosaic.PureOps.Reduce
import Idealize.ShloMosaic.Lib.ValueIdx
import proofs.«123878_j24489903522258_2_alg».proof.Proof.Spec

noncomputable section

namespace Cert.ReferenceIdeal.RefValue

open Idealize.ShloMosaic Idealize.ShloMosaic.ValueIdx Cert.Spec

/-- The similarity matrix's shape. -/
abbrev S4096sq : Shape := ⟨2, ![4096, 4096]⟩

/-- Over row `r`, the entry with coordinate `c` inserted on axis 1 is `(r, c)`. -/
theorem lift_axis1 (h : Shape.Reduces S4096sq [1] S4096) (r c : Fin 4096) : h.lift (ix1 r) c = ix2 r c := by
  funext a; apply Fin.ext
  match a with
  | ⟨0, _⟩ => rfl
  | ⟨1, _⟩ => rfl

/-- Over column `c`, the entry with coordinate `r` inserted on axis 0 is `(r, c)`. -/
theorem lift_axis0 (h : Shape.Reduces S4096sq [0] S4096) (c r : Fin 4096) : h.lift (ix1 c) r = ix2 r c := by
  funext a; apply Fin.ext
  match a with
  | ⟨0, _⟩ => rfl
  | ⟨1, _⟩ => rfl

/-- A reduction along axis 1, at row `r`: the fold over the columns. -/
theorem reduce_axis1 (f : EReal → EReal → EReal) [Std.Commutative f] [Std.Associative f]
    (X : S4096sq.Idx → EReal) (init : S_.Idx → EReal) (h' : S4096sq.ReducesTo [1] S4096) (hu : 0 < S_.numel)
    (r : Fin 4096) :
    Host.reduce f X init h' hu (ix1 r)
      = (Finset.univ : Finset (Fin 4096)).fold f (init ix0) (fun c => X (ix2 r c)) := by
  have h : Shape.Reduces S4096sq [1] S4096 := by decide
  rw [Host.reduce_eq_fold_single f X init h' h hu, eq_ix0 (Shape.Idx.first hu)]
  exact congrArg (fun g => (Finset.univ : Finset (Fin 4096)).fold f (init ix0) g)
    (funext fun c => congrArg X (lift_axis1 h r c))

/-- A reduction along axis 0, at column `c`: the fold over the rows. -/
theorem reduce_axis0 (f : EReal → EReal → EReal) [Std.Commutative f] [Std.Associative f]
    (X : S4096sq.Idx → EReal) (init : S_.Idx → EReal) (h' : S4096sq.ReducesTo [0] S4096) (hu : 0 < S_.numel)
    (c : Fin 4096) :
    Host.reduce f X init h' hu (ix1 c)
      = (Finset.univ : Finset (Fin 4096)).fold f (init ix0) (fun r => X (ix2 r c)) := by
  have h : Shape.Reduces S4096sq [0] S4096 := by decide
  rw [Host.reduce_eq_fold_single f X init h' h hu, eq_ix0 (Shape.Idx.first hu)]
  exact congrArg (fun g => (Finset.univ : Finset (Fin 4096)).fold f (init ix0) g)
    (funext fun r => congrArg X (lift_axis0 h c r))

/-- The least entry of a row. -/
theorem reduce_min_axis1 (X : S4096sq.Idx → EReal) (init : S_.Idx → EReal) (h' : S4096sq.ReducesTo [1] S4096)
    (hu : 0 < S_.numel) (r : Fin 4096) :
    Host.reduce (FloatOps.minimumf (F := Ideal) (φ := .f32)) X init h' hu (ix1 r)
      = (Finset.univ : Finset (Fin 4096)).fold min (init ix0) (fun c => X (ix2 r c)) :=
  reduce_axis1 _ X init h' hu r

/-- The greatest entry of a row. -/
theorem reduce_max_axis1 (X : S4096sq.Idx → EReal) (init : S_.Idx → EReal) (h' : S4096sq.ReducesTo [1] S4096)
    (hu : 0 < S_.numel) (r : Fin 4096) :
    Host.reduce (FloatOps.maximumf (F := Ideal) (φ := .f32)) X init h' hu (ix1 r)
      = (Finset.univ : Finset (Fin 4096)).fold max (init ix0) (fun c => X (ix2 r c)) :=
  reduce_axis1 _ X init h' hu r

/-- The least entry of a column. -/
theorem reduce_min_axis0 (X : S4096sq.Idx → EReal) (init : S_.Idx → EReal) (h' : S4096sq.ReducesTo [0] S4096)
    (hu : 0 < S_.numel) (c : Fin 4096) :
    Host.reduce (FloatOps.minimumf (F := Ideal) (φ := .f32)) X init h' hu (ix1 c)
      = (Finset.univ : Finset (Fin 4096)).fold min (init ix0) (fun r => X (ix2 r c)) :=
  reduce_axis0 _ X init h' hu c

/-- The greatest entry of a column. -/
theorem reduce_max_axis0 (X : S4096sq.Idx → EReal) (init : S_.Idx → EReal) (h' : S4096sq.ReducesTo [0] S4096)
    (hu : 0 < S_.numel) (c : Fin 4096) :
    Host.reduce (FloatOps.maximumf (F := Ideal) (φ := .f32)) X init h' hu (ix1 c)
      = (Finset.univ : Finset (Fin 4096)).fold max (init ix0) (fun r => X (ix2 r c)) :=
  reduce_axis0 _ X init h' hu c

/-- Row numbers below 4096 are equal as thirty-two-bit words only when they are equal. -/
theorem ofNat32_injOn (r c : Fin 4096) (h : BitVec.ofNat 32 r.val = BitVec.ofNat 32 c.val) : r = c := by
  have e := congrArg BitVec.toNat h
  simp only [BitVec.toNat_ofNat] at e
  have hr := r.isLt
  have hc := c.isLt
  exact Fin.ext (by omega)

/-- The comparison of the row-index grid (plus the zero word) with the column-index grid, negated, is the bit "these
    are different rows". -/
theorem offDiag_eq (r c : Fin 4096) :
    ~~~(IntOp.cmpi .eq (IntOp.addi (BitVec.ofNat 32 r.val) 0#32) (BitVec.ofNat 32 c.val)) = offDiag r c := by
  unfold offDiag IntOp.cmpi IntOp.addi
  rw [BitVec.add_zero]
  by_cases hrc : r = c
  · subst hrc; simp
  · have hne : BitVec.ofNat 32 r.val ≠ BitVec.ofNat 32 c.val := fun h => hrc (ofNat32_injOn r c h)
    have hb : (BitVec.ofNat 32 r.val == BitVec.ofNat 32 c.val) = false := beq_eq_false_iff_ne.mpr hne
    rw [hb]
    simp [hrc]

end Cert.ReferenceIdeal.RefValue

end
-- ==== Proof.Ref.Sim.lean ====
/- The reference's similarity matrix, label comparison and the two per-row bounds, read entry by entry.

   The product of the embeddings with their transpose has at `(r, c)` the inner product of rows `r` and `c`. The two
   broadcasts of the labels compared for equality give at `(r, c)` the bit "same label"; the two index grids compared
   and negated give "different rows". Selecting the similarity under those bits against ±∞ and reducing along the
   columns gives, at row `r`, the fold of `min` (of `max`) over the columns of the selected entries. -/
import proofs.«123878_j24489903522258_2_alg».proof.Proof.Ref.ReadPatched
import proofs.«123878_j24489903522258_2_alg».proof.Proof.Ref.Folds

noncomputable section

namespace Cert.ReferenceIdeal.RefValue

open Idealize.ShloMosaic Idealize.ShloMosaic.ValueIdx Cert.ReferenceIdeal.Gen Cert.ReferenceIdeal.ReadP

variable (x : (⟨S4096x512, .f32⟩ : BufTy).Contents (Elt Ideal)) (ℓ : (⟨S4096, .i32⟩ : BufTy).Contents (Elt Ideal))

/-- The matrix product at `(r, c)`: the inner product of rows `r` and `c`. -/
theorem v1_at (r c : Fin 4096) : val_main_v1 (F := Ideal) x (ix2 r c) = Spec.sim x r c := by
  rw [val_main_v1_apply]
  unfold Spec.sim
  refine Finset.sum_congr rfl fun k _ => ?_
  rw [val_main_v0_apply]
  exact congrArg₂ (· * ·)
    (congrArg x (funext fun a => by match a with | ⟨0, _⟩ => rfl | ⟨1, _⟩ => rfl))
    (congrArg x (funext fun a => by match a with | ⟨0, _⟩ => rfl | ⟨1, _⟩ => rfl))

/-- The labels broadcast down the rows and along the columns, compared: "same label". -/
theorem v6_at (r c : Fin 4096) : val_main_v6 (F := Ideal) ℓ (ix2 r c) = Spec.same ℓ r c := by
  rw [val_main_v6_apply, val_main_v4_apply, val_main_v2_apply, val_main_v5_apply, val_main_v3_apply]
  unfold Spec.same
  exact congrArg₂ (IntOp.cmpi .eq)
    (congrArg ℓ (funext fun a => by match a with | ⟨0, _⟩ => rfl))
    (congrArg ℓ (funext fun a => by match a with | ⟨0, _⟩ => rfl))

/-- The row-index grid compared with the column-index grid, negated: "different rows". -/
theorem v13_at (r c : Fin 4096) : val_main_v13 (F := Ideal) (ix2 r c) = Spec.offDiag r c := by
  rw [val_main_v13_apply, val_main_v12_apply, val_main_v11_apply, val_main_v8_apply, val_main_v10_apply,
    val_main_c_apply, val_main_v9_apply]
  exact offDiag_eq r c

/-- The candidates for the positive bound. -/
theorem v15_at (r c : Fin 4096) : val_main_v15 (F := Ideal) x ℓ (ix2 r c) = Spec.posCand x ℓ r c := by
  rw [val_main_v15_apply, val_main_v14_apply, v6_at, v13_at, v1_at, val_main_call0_v1_apply,
    val_main_call0_v0_apply, val_main_cst_apply]
  rfl

/-- The candidates for the negative bound. -/
theorem v17_at (r c : Fin 4096) : val_main_v17 (F := Ideal) x ℓ (ix2 r c) = Spec.negCand x ℓ r c := by
  rw [val_main_v17_apply, val_main_v7_apply, v6_at, v1_at, val_main_call1_v1_apply,
    val_main_call1_v0_apply, val_main_cst_1_apply]
  rfl

/-- The positive bound of row `r`: the least candidate of the row. -/
theorem v16_at (r : Fin 4096) : val_main_v16 (F := Ideal) x ℓ (ix1 r) = Spec.posBound x ℓ r := by
  unfold val_main_v16
  rw [reduce_min_axis1]
  simp only [v15_at]
  rfl

/-- The negative bound of row `r`: the greatest candidate of the row. -/
theorem v18_at (r : Fin 4096) : val_main_v18 (F := Ideal) x ℓ (ix1 r) = Spec.negBound x ℓ r := by
  unfold val_main_v18
  rw [reduce_max_axis1]
  simp only [v17_at]
  rfl

end Cert.ReferenceIdeal.RefValue

end
-- ==== Proof.Ref.Masks.lean ====
/- The two masks and the two weights of the reference, read entry by entry.

   Each bound, a vector over the rows, is broadcast ALONG THE COLUMNS: the matrix it is compared with holds at `(r, c)`
   the bound of `c`. The masks are the label bit (or its negation) and the comparison of the similarity, shifted by the
   margin, with that bound; the weights are a constant times the similarity less a constant. -/
import proofs.«123878_j24489903522258_2_alg».proof.Proof.Ref.Sim

noncomputable section

namespace Cert.ReferenceIdeal.RefValue

open Idealize.ShloMosaic Idealize.ShloMosaic.ValueIdx Cert.ReferenceIdeal.Gen Cert.ReferenceIdeal.ReadP

variable (x : (⟨S4096x512, .f32⟩ : BufTy).Contents (Elt Ideal)) (ℓ : (⟨S4096, .i32⟩ : BufTy).Contents (Elt Ideal))

/-- The positive bound broadcast along the columns. -/
theorem v22_at (r c : Fin 4096) : val_main_v22 (F := Ideal) x ℓ (ix2 r c) = Spec.posBound x ℓ c := by
  rw [val_main_v22_apply, val_main_v21_apply, ← v16_at]
  exact congrArg (val_main_v16 (F := Ideal) x ℓ) (funext fun a => by match a with | ⟨0, _⟩ => rfl)

/-- The negative bound broadcast along the columns. -/
theorem v28_at (r c : Fin 4096) : val_main_v28 (F := Ideal) x ℓ (ix2 r c) = Spec.negBound x ℓ c := by
  rw [val_main_v28_apply, val_main_v27_apply, ← v18_at]
  exact congrArg (val_main_v18 (F := Ideal) x ℓ) (funext fun a => by match a with | ⟨0, _⟩ => rfl)

/-- The negative mask. -/
theorem v24_at (r c : Fin 4096) : val_main_v24 (F := Ideal) x ℓ (ix2 r c) = Spec.negMask x ℓ r c := by
  rw [val_main_v24_apply, val_main_v7_apply, v6_at, val_main_v23_apply, val_main_v20_apply, v1_at,
    val_main_v19_apply, val_main_cst_3_apply, v22_at]
  rfl

/-- The positive mask. -/
theorem v30_at (r c : Fin 4096) : val_main_v30 (F := Ideal) x ℓ (ix2 r c) = Spec.posMask x ℓ r c := by
  rw [val_main_v30_apply, v6_at, val_main_v29_apply, val_main_v26_apply, v1_at,
    val_main_v25_apply, val_main_cst_4_apply, v28_at]
  rfl

/-- The positive weight. -/
theorem v34_at (r c : Fin 4096) : val_main_v34 (F := Ideal) x (ix2 r c) = Spec.wPos x r c := by
  rw [val_main_v34_apply, val_main_v33_apply, val_main_cst_6_apply, val_main_v32_apply, v1_at,
    val_main_v31_apply, val_main_cst_5_apply]
  rfl

/-- The negative weight. -/
theorem v38_at (r c : Fin 4096) : val_main_v38 (F := Ideal) x (ix2 r c) = Spec.wNeg x r c := by
  rw [val_main_v38_apply, val_main_v37_apply, val_main_cst_8_apply, val_main_v36_apply, v1_at,
    val_main_v35_apply, val_main_cst_7_apply]
  rfl

end Cert.ReferenceIdeal.RefValue

end
-- ==== Proof.Ref.Pos.lean ====
/- The positive side's masked log-sum-exp of the reference, read column by column.

   The masked weight is the weight times the mask's bit read as 0 or 1. Reduced along the rows it gives, at column `c`,
   the fold of `min` and the fold of `max` over the rows; the column counts when the two do not add up to zero. The
   reference point, a vector over the columns, is broadcast along the columns before it is subtracted from the
   weights; the exponentials times the bits are summed over the rows (the sum starts from the zero word, which is the
   number zero); the logarithm of the sum (of the constant one when the column does not count) plus the reference point
   is the column's value. -/
import proofs.«123878_j24489903522258_2_alg».proof.Proof.Ref.Masks

noncomputable section

namespace Cert.ReferenceIdeal.RefValue

open Idealize.ShloMosaic Idealize.ShloMosaic.ValueIdx Cert.ReferenceIdeal.Gen Cert.ReferenceIdeal.ReadP

variable (x : (⟨S4096x512, .f32⟩ : BufTy).Contents (Elt Ideal)) (ℓ : (⟨S4096, .i32⟩ : BufTy).Contents (Elt Ideal))

/-- The masked weight. -/
theorem v40_at (r c : Fin 4096) : val_main_v40 (F := Ideal) x ℓ (ix2 r c) = Spec.posM x ℓ r c := by
  rw [val_main_v40_apply, v34_at, val_main_v39_apply, v30_at]
  rfl

/-- The column's least masked weight, the reference point. -/
theorem v41_at (c : Fin 4096) : val_main_v41 (F := Ideal) x ℓ (ix1 c) = Spec.posRef x ℓ c := by
  unfold val_main_v41
  rw [reduce_min_axis0]
  simp only [v40_at]
  rfl

/-- The column's greatest masked weight, as the count test reads it. -/
theorem v42_at (c : Fin 4096) : val_main_v42 (F := Ideal) x ℓ (ix1 c) = Spec.posMax x ℓ c := by
  unfold val_main_v42
  rw [reduce_max_axis0]
  simp only [v40_at]
  rfl

/-- The column's least masked weight, as the count test reads it. -/
theorem v43_at (c : Fin 4096) : val_main_v43 (F := Ideal) x ℓ (ix1 c) = Spec.posRef x ℓ c := by
  unfold val_main_v43
  rw [reduce_min_axis0]
  simp only [v40_at]
  rfl

/-- The bit "the column counts". -/
theorem v46_at (c : Fin 4096) : val_main_v46 (F := Ideal) x ℓ (ix1 c) = Spec.posNz x ℓ c := by
  rw [val_main_v46_apply, val_main_v44_apply, v42_at, v43_at, val_main_v45_apply,
    val_main_cst_12_apply]
  show Ideal.cmp .une (Spec.posMax x ℓ c + Spec.posRef x ℓ c) (Ideal.ofBits .f32 0x00000000#32) = _
  rw [Ideal.ofBits_zero_f32]
  rfl

/-- The reference point broadcast along the columns. -/
theorem v48_at (r c : Fin 4096) : val_main_v48 (F := Ideal) x ℓ (ix2 r c) = Spec.posRef x ℓ c := by
  rw [val_main_v48_apply, val_main_v47_apply, ← v41_at]
  exact congrArg (val_main_v41 (F := Ideal) x ℓ) (funext fun a => by match a with | ⟨0, _⟩ => rfl)

/-- One term of the column's sum. -/
theorem v52_at (r c : Fin 4096) :
    val_main_v52 (F := Ideal) x ℓ (ix2 r c)
      = Ideal.exp (Spec.wPos x r c - Spec.posRef x ℓ c) * Spec.bit01 (Spec.posMask x ℓ r c) := by
  rw [val_main_v52_apply, val_main_v50_apply, val_main_v49_apply, v34_at, v48_at,
    val_main_v51_apply, v30_at]
  rfl

/-- The column's sum. -/
theorem v53_at (c : Fin 4096) : val_main_v53 (F := Ideal) x ℓ (ix1 c) = Spec.posSum x ℓ c := by
  rw [val_main_v53_apply, val_main_cst_13_apply]
  show Ideal.ofBits .f32 0x00000000#32 + _ = _
  rw [Ideal.ofBits_zero_f32, zero_add]
  unfold Spec.posSum
  refine Finset.sum_congr rfl fun k _ => ?_
  rw [← v52_at]
  exact congrArg (val_main_v52 (F := Ideal) x ℓ)
    (funext fun a => by match a with | ⟨0, _⟩ => rfl | ⟨1, _⟩ => rfl)

/-- The column's value. -/
theorem v56_at (c : Fin 4096) : val_main_v56 (F := Ideal) x ℓ (ix1 c) = Spec.posVals x ℓ c := by
  rw [val_main_v56_apply, val_main_v55_apply, val_main_v54_apply, v46_at, v53_at,
    val_main_call2_v1_apply, val_main_call2_v0_apply, val_main_cst_14_apply, v41_at]
  rfl

/-- The values as a vector over the columns. -/
theorem v56_eq : val_main_v56 (F := Ideal) x ℓ = fun i => Spec.posVals x ℓ (i 0) := by
  funext i
  obtain ⟨c, rfl⟩ : ∃ c : Fin 4096, i = ix1 c := ⟨i 0, eq_ix1 i⟩
  exact v56_at x ℓ c

/-- The bits "the column counts" as a vector over the columns. -/
theorem v46_eq : val_main_v46 (F := Ideal) x ℓ = fun i => Spec.posNz x ℓ (i 0) := by
  funext i
  obtain ⟨c, rfl⟩ : ∃ c : Fin 4096, i = ix1 c := ⟨i 0, eq_ix1 i⟩
  exact v46_at x ℓ c

end Cert.ReferenceIdeal.RefValue

end
-- ==== Proof.Ref.Neg.lean ====
/- The negative side's masked log-sum-exp of the reference, read column by column.

   The masked weight is the weight times the mask's bit read as 0 or 1. Reduced along the rows it gives, at column `c`,
   the fold of `min` and the fold of `max` over the rows; the column counts when the two do not add up to zero. The
   reference point, a vector over the columns, is broadcast along the columns before it is subtracted from the
   weights; the exponentials times the bits are summed over the rows (the sum starts from the zero word, which is the
   number zero); the logarithm of the sum (of the constant one when the column does not count) plus the reference point
   is the column's value. -/
import proofs.«123878_j24489903522258_2_alg».proof.Proof.Ref.Masks

noncomputable section

namespace Cert.ReferenceIdeal.RefValue

open Idealize.ShloMosaic Idealize.ShloMosaic.ValueIdx Cert.ReferenceIdeal.Gen Cert.ReferenceIdeal.ReadP

variable (x : (⟨S4096x512, .f32⟩ : BufTy).Contents (Elt Ideal)) (ℓ : (⟨S4096, .i32⟩ : BufTy).Contents (Elt Ideal))

/-- The masked weight. -/
theorem v58_at (r c : Fin 4096) : val_main_v58 (F := Ideal) x ℓ (ix2 r c) = Spec.negM x ℓ r c := by
  rw [val_main_v58_apply, v38_at, val_main_v57_apply, v24_at]
  rfl

/-- The column's greatest masked weight, the reference point. -/
theorem v59_at (c : Fin 4096) : val_main_v59 (F := Ideal) x ℓ (ix1 c) = Spec.negRef x ℓ c := by
  unfold val_main_v59
  rw [reduce_max_axis0]
  simp only [v58_at]
  rfl

/-- The column's greatest masked weight, as the count test reads it. -/
theorem v60_at (c : Fin 4096) : val_main_v60 (F := Ideal) x ℓ (ix1 c) = Spec.negRef x ℓ c := by
  unfold val_main_v60
  rw [reduce_max_axis0]
  simp only [v58_at]
  rfl

/-- The column's least masked weight, as the count test reads it. -/
theorem v61_at (c : Fin 4096) : val_main_v61 (F := Ideal) x ℓ (ix1 c) = Spec.negMin x ℓ c := by
  unfold val_main_v61
  rw [reduce_min_axis0]
  simp only [v58_at]
  rfl

/-- The bit "the column counts". -/
theorem v64_at (c : Fin 4096) : val_main_v64 (F := Ideal) x ℓ (ix1 c) = Spec.negNz x ℓ c := by
  rw [val_main_v64_apply, val_main_v62_apply, v60_at, v61_at, val_main_v63_apply,
    val_main_cst_18_apply]
  show Ideal.cmp .une (Spec.negRef x ℓ c + Spec.negMin x ℓ c) (Ideal.ofBits .f32 0x00000000#32) = _
  rw [Ideal.ofBits_zero_f32]
  rfl

/-- The reference point broadcast along the columns. -/
theorem v66_at (r c : Fin 4096) : val_main_v66 (F := Ideal) x ℓ (ix2 r c) = Spec.negRef x ℓ c := by
  rw [val_main_v66_apply, val_main_v65_apply, ← v59_at]
  exact congrArg (val_main_v59 (F := Ideal) x ℓ) (funext fun a => by match a with | ⟨0, _⟩ => rfl)

/-- One term of the column's sum. -/
theorem v70_at (r c : Fin 4096) :
    val_main_v70 (F := Ideal) x ℓ (ix2 r c)
      = Ideal.exp (Spec.wNeg x r c - Spec.negRef x ℓ c) * Spec.bit01 (Spec.negMask x ℓ r c) := by
  rw [val_main_v70_apply, val_main_v68_apply, val_main_v67_apply, v38_at, v66_at,
    val_main_v69_apply, v24_at]
  rfl

/-- The column's sum. -/
theorem v71_at (c : Fin 4096) : val_main_v71 (F := Ideal) x ℓ (ix1 c) = Spec.negSum x ℓ c := by
  rw [val_main_v71_apply, val_main_cst_19_apply]
  show Ideal.ofBits .f32 0x00000000#32 + _ = _
  rw [Ideal.ofBits_zero_f32, zero_add]
  unfold Spec.negSum
  refine Finset.sum_congr rfl fun k _ => ?_
  rw [← v70_at]
  exact congrArg (val_main_v70 (F := Ideal) x ℓ)
    (funext fun a => by match a with | ⟨0, _⟩ => rfl | ⟨1, _⟩ => rfl)

/-- The column's value. -/
theorem v74_at (c : Fin 4096) : val_main_v74 (F := Ideal) x ℓ (ix1 c) = Spec.negVals x ℓ c := by
  rw [val_main_v74_apply, val_main_v73_apply, val_main_v72_apply, v64_at, v71_at,
    val_main_call3_v1_apply, val_main_call3_v0_apply, val_main_cst_20_apply, v59_at]
  rfl

/-- The values as a vector over the columns. -/
theorem v74_eq : val_main_v74 (F := Ideal) x ℓ = fun i => Spec.negVals x ℓ (i 0) := by
  funext i
  obtain ⟨c, rfl⟩ : ∃ c : Fin 4096, i = ix1 c := ⟨i 0, eq_ix1 i⟩
  exact v74_at x ℓ c

/-- The bits "the column counts" as a vector over the columns. -/
theorem v64_eq : val_main_v64 (F := Ideal) x ℓ = fun i => Spec.negNz x ℓ (i 0) := by
  funext i
  obtain ⟨c, rfl⟩ : ∃ c : Fin 4096, i = ix1 c := ⟨i 0, eq_ix1 i⟩
  exact v64_at x ℓ c

end Cert.ReferenceIdeal.RefValue

end
-- ==== Proof.Ref.Tail.lean ====
/- The last stretch of the reference: from each side's column values and counting bits to that side's mean.

   These operations are, one for one, the definition of `Spec.tail`; nothing is computed here. -/
import proofs.«123878_j24489903522258_2_alg».proof.Proof.Ref.ReadPatched
import proofs.«123878_j24489903522258_2_alg».proof.Proof.Spec

noncomputable section

namespace Cert.ReferenceIdeal.RefValue

open Idealize.ShloMosaic Idealize.ShloMosaic.ValueIdx Cert.ReferenceIdeal.Gen Cert.ReferenceIdeal.ReadP

variable (x : (⟨S4096x512, .f32⟩ : BufTy).Contents (Elt Ideal)) (ℓ : (⟨S4096, .i32⟩ : BufTy).Contents (Elt Ideal))

/-- The number of counting columns, positive side. -/
theorem v77_eq : val_main_v77 (F := Ideal) x ℓ = Spec.count (val_main_v46 (F := Ideal) x ℓ) := rfl

/-- `softplus` of the column values, positive side. -/
theorem v78_eq : val_main_v78 (F := Ideal) x ℓ = Spec.softplusV (val_main_v56 (F := Ideal) x ℓ) := rfl

/-- `softplus` of zero, positive side. -/
theorem v86_eq : val_main_v86 (F := Ideal) = Spec.softplus0 := rfl

/-- The positive side's mean. -/
theorem v88_eq :
    val_main_v88 (F := Ideal) x ℓ
      = Spec.tail (val_main_v56 (F := Ideal) x ℓ) (val_main_v46 (F := Ideal) x ℓ) 0x40000000#32 := by
  unfold val_main_v88 val_main_v85 val_main_v84 val_main_v83 val_main_v82 val_main_v81
    val_main_v80 val_main_v79 val_main_call7_v0 val_main_v87
  rw [v77_eq, v78_eq, v86_eq]
  rfl

/-- The number of counting columns, negative side. -/
theorem v91_eq : val_main_v91 (F := Ideal) x ℓ = Spec.count (val_main_v64 (F := Ideal) x ℓ) := rfl

/-- `softplus` of the column values, negative side. -/
theorem v92_eq : val_main_v92 (F := Ideal) x ℓ = Spec.softplusV (val_main_v74 (F := Ideal) x ℓ) := rfl

/-- `softplus` of zero, negative side. -/
theorem v100_eq : val_main_v100 (F := Ideal) = Spec.softplus0 := rfl

/-- The negative side's mean. -/
theorem v102_eq :
    val_main_v102 (F := Ideal) x ℓ
      = Spec.tail (val_main_v74 (F := Ideal) x ℓ) (val_main_v64 (F := Ideal) x ℓ) 0x42200000#32 := by
  unfold val_main_v102 val_main_v99 val_main_v98 val_main_v97 val_main_v96 val_main_v95
    val_main_v94 val_main_v93 val_main_call11_v0 val_main_v101
  rw [v91_eq, v92_eq, v100_eq]
  rfl

end Cert.ReferenceIdeal.RefValue

end
-- ==== Proof.Ref.Value.lean ====
/- The reference computes the specified loss.

   Read stage by stage (the similarity matrix and the bounds; the masks and weights; the two masked log-sum-exps; the
   last stretch), the reference's result is `Spec.loss` of its two arguments, at its one index. With the reference's run
   this gives the run in the form the comparison with the kernel program uses: the result holds the loss of the
   initial arguments, and the arguments are unchanged. -/
import proofs.«123878_j24489903522258_2_alg».proof.Proof.Ref.Frame
import proofs.«123878_j24489903522258_2_alg».proof.Proof.Ref.Pos
import proofs.«123878_j24489903522258_2_alg».proof.Proof.Ref.Neg
import proofs.«123878_j24489903522258_2_alg».proof.Proof.Ref.Tail

noncomputable section

namespace Cert.ReferenceIdeal.RefValue

open Idealize.ShloMosaic Idealize.ShloMosaic.ValueIdx Idealize.ShloMosaic.TcCoe Idealize.SL.Sem Cert.ReferenceIdeal.ReadP

/-- The term the reference's run states for the result is the last stage at the two arguments. -/
theorem val_main_v103_eq (m : (ℓ : Loc nD τ sig) → Buf (Elt Ideal) ℓ) (c : Dev nD) :
    Cert.ReferenceIdeal.ValueP.res_main_v103 m c
      = val_main_v103 (F := Ideal) (m ((c.tc : Thread nD τ).loc main_arg0)) (m ((c.tc : Thread nD τ).loc main_arg1)) := by
  unfold Cert.ReferenceIdeal.ValueP.res_main_v103; rfl

/-- The reference's last stage, as a function of the two arguments, is the loss. -/
theorem ref_eq_spec (x0 : (⟨S4096x512, .f32⟩ : BufTy).Contents (Elt Ideal))
    (x1 : (⟨S4096, .i32⟩ : BufTy).Contents (Elt Ideal)) :
    val_main_v103 (F := Ideal) x0 x1 = fun _ => Cert.Spec.loss x0 x1 := by
  funext j
  obtain rfl : j = ix0 := eq_ix0 j
  rw [val_main_v103_apply, v88_eq, v102_eq, v56_eq, v46_eq, v74_eq, v64_eq]
  rfl

/-- Every weakly fair execution of the reference ends with the loss of its arguments in its result, the arguments
    unchanged. -/
theorem run_spec (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v103)
            = (fun _ => Cert.Spec.loss
                (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1)))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run Cert.ReferenceIdeal.defs _ _).mono
    (fun _ h c => ⟨(h c).1.trans ((val_main_v103_eq m c).trans (ref_eq_spec _ _)), (h c).2⟩)
    (Cert.ReferenceIdeal.ValueP.run (F := Ideal) m ρ)

end Cert.ReferenceIdeal.RefValue

end
-- ==== Proof.Algebraic.lean ====
/- The two idealized programs end with equal results.

   From memories agreeing on the two arguments, with every embedding entry finite: the kernel program's result is
   the loss of the launch arguments as the specification writes it — its first region leaves every row's hardest
   positive and hardest negative, its second region from those and from real entries leaves the two masked
   log-sum-exp vectors and their non-zero flags, and its host tail of those is the loss — and the reference's
   operations compose to the same function of the same arguments. -/
import proofs.«123878_j24489903522258_2_alg».proof.Defs
import proofs.«123878_j24489903522258_2_alg».proof.Proof.Gen.KernelIdeal
import proofs.«123878_j24489903522258_2_alg».proof.Proof.Gen.ReferenceIdeal
import proofs.«123878_j24489903522258_2_alg».proof.Proof.Gen.Pre_finite_inputs
import proofs.«123878_j24489903522258_2_alg».proof.Proof.Finite
import proofs.«123878_j24489903522258_2_alg».proof.Proof.Frame.Run
import proofs.«123878_j24489903522258_2_alg».proof.Proof.Frame.Value
import proofs.«123878_j24489903522258_2_alg».proof.Proof.Frame.Tail
import proofs.«123878_j24489903522258_2_alg».proof.Proof.Bounds.Value
import proofs.«123878_j24489903522258_2_alg».proof.Proof.Lse.Value
import proofs.«123878_j24489903522258_2_alg».proof.Proof.Ref.Value

noncomputable section

namespace Cert.Proof

open Idealize.ShloMosaic Idealize.ShloMosaic.TcCoe Idealize.SL.Sem

/-- The kernel program's result scalar, on every core, is the loss of the launch arguments. -/
theorem kernel_loss (m : (ℓ : Loc Cert.KernelIdeal.nD Cert.KernelIdeal.τ Cert.KernelIdeal.sig) → Buf (Elt Ideal) ℓ) (c : Dev Cert.KernelIdeal.nD)
    (hfin : ∀ idx, ∃ a : ℝ, m ((c.tc : Thread Cert.KernelIdeal.nD Cert.KernelIdeal.τ).loc Cert.KernelIdeal.main_arg0) idx = (a : EReal)) :
    Cert.KernelIdeal.Gen.V19 m (Cert.KernelIdeal.Hand.outs m) c Cert.KernelIdeal.main_v34
      = fun _ => Cert.Spec.loss (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) :=
  Cert.KernelIdeal.Hand.kernel_value m c hfin
    (fun V c => Cert.KernelIdeal.BoundsValue.posBound_eq V c)
    (fun V c => Cert.KernelIdeal.BoundsValue.negBound_eq V c)
    (fun V c hf hpb hnb => ⟨Cert.KernelIdeal.LseValue.posVals_eq V c hf hpb hnb, Cert.KernelIdeal.LseValue.posNz_eq V c hf hpb hnb,
      Cert.KernelIdeal.LseValue.negVals_eq V c hf hpb hnb, Cert.KernelIdeal.LseValue.negNz_eq V c hf hpb hnb⟩)
    (fun outs x ℓ h0 h1 h2 h3 => Cert.KernelIdeal.Hand.tail_loss m outs c x ℓ h0 h1 h2 h3)

/-- Both idealized programs run, and end with the same result: the loss of the common arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c _ => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run (Cert.KernelIdeal.defs (F := Ideal)) _ _).mono
      (fun r h c => ⟨(h c).1.trans (kernel_loss m c (@real_of_pre Cert.Pre_finite_inputs.Gen.facts _ _ (hpre c))), (h c).2⟩)
      (Cert.KernelIdeal.Hand.run_main (F := Ideal) m ρ)
  · refine (θ_run (Cert.ReferenceIdeal.defs (F := Ideal)) _ _).mono (fun r h c => ⟨(h c).1.trans ?_, (h c).2⟩)
      (Cert.ReferenceIdeal.RefValue.run_spec m' ρ')
    rw [(hagree c).1, (hagree c).2]
    rfl

end Cert.Proof

end
-- ==== Proof.lean ====
/- The proof of `Cert.Claim`: a two-kernel Pallas program for a pairwise-similarity loss against its jnp reference.

   The program forms, tile by tile, the similarity matrix sim r c = ∑ k, x r k * x c k of 4096 embeddings. Its first
   kernel keeps, per row, the hardest positive (the least similarity to another row of the same label) and the hardest
   negative (the greatest similarity to a row of another label) as running minima / maxima over the column blocks. Its
   second kernel, per column, forms two masked log-sum-exps over the rows — of the weights -2 (sim - 1/2) where the
   row has the column's label and its similarity less a margin is below the column's hardest negative, and of
   40 (sim - 1/2) where the label differs and the similarity plus the margin exceeds the column's hardest positive —
   ONLINE: a running reference (minimum / maximum of the masked weights), a running sum of exponentials rescaled by
   exp (old reference - new reference) whenever the reference moves, and a running check value, over the eight row
   blocks. A host tail averages the softplus of the two results over the columns that have a masked entry. The
   reference computes the same quantities from the whole matrix at once, the reference first and the sum after.

   Frames. Neither program's frame is generated (two kernel regions, each reading both arguments through two windows).
   Both kernels' regions are proved once for any float instance — the proof data that carry each kernel's scratch from
   point to point, the body's run per control case, the arguments' buffers dealt to the two windows that read them as
   half shares and joined again — and put under the generated host side of @main; the word-level program and its
   idealization take them at their own instances. The reference's frame is its run with the result forgotten.

   Preserves. The ideal pass rewrote nothing: the idealization is the program's own text at the ideal instance.

   Algebraic. On the extended reals, from finite embeddings: the first kernel's tile is the transpose of the
   reference's (the factors of each product commuted), and a minimum / maximum folded block by block from ±inf is the
   fold over all columns; the second kernel's masked weight select b w 0 is w times the 0/1 mask, its running
   reference over eight blocks of 512 real entries is the real minimum / maximum over all 4096, and its rescaled
   running sum is the sum of exp (w - final reference) over the masked rows, by exp (a - b) exp (b - c) = exp (a - c)
   and distributivity on the reals; the non-zero flag stored as a float 0/1 and compared with zero is the flag; the
   two host tails are the same operations. -/
import proofs.«123878_j24489903522258_2_alg».proof.Defs
import proofs.«123878_j24489903522258_2_alg».proof.Proof.Gen.Kernel
import proofs.«123878_j24489903522258_2_alg».proof.Proof.Gen.KernelIdeal
import proofs.«123878_j24489903522258_2_alg».proof.Proof.Gen.ReferenceIdeal
import proofs.«123878_j24489903522258_2_alg».proof.Proof.Gen.Pre_finite_inputs
import proofs.«123878_j24489903522258_2_alg».proof.Proof.Frame.Run
import proofs.«123878_j24489903522258_2_alg».proof.Proof.Word.Frame.Run
import proofs.«123878_j24489903522258_2_alg».proof.Proof.Ref.Frame
import proofs.«123878_j24489903522258_2_alg».proof.Proof.Algebraic
import Idealize.ShloMosaic.Adequacy
import Idealize.ShloMosaic.Init

noncomputable section

namespace Cert.Proof

open Idealize.ShloMosaic Idealize.SL.Sem

/-- The word-level program runs, faults nowhere and leaves its arguments unchanged. -/
theorem frame_kernel : Cert.frame_Kernel (hKernel := Cert.Kernel.Gen.facts) (hPre_finite_inputs := Cert.Pre_finite_inputs.Gen.facts) :=
  fun m ρ _ => Cert.Kernel.Hand.frame (F := Bits) m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem claim : Cert.Claim := ⟨Cert.Kernel.Gen.facts, Cert.KernelIdeal.Gen.facts, Cert.ReferenceIdeal.Gen.facts, Cert.Pre_finite_inputs.Gen.facts,
  frame_kernel, frame_kernelIdeal, Cert.ReferenceIdeal.RefValue.frame_ri, trivial, Cert.Proof.algebraic⟩

end Cert.Proof

end
